-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x640000 : Shape := ⟨2, ![2, 640000]⟩
abbrev S100000x128 : Shape := ⟨2, ![100000, 128]⟩
abbrev S128x128 : Shape := ⟨2, ![128, 128]⟩
abbrev S128 : Shape := ⟨1, ![128]⟩
abbrev S16x45 : Shape := ⟨2, ![16, 45]⟩
abbrev S16x10x128 : Shape := ⟨3, ![16, 10, 128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x45 : S_.BroadcastsInDim S16x45 (![] : Fin 0 → Fin S16x45.rank)
  reducesTo_S16x45_S_d0_1 : S16x45.ReducesTo [0, 1] S_
  bcast_S_S16x10x128 : S_.BroadcastsInDim S16x10x128 (![] : Fin 0 → Fin S16x10x128.rank)
  reducesTo_S16x10x128_S_d0_1_2 : S16x10x128.ReducesTo [0, 1, 2] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg7 : FVec F S16x10x128 .f32) (main_arg8 : FVec F S64x128 .f32) (main_arg9 : FVec F S128 .f32) (main_v13 : IVec S_ 1) (main_v16 : IVec S16x45 1) : IVec S_ 1 :=
  let main_c_5 : IVec S_ 1 := constantI S_ 1 1#1
  let main_v17 : IVec S_ 1 := (fun x v => Host.reduce IntOp.andi x v reducesTo_S16x45_S_d0_1 h_S_) main_v16 main_c_5
  let main_v18 : IVec S_ 1 := andi main_v13 main_v17
  let main_v19 : FVec F S16x10x128 .f32 := Host.absf main_arg7
  let main_cst_6 : FVec F S_ .f32 := constant S_ .f32 0x7F800000#32
  let main_v20 : FVec F S16x10x128 .f32 := broadcastInDim S16x10x128 ![] bcast_S_S16x10x128 main_cst_6
  let main_v21 : IVec S16x10x128 1 := cmpf .olt main_v19 main_v20
  let main_c_7 : IVec S_ 1 := constantI S_ 1 1#1
  let main_v22 : IVec S_ 1 := (fun x v => Host.reduce IntOp.andi x v reducesTo_S16x10x128_S_d0_1_2 h_S_) main_v21 main_c_7
  let main_v23 : IVec S_ 1 := andi main_v18 main_v22
  let main_v24 : FVec F S64x128 .f32 := Host.absf main_arg8
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S100000 32) (main_arg1 : IVec S2x640000 32) (main_arg2 : IVec S100000 32) (main_arg3 : FVec F S100000x128 .f32) (main_arg4 : FVec F S128x128 .f32) (main_arg5 : FVec F S128 .f32) (main_arg6 : FVec F S16x45 .f32) (main_arg7 : FVec F S16x10x128 .f32) (main_arg8 : FVec F S64x128 .f32) (main_arg9 : FVec F S128 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x45 .f32 := Host.absf main_arg6
  let main_cst_4 : FVec F S_ .f32 := constant S_ .f32 0x7F800000#32
  let main_v15 : FVec F S16x45 .f32 := broadcastInDim S16x45 ![] bcast_S_S16x45 main_cst_4
  let main_v16 : IVec S16x45 1 := cmpf .olt main_v14 main_v15
  fn_part1 (F := F) main_arg7 main_arg8 main_arg9 main_v13 main_v16
-- ==== Kernel.lean ====
abbrev S100000 : Shape := ⟨1, ![100000]⟩
abbrev S2x640000 : Shape := ⟨2, ![2, 640000]⟩
abbrev S100000x128 : Shape := ⟨2, ![100000, 128]⟩
abbrev S128x128 : Shape := ⟨2, ![128, 128]⟩
abbrev S128 : Shape := ⟨1, ![128]⟩
abbrev S16x45 : Shape := ⟨2, ![16, 45]⟩
abbrev S16x10x128 : Shape := ⟨3, ![16, 10, 128]⟩
abbrev S64x128 : Shape := ⟨2, ![64, 128]⟩
abbrev S45 : Shape := ⟨1, ![45]⟩
abbrev S16x160 : Shape := ⟨2, ![16, 160]⟩
abbrev S_ : Shape := ⟨0, ![]⟩
abbrev S16x10x10 : Shape := ⟨3, ![16, 10, 10]⟩
abbrev S45x1 : Shape := ⟨2, ![45, 1]⟩
abbrev S45x2 : Shape := ⟨2, ![45, 2]⟩
abbrev S100000x1 : Shape := ⟨2, ![100000, 1]⟩
abbrev S102400x128 : Shape := ⟨2, ![102400, 128]⟩
abbrev S1x128 : Shape := ⟨2, ![1, 128]⟩
abbrev S4096x128 : Shape := ⟨2, ![4096, 128]⟩
abbrev S160x128 : Shape := ⟨2, ![160, 128]⟩
abbrev S160x102400 : Shape := ⟨2, ![160, 102400]⟩
abbrev S160x4096 : Shape := ⟨2, ![160, 4096]⟩
abbrev S1x640000 : Shape := ⟨2, ![1, 640000]⟩
abbrev S640000 : Shape := ⟨1, ![640000]⟩
abbrev S16x102400 : Shape := ⟨2, ![16, 102400]⟩
abbrev S16x4096 : Shape := ⟨2, ![16, 4096]⟩
abbrev S16x100000 : Shape := ⟨2, ![16, 100000]⟩
abbrev S100000x16 : Shape := ⟨2, ![100000, 16]⟩
abbrev S2048x16 : Shape := ⟨2, ![2048, 16]⟩
abbrev S640000x1 : Shape := ⟨2, ![640000, 1]⟩
abbrev S640000x128 : Shape := ⟨2, ![640000, 128]⟩
abbrev S2048x64 : Shape := ⟨2, ![2048, 64]⟩
abbrev S2048x128 : Shape := ⟨2, ![2048, 128]⟩

abbrev nBuf : Space → Nat
  | .hbm => 144
  | .vmem => 47
  | .smem => 0
  | _ => 0

abbrev hbmTy0_0 (i : Nat) : BufTy := match i % 128 with
  | 0 => ⟨S100000, .i32⟩
  | 1 => ⟨S2x640000, .i32⟩
  | 2 => ⟨S100000, .i32⟩
  | 3 => ⟨S100000x128, .f32⟩
  | 4 => ⟨S128x128, .f32⟩
  | 5 => ⟨S128, .f32⟩
  | 6 => ⟨S16x45, .f32⟩
  | 7 => ⟨S16x10x128, .f32⟩
  | 8 => ⟨S64x128, .f32⟩
  | 9 => ⟨S128, .f32⟩
  | 10 => ⟨S45, .i32⟩
  | 11 => ⟨S45, .i1⟩
  | 12 => ⟨S45, .i32⟩
  | 13 => ⟨S45, .i1⟩
  | 14 => ⟨S16x160, .f32⟩
  | 15 => ⟨S_, .f32⟩
  | 16 => ⟨S16x10x10, .f32⟩
  | 17 => ⟨S_, .f32⟩
  | 18 => ⟨S16x45, .f32⟩
  | 19 => ⟨S16x45, .i1⟩
  | 20 => ⟨S_, .f32⟩
  | 21 => ⟨S16x45, .f32⟩
  | 22 => ⟨S16x45, .f32⟩
  | 23 => ⟨S16x45, .f32⟩
  | 24 => ⟨S_, .i32⟩
  | 25 => ⟨S45, .i32⟩
  | 26 => ⟨S45, .i32⟩
  | 27 => ⟨S45, .i32⟩
  | 28 => ⟨S_, .i32⟩
  | 29 => ⟨S45, .i32⟩
  | 30 => ⟨S45, .i32⟩
  | 31 => ⟨S45, .i32⟩
  | 32 => ⟨S45x1, .i32⟩
  | 33 => ⟨S45x1, .i32⟩
  | 34 => ⟨S45x2, .i32⟩
  | 35 => ⟨S16x10x10, .f32⟩
  | 36 => ⟨S16x10x10, .f32⟩
  | 37 => ⟨S16x10x10, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x128, .f32⟩
  | 47 => ⟨S_, .i32⟩
  | 48 => ⟨S_, .f32⟩
  | 49 => ⟨S102400x128, .f32⟩
  | 50 => ⟨S1x128, .f32⟩
  | 51 => ⟨S102400x128, .f32⟩
  | 52 => ⟨S160x128, .f32⟩
  | 53 => ⟨S160x102400, .f32⟩
  | 54 => ⟨S1x640000, .i32⟩
  | 55 => ⟨S640000, .i32⟩
  | 56 => ⟨S1x640000, .i32⟩
  | 57 => ⟨S640000, .i32⟩
  | 58 => ⟨S100000x128, .f32⟩
  | 59 => ⟨S16x102400, .f32⟩
  | 60 => ⟨S16x100000, .f32⟩
  | 61 => ⟨S100000x16, .f32⟩
  | 62 => ⟨S_, .f32⟩
  | 63 => ⟨S2048x16, .f32⟩
  | 64 => ⟨S100000x1, .i32⟩
  | 65 => ⟨S2048x16, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x128, .f32⟩
  | 75 => ⟨S_, .f32⟩
  | 76 => ⟨S100000x128, .f32⟩
  | 77 => ⟨S640000x1, .i32⟩
  | 78 => ⟨S100000x128, .f32⟩
  | 79 => ⟨S16x10x128, .f32⟩
  | 80 => ⟨S160x128, .f32⟩
  | 81 => ⟨S_, .i32⟩
  | 82 => ⟨S_, .f32⟩
  | 83 => ⟨S102400x128, .f32⟩
  | 84 => ⟨S16x102400, .f32⟩
  | 85 => ⟨S16x100000, .f32⟩
  | 86 => ⟨S100000x16, .f32⟩
  | 87 => ⟨S_, .f32⟩
  | 88 => ⟨S2048x16, .f32⟩
  | 89 => ⟨S100000x1, .i32⟩
  | 90 => ⟨S2048x16, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000x128, .f32⟩
  | 100 => ⟨S_, .f32⟩
  | 101 => ⟨S100000x128, .f32⟩
  | 102 => ⟨S640000x1, .i32⟩
  | 103 => ⟨S100000x128, .f32⟩
  | 104 => ⟨S16x10x128, .f32⟩
  | 105 => ⟨S160x128, .f32⟩
  | 106 => ⟨S_, .i32⟩
  | 107 => ⟨S_, .f32⟩
  | 108 => ⟨S102400x128, .f32⟩
  | 109 => ⟨S16x102400, .f32⟩
  | 110 => ⟨S16x100000, .f32⟩
  | 111 => ⟨S100000x16, .f32⟩
  | 112 => ⟨S_, .f32⟩
  | 113 => ⟨S2048x16, .f32⟩
  | 114 => ⟨S100000x1, .i32⟩
  | 115 => ⟨S2048x16, .f32⟩
  | 116 => ⟨S_, .i32⟩
  | 117 => ⟨S640000, .i32⟩
  | 118 => ⟨S640000, .i1⟩
  | 119 => ⟨S_, .i32⟩
  | 120 => ⟨S640000, .i32⟩
  | 121 => ⟨S640000, .i32⟩
  | 122 => ⟨S640000, .i32⟩
  | 123 => ⟨S640000x1, .i32⟩
  | 124 => ⟨S640000x128, .f32⟩
  | 125 => ⟨S_, .f32⟩
  | 126 => ⟨S100000x128, .f32⟩
  | 127 => ⟨S640000x1, .i32⟩
  | _ => ⟨S100000, .i32⟩

abbrev hbmTy0_1 (i : Nat) : BufTy := match i % 128 with
  | 0 => ⟨S100000x128, .f32⟩
  | 1 => ⟨S16x10x128, .f32⟩
  | 2 => ⟨S160x128, .f32⟩
  | 3 => ⟨S_, .i32⟩
  | 4 => ⟨S_, .f32⟩
  | 5 => ⟨S102400x128, .f32⟩
  | 6 => ⟨S16x102400, .f32⟩
  | 7 => ⟨S16x100000, .f32⟩
  | 8 => ⟨S100000x16, .f32⟩
  | 9 => ⟨S_, .f32⟩
  | 10 => ⟨S2048x16, .f32⟩
  | 11 => ⟨S100000x1, .i32⟩
  | 12 => ⟨S2048x16, .f32⟩
  | 13 => ⟨S2048x64, .f32⟩
  | 14 => ⟨S1x128, .f32⟩
  | 15 => ⟨S2048x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S160x128, .f32⟩
  | .local _ .vmem, ⟨7, _⟩ => ⟨S4096x128, .f32⟩
  | .local _ .vmem, ⟨8, _⟩ => ⟨S4096x128, .f32⟩
  | .local _ .vmem, ⟨9, _⟩ => ⟨S160x4096, .f32⟩
  | .local _ .vmem, ⟨10, _⟩ => ⟨S160x4096, .f32⟩
  | .local _ .vmem, ⟨11, _⟩ => ⟨S160x4096, .f32⟩
  | .local _ .vmem, ⟨12, _⟩ => ⟨S160x4096, .f32⟩
  | .local _ .vmem, ⟨13, _⟩ => ⟨S160x128, .f32⟩
  | .local _ .vmem, ⟨14, _⟩ => ⟨S4096x128, .f32⟩
  | .local _ .vmem, ⟨15, _⟩ => ⟨S4096x128, .f32⟩
  | .local _ .vmem, ⟨16, _⟩ => ⟨S16x160, .f32⟩
  | .local _ .vmem, ⟨17, _⟩ => ⟨S16x4096, .f32⟩
  | .local _ .vmem, ⟨18, _⟩ => ⟨S16x4096, .f32⟩
  | .local _ .vmem, ⟨19, _⟩ => ⟨S160x4096, .f32⟩
  | .local _ .vmem, ⟨20, _⟩ => ⟨S160x4096, .f32⟩
  | .local _ .vmem, ⟨21, _⟩ => ⟨S160x128, .f32⟩
  | .local _ .vmem, ⟨22, _⟩ => ⟨S4096x128, .f32⟩
  | .local _ .vmem, ⟨23, _⟩ => ⟨S4096x128, .f32⟩
  | .local _ .vmem, ⟨24, _⟩ => ⟨S16x160, .f32⟩
  | .local _ .vmem, ⟨25, _⟩ => ⟨S16x4096, .f32⟩
  | .local _ .vmem, ⟨26, _⟩ => ⟨S16x4096, .f32⟩
  | .local _ .vmem, ⟨27, _⟩ => ⟨S160x4096, .f32⟩
  | .local _ .vmem, ⟨28, _⟩ => ⟨S160x4096, .f32⟩
  | .local _ .vmem, ⟨29, _⟩ => ⟨S160x128, .f32⟩
  | .local _ .vmem, ⟨30, _⟩ => ⟨S4096x128, .f32⟩
  | .local _ .vmem, ⟨31, _⟩ => ⟨S4096x128, .f32⟩
  | .local _ .vmem, ⟨32, _⟩ => ⟨S16x160, .f32⟩
  | .local _ .vmem, ⟨33, _⟩ => ⟨S16x4096, .f32⟩
  | .local _ .vmem, ⟨34, _⟩ => ⟨S16x4096, .f32⟩
  | .local _ .vmem, ⟨35, _⟩ => ⟨S160x4096, .f32⟩
  | .local _ .vmem, ⟨36, _⟩ => ⟨S160x4096, .f32⟩
  | .local _ .vmem, ⟨37, _⟩ => ⟨S160x128, .f32⟩
  | .local _ .vmem, ⟨38, _⟩ => ⟨S4096x128, .f32⟩
  | .local _ .vmem, ⟨39, _⟩ => ⟨S4096x128, .f32⟩
  | .local _ .vmem, ⟨40, _⟩ => ⟨S16x160, .f32⟩
  | .local _ .vmem, ⟨41, _⟩ => ⟨S16x4096, .f32⟩
  | .local _ .vmem, ⟨42, _⟩ => ⟨S16x4096, .f32⟩
  | .local _ .vmem, ⟨43, _⟩ => ⟨S2048x64, .f32⟩
  | .local _ .vmem, ⟨44, _⟩ => ⟨S64x128, .f32⟩
  | .local _ .vmem, ⟨45, _⟩ => ⟨S1x128, .f32⟩
  | .local _ .vmem, ⟨46, _⟩ => ⟨S2048x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_cst : Ref sig .tc := ⟨.hbm, 14, rfl⟩
abbrev main_cst_3 : Ref sig .tc := ⟨.hbm, 15, rfl⟩
abbrev main_v0 : Ref sig .tc := ⟨.hbm, 16, rfl⟩
abbrev main_cst_4 : Ref sig .tc := ⟨.hbm, 17, rfl⟩
abbrev main_v1 : Ref sig .tc := ⟨.hbm, 18, rfl⟩
abbrev main_v2 : Ref sig .tc := ⟨.hbm, 19, rfl⟩
abbrev main_cst_5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_6 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_7 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_8 : Ref sig .tc := ⟨.hbm, 38, rfl⟩
abbrev main_v18 : Ref sig .tc := ⟨.hbm, 39, rfl⟩
abbrev main_v19 : Ref sig .tc := ⟨.hbm, 40, rfl⟩
abbrev main_c_9 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_10 : Ref sig .tc := ⟨.hbm, 47, rfl⟩
abbrev main_call1_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_12 : Ref sig .tc := ⟨.hbm, 66, rfl⟩
abbrev main_v41 : Ref sig .tc := ⟨.hbm, 67, rfl⟩
abbrev main_v42 : Ref sig .tc := ⟨.hbm, 68, rfl⟩
abbrev main_c_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_14 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_15 : Ref sig .tc := ⟨.hbm, 81, rfl⟩
abbrev main_call2_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_17 : Ref sig .tc := ⟨.hbm, 91, rfl⟩
abbrev main_v60 : Ref sig .tc := ⟨.hbm, 92, rfl⟩
abbrev main_v61 : Ref sig .tc := ⟨.hbm, 93, rfl⟩
abbrev main_c_18 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_19 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_20 : Ref sig .tc := ⟨.hbm, 106, rfl⟩
abbrev main_call3_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_21 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_22 : Ref sig .tc := ⟨.hbm, 116, rfl⟩
abbrev main_v79 : Ref sig .tc := ⟨.hbm, 117, rfl⟩
abbrev main_v80 : Ref sig .tc := ⟨.hbm, 118, rfl⟩
abbrev main_c_23 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_24 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_25 : Ref sig .tc := ⟨.hbm, 131, rfl⟩
abbrev main_call4_v0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_26 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg4_1 : Ref sig .tc := ⟨.vmem, 42, rfl⟩
abbrev cc6_stg0_0 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem4_0 : DmaSem sig := 41
abbrev cc5_sem4_1 : DmaSem sig := 42
abbrev cc6_sem0_0 : DmaSem sig := 43
abbrev cc6_sem1_0 : DmaSem sig := 44
abbrev cc6_sem2_0 : DmaSem sig := 45
abbrev cc6_sem3_0 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S160x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S160x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S160x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S160x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x160 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S160x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S160x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x160 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S16x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S160x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S160x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x160 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S16x4096 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S160x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S160x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4096x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S16x160 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S16x4096 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2048x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  bcast_S_S16x10x10 : S_.BroadcastsInDim S16x10x10 (![] : Fin 0 → Fin S16x10x10.rank)
  bcast_S_S16x45 : S_.BroadcastsInDim S16x45 (![] : Fin 0 → Fin S16x45.rank)
  bcast_S_S45 : S_.BroadcastsInDim S45 (![] : Fin 0 → Fin S45.rank)
  bcast_S45_S45x1_0 : S45.BroadcastsInDim S45x1 (![0] : Fin 1 → Fin S45x1.rank)
  concatenates_S45x1_S45x1_S45x2_d1 : Shape.Concatenates [S45x1, S45x1] S45x2 1
  transposes_S16x10x10_S16x10x10_0_2_1 : S16x10x10.Transposes [0, 2, 1] S16x10x10
  bcast_S_S100000 : S_.BroadcastsInDim S100000 (![] : Fin 0 → Fin S100000.rank)
  bcast_S100000_S100000x1_0 : S100000.BroadcastsInDim S100000x1 (![0] : Fin 1 → Fin S100000x1.rank)
  pads_S100000x128_S102400x128_024000_000 : S100000x128.Pads (![0, 0] : Fin 2 → Nat) ![2400, 0] ![0, 0] S102400x128
  h_S_ : 0 < S_.numel
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S16x10x128_S160x128 : S16x10x128.ShapeCasts S160x128
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S160x4096_S160x4096_0_0 : ∀ a, (![0, 0] : Fin 2 → Nat) a + S160x4096.size a ≤ S160x4096.size a
  h_S160x4096 : 0 < S160x4096.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S102400x128_S100000x128_0_0 : S102400x128.Slices ![0, 0] S100000x128
  shapeCasts_S160x4096_S160x4096 : S160x4096.ShapeCasts S160x4096
  inb_S16x160_S16x160_0_0 : ∀ a, (![0, 0] : Fin 2 → Nat) a + S16x160.size a ≤ S16x160.size a
  h_S16x160 : 0 < S16x160.numel
  inb_S16x4096_S16x4096_0_0 : ∀ a, (![0, 0] : Fin 2 → Nat) a + S16x4096.size a ≤ S16x4096.size a
  h_S16x4096 : 0 < S16x4096.numel
  slices_S16x102400_S16x100000_0_0 : S16x102400.Slices ![0, 0] S16x100000
  transposes_S16x100000_S100000x16_1_0 : S16x100000.Transposes [1, 0] S100000x16
  bcast_S_S2048x16 : S_.BroadcastsInDim S2048x16 (![] : Fin 0 → Fin S2048x16.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  concatenates_S2048x16_S2048x16_S2048x16_S2048x16_S2048x64_d1 : Shape.Concatenates [S2048x16, S2048x16, S2048x16, S2048x16] S2048x64 1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x128_S64x128_0_0 : ∀ a, (![0, 0] : Fin 2 → Nat) a + S64x128.size a ≤ S64x128.size a
  h_S64x128 : 0 < S64x128.numel
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  scatter_S16x10x10_S45x2_S16x45_0_12_12_1_wf : ScatterDims.WF S16x10x10 S45x2 S16x45 [0] [1, 2] [1, 2] 1
  gather_S100000x128_S100000x1_S100000x128_1_0_n_n_0_1_1128_wf : GatherDims.WF S100000x128 S100000x1 S100000x128 [1] [0] [] [0] [] 1 ![1, 128]
  dot_S4096x128_S128x128_S4096x128_1_0_0_1_n_n_wf : DotDims.WF S4096x128 S128x128 S4096x128 [1] [0] [0] [1] [] []
  dot_S160x128_S4096x128_S160x4096_1_1_0_0_n_n_wf : DotDims.WF S160x128 S4096x128 S160x4096 [1] [1] [0] [0] [] []
  dot_S16x160_S160x4096_S16x4096_1_0_0_1_n_n_wf : DotDims.WF S16x160 S160x4096 S16x4096 [1] [0] [0] [1] [] []
  scatter_S2048x16_S100000x1_S100000x16_1_0_0_1_wf : ScatterDims.WF S2048x16 S100000x1 S100000x16 [1] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S16x10x10_S16x10x128_S16x10x128_2_1_1_2_0_0_wf : DotDims.WF S16x10x10 S16x10x128 S16x10x128 [2] [1] [1] [2] [0] [0]
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S102400x128.size a
  hwx0_3 : ∀ i : grid0.Coords, EltTy.bits .f32 = 32 ∨ (Rect.block (s := S102400x128) S4096x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S160x128.size a ≤ S160x128.size a
  hwx1_0 : ∀ i : grid1.Coords, EltTy.bits .f32 = 32 ∨ (Rect.block (s := S160x128) S160x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S160x4096.size a ≤ S160x102400.size a
  hwx1_2 : ∀ i : grid1.Coords, EltTy.bits .f32 = 32 ∨ (Rect.block (s := S160x102400) S160x4096.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S160x4096.size a ≤ S160x102400.size a
  hwx2_0 : ∀ i : grid2.Coords, EltTy.bits .f32 = 32 ∨ (Rect.block (s := S160x102400) S160x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S160x128.size a ≤ S160x128.size a
  hwx2_1 : ∀ i : grid2.Coords, EltTy.bits .f32 = 32 ∨ (Rect.block (s := S160x128) S160x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S102400x128.size a
  hwx2_2 : ∀ i : grid2.Coords, EltTy.bits .f32 = 32 ∨ (Rect.block (s := S102400x128) S4096x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x160.size a ≤ S16x160.size a
  hwx2_3 : ∀ i : grid2.Coords, EltTy.bits .f32 = 32 ∨ (Rect.block (s := S16x160) S16x160.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16x4096.size a ≤ S16x102400.size a
  hwx2_4 : ∀ i : grid2.Coords, EltTy.bits .f32 = 32 ∨ (Rect.block (s := S16x102400) S16x4096.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S160x4096.size a ≤ S160x102400.size a
  hwx3_0 : ∀ i : grid3.Coords, EltTy.bits .f32 = 32 ∨ (Rect.block (s := S160x102400) S160x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S160x128.size a ≤ S160x128.size a
  hwx3_1 : ∀ i : grid3.Coords, EltTy.bits .f32 = 32 ∨ (Rect.block (s := S160x128) S160x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S102400x128.size a
  hwx3_2 : ∀ i : grid3.Coords, EltTy.bits .f32 = 32 ∨ (Rect.block (s := S102400x128) S4096x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x160.size a ≤ S16x160.size a
  hwx3_3 : ∀ i : grid3.Coords, EltTy.bits .f32 = 32 ∨ (Rect.block (s := S16x160) S16x160.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S16x4096.size a ≤ S16x102400.size a
  hwx3_4 : ∀ i : grid3.Coords, EltTy.bits .f32 = 32 ∨ (Rect.block (s := S16x102400) S16x4096.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S160x4096.size a ≤ S160x102400.size a
  hwx4_0 : ∀ i : grid4.Coords, EltTy.bits .f32 = 32 ∨ (Rect.block (s := S160x102400) S160x4096.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S160x128.size a ≤ S160x128.size a
  hwx4_1 : ∀ i : grid4.Coords, EltTy.bits .f32 = 32 ∨ (Rect.block (s := S160x128) S160x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S102400x128.size a
  hwx4_2 : ∀ i : grid4.Coords, EltTy.bits .f32 = 32 ∨ (Rect.block (s := S102400x128) S4096x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x160.size a ≤ S16x160.size a
  hwx4_3 : ∀ i : grid4.Coords, EltTy.bits .f32 = 32 ∨ (Rect.block (s := S16x160) S16x160.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S16x4096.size a ≤ S16x102400.size a
  hwx4_4 : ∀ i : grid4.Coords, EltTy.bits .f32 = 32 ∨ (Rect.block (s := S16x102400) S16x4096.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S160x4096.size a ≤ S160x102400.size a
  hwx5_0 : ∀ i : grid5.Coords, EltTy.bits .f32 = 32 ∨ (Rect.block (s := S160x102400) S160x4096.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S160x128.size a ≤ S160x128.size a
  hwx5_1 : ∀ i : grid5.Coords, EltTy.bits .f32 = 32 ∨ (Rect.block (s := S160x128) S160x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x128.size a ≤ S102400x128.size a
  hwx5_2 : ∀ i : grid5.Coords, EltTy.bits .f32 = 32 ∨ (Rect.block (s := S102400x128) S4096x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x160.size a ≤ S16x160.size a
  hwx5_3 : ∀ i : grid5.Coords, EltTy.bits .f32 = 32 ∨ (Rect.block (s := S16x160) S16x160.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S16x4096.size a ≤ S16x102400.size a
  hwx5_4 : ∀ i : grid5.Coords, EltTy.bits .f32 = 32 ∨ (Rect.block (s := S16x102400) S16x4096.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S2048x64.size a
  hwx6_0 : ∀ i : grid6.Coords, EltTy.bits .f32 = 32 ∨ (Rect.block (s := S2048x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2048x128.size a ≤ S2048x128.size a
  hwx6_3 : ∀ i : grid6.Coords, EltTy.bits .f32 = 32 ∨ (Rect.block (s := S2048x128) S2048x128.size (cc6_transform_3 i) (hinb6_3 i)).WholeWords (EltTy.packing .f32)

variable [Facts₀]

def scatter_S16x10x10_S45x2_S16x45_0_12_12_1 : ScatterDims S16x10x10 S45x2 S16x45 where
  updateWindowDims := [0]
  insertedWindowDims := [1, 2]
  scatterDimsToOperandDims := [1, 2]
  indexVectorDim := 1
  wf := scatter_S16x10x10_S45x2_S16x45_0_12_12_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S160x128_S4096x128_S160x4096_1_1_0_0_n_n : DotDims S160x128 S4096x128 S160x4096 where
  lhsContracting := [1]
  rhsContracting := [1]
  lhsNonContracting := [0]
  rhsNonContracting := [0]
  lhsBatch := []
  rhsBatch := []
  wf := dot_S160x128_S4096x128_S160x4096_1_1_0_0_n_n_wf
def dot_S16x160_S160x4096_S16x4096_1_0_0_1_n_n : DotDims S16x160 S160x4096 S16x4096 where
  lhsContracting := [1]
  rhsContracting := [0]
  lhsNonContracting := [0]
  rhsNonContracting := [1]
  lhsBatch := []
  rhsBatch := []
  wf := dot_S16x160_S160x4096_S16x4096_1_0_0_1_n_n_wf
def scatter_S2048x16_S100000x1_S100000x16_1_0_0_1 : ScatterDims S2048x16 S100000x1 S100000x16 where
  updateWindowDims := [1]
  insertedWindowDims := [0]
  scatterDimsToOperandDims := [0]
  indexVectorDim := 1
  wf := scatter_S2048x16_S100000x1_S100000x16_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S16x10x10_S16x10x128_S16x10x128_2_1_1_2_0_0 : DotDims S16x10x10 S16x10x128 S16x10x128 where
  lhsContracting := [2]
  rhsContracting := [1]
  lhsNonContracting := [1]
  rhsNonContracting := [2]
  lhsBatch := [0]
  rhsBatch := [0]
  wf := dot_S16x10x10_S16x10x128_S16x10x128_2_1_1_2_0_0_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_v25) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S160x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S160x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S160x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S160x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_cst) S16x160.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S16x4096.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v29) S160x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S160x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S4096x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_cst) S16x160.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S16x4096.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v29) S160x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S160x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S4096x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_cst) S16x160.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S16x4096.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v29) S160x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S160x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S4096x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_cst) S16x160.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S16x4096.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v98) S2048x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S2048x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000 : Shape := ⟨1, ![100000]⟩
abbrev S2x640000 : Shape := ⟨2, ![2, 640000]⟩
abbrev S100000x128 : Shape := ⟨2, ![100000, 128]⟩
abbrev S128x128 : Shape := ⟨2, ![128, 128]⟩
abbrev S128 : Shape := ⟨1, ![128]⟩
abbrev S16x45 : Shape := ⟨2, ![16, 45]⟩
abbrev S16x10x128 : Shape := ⟨3, ![16, 10, 128]⟩
abbrev S64x128 : Shape := ⟨2, ![64, 128]⟩
abbrev S45 : Shape := ⟨1, ![45]⟩
abbrev S_ : Shape := ⟨0, ![]⟩
abbrev S16x10x10 : Shape := ⟨3, ![16, 10, 10]⟩
abbrev S45x1 : Shape := ⟨2, ![45, 1]⟩
abbrev S45x2 : Shape := ⟨2, ![45, 2]⟩
abbrev S100000x1 : Shape := ⟨2, ![100000, 1]⟩
abbrev S1x128 : Shape := ⟨2, ![1, 128]⟩
abbrev S16x10x100000 : Shape := ⟨3, ![16, 10, 100000]⟩
abbrev S1x640000 : Shape := ⟨2, ![1, 640000]⟩
abbrev S640000 : Shape := ⟨1, ![640000]⟩
abbrev S100000x16x10 : Shape := ⟨3, ![100000, 16, 10]⟩
abbrev S2048x16x10 : Shape := ⟨3, ![2048, 16, 10]⟩
abbrev S2048x16 : Shape := ⟨2, ![2048, 16]⟩
abbrev S640000x1 : Shape := ⟨2, ![640000, 1]⟩
abbrev S640000x128 : Shape := ⟨2, ![640000, 128]⟩
abbrev S2048x64 : Shape := ⟨2, ![2048, 64]⟩
abbrev S2048x128 : Shape := ⟨2, ![2048, 128]⟩

abbrev nBuf : Space → Nat
  | .hbm => 152
  | .vmem => 0
  | .smem => 0
  | _ => 0

abbrev hbmTy0_0 (i : Nat) : BufTy := match i % 128 with
  | 0 => ⟨S100000, .i32⟩
  | 1 => ⟨S2x640000, .i32⟩
  | 2 => ⟨S100000, .i32⟩
  | 3 => ⟨S100000x128, .f32⟩
  | 4 => ⟨S128x128, .f32⟩
  | 5 => ⟨S128, .f32⟩
  | 6 => ⟨S16x45, .f32⟩
  | 7 => ⟨S16x10x128, .f32⟩
  | 8 => ⟨S64x128, .f32⟩
  | 9 => ⟨S128, .f32⟩
  | 10 => ⟨S45, .i32⟩
  | 11 => ⟨S45, .i1⟩
  | 12 => ⟨S45, .i32⟩
  | 13 => ⟨S45, .i1⟩
  | 14 => ⟨S_, .f32⟩
  | 15 => ⟨S16x10x10, .f32⟩
  | 16 => ⟨S_, .f32⟩
  | 17 => ⟨S16x45, .f32⟩
  | 18 => ⟨S16x45, .i1⟩
  | 19 => ⟨S_, .f32⟩
  | 20 => ⟨S16x45, .f32⟩
  | 21 => ⟨S16x45, .f32⟩
  | 22 => ⟨S16x45, .f32⟩
  | 23 => ⟨S_, .i32⟩
  | 24 => ⟨S45, .i32⟩
  | 25 => ⟨S45, .i32⟩
  | 26 => ⟨S45, .i32⟩
  | 27 => ⟨S_, .i32⟩
  | 28 => ⟨S45, .i32⟩
  | 29 => ⟨S45, .i32⟩
  | 30 => ⟨S45, .i32⟩
  | 31 => ⟨S45x1, .i32⟩
  | 32 => ⟨S45x1, .i32⟩
  | 33 => ⟨S45x2, .i32⟩
  | 34 => ⟨S16x10x10, .f32⟩
  | 35 => ⟨S16x10x10, .f32⟩
  | 36 => ⟨S16x10x10, .f32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S16x10x100000, .f32⟩
  | 59 => ⟨S1x640000, .i32⟩
  | 60 => ⟨S640000, .i32⟩
  | 61 => ⟨S1x640000, .i32⟩
  | 62 => ⟨S640000, .i32⟩
  | 63 => ⟨S16x10x100000, .f32⟩
  | 64 => ⟨S100000x16x10, .f32⟩
  | 65 => ⟨S_, .f32⟩
  | 66 => ⟨S2048x16x10, .f32⟩
  | 67 => ⟨S100000x1, .i32⟩
  | 68 => ⟨S2048x16x10, .f32⟩
  | 69 => ⟨S_, .f32⟩
  | 70 => ⟨S2048x16, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S_, .f32⟩
  | 81 => ⟨S100000x128, .f32⟩
  | 82 => ⟨S640000x1, .i32⟩
  | 83 => ⟨S100000x128, .f32⟩
  | 84 => ⟨S16x10x128, .f32⟩
  | 85 => ⟨S16x10x100000, .f32⟩
  | 86 => ⟨S16x10x100000, .f32⟩
  | 87 => ⟨S100000x16x10, .f32⟩
  | 88 => ⟨S_, .f32⟩
  | 89 => ⟨S2048x16x10, .f32⟩
  | 90 => ⟨S100000x1, .i32⟩
  | 91 => ⟨S2048x16x10, .f32⟩
  | 92 => ⟨S_, .f32⟩
  | 93 => ⟨S2048x16, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S640000x128, .f32⟩
  | 103 => ⟨S_, .f32⟩
  | 104 => ⟨S100000x128, .f32⟩
  | 105 => ⟨S640000x1, .i32⟩
  | 106 => ⟨S100000x128, .f32⟩
  | 107 => ⟨S16x10x128, .f32⟩
  | 108 => ⟨S16x10x100000, .f32⟩
  | 109 => ⟨S16x10x100000, .f32⟩
  | 110 => ⟨S100000x16x10, .f32⟩
  | 111 => ⟨S_, .f32⟩
  | 112 => ⟨S2048x16x10, .f32⟩
  | 113 => ⟨S100000x1, .i32⟩
  | 114 => ⟨S2048x16x10, .f32⟩
  | 115 => ⟨S_, .f32⟩
  | 116 => ⟨S2048x16, .f32⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S640000x128, .f32⟩
  | 126 => ⟨S_, .f32⟩
  | 127 => ⟨S100000x128, .f32⟩
  | _ => ⟨S100000, .i32⟩

abbrev hbmTy0_1 (i : Nat) : BufTy := match i % 128 with
  | 0 => ⟨S640000x1, .i32⟩
  | 1 => ⟨S100000x128, .f32⟩
  | 2 => ⟨S16x10x128, .f32⟩
  | 3 => ⟨S16x10x100000, .f32⟩
  | 4 => ⟨S16x10x100000, .f32⟩
  | 5 => ⟨S100000x16x10, .f32⟩
  | 6 => ⟨S_, .f32⟩
  | 7 => ⟨S2048x16x10, .f32⟩
  | 8 => ⟨S100000x1, .i32⟩
  | 9 => ⟨S2048x16x10, .f32⟩
  | 10 => ⟨S_, .f32⟩
  | 11 => ⟨S2048x16, .f32⟩
  | 12 => ⟨S2048x64, .f32⟩
  | 13 => ⟨S2048x128, .f32⟩
  | 14 => ⟨S1x128, .f32⟩
  | 15 => ⟨S2048x128, .f32⟩
  | 16 => ⟨S2048x128, .f32⟩
  | 17 => ⟨S_, .f32⟩
  | 18 => ⟨S2048x128, .f32⟩
  | 19 => ⟨S2048x128, .i1⟩
  | 20 => ⟨S_, .f32⟩
  | 21 => ⟨S2048x128, .f32⟩
  | 22 => ⟨S2048x128, .f32⟩
  | 23 => ⟨S2048x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_cst : Ref sig .tc := ⟨.hbm, 14, rfl⟩
abbrev main_v0 : Ref sig .tc := ⟨.hbm, 15, rfl⟩
abbrev main_cst_3 : Ref sig .tc := ⟨.hbm, 16, rfl⟩
abbrev main_v1 : Ref sig .tc := ⟨.hbm, 17, rfl⟩
abbrev main_v2 : Ref sig .tc := ⟨.hbm, 18, rfl⟩
abbrev main_cst_4 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_6 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_7 : Ref sig .tc := ⟨.hbm, 37, rfl⟩
abbrev main_v18 : Ref sig .tc := ⟨.hbm, 38, rfl⟩
abbrev main_v19 : Ref sig .tc := ⟨.hbm, 39, rfl⟩
abbrev main_c_8 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_c_13 : Ref sig .tc := ⟨.hbm, 71, rfl⟩
abbrev main_v46 : Ref sig .tc := ⟨.hbm, 72, rfl⟩
abbrev main_v47 : Ref sig .tc := ⟨.hbm, 73, rfl⟩
abbrev main_c_14 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_16 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_17 : Ref sig .tc := ⟨.hbm, 92, rfl⟩
abbrev main_v63 : Ref sig .tc := ⟨.hbm, 93, rfl⟩
abbrev main_c_18 : Ref sig .tc := ⟨.hbm, 94, rfl⟩
abbrev main_v64 : Ref sig .tc := ⟨.hbm, 95, rfl⟩
abbrev main_v65 : Ref sig .tc := ⟨.hbm, 96, rfl⟩
abbrev main_c_19 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_20 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_21 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_22 : Ref sig .tc := ⟨.hbm, 115, rfl⟩
abbrev main_v81 : Ref sig .tc := ⟨.hbm, 116, rfl⟩
abbrev main_c_23 : Ref sig .tc := ⟨.hbm, 117, rfl⟩
abbrev main_v82 : Ref sig .tc := ⟨.hbm, 118, rfl⟩
abbrev main_v83 : Ref sig .tc := ⟨.hbm, 119, rfl⟩
abbrev main_c_24 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_25 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_26 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_27 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_28 : Ref sig .tc := ⟨.hbm, 145, rfl⟩
abbrev main_v105 : Ref sig .tc := ⟨.hbm, 146, rfl⟩
abbrev main_v106 : Ref sig .tc := ⟨.hbm, 147, rfl⟩
abbrev main_cst_29 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩

abbrev nD : Nat := 1
abbrev τ : Topo := Topo.v7x

variable {F : FTy → Type} [FloatOps F]

class Facts₀ : Prop where
  bcast_S_S16x10x10 : S_.BroadcastsInDim S16x10x10 (![] : Fin 0 → Fin S16x10x10.rank)
  bcast_S_S16x45 : S_.BroadcastsInDim S16x45 (![] : Fin 0 → Fin S16x45.rank)
  bcast_S_S45 : S_.BroadcastsInDim S45 (![] : Fin 0 → Fin S45.rank)
  bcast_S45_S45x1_0 : S45.BroadcastsInDim S45x1 (![0] : Fin 1 → Fin S45x1.rank)
  concatenates_S45x1_S45x1_S45x2_d1 : Shape.Concatenates [S45x1, S45x1] S45x2 1
  transposes_S16x10x10_S16x10x10_0_2_1 : S16x10x10.Transposes [0, 2, 1] S16x10x10
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S16x10x100000_S100000x16x10_2_0_1 : S16x10x100000.Transposes [2, 0, 1] S100000x16x10
  bcast_S_S2048x16x10 : S_.BroadcastsInDim S2048x16x10 (![] : Fin 0 → Fin S2048x16x10.rank)
  reducesTo_S2048x16x10_S2048x16_d2 : S2048x16x10.ReducesTo [2] S2048x16
  h_S_ : 0 < S_.numel
  bcast_S_S640000 : S_.BroadcastsInDim S640000 (![] : Fin 0 → Fin S640000.rank)
  bcast_S640000_S640000x1_0 : S640000.BroadcastsInDim S640000x1 (![0] : Fin 1 → Fin S640000x1.rank)
  concatenates_S2048x16_S2048x16_S2048x16_S2048x16_S2048x64_d1 : Shape.Concatenates [S2048x16, S2048x16, S2048x16, S2048x16] S2048x64 1
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  scatter_S16x10x10_S45x2_S16x45_0_12_12_1_wf : ScatterDims.WF S16x10x10 S45x2 S16x45 [0] [1, 2] [1, 2] 1
  gather_S100000x128_S100000x1_S100000x128_1_0_n_n_0_1_1128_wf : GatherDims.WF S100000x128 S100000x1 S100000x128 [1] [0] [] [0] [] 1 ![1, 128]
  dot_S100000x128_S128x128_S100000x128_1_0_0_1_n_n_wf : DotDims.WF S100000x128 S128x128 S100000x128 [1] [0] [0] [1] [] []
  dot_S16x10x128_S100000x128_S16x10x100000_2_1_01_0_n_n_wf : DotDims.WF S16x10x128 S100000x128 S16x10x100000 [2] [1] [0, 1] [0] [] []
  scatter_S2048x16x10_S100000x1_S100000x16x10_12_0_0_1_wf : ScatterDims.WF S2048x16x10 S100000x1 S100000x16x10 [1, 2] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S16x10x10_S16x10x128_S16x10x128_2_1_1_2_0_0_wf : DotDims.WF S16x10x10 S16x10x128 S16x10x128 [2] [1] [1] [2] [0] [0]
  dot_S2048x64_S64x128_S2048x128_1_0_0_1_n_n_wf : DotDims.WF S2048x64 S64x128 S2048x128 [1] [0] [0] [1] [] []

variable [Facts₀]

def scatter_S16x10x10_S45x2_S16x45_0_12_12_1 : ScatterDims S16x10x10 S45x2 S16x45 where
  updateWindowDims := [0]
  insertedWindowDims := [1, 2]
  scatterDimsToOperandDims := [1, 2]
  indexVectorDim := 1
  wf := scatter_S16x10x10_S45x2_S16x45_0_12_12_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S16x10x128_S100000x128_S16x10x100000_2_1_01_0_n_n : DotDims S16x10x128 S100000x128 S16x10x100000 where
  lhsContracting := [2]
  rhsContracting := [1]
  lhsNonContracting := [0, 1]
  rhsNonContracting := [0]
  lhsBatch := []
  rhsBatch := []
  wf := dot_S16x10x128_S100000x128_S16x10x100000_2_1_01_0_n_n_wf
def scatter_S2048x16x10_S100000x1_S100000x16x10_12_0_0_1 : ScatterDims S2048x16x10 S100000x1 S100000x16x10 where
  updateWindowDims := [1, 2]
  insertedWindowDims := [0]
  scatterDimsToOperandDims := [0]
  indexVectorDim := 1
  wf := scatter_S2048x16x10_S100000x1_S100000x16x10_12_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S16x10x10_S16x10x128_S16x10x128_2_1_1_2_0_0 : DotDims S16x10x10 S16x10x128 S16x10x128 where
  lhsContracting := [2]
  rhsContracting := [1]
  lhsNonContracting := [1]
  rhsNonContracting := [2]
  lhsBatch := [0]
  rhsBatch := [0]
  wf := dot_S16x10x10_S16x10x128_S16x10x128_2_1_1_2_0_0_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

class Facts : Prop extends Facts₀ where

variable [Facts]
-- ==== Proof.KReg0.lean ====
/- REGION 0 of @main: the first TensorCore call (a matrix product with a weight matrix, plus a bias row, through the logistic function), stated at a PARAMETER `V` — the contents of the TensorCore's
   buffers when the region is entered. For each window: its block of `V` at a grid point. For the body: what it leaves
   in the output window's buffer as a function of the input blocks it loads, the triple saying that it does, the
   pipeline's proof data over `V`, and the obligation the pipeline asks of its body at every grid point. Everything here
   holds at any carrier `F` of the float operations. -/
import proofs.«121911_j27986006901054_1_alg».proof.Proof.Gen.Kernel.Launch
import proofs.«121911_j27986006901054_1_alg».proof.Proof.Gen.Kernel.Skeleton
import proofs.«121911_j27986006901054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds the window's block of the entry contents at every grid point, whether or
    not the pipeline copied it in at that point: where it did not, the block index is the one of the point before and the
    body left the buffer as it was. Stated for any proof data over the entry contents `V` whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of input window 1 holds the window's block of the entry contents at every grid point, whether or
    not the pipeline copied it in at that point: where it did not, the block index is the one of the point before and the
    body left the buffer as it was. Stated for any proof data over the entry contents `V` whose body keeps the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of input window 2 holds the window's block of the entry contents at every grid point, whether or
    not the pipeline copied it in at that point: where it did not, the block index is the one of the point before and the
    body left the buffer as it was. Stated for any proof data over the entry contents `V` whose body keeps the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S4096x128 := Rect.unit (s := S4096x128) ![0, 0] S4096x128.size inb_S4096x128_S4096x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S4096x128 := Rect.unit (s := S4096x128) ![0, 0] S4096x128.size inb_S4096x128_S4096x128_0_0

/-! ## What the body leaves in the output window's buffer -/

/-- The output buffer after the body, as a function of the blocks in the input buffers: the one store covers the
    buffer, and what it stores is the body's arithmetic applied to the loaded blocks. -/
def out0_3 (x0 : Vec F S4096x128 .f32) (x1 : Vec F S128x128 .f32) (x2 : Vec F S1x128 .f32) : Vec F S4096x128 .f32 :=
  View.canon [⟨r0_3, k0_pay1 (View.ld x0 r0_0) (View.ld x1 r0_1) (View.ld x2 r0_2)⟩]

/-- The one store's rectangle is the whole buffer: every index of the buffer lies in it. -/
theorem cover0_3 (p0 : Vec F S4096x128 .f32) (y : S4096x128.Idx) :
    ∃ pc ∈ ([⟨r0_3, p0⟩] : List (View.Piece (Elt F) S4096x128 .f32)), y ∈ pc.1.set :=
  View.cover_of_tiled [⟨r0_3, p0⟩] S4096x128.size (by rfl) y

/-! ## The body's triple -/

set_option maxHeartbeats 1000000 in
/-- Run on whole staging buffers, the inputs' reading `x0 …` and the output's holding anything, the body ends with the
    inputs' buffers unchanged and the output's reading `out0_3` of the inputs: it loads each buffer whole, computes, and
    stores once over the whole output buffer. -/
theorem sound_kernel0 (c : Dev nD) (E : Set ℕ) (i : grid0.Coords)
    (arg1 : Memref sig .tc .vmem S4096x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4096x128 .f32) (harg4 : arg4.IsWhole)
    (x0 : Vec F S4096x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_sigmoid_kernel i arg1 harg1 arg2 harg2 arg3 harg3 arg4 harg4) K := by
  simp only [cc0__fc_sigmoid_kernel_eq_skeleton]; unfold cc0__fc_sigmoid_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays are the entry contents `V`; after the body at grid
    point `t` each input buffer holds its block and the output buffer holds `out0_3` of the input blocks; the invariant
    is the one that leaves every other buffer and the random-number register alone; nothing is owed; shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic grid point -/

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold their blocks, so the body's triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of its body, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/- REGION 1 of @main: the second TensorCore call (the product of a matrix with the transpose of a block of rows), stated at a PARAMETER `V` — the contents of the TensorCore's
   buffers when the region is entered. For each window: its block of `V` at a grid point. For the body: what it leaves
   in the output window's buffer as a function of the input blocks it loads, the triple saying that it does, the
   pipeline's proof data over `V`, and the obligation the pipeline asks of its body at every grid point. Everything here
   holds at any carrier `F` of the float operations. -/
import proofs.«121911_j27986006901054_1_alg».proof.Proof.Gen.Kernel.Launch
import proofs.«121911_j27986006901054_1_alg».proof.Proof.Gen.Kernel.Skeleton
import proofs.«121911_j27986006901054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds the window's block of the entry contents at every grid point, whether or
    not the pipeline copied it in at that point: where it did not, the block index is the one of the point before and the
    body left the buffer as it was. Stated for any proof data over the entry contents `V` whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of input window 1 holds the window's block of the entry contents at every grid point, whether or
    not the pipeline copied it in at that point: where it did not, the block index is the one of the point before and the
    body left the buffer as it was. Stated for any proof data over the entry contents `V` whose body keeps the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S160x128 := Rect.unit (s := S160x128) ![0, 0] S160x128.size inb_S160x128_S160x128_0_0
abbrev r1_1 : Rect S4096x128 := Rect.unit (s := S4096x128) ![0, 0] S4096x128.size inb_S4096x128_S4096x128_0_0
abbrev r1_2 : Rect S160x4096 := Rect.unit (s := S160x4096) ![0, 0] S160x4096.size inb_S160x4096_S160x4096_0_0

/-! ## What the body leaves in the output window's buffer -/

/-- The output buffer after the body, as a function of the blocks in the input buffers: the one store covers the
    buffer, and what it stores is the body's arithmetic applied to the loaded blocks. -/
def out1_2 (x0 : Vec F S160x128 .f32) (x1 : Vec F S4096x128 .f32) : Vec F S160x4096 .f32 :=
  View.canon [⟨r1_2, k1_pay1 (View.ld x0 r1_0) (View.ld x1 r1_1)⟩]

/-- The one store's rectangle is the whole buffer: every index of the buffer lies in it. -/
theorem cover1_2 (p0 : Vec F S160x4096 .f32) (y : S160x4096.Idx) :
    ∃ pc ∈ ([⟨r1_2, p0⟩] : List (View.Piece (Elt F) S160x4096 .f32)), y ∈ pc.1.set :=
  View.cover_of_tiled [⟨r1_2, p0⟩] S160x4096.size (by rfl) y

/-! ## The body's triple -/

set_option maxHeartbeats 1000000 in
/-- Run on whole staging buffers, the inputs' reading `x0 …` and the output's holding anything, the body ends with the
    inputs' buffers unchanged and the output's reading `out1_2` of the inputs: it loads each buffer whole, computes, and
    stores once over the whole output buffer. -/
theorem sound_kernel1 (c : Dev nD) (E : Set ℕ) (i : grid1.Coords)
    (arg1 : Memref sig .tc .vmem S160x128 .f32) (harg1 : arg1.IsWhole)
    (arg2 : Memref sig .tc .vmem S4096x128 .f32) (harg2 : arg2.IsWhole)
    (arg3 : Memref sig .tc .vmem S160x4096 .f32) (harg3 : arg3.IsWhole)
    (x0 : Vec F S160x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__zx_kernel i arg1 harg1 arg2 harg2 arg3 harg3) K := by
  simp only [cc1__zx_kernel_eq_skeleton]; unfold cc1__zx_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this region's pipeline on core `c`: the arrays are the entry contents `V`; after the body at grid
    point `t` each input buffer holds its block and the output buffer holds `out1_2` of the input blocks; the invariant
    is the one that leaves every other buffer and the random-number register alone; nothing is owed; shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic grid point -/

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the input buffers hold their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of its body, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/- The step kernel of region 2 of @main (custom call 2, pipeline 2), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.Kernel.Launch
import proofs.«121911_j27986006901054_1_alg».proof.Proof.Gen.Kernel.Skeleton
import proofs.«121911_j27986006901054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store -/

/-- The whole 16×4096 output block as a rectangle: the body's store covers it entirely. -/
abbrev r2_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out2_4 (x0 : Vec F S160x4096 .f32) (x1 : Vec F S160x128 .f32) (x2 : Vec F S4096x128 .f32) (x3 : Vec F S16x160 .f32) : Vec F S16x4096 .f32 :=
  View.canon [⟨r2_0, k2_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover2_4 (p0 : Vec F S16x4096 .f32) (y : S16x4096.Idx) :
    ∃ pc ∈ ([⟨r2_0, p0⟩] : List (View.Piece (Elt F) S16x4096 .f32)), y ∈ pc.1.set :=
  View.cover_of_tiled [⟨r2_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out2_4 x0 x1 x2 x3`. -/
theorem sound_kernel2 (c : Dev nD) (E : Set ℕ) (i : grid2.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__step_kernel i arg1 harg1 arg2 harg2 arg3 harg3 arg4 harg4 arg5 harg5) K := by
  simp only [cc2__step_kernel_eq_skeleton]; unfold cc2__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the pipeline on core `c`. Its arrays are the region-entry contents `V`. After the body at
    point `t`, each input window's buffer still holds the window's block and the output window's buffer holds
    `out2_4` of the four input blocks. The invariant is the one of this class of kernels (the scoped remainder and
    the generator register, both untouched); shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/- What the body finds in each input window's buffer: the window's block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, the core's debt, and each window's current staging
    buffer at what the pipeline has left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the kernel's triple applies; the invariant and the
    core's debt are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
/- The step kernel of region 3 of @main (custom call 3, pipeline 3), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.Kernel.Launch
import proofs.«121911_j27986006901054_1_alg».proof.Proof.Gen.Kernel.Skeleton
import proofs.«121911_j27986006901054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store -/

/-- The whole 16×4096 output block as a rectangle: the body's store covers it entirely. -/
abbrev r3_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out3_4 (x0 : Vec F S160x4096 .f32) (x1 : Vec F S160x128 .f32) (x2 : Vec F S4096x128 .f32) (x3 : Vec F S16x160 .f32) : Vec F S16x4096 .f32 :=
  View.canon [⟨r3_0, k3_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover3_4 (p0 : Vec F S16x4096 .f32) (y : S16x4096.Idx) :
    ∃ pc ∈ ([⟨r3_0, p0⟩] : List (View.Piece (Elt F) S16x4096 .f32)), y ∈ pc.1.set :=
  View.cover_of_tiled [⟨r3_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out3_4 x0 x1 x2 x3`. -/
theorem sound_kernel3 (c : Dev nD) (E : Set ℕ) (i : grid3.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__step_kernel i arg1 harg1 arg2 harg2 arg3 harg3 arg4 harg4 arg5 harg5) K := by
  simp only [cc3__step_kernel_eq_skeleton]; unfold cc3__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the pipeline on core `c`. Its arrays are the region-entry contents `V`. After the body at
    point `t`, each input window's buffer still holds the window's block and the output window's buffer holds
    `out3_4` of the four input blocks. The invariant is the one of this class of kernels (the scoped remainder and
    the generator register, both untouched); shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/- What the body finds in each input window's buffer: the window's block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, the core's debt, and each window's current staging
    buffer at what the pipeline has left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What the body returns at point `t`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the kernel's triple applies; the invariant and the
    core's debt are not read and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4.lean ====
/- The step kernel of region 4 of @main (custom call 4, pipeline 4), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.Kernel.Launch
import proofs.«121911_j27986006901054_1_alg».proof.Proof.Gen.Kernel.Skeleton
import proofs.«121911_j27986006901054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store -/

/-- The whole 16×4096 output block as a rectangle: the body's store covers it entirely. -/
abbrev r4_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out4_4 (x0 : Vec F S160x4096 .f32) (x1 : Vec F S160x128 .f32) (x2 : Vec F S4096x128 .f32) (x3 : Vec F S16x160 .f32) : Vec F S16x4096 .f32 :=
  View.canon [⟨r4_0, k4_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover4_4 (p0 : Vec F S16x4096 .f32) (y : S16x4096.Idx) :
    ∃ pc ∈ ([⟨r4_0, p0⟩] : List (View.Piece (Elt F) S16x4096 .f32)), y ∈ pc.1.set :=
  View.cover_of_tiled [⟨r4_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out4_4 x0 x1 x2 x3`. -/
theorem sound_kernel4 (c : Dev nD) (E : Set ℕ) (i : grid4.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__step_kernel i arg1 harg1 arg2 harg2 arg3 harg3 arg4 harg4 arg5 harg5) K := by
  simp only [cc4__step_kernel_eq_skeleton]; unfold cc4__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the pipeline on core `c`. Its arrays are the region-entry contents `V`. After the body at
    point `t`, each input window's buffer still holds the window's block and the output window's buffer holds
    `out4_4` of the four input blocks. The invariant is the one of this class of kernels (the scoped remainder and
    the generator register, both untouched); shares are full and nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/- What the body finds in each input window's buffer: the window's block, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`: the invariant, the core's debt, and each window's current staging
    buffer at what the pipeline has left in it. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- What the body returns at point `t`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the input buffers hold their blocks, so the kernel's triple applies; the invariant and the
    core's debt are not read and pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KReg5.lean ====
/- The step kernel of region 5 of @main (custom call 5, pipeline 5), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.Kernel.Launch
import proofs.«121911_j27986006901054_1_alg».proof.Proof.Gen.Kernel.Skeleton
import proofs.«121911_j27986006901054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's one store -/

/-- The whole 16×4096 output block as a rectangle: the body's store covers it entirely. -/
abbrev r5_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out5_4 (x0 : Vec F S160x4096 .f32) (x1 : Vec F S160x128 .f32) (x2 : Vec F S4096x128 .f32) (x3 : Vec F S16x160 .f32) : Vec F S16x4096 .f32 :=
  View.canon [⟨r5_0, k5_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover5_4 (p0 : Vec F S16x4096 .f32) (y : S16x4096.Idx) :
    ∃ pc ∈ ([⟨r5_0, p0⟩] : List (View.Piece (Elt F) S16x4096 .f32)), y ∈ pc.1.set :=
  View.cover_of_tiled [⟨r5_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out5_4 x0 x1 x2 x3`. -/
theorem sound_kernel5 (c : Dev nD) (E : Set ℕ) (i : grid5.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__step_kernel i arg1 harg1 arg2 harg2 arg3 harg3 arg4 harg4 arg5 harg5) K := by
  simp only [cc5__step_kernel_eq_skeleton]; unfold cc5__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of the pipeline on core `c`. Its arrays are the region-entry contents `V`. After the body at
    point `t`, each input window's buffer still holds the window's block and the output window's buffer holds
    `out5_4` of the four input blocks. The invariant is the one of this class of kernels (the scoped remainder and
    the generator register, both untouched); shares are full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/- What the body finds in each input window's buffer: the window's block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`: the invariant, the core's debt, and each window's current staging
    buffer at what the pipeline has left in it. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- What the body returns at point `t`. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so the kernel's triple applies; the invariant and the
    core's debt are not read and pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KReg6.lean ====
/- REGION 6 of @main: the last TensorCore call (a matrix product with a weight matrix, plus a bias row, through the leaky rectifier), on a grid of one point, stated at a PARAMETER `V` — the contents of the TensorCore's
   buffers when the region is entered. For each window: its block of `V` at a grid point. For the body: what it leaves
   in the output window's buffer as a function of the input blocks it loads, the triple saying that it does, the
   pipeline's proof data over `V`, and the obligation the pipeline asks of its body at every grid point. Everything here
   holds at any carrier `F` of the float operations. -/
import proofs.«121911_j27986006901054_1_alg».proof.Proof.Gen.Kernel.Launch
import proofs.«121911_j27986006901054_1_alg».proof.Proof.Gen.Kernel.Skeleton
import proofs.«121911_j27986006901054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The staging buffer of input window 0 holds the window's block of the entry contents at every grid point, whether or
    not the pipeline copied it in at that point: where it did not, the block index is the one of the point before and the
    body left the buffer as it was. Stated for any proof data over the entry contents `V` whose body keeps the block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The staging buffer of input window 1 holds the window's block of the entry contents at every grid point, whether or
    not the pipeline copied it in at that point: where it did not, the block index is the one of the point before and the
    body left the buffer as it was. Stated for any proof data over the entry contents `V` whose body keeps the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The staging buffer of input window 2 holds the window's block of the entry contents at every grid point, whether or
    not the pipeline copied it in at that point: where it did not, the block index is the one of the point before and the
    body left the buffer as it was. Stated for any proof data over the entry contents `V` whose body keeps the block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_0 : Rect S2048x64 := Rect.unit (s := S2048x64) ![0, 0] S2048x64.size inb_S2048x64_S2048x64_0_0
abbrev r6_1 : Rect S64x128 := Rect.unit (s := S64x128) ![0, 0] S64x128.size inb_S64x128_S64x128_0_0
abbrev r6_2 : Rect S1x128 := Rect.unit (s := S1x128) ![0, 0] S1x128.size inb_S1x128_S1x128_0_0
abbrev r6_3 : Rect S2048x128 := Rect.unit (s := S2048x128) ![0, 0] S2048x128.size inb_S2048x128_S2048x128_0_0

/-! ## What the body leaves in the output window's buffer -/

/-- The output buffer after the body, as a function of the blocks in the input buffers: the one store covers the
    buffer, and what it stores is the body's arithmetic applied to the loaded blocks. -/
def out6_3 (x0 : Vec F S2048x64 .f32) (x1 : Vec F S64x128 .f32) (x2 : Vec F S1x128 .f32) : Vec F S2048x128 .f32 :=
  View.canon [⟨r6_3, k6_pay1 (View.ld x0 r6_0) (View.ld x1 r6_1) (View.ld x2 r6_2)⟩]

/-- The one store's rectangle is the whole buffer: every index of the buffer lies in it. -/
theorem cover6_3 (p0 : Vec F S2048x128 .f32) (y : S2048x128.Idx) :
    ∃ pc ∈ ([⟨r6_3, p0⟩] : List (View.Piece (Elt F) S2048x128 .f32)), y ∈ pc.1.set :=
  View.cover_of_tiled [⟨r6_3, p0⟩] S2048x128.size (by rfl) y

/-! ## The body's triple -/

set_option maxHeartbeats 1000000 in
/-- Run on whole staging buffers, the inputs' reading `x0 …` and the output's holding anything, the body ends with the
    inputs' buffers unchanged and the output's reading `out6_3` of the inputs: it loads each buffer whole, computes, and
    stores once over the whole output buffer. -/
theorem sound_kernel6 (c : Dev nD) (E : Set ℕ) (i : grid6.Coords)
    (arg1 : Memref sig .tc .vmem S2048x64 .f32) (harg1 : arg1.IsWhole)
    (arg2 : Memref sig .tc .vmem S64x128 .f32) (harg2 : arg2.IsWhole)
    (arg3 : Memref sig .tc .vmem S1x128 .f32) (harg3 : arg3.IsWhole)
    (arg4 : Memref sig .tc .vmem S2048x128 .f32) (harg4 : arg4.IsWhole)
    (x0 : Vec F S2048x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__final_kernel i arg1 harg1 arg2 harg2 arg3 harg3 arg4 harg4) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of this region's pipeline on core `c`: the arrays are the entry contents `V`; after the body at grid
    point `t` each input buffer holds its block and the output buffer holds `out6_3` of the input blocks; the invariant
    is the one that leaves every other buffer and the random-number register alone; nothing is owed; shares are full. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's staging buffer holds its block at every grid point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic grid point -/

/-- What the body is called with at grid point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the input buffers hold their blocks, so the body's triple applies; the invariant and what
    the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of its body, at every grid point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KRunW.lean ====
/- The run of @main, first part: what the TensorCore's buffers hold at each boundary between two items of @main, as a
   fold from the launch memory. An item that is a stretch of host operations leaves what the stretch's operations
   compute from the contents before it; an item that is a kernel region leaves its arrays at what the pipeline's
   write-backs produce and every other buffer as the region found it. Then, per item, the buffers it cannot have
   changed; per region, what each of its arrays holds afterwards; each argument array read back through the whole fold
   to the launch memory; and the data every later module shares (the proof data of all seven pipelines, each at its
   region's entry contents, and the part of a core's state that rides beside the buffers). Any carrier `F`. -/
import proofs.«121911_j27986006901054_1_alg».proof.Proof.KReg0
import proofs.«121911_j27986006901054_1_alg».proof.Proof.KReg1
import proofs.«121911_j27986006901054_1_alg».proof.Proof.KReg2
import proofs.«121911_j27986006901054_1_alg».proof.Proof.KReg3
import proofs.«121911_j27986006901054_1_alg».proof.Proof.KReg4
import proofs.«121911_j27986006901054_1_alg».proof.Proof.KReg5
import proofs.«121911_j27986006901054_1_alg».proof.Proof.KReg6
import proofs.«121911_j27986006901054_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at each boundary -/

/-- Core `c`'s buffers at launch. -/
abbrev W0 (m : (ℓ : Loc nD τ sig) → Buf (Elt F) ℓ) (ρ : Dev nD → PrngReg) : Dev nD → Valuation τ sig (Elt F) := fun c b => m ((c : Dev nD), b)
/-- The same read at the TensorCore's references. -/
abbrev V0 (m : (ℓ : Loc nD τ sig) → Buf (Elt F) ℓ) (ρ : Dev nD → PrngReg) : (c : Dev nD) → (b : Ref sig .tc) → Buf (Elt F) ((c : Thread nD τ).loc b) := fun c b => W0 m ρ c b

/-- After item 0, the host stretch `hostOps0`. -/
abbrev W1 (m : (ℓ : Loc nD τ sig) → Buf (Elt F) ℓ) (ρ : Dev nD → PrngReg) : Dev nD → Valuation τ sig (Elt F) := fun c => StableHlo.after hostOps0 (W0 m ρ c)
/-- The same read at the TensorCore's references. -/
abbrev V1 (m : (ℓ : Loc nD τ sig) → Buf (Elt F) ℓ) (ρ : Dev nD → PrngReg) : (c : Dev nD) → (b : Ref sig .tc) → Buf (Elt F) ((c : Thread nD τ).loc b) := fun c b => W1 m ρ c b
/-- A buffer the stretch does not write keeps its contents. -/
theorem W1_keep (m : (ℓ : Loc nD τ sig) → Buf (Elt F) ℓ) (ρ : Dev nD → PrngReg) (c : Dev nD) (r : Ref sig .tc) (h : r ∉ hostOps0_W) :
    W1 m ρ c (Proc.devRef .tc r) = W0 m ρ c (Proc.devRef .tc r) :=
  StableHlo.after_of_writes_sub hostOps0 _ hostOps0_writes h

/-- After item 1, the host stretch `hostOps0_1`. -/
abbrev W2 (m : (ℓ : Loc nD τ sig) → Buf (Elt F) ℓ) (ρ : Dev nD → PrngReg) : Dev nD → Valuation τ sig (Elt F) := fun c => StableHlo.after hostOps0_1 (W1 m ρ c)
/-- The same read at the TensorCore's references. -/
abbrev V2 (m : (ℓ : Loc nD τ sig) → Buf (Elt F) ℓ) (ρ : Dev nD → PrngReg) : (c : Dev nD) → (b : Ref sig .tc) → Buf (Elt F) ((c : Thread nD τ).loc b) := fun c b => W2 m ρ c b
/-- A buffer the stretch does not write keeps its contents. -/
theorem W2_keep (m : (ℓ : Loc nD τ sig) → Buf (Elt F) ℓ) (ρ : Dev nD → PrngReg) (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After item 2, the host stretch `hostOps0_2`. -/
abbrev W3 (m : (ℓ : Loc nD τ sig) → Buf (Elt F) ℓ) (ρ : Dev nD → PrngReg) : Dev nD → Valuation τ sig (Elt F) := fun c => StableHlo.after hostOps0_2 (W2 m ρ c)
/-- The same read at the TensorCore's references. -/
abbrev V3 (m : (ℓ : Loc nD τ sig) → Buf (Elt F) ℓ) (ρ : Dev nD → PrngReg) : (c : Dev nD) → (b : Ref sig .tc) → Buf (Elt F) ((c : Thread nD τ).loc b) := fun c b => W3 m ρ c b
/-- A buffer the stretch does not write keeps its contents. -/
theorem W3_keep (m : (ℓ : Loc nD τ sig) → Buf (Elt F) ℓ) (ρ : Dev nD → PrngReg) (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After item 3, the host stretch `hostOps0_3`. -/
abbrev W4 (m : (ℓ : Loc nD τ sig) → Buf (Elt F) ℓ) (ρ : Dev nD → PrngReg) : Dev nD → Valuation τ sig (Elt F) := fun c => StableHlo.after hostOps0_3 (W3 m ρ c)
/-- The same read at the TensorCore's references. -/
abbrev V4 (m : (ℓ : Loc nD τ sig) → Buf (Elt F) ℓ) (ρ : Dev nD → PrngReg) : (c : Dev nD) → (b : Ref sig .tc) → Buf (Elt F) ((c : Thread nD τ).loc b) := fun c b => W4 m ρ c b
/-- A buffer the stretch does not write keeps its contents. -/
theorem W4_keep (m : (ℓ : Loc nD τ sig) → Buf (Elt F) ℓ) (ρ : Dev nD → PrngReg) (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- After item 4, the host stretch `hostOps0_4`. -/
abbrev W5 (m : (ℓ : Loc nD τ sig) → Buf (Elt F) ℓ) (ρ : Dev nD → PrngReg) : Dev nD → Valuation τ sig (Elt F) := fun c => StableHlo.after hostOps0_4 (W4 m ρ c)
/-- The same read at the TensorCore's references. -/
abbrev V5 (m : (ℓ : Loc nD τ sig) → Buf (Elt F) ℓ) (ρ : Dev nD → PrngReg) : (c : Dev nD) → (b : Ref sig .tc) → Buf (Elt F) ((c : Thread nD τ).loc b) := fun c b => W5 m ρ c b
/-- A buffer the stretch does not write keeps its contents. -/
theorem W5_keep (m : (ℓ : Loc nD τ sig) → Buf (Elt F) ℓ) (ρ : Dev nD → PrngReg) (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

/-- After item 5, region 0 (the product with the weight matrix plus the bias row, through the logistic function): its arrays at what the pipeline leaves (an input array as entered, the output
    array with every point's write-back folded in), every other buffer as entered. -/
def W6 (m : (ℓ : Loc nD τ sig) → Buf (Elt F) ℓ) (ρ : Dev nD → PrngReg) (c : Dev nD) : Valuation τ sig (Elt F) :=
  Pipeline.withArrays spec0 c (W5 m ρ c) fun w => (dat0 (V5 m ρ) c).arrAt w cfg0.N
theorem W6_arr (m : (ℓ : Loc nD τ sig) → Buf (Elt F) ℓ) (ρ : Dev nD → PrngReg) (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (m : (ℓ : Loc nD τ sig) → Buf (Elt F) ℓ) (ρ : Dev nD → PrngReg) (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 (m : (ℓ : Loc nD τ sig) → Buf (Elt F) ℓ) (ρ : Dev nD → PrngReg) : (c : Dev nD) → (b : Ref sig .tc) → Buf (Elt F) ((c : Thread nD τ).loc b) := fun c b => W6 m ρ c b
/-- At the region's exit each of its arrays holds what the pipeline leaves, and every other buffer what it held at entry. -/
theorem hF0 (m : (ℓ : Loc nD τ sig) → Buf (Elt F) ℓ) (ρ : Dev nD → PrngReg) (c : Dev nD) (w : Fin cfg0.W) : (dat0 (V5 m ρ) c).arrAt w cfg0.N = V6 m ρ c (Pipeline.arrRef spec0 w) :=
  (W6_arr m ρ c w).symm
theorem hrest0 (m : (ℓ : Loc nD τ sig) → Buf (Elt F) ℓ) (ρ : Dev nD → PrngReg) (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- A buffer that is none of the region's arrays keeps its contents. -/
theorem W6_keep (m : (ℓ : Loc nD τ sig) → Buf (Elt F) ℓ) (ρ : Dev nD → PrngReg) (c : Dev nD) (r : Ref sig .tc) (h : r ∉ ([main_v25, main_arg4, main_v26, main_v27] : List (Ref sig .tc))) :
    W6 m ρ c (Proc.devRef .tc r) = W5 m ρ c (Proc.devRef .tc r) :=
  have hm : ∀ w : Fin cfg0.W, Pipeline.arrRef spec0 w ∈ ([main_v25, main_arg4, main_v26, main_v27] : List (Ref sig .tc)) := by decide
  W6_of_ne m ρ c r fun w e => h (e ▸ hm w)
/-- The output array afterwards: the entry contents with every point's block written back. -/
theorem W6_out (m : (ℓ : Loc nD τ sig) → Buf (Elt F) ℓ) (ρ : Dev nD → PrngReg) (c : Dev nD) : W6 m ρ c (Proc.devRef .tc main_v27) = (dat0 (V5 m ρ) c).arrAt 3 cfg0.N :=
  W6_arr m ρ c 3
/-- Input window 0's array is never written back: it holds afterwards what it held at entry. -/
theorem W6_in0 (m : (ℓ : Loc nD τ sig) → Buf (Elt F) ℓ) (ρ : Dev nD → PrngReg) (c : Dev nD) : W6 m ρ c (Proc.devRef .tc main_v25) = W5 m ρ c (Proc.devRef .tc main_v25) :=
  (W6_arr m ρ c 0).trans (((dat0 (V5 m ρ) c).arrAt_in 0 rfl _).trans (A_eq0 (V5 m ρ) c 0))
/-- Input window 1's array is never written back: it holds afterwards what it held at entry. -/
theorem W6_in1 (m : (ℓ : Loc nD τ sig) → Buf (Elt F) ℓ) (ρ : Dev nD → PrngReg) (c : Dev nD) : W6 m ρ c (Proc.devRef .tc main_arg4) = W5 m ρ c (Proc.devRef .tc main_arg4) :=
  (W6_arr m ρ c 1).trans (((dat0 (V5 m ρ) c).arrAt_in 1 rfl _).trans (A_eq0 (V5 m ρ) c 1))
/-- Input window 2's array is never written back: it holds afterwards what it held at entry. -/
theorem W6_in2 (m : (ℓ : Loc nD τ sig) → Buf (Elt F) ℓ) (ρ : Dev nD → PrngReg) (c : Dev nD) : W6 m ρ c (Proc.devRef .tc main_v26) = W5 m ρ c (Proc.devRef .tc main_v26) :=
  (W6_arr m ρ c 2).trans (((dat0 (V5 m ρ) c).arrAt_in 2 rfl _).trans (A_eq0 (V5 m ρ) c 2))

/-- After item 6, the host stretch `hostOps1`. -/
abbrev W7 (m : (ℓ : Loc nD τ sig) → Buf (Elt F) ℓ) (ρ : Dev nD → PrngReg) : Dev nD → Valuation τ sig (Elt F) := fun c => StableHlo.after hostOps1 (W6 m ρ c)
/-- The same read at the TensorCore's references. -/
abbrev V7 (m : (ℓ : Loc nD τ sig) → Buf (Elt F) ℓ) (ρ : Dev nD → PrngReg) : (c : Dev nD) → (b : Ref sig .tc) → Buf (Elt F) ((c : Thread nD τ).loc b) := fun c b => W7 m ρ c b
/-- A buffer the stretch does not write keeps its contents. -/
theorem W7_keep (m : (ℓ : Loc nD τ sig) → Buf (Elt F) ℓ) (ρ : Dev nD → PrngReg) (c : Dev nD) (r : Ref sig .tc) (h : r ∉ hostOps1_W) :
    W7 m ρ c (Proc.devRef .tc r) = W6 m ρ c (Proc.devRef .tc r) :=
  StableHlo.after_of_writes_sub hostOps1 _ hostOps1_writes h

/-- After item 7, region 1 (the product of z with the transposed x blocks): its arrays at what the pipeline leaves (an input array as entered, the output
    array with every point's write-back folded in), every other buffer as entered. -/
def W8 (m : (ℓ : Loc nD τ sig) → Buf (Elt F) ℓ) (ρ : Dev nD → PrngReg) (c : Dev nD) : Valuation τ sig (Elt F) :=
  Pipeline.withArrays spec1 c (W7 m ρ c) fun w => (dat1 (V7 m ρ) c).arrAt w cfg1.N
theorem W8_arr (m : (ℓ : Loc nD τ sig) → Buf (Elt F) ℓ) (ρ : Dev nD → PrngReg) (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (m : (ℓ : Loc nD τ sig) → Buf (Elt F) ℓ) (ρ : Dev nD → PrngReg) (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 (m : (ℓ : Loc nD τ sig) → Buf (Elt F) ℓ) (ρ : Dev nD → PrngReg) : (c : Dev nD) → (b : Ref sig .tc) → Buf (Elt F) ((c : Thread nD τ).loc b) := fun c b => W8 m ρ c b
/-- At the region's exit each of its arrays holds what the pipeline leaves, and every other buffer what it held at entry. -/
theorem hF1 (m : (ℓ : Loc nD τ sig) → Buf (Elt F) ℓ) (ρ : Dev nD → PrngReg) (c : Dev nD) (w : Fin cfg1.W) : (dat1 (V7 m ρ) c).arrAt w cfg1.N = V8 m ρ c (Pipeline.arrRef spec1 w) :=
  (W8_arr m ρ c w).symm
theorem hrest1 (m : (ℓ : Loc nD τ sig) → Buf (Elt F) ℓ) (ρ : Dev nD → PrngReg) (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- A buffer that is none of the region's arrays keeps its contents. -/
theorem W8_keep (m : (ℓ : Loc nD τ sig) → Buf (Elt F) ℓ) (ρ : Dev nD → PrngReg) (c : Dev nD) (r : Ref sig .tc) (h : r ∉ ([main_v28, main_v27, main_v29] : List (Ref sig .tc))) :
    W8 m ρ c (Proc.devRef .tc r) = W7 m ρ c (Proc.devRef .tc r) :=
  have hm : ∀ w : Fin cfg1.W, Pipeline.arrRef spec1 w ∈ ([main_v28, main_v27, main_v29] : List (Ref sig .tc)) := by decide
  W8_of_ne m ρ c r fun w e => h (e ▸ hm w)
/-- The output array afterwards: the entry contents with every point's block written back. -/
theorem W8_out (m : (ℓ : Loc nD τ sig) → Buf (Elt F) ℓ) (ρ : Dev nD → PrngReg) (c : Dev nD) : W8 m ρ c (Proc.devRef .tc main_v29) = (dat1 (V7 m ρ) c).arrAt 2 cfg1.N :=
  W8_arr m ρ c 2
/-- Input window 0's array is never written back: it holds afterwards what it held at entry. -/
theorem W8_in0 (m : (ℓ : Loc nD τ sig) → Buf (Elt F) ℓ) (ρ : Dev nD → PrngReg) (c : Dev nD) : W8 m ρ c (Proc.devRef .tc main_v28) = W7 m ρ c (Proc.devRef .tc main_v28) :=
  (W8_arr m ρ c 0).trans (((dat1 (V7 m ρ) c).arrAt_in 0 rfl _).trans (A_eq1 (V7 m ρ) c 0))
/-- Input window 1's array is never written back: it holds afterwards what it held at entry. -/
theorem W8_in1 (m : (ℓ : Loc nD τ sig) → Buf (Elt F) ℓ) (ρ : Dev nD → PrngReg) (c : Dev nD) : W8 m ρ c (Proc.devRef .tc main_v27) = W7 m ρ c (Proc.devRef .tc main_v27) :=
  (W8_arr m ρ c 1).trans (((dat1 (V7 m ρ) c).arrAt_in 1 rfl _).trans (A_eq1 (V7 m ρ) c 1))

/-- After item 8, the host stretch `hostOps2`. -/
abbrev W9 (m : (ℓ : Loc nD τ sig) → Buf (Elt F) ℓ) (ρ : Dev nD → PrngReg) : Dev nD → Valuation τ sig (Elt F) := fun c => StableHlo.after hostOps2 (W8 m ρ c)
/-- The same read at the TensorCore's references. -/
abbrev V9 (m : (ℓ : Loc nD τ sig) → Buf (Elt F) ℓ) (ρ : Dev nD → PrngReg) : (c : Dev nD) → (b : Ref sig .tc) → Buf (Elt F) ((c : Thread nD τ).loc b) := fun c b => W9 m ρ c b
/-- A buffer the stretch does not write keeps its contents. -/
theorem W9_keep (m : (ℓ : Loc nD τ sig) → Buf (Elt F) ℓ) (ρ : Dev nD → PrngReg) (c : Dev nD) (r : Ref sig .tc) (h : r ∉ hostOps2_W) :
    W9 m ρ c (Proc.devRef .tc r) = W8 m ρ c (Proc.devRef .tc r) :=
  StableHlo.after_of_writes_sub hostOps2 _ hostOps2_writes h

/-- After item 9, region 2 (the first step): its arrays at what the pipeline leaves (an input array as entered, the output
    array with every point's write-back folded in), every other buffer as entered. -/
def W10 (m : (ℓ : Loc nD τ sig) → Buf (Elt F) ℓ) (ρ : Dev nD → PrngReg) (c : Dev nD) : Valuation τ sig (Elt F) :=
  Pipeline.withArrays spec2 c (W9 m ρ c) fun w => (dat2 (V9 m ρ) c).arrAt w cfg2.N
theorem W10_arr (m : (ℓ : Loc nD τ sig) → Buf (Elt F) ℓ) (ρ : Dev nD → PrngReg) (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (m : (ℓ : Loc nD τ sig) → Buf (Elt F) ℓ) (ρ : Dev nD → PrngReg) (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev V10 (m : (ℓ : Loc nD τ sig) → Buf (Elt F) ℓ) (ρ : Dev nD → PrngReg) : (c : Dev nD) → (b : Ref sig .tc) → Buf (Elt F) ((c : Thread nD τ).loc b) := fun c b => W10 m ρ c b
/-- At the region's exit each of its arrays holds what the pipeline leaves, and every other buffer what it held at entry. -/
theorem hF2 (m : (ℓ : Loc nD τ sig) → Buf (Elt F) ℓ) (ρ : Dev nD → PrngReg) (c : Dev nD) (w : Fin cfg2.W) : (dat2 (V9 m ρ) c).arrAt w cfg2.N = V10 m ρ c (Pipeline.arrRef spec2 w) :=
  (W10_arr m ρ c w).symm
theorem hrest2 (m : (ℓ : Loc nD τ sig) → Buf (Elt F) ℓ) (ρ : Dev nD → PrngReg) (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- A buffer that is none of the region's arrays keeps its contents. -/
theorem W10_keep (m : (ℓ : Loc nD τ sig) → Buf (Elt F) ℓ) (ρ : Dev nD → PrngReg) (c : Dev nD) (r : Ref sig .tc) (h : r ∉ ([main_v29, main_v28, main_v27, main_cst, main_v35] : List (Ref sig .tc))) :
    W10 m ρ c (Proc.devRef .tc r) = W9 m ρ c (Proc.devRef .tc r) :=
  have hm : ∀ w : Fin cfg2.W, Pipeline.arrRef spec2 w ∈ ([main_v29, main_v28, main_v27, main_cst, main_v35] : List (Ref sig .tc)) := by decide
  W10_of_ne m ρ c r fun w e => h (e ▸ hm w)
/-- The output array afterwards: the entry contents with every point's block written back. -/
theorem W10_out (m : (ℓ : Loc nD τ sig) → Buf (Elt F) ℓ) (ρ : Dev nD → PrngReg) (c : Dev nD) : W10 m ρ c (Proc.devRef .tc main_v35) = (dat2 (V9 m ρ) c).arrAt 4 cfg2.N :=
  W10_arr m ρ c 4
/-- Input window 0's array is never written back: it holds afterwards what it held at entry. -/
theorem W10_in0 (m : (ℓ : Loc nD τ sig) → Buf (Elt F) ℓ) (ρ : Dev nD → PrngReg) (c : Dev nD) : W10 m ρ c (Proc.devRef .tc main_v29) = W9 m ρ c (Proc.devRef .tc main_v29) :=
  (W10_arr m ρ c 0).trans (((dat2 (V9 m ρ) c).arrAt_in 0 rfl _).trans (A_eq2 (V9 m ρ) c 0))
/-- Input window 1's array is never written back: it holds afterwards what it held at entry. -/
theorem W10_in1 (m : (ℓ : Loc nD τ sig) → Buf (Elt F) ℓ) (ρ : Dev nD → PrngReg) (c : Dev nD) : W10 m ρ c (Proc.devRef .tc main_v28) = W9 m ρ c (Proc.devRef .tc main_v28) :=
  (W10_arr m ρ c 1).trans (((dat2 (V9 m ρ) c).arrAt_in 1 rfl _).trans (A_eq2 (V9 m ρ) c 1))
/-- Input window 2's array is never written back: it holds afterwards what it held at entry. -/
theorem W10_in2 (m : (ℓ : Loc nD τ sig) → Buf (Elt F) ℓ) (ρ : Dev nD → PrngReg) (c : Dev nD) : W10 m ρ c (Proc.devRef .tc main_v27) = W9 m ρ c (Proc.devRef .tc main_v27) :=
  (W10_arr m ρ c 2).trans (((dat2 (V9 m ρ) c).arrAt_in 2 rfl _).trans (A_eq2 (V9 m ρ) c 2))
/-- Input window 3's array is never written back: it holds afterwards what it held at entry. -/
theorem W10_in3 (m : (ℓ : Loc nD τ sig) → Buf (Elt F) ℓ) (ρ : Dev nD → PrngReg) (c : Dev nD) : W10 m ρ c (Proc.devRef .tc main_cst) = W9 m ρ c (Proc.devRef .tc main_cst) :=
  (W10_arr m ρ c 3).trans (((dat2 (V9 m ρ) c).arrAt_in 3 rfl _).trans (A_eq2 (V9 m ρ) c 3))

/-- After item 10, the host stretch `hostOps3`. -/
abbrev W11 (m : (ℓ : Loc nD τ sig) → Buf (Elt F) ℓ) (ρ : Dev nD → PrngReg) : Dev nD → Valuation τ sig (Elt F) := fun c => StableHlo.after hostOps3 (W10 m ρ c)
/-- The same read at the TensorCore's references. -/
abbrev V11 (m : (ℓ : Loc nD τ sig) → Buf (Elt F) ℓ) (ρ : Dev nD → PrngReg) : (c : Dev nD) → (b : Ref sig .tc) → Buf (Elt F) ((c : Thread nD τ).loc b) := fun c b => W11 m ρ c b
/-- A buffer the stretch does not write keeps its contents. -/
theorem W11_keep (m : (ℓ : Loc nD τ sig) → Buf (Elt F) ℓ) (ρ : Dev nD → PrngReg) (c : Dev nD) (r : Ref sig .tc) (h : r ∉ hostOps3_W) :
    W11 m ρ c (Proc.devRef .tc r) = W10 m ρ c (Proc.devRef .tc r) :=
  StableHlo.after_of_writes_sub hostOps3 _ hostOps3_writes h

/-- After item 11, the host stretch `hostOps3_1`. -/
abbrev W12 (m : (ℓ : Loc nD τ sig) → Buf (Elt F) ℓ) (ρ : Dev nD → PrngReg) : Dev nD → Valuation τ sig (Elt F) := fun c => StableHlo.after hostOps3_1 (W11 m ρ c)
/-- The same read at the TensorCore's references. -/
abbrev V12 (m : (ℓ : Loc nD τ sig) → Buf (Elt F) ℓ) (ρ : Dev nD → PrngReg) : (c : Dev nD) → (b : Ref sig .tc) → Buf (Elt F) ((c : Thread nD τ).loc b) := fun c b => W12 m ρ c b
/-- A buffer the stretch does not write keeps its contents. -/
theorem W12_keep (m : (ℓ : Loc nD τ sig) → Buf (Elt F) ℓ) (ρ : Dev nD → PrngReg) (c : Dev nD) (r : Ref sig .tc) (h : r ∉ hostOps3_1_W) :
    W12 m ρ c (Proc.devRef .tc r) = W11 m ρ c (Proc.devRef .tc r) :=
  StableHlo.after_of_writes_sub hostOps3_1 _ hostOps3_1_writes h

/-- After item 12, region 3 (the second step): its arrays at what the pipeline leaves (an input array as entered, the output
    array with every point's write-back folded in), every other buffer as entered. -/
def W13 (m : (ℓ : Loc nD τ sig) → Buf (Elt F) ℓ) (ρ : Dev nD → PrngReg) (c : Dev nD) : Valuation τ sig (Elt F) :=
  Pipeline.withArrays spec3 c (W12 m ρ c) fun w => (dat3 (V12 m ρ) c).arrAt w cfg3.N
theorem W13_arr (m : (ℓ : Loc nD τ sig) → Buf (Elt F) ℓ) (ρ : Dev nD → PrngReg) (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (m : (ℓ : Loc nD τ sig) → Buf (Elt F) ℓ) (ρ : Dev nD → PrngReg) (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
/-- The same read at the TensorCore's references. -/
abbrev V13 (m : (ℓ : Loc nD τ sig) → Buf (Elt F) ℓ) (ρ : Dev nD → PrngReg) : (c : Dev nD) → (b : Ref sig .tc) → Buf (Elt F) ((c : Thread nD τ).loc b) := fun c b => W13 m ρ c b
/-- At the region's exit each of its arrays holds what the pipeline leaves, and every other buffer what it held at entry. -/
theorem hF3 (m : (ℓ : Loc nD τ sig) → Buf (Elt F) ℓ) (ρ : Dev nD → PrngReg) (c : Dev nD) (w : Fin cfg3.W) : (dat3 (V12 m ρ) c).arrAt w cfg3.N = V13 m ρ c (Pipeline.arrRef spec3 w) :=
  (W13_arr m ρ c w).symm
theorem hrest3 (m : (ℓ : Loc nD τ sig) → Buf (Elt F) ℓ) (ρ : Dev nD → PrngReg) (c : Dev nD) : ∀ b, b ∉ Finset.univ.image (Pipeline.arrRef spec3) → V13 m ρ c b = V12 m ρ c b :=
  fun b hb => W13_of_ne m ρ c b fun w e => hb (Finset.mem_image.mpr ⟨w, Finset.mem_univ _, e⟩)
/-- A buffer that is none of the region's arrays keeps its contents. -/
theorem W13_keep (m : (ℓ : Loc nD τ sig) → Buf (Elt F) ℓ) (ρ : Dev nD → PrngReg) (c : Dev nD) (r : Ref sig .tc) (h : r ∉ ([main_v29, main_v52, main_v53, main_cst, main_v54] : List (Ref sig .tc))) :
    W13 m ρ c (Proc.devRef .tc r) = W12 m ρ c (Proc.devRef .tc r) :=
  have hm : ∀ w : Fin cfg3.W, Pipeline.arrRef spec3 w ∈ ([main_v29, main_v52, main_v53, main_cst, main_v54] : List (Ref sig .tc)) := by decide
  W13_of_ne m ρ c r fun w e => h (e ▸ hm w)
/-- The output array afterwards: the entry contents with every point's block written back. -/
theorem W13_out (m : (ℓ : Loc nD τ sig) → Buf (Elt F) ℓ) (ρ : Dev nD → PrngReg) (c : Dev nD) : W13 m ρ c (Proc.devRef .tc main_v54) = (dat3 (V12 m ρ) c).arrAt 4 cfg3.N :=
  W13_arr m ρ c 4
/-- Input window 0's array is never written back: it holds afterwards what it held at entry. -/
theorem W13_in0 (m : (ℓ : Loc nD τ sig) → Buf (Elt F) ℓ) (ρ : Dev nD → PrngReg) (c : Dev nD) : W13 m ρ c (Proc.devRef .tc main_v29) = W12 m ρ c (Proc.devRef .tc main_v29) :=
  (W13_arr m ρ c 0).trans (((dat3 (V12 m ρ) c).arrAt_in 0 rfl _).trans (A_eq3 (V12 m ρ) c 0))
/-- Input window 1's array is never written back: it holds afterwards what it held at entry. -/
theorem W13_in1 (m : (ℓ : Loc nD τ sig) → Buf (Elt F) ℓ) (ρ : Dev nD → PrngReg) (c : Dev nD) : W13 m ρ c (Proc.devRef .tc main_v52) = W12 m ρ c (Proc.devRef .tc main_v52) :=
  (W13_arr m ρ c 1).trans (((dat3 (V12 m ρ) c).arrAt_in 1 rfl _).trans (A_eq3 (V12 m ρ) c 1))
/-- Input window 2's array is never written back: it holds afterwards what it held at entry. -/
theorem W13_in2 (m : (ℓ : Loc nD τ sig) → Buf (Elt F) ℓ) (ρ : Dev nD → PrngReg) (c : Dev nD) : W13 m ρ c (Proc.devRef .tc main_v53) = W12 m ρ c (Proc.devRef .tc main_v53) :=
  (W13_arr m ρ c 2).trans (((dat3 (V12 m ρ) c).arrAt_in 2 rfl _).trans (A_eq3 (V12 m ρ) c 2))
/-- Input window 3's array is never written back: it holds afterwards what it held at entry. -/
theorem W13_in3 (m : (ℓ : Loc nD τ sig) → Buf (Elt F) ℓ) (ρ : Dev nD → PrngReg) (c : Dev nD) : W13 m ρ c (Proc.devRef .tc main_cst) = W12 m ρ c (Proc.devRef .tc main_cst) :=
  (W13_arr m ρ c 3).trans (((dat3 (V12 m ρ) c).arrAt_in 3 rfl _).trans (A_eq3 (V12 m ρ) c 3))

/-- After item 13, the host stretch `hostOps4`. -/
abbrev W14 (m : (ℓ : Loc nD τ sig) → Buf (Elt F) ℓ) (ρ : Dev nD → PrngReg) : Dev nD → Valuation τ sig (Elt F) := fun c => StableHlo.after hostOps4 (W13 m ρ c)
/-- The same read at the TensorCore's references. -/
abbrev V14 (m : (ℓ : Loc nD τ sig) → Buf (Elt F) ℓ) (ρ : Dev nD → PrngReg) : (c : Dev nD) → (b : Ref sig .tc) → Buf (Elt F) ((c : Thread nD τ).loc b) := fun c b => W14 m ρ c b
/-- A buffer the stretch does not write keeps its contents. -/
theorem W14_keep (m : (ℓ : Loc nD τ sig) → Buf (Elt F) ℓ) (ρ : Dev nD → PrngReg) (c : Dev nD) (r : Ref sig .tc) (h : r ∉ hostOps4_W) :
    W14 m ρ c (Proc.devRef .tc r) = W13 m ρ c (Proc.devRef .tc r) :=
  StableHlo.after_of_writes_sub hostOps4 _ hostOps4_writes h

/-- After item 14, the host stretch `hostOps4_1`. -/
abbrev W15 (m : (ℓ : Loc nD τ sig) → Buf (Elt F) ℓ) (ρ : Dev nD → PrngReg) : Dev nD → Valuation τ sig (Elt F) := fun c => StableHlo.after hostOps4_1 (W14 m ρ c)
/-- The same read at the TensorCore's references. -/
abbrev V15 (m : (ℓ : Loc nD τ sig) → Buf (Elt F) ℓ) (ρ : Dev nD → PrngReg) : (c : Dev nD) → (b : Ref sig .tc) → Buf (Elt F) ((c : Thread nD τ).loc b) := fun c b => W15 m ρ c b
/-- A buffer the stretch does not write keeps its contents. -/
theorem W15_keep (m : (ℓ : Loc nD τ sig) → Buf (Elt F) ℓ) (ρ : Dev nD → PrngReg) (c : Dev nD) (r : Ref sig .tc) (h : r ∉ hostOps4_1_W) :
    W15 m ρ c (Proc.devRef .tc r) = W14 m ρ c (Proc.devRef .tc r) :=
  StableHlo.after_of_writes_sub hostOps4_1 _ hostOps4_1_writes h

/-- After item 15, region 4 (the third step): its arrays at what the pipeline leaves (an input array as entered, the output
    array with every point's write-back folded in), every other buffer as entered. -/
def W16 (m : (ℓ : Loc nD τ sig) → Buf (Elt F) ℓ) (ρ : Dev nD → PrngReg) (c : Dev nD) : Valuation τ sig (Elt F) :=
  Pipeline.withArrays spec4 c (W15 m ρ c) fun w => (dat4 (V15 m ρ) c).arrAt w cfg4.N
theorem W16_arr (m : (ℓ : Loc nD τ sig) → Buf (Elt F) ℓ) (ρ : Dev nD → PrngReg) (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (m : (ℓ : Loc nD τ sig) → Buf (Elt F) ℓ) (ρ : Dev nD → PrngReg) (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
/-- The same read at the TensorCore's references. -/
abbrev V16 (m : (ℓ : Loc nD τ sig) → Buf (Elt F) ℓ) (ρ : Dev nD → PrngReg) : (c : Dev nD) → (b : Ref sig .tc) → Buf (Elt F) ((c : Thread nD τ).loc b) := fun c b => W16 m ρ c b
/-- At the region's exit each of its arrays holds what the pipeline leaves, and every other buffer what it held at entry. -/
theorem hF4 (m : (ℓ : Loc nD τ sig) → Buf (Elt F) ℓ) (ρ : Dev nD → PrngReg) (c : Dev nD) (w : Fin cfg4.W) : (dat4 (V15 m ρ) c).arrAt w cfg4.N = V16 m ρ c (Pipeline.arrRef spec4 w) :=
  (W16_arr m ρ c w).symm
theorem hrest4 (m : (ℓ : Loc nD τ sig) → Buf (Elt F) ℓ) (ρ : Dev nD → PrngReg) (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)
/-- A buffer that is none of the region's arrays keeps its contents. -/
theorem W16_keep (m : (ℓ : Loc nD τ sig) → Buf (Elt F) ℓ) (ρ : Dev nD → PrngReg) (c : Dev nD) (r : Ref sig .tc) (h : r ∉ ([main_v29, main_v71, main_v72, main_cst, main_v73] : List (Ref sig .tc))) :
    W16 m ρ c (Proc.devRef .tc r) = W15 m ρ c (Proc.devRef .tc r) :=
  have hm : ∀ w : Fin cfg4.W, Pipeline.arrRef spec4 w ∈ ([main_v29, main_v71, main_v72, main_cst, main_v73] : List (Ref sig .tc)) := by decide
  W16_of_ne m ρ c r fun w e => h (e ▸ hm w)
/-- The output array afterwards: the entry contents with every point's block written back. -/
theorem W16_out (m : (ℓ : Loc nD τ sig) → Buf (Elt F) ℓ) (ρ : Dev nD → PrngReg) (c : Dev nD) : W16 m ρ c (Proc.devRef .tc main_v73) = (dat4 (V15 m ρ) c).arrAt 4 cfg4.N :=
  W16_arr m ρ c 4
/-- Input window 0's array is never written back: it holds afterwards what it held at entry. -/
theorem W16_in0 (m : (ℓ : Loc nD τ sig) → Buf (Elt F) ℓ) (ρ : Dev nD → PrngReg) (c : Dev nD) : W16 m ρ c (Proc.devRef .tc main_v29) = W15 m ρ c (Proc.devRef .tc main_v29) :=
  (W16_arr m ρ c 0).trans (((dat4 (V15 m ρ) c).arrAt_in 0 rfl _).trans (A_eq4 (V15 m ρ) c 0))
/-- Input window 1's array is never written back: it holds afterwards what it held at entry. -/
theorem W16_in1 (m : (ℓ : Loc nD τ sig) → Buf (Elt F) ℓ) (ρ : Dev nD → PrngReg) (c : Dev nD) : W16 m ρ c (Proc.devRef .tc main_v71) = W15 m ρ c (Proc.devRef .tc main_v71) :=
  (W16_arr m ρ c 1).trans (((dat4 (V15 m ρ) c).arrAt_in 1 rfl _).trans (A_eq4 (V15 m ρ) c 1))
/-- Input window 2's array is never written back: it holds afterwards what it held at entry. -/
theorem W16_in2 (m : (ℓ : Loc nD τ sig) → Buf (Elt F) ℓ) (ρ : Dev nD → PrngReg) (c : Dev nD) : W16 m ρ c (Proc.devRef .tc main_v72) = W15 m ρ c (Proc.devRef .tc main_v72) :=
  (W16_arr m ρ c 2).trans (((dat4 (V15 m ρ) c).arrAt_in 2 rfl _).trans (A_eq4 (V15 m ρ) c 2))
/-- Input window 3's array is never written back: it holds afterwards what it held at entry. -/
theorem W16_in3 (m : (ℓ : Loc nD τ sig) → Buf (Elt F) ℓ) (ρ : Dev nD → PrngReg) (c : Dev nD) : W16 m ρ c (Proc.devRef .tc main_cst) = W15 m ρ c (Proc.devRef .tc main_cst) :=
  (W16_arr m ρ c 3).trans (((dat4 (V15 m ρ) c).arrAt_in 3 rfl _).trans (A_eq4 (V15 m ρ) c 3))

/-- After item 16, the host stretch `hostOps5`. -/
abbrev W17 (m : (ℓ : Loc nD τ sig) → Buf (Elt F) ℓ) (ρ : Dev nD → PrngReg) : Dev nD → Valuation τ sig (Elt F) := fun c => StableHlo.after hostOps5 (W16 m ρ c)
/-- The same read at the TensorCore's references. -/
abbrev V17 (m : (ℓ : Loc nD τ sig) → Buf (Elt F) ℓ) (ρ : Dev nD → PrngReg) : (c : Dev nD) → (b : Ref sig .tc) → Buf (Elt F) ((c : Thread nD τ).loc b) := fun c b => W17 m ρ c b
/-- A buffer the stretch does not write keeps its contents. -/
theorem W17_keep (m : (ℓ : Loc nD τ sig) → Buf (Elt F) ℓ) (ρ : Dev nD → PrngReg) (c : Dev nD) (r : Ref sig .tc) (h : r ∉ hostOps5_W) :
    W17 m ρ c (Proc.devRef .tc r) = W16 m ρ c (Proc.devRef .tc r) :=
  StableHlo.after_of_writes_sub hostOps5 _ hostOps5_writes h

/-- After item 17, the host stretch `hostOps5_1`. -/
abbrev W18 (m : (ℓ : Loc nD τ sig) → Buf (Elt F) ℓ) (ρ : Dev nD → PrngReg) : Dev nD → Valuation τ sig (Elt F) := fun c => StableHlo.after hostOps5_1 (W17 m ρ c)
/-- The same read at the TensorCore's references. -/
abbrev V18 (m : (ℓ : Loc nD τ sig) → Buf (Elt F) ℓ) (ρ : Dev nD → PrngReg) : (c : Dev nD) → (b : Ref sig .tc) → Buf (Elt F) ((c : Thread nD τ).loc b) := fun c b => W18 m ρ c b
/-- A buffer the stretch does not write keeps its contents. -/
theorem W18_keep (m : (ℓ : Loc nD τ sig) → Buf (Elt F) ℓ) (ρ : Dev nD → PrngReg) (c : Dev nD) (r : Ref sig .tc) (h : r ∉ hostOps5_1_W) :
    W18 m ρ c (Proc.devRef .tc r) = W17 m ρ c (Proc.devRef .tc r) :=
  StableHlo.after_of_writes_sub hostOps5_1 _ hostOps5_1_writes h

/-- After item 18, region 5 (the fourth step): its arrays at what the pipeline leaves (an input array as entered, the output
    array with every point's write-back folded in), every other buffer as entered. -/
def W19 (m : (ℓ : Loc nD τ sig) → Buf (Elt F) ℓ) (ρ : Dev nD → PrngReg) (c : Dev nD) : Valuation τ sig (Elt F) :=
  Pipeline.withArrays spec5 c (W18 m ρ c) fun w => (dat5 (V18 m ρ) c).arrAt w cfg5.N
theorem W19_arr (m : (ℓ : Loc nD τ sig) → Buf (Elt F) ℓ) (ρ : Dev nD → PrngReg) (c : Dev nD) (w : Fin cfg5.W) :
    W19 m ρ c (Proc.devRef .tc (Pipeline.arrRef spec5 w)) = (dat5 (V18 m ρ) c).arrAt w cfg5.N := by
  unfold W19; exact Pipeline.withArrays_arr spec5 launch5.win.arr_inj c _ _ w
theorem W19_of_ne (m : (ℓ : Loc nD τ sig) → Buf (Elt F) ℓ) (ρ : Dev nD → PrngReg) (c : Dev nD) (b : Ref sig .tc) (hb : ∀ w, Pipeline.arrRef spec5 w ≠ b) :
    W19 m ρ c (Proc.devRef .tc b) = W18 m ρ c (Proc.devRef .tc b) := by
  unfold W19; exact Pipeline.withArrays_of_ne spec5 c _ _ b hb
/-- The same read at the TensorCore's references. -/
abbrev V19 (m : (ℓ : Loc nD τ sig) → Buf (Elt F) ℓ) (ρ : Dev nD → PrngReg) : (c : Dev nD) → (b : Ref sig .tc) → Buf (Elt F) ((c : Thread nD τ).loc b) := fun c b => W19 m ρ c b
/-- At the region's exit each of its arrays holds what the pipeline leaves, and every other buffer what it held at entry. -/
theorem hF5 (m : (ℓ : Loc nD τ sig) → Buf (Elt F) ℓ) (ρ : Dev nD → PrngReg) (c : Dev nD) (w : Fin cfg5.W) : (dat5 (V18 m ρ) c).arrAt w cfg5.N = V19 m ρ c (Pipeline.arrRef spec5 w) :=
  (W19_arr m ρ c w).symm
theorem hrest5 (m : (ℓ : Loc nD τ sig) → Buf (Elt F) ℓ) (ρ : Dev nD → PrngReg) (c : Dev nD) : ∀ b, b ∉ Finset.univ.image (Pipeline.arrRef spec5) → V19 m ρ c b = V18 m ρ c b :=
  fun b hb => W19_of_ne m ρ c b fun w e => hb (Finset.mem_image.mpr ⟨w, Finset.mem_univ _, e⟩)
/-- A buffer that is none of the region's arrays keeps its contents. -/
theorem W19_keep (m : (ℓ : Loc nD τ sig) → Buf (Elt F) ℓ) (ρ : Dev nD → PrngReg) (c : Dev nD) (r : Ref sig .tc) (h : r ∉ ([main_v29, main_v90, main_v91, main_cst, main_v92] : List (Ref sig .tc))) :
    W19 m ρ c (Proc.devRef .tc r) = W18 m ρ c (Proc.devRef .tc r) :=
  have hm : ∀ w : Fin cfg5.W, Pipeline.arrRef spec5 w ∈ ([main_v29, main_v90, main_v91, main_cst, main_v92] : List (Ref sig .tc)) := by decide
  W19_of_ne m ρ c r fun w e => h (e ▸ hm w)
/-- The output array afterwards: the entry contents with every point's block written back. -/
theorem W19_out (m : (ℓ : Loc nD τ sig) → Buf (Elt F) ℓ) (ρ : Dev nD → PrngReg) (c : Dev nD) : W19 m ρ c (Proc.devRef .tc main_v92) = (dat5 (V18 m ρ) c).arrAt 4 cfg5.N :=
  W19_arr m ρ c 4
/-- Input window 0's array is never written back: it holds afterwards what it held at entry. -/
theorem W19_in0 (m : (ℓ : Loc nD τ sig) → Buf (Elt F) ℓ) (ρ : Dev nD → PrngReg) (c : Dev nD) : W19 m ρ c (Proc.devRef .tc main_v29) = W18 m ρ c (Proc.devRef .tc main_v29) :=
  (W19_arr m ρ c 0).trans (((dat5 (V18 m ρ) c).arrAt_in 0 rfl _).trans (A_eq5 (V18 m ρ) c 0))
/-- Input window 1's array is never written back: it holds afterwards what it held at entry. -/
theorem W19_in1 (m : (ℓ : Loc nD τ sig) → Buf (Elt F) ℓ) (ρ : Dev nD → PrngReg) (c : Dev nD) : W19 m ρ c (Proc.devRef .tc main_v90) = W18 m ρ c (Proc.devRef .tc main_v90) :=
  (W19_arr m ρ c 1).trans (((dat5 (V18 m ρ) c).arrAt_in 1 rfl _).trans (A_eq5 (V18 m ρ) c 1))
/-- Input window 2's array is never written back: it holds afterwards what it held at entry. -/
theorem W19_in2 (m : (ℓ : Loc nD τ sig) → Buf (Elt F) ℓ) (ρ : Dev nD → PrngReg) (c : Dev nD) : W19 m ρ c (Proc.devRef .tc main_v91) = W18 m ρ c (Proc.devRef .tc main_v91) :=
  (W19_arr m ρ c 2).trans (((dat5 (V18 m ρ) c).arrAt_in 2 rfl _).trans (A_eq5 (V18 m ρ) c 2))
/-- Input window 3's array is never written back: it holds afterwards what it held at entry. -/
theorem W19_in3 (m : (ℓ : Loc nD τ sig) → Buf (Elt F) ℓ) (ρ : Dev nD → PrngReg) (c : Dev nD) : W19 m ρ c (Proc.devRef .tc main_cst) = W18 m ρ c (Proc.devRef .tc main_cst) :=
  (W19_arr m ρ c 3).trans (((dat5 (V18 m ρ) c).arrAt_in 3 rfl _).trans (A_eq5 (V18 m ρ) c 3))

/-- After item 19, the host stretch `hostOps6`. -/
abbrev W20 (m : (ℓ : Loc nD τ sig) → Buf (Elt F) ℓ) (ρ : Dev nD → PrngReg) : Dev nD → Valuation τ sig (Elt F) := fun c => StableHlo.after hostOps6 (W19 m ρ c)
/-- The same read at the TensorCore's references. -/
abbrev V20 (m : (ℓ : Loc nD τ sig) → Buf (Elt F) ℓ) (ρ : Dev nD → PrngReg) : (c : Dev nD) → (b : Ref sig .tc) → Buf (Elt F) ((c : Thread nD τ).loc b) := fun c b => W20 m ρ c b
/-- A buffer the stretch does not write keeps its contents. -/
theorem W20_keep (m : (ℓ : Loc nD τ sig) → Buf (Elt F) ℓ) (ρ : Dev nD → PrngReg) (c : Dev nD) (r : Ref sig .tc) (h : r ∉ hostOps6_W) :
    W20 m ρ c (Proc.devRef .tc r) = W19 m ρ c (Proc.devRef .tc r) :=
  StableHlo.after_of_writes_sub hostOps6 _ hostOps6_writes h

/-- After item 20, region 6 (the final product plus bias): its arrays at what the pipeline leaves (an input array as entered, the output
    array with every point's write-back folded in), every other buffer as entered. -/
def W21 (m : (ℓ : Loc nD τ sig) → Buf (Elt F) ℓ) (ρ : Dev nD → PrngReg) (c : Dev nD) : Valuation τ sig (Elt F) :=
  Pipeline.withArrays spec6 c (W20 m ρ c) fun w => (dat6 (V20 m ρ) c).arrAt w cfg6.N
theorem W21_arr (m : (ℓ : Loc nD τ sig) → Buf (Elt F) ℓ) (ρ : Dev nD → PrngReg) (c : Dev nD) (w : Fin cfg6.W) :
    W21 m ρ c (Proc.devRef .tc (Pipeline.arrRef spec6 w)) = (dat6 (V20 m ρ) c).arrAt w cfg6.N := by
  unfold W21; exact Pipeline.withArrays_arr spec6 launch6.win.arr_inj c _ _ w
theorem W21_of_ne (m : (ℓ : Loc nD τ sig) → Buf (Elt F) ℓ) (ρ : Dev nD → PrngReg) (c : Dev nD) (b : Ref sig .tc) (hb : ∀ w, Pipeline.arrRef spec6 w ≠ b) :
    W21 m ρ c (Proc.devRef .tc b) = W20 m ρ c (Proc.devRef .tc b) := by
  unfold W21; exact Pipeline.withArrays_of_ne spec6 c _ _ b hb
/-- The same read at the TensorCore's references. -/
abbrev V21 (m : (ℓ : Loc nD τ sig) → Buf (Elt F) ℓ) (ρ : Dev nD → PrngReg) : (c : Dev nD) → (b : Ref sig .tc) → Buf (Elt F) ((c : Thread nD τ).loc b) := fun c b => W21 m ρ c b
/-- At the region's exit each of its arrays holds what the pipeline leaves, and every other buffer what it held at entry. -/
theorem hF6 (m : (ℓ : Loc nD τ sig) → Buf (Elt F) ℓ) (ρ : Dev nD → PrngReg) (c : Dev nD) (w : Fin cfg6.W) : (dat6 (V20 m ρ) c).arrAt w cfg6.N = V21 m ρ c (Pipeline.arrRef spec6 w) :=
  (W21_arr m ρ c w).symm
theorem hrest6 (m : (ℓ : Loc nD τ sig) → Buf (Elt F) ℓ) (ρ : Dev nD → PrngReg) (c : Dev nD) : ∀ b, b ∉ Finset.univ.image (Pipeline.arrRef spec6) → V21 m ρ c b = V20 m ρ c b :=
  fun b hb => W21_of_ne m ρ c b fun w e => hb (Finset.mem_image.mpr ⟨w, Finset.mem_univ _, e⟩)
/-- A buffer that is none of the region's arrays keeps its contents. -/
theorem W21_keep (m : (ℓ : Loc nD τ sig) → Buf (Elt F) ℓ) (ρ : Dev nD → PrngReg) (c : Dev nD) (r : Ref sig .tc) (h : r ∉ ([main_v98, main_arg8, main_v99, main_v100] : List (Ref sig .tc))) :
    W21 m ρ c (Proc.devRef .tc r) = W20 m ρ c (Proc.devRef .tc r) :=
  have hm : ∀ w : Fin cfg6.W, Pipeline.arrRef spec6 w ∈ ([main_v98, main_arg8, main_v99, main_v100] : List (Ref sig .tc)) := by decide
  W21_of_ne m ρ c r fun w e => h (e ▸ hm w)
/-- The output array afterwards: the entry contents with every point's block written back. -/
theorem W21_out (m : (ℓ : Loc nD τ sig) → Buf (Elt F) ℓ) (ρ : Dev nD → PrngReg) (c : Dev nD) : W21 m ρ c (Proc.devRef .tc main_v100) = (dat6 (V20 m ρ) c).arrAt 3 cfg6.N :=
  W21_arr m ρ c 3
/-- Input window 0's array is never written back: it holds afterwards what it held at entry. -/
theorem W21_in0 (m : (ℓ : Loc nD τ sig) → Buf (Elt F) ℓ) (ρ : Dev nD → PrngReg) (c : Dev nD) : W21 m ρ c (Proc.devRef .tc main_v98) = W20 m ρ c (Proc.devRef .tc main_v98) :=
  (W21_arr m ρ c 0).trans (((dat6 (V20 m ρ) c).arrAt_in 0 rfl _).trans (A_eq6 (V20 m ρ) c 0))
/-- Input window 1's array is never written back: it holds afterwards what it held at entry. -/
theorem W21_in1 (m : (ℓ : Loc nD τ sig) → Buf (Elt F) ℓ) (ρ : Dev nD → PrngReg) (c : Dev nD) : W21 m ρ c (Proc.devRef .tc main_arg8) = W20 m ρ c (Proc.devRef .tc main_arg8) :=
  (W21_arr m ρ c 1).trans (((dat6 (V20 m ρ) c).arrAt_in 1 rfl _).trans (A_eq6 (V20 m ρ) c 1))
/-- Input window 2's array is never written back: it holds afterwards what it held at entry. -/
theorem W21_in2 (m : (ℓ : Loc nD τ sig) → Buf (Elt F) ℓ) (ρ : Dev nD → PrngReg) (c : Dev nD) : W21 m ρ c (Proc.devRef .tc main_v99) = W20 m ρ c (Proc.devRef .tc main_v99) :=
  (W21_arr m ρ c 2).trans (((dat6 (V20 m ρ) c).arrAt_in 2 rfl _).trans (A_eq6 (V20 m ρ) c 2))

/-! ## The arguments end as launched

No host operation writes an argument array, and a region either does not touch it or reads it through an input window,
whose array is never written back: walking the fold backwards, an argument's buffer holds its launch contents. -/
theorem W21_main_arg0 (m : (ℓ : Loc nD τ sig) → Buf (Elt F) ℓ) (ρ : Dev nD → PrngReg) (c : Dev nD) : W21 m ρ c (Proc.devRef .tc main_arg0) = m ((c : Thread nD τ).loc main_arg0) :=
  (W21_keep m ρ c main_arg0 (by decide)).trans <|
  (W20_keep m ρ c main_arg0 (by decide)).trans <|
  (W19_keep m ρ c main_arg0 (by decide)).trans <|
  (W18_keep m ρ c main_arg0 (by decide)).trans <|
  (W17_keep m ρ c main_arg0 (by decide)).trans <|
  (W16_keep m ρ c main_arg0 (by decide)).trans <|
  (W15_keep m ρ c main_arg0 (by decide)).trans <|
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans rfl
theorem W21_main_arg1 (m : (ℓ : Loc nD τ sig) → Buf (Elt F) ℓ) (ρ : Dev nD → PrngReg) (c : Dev nD) : W21 m ρ c (Proc.devRef .tc main_arg1) = m ((c : Thread nD τ).loc main_arg1) :=
  (W21_keep m ρ c main_arg1 (by decide)).trans <|
  (W20_keep m ρ c main_arg1 (by decide)).trans <|
  (W19_keep m ρ c main_arg1 (by decide)).trans <|
  (W18_keep m ρ c main_arg1 (by decide)).trans <|
  (W17_keep m ρ c main_arg1 (by decide)).trans <|
  (W16_keep m ρ c main_arg1 (by decide)).trans <|
  (W15_keep m ρ c main_arg1 (by decide)).trans <|
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans rfl
theorem W21_main_arg2 (m : (ℓ : Loc nD τ sig) → Buf (Elt F) ℓ) (ρ : Dev nD → PrngReg) (c : Dev nD) : W21 m ρ c (Proc.devRef .tc main_arg2) = m ((c : Thread nD τ).loc main_arg2) :=
  (W21_keep m ρ c main_arg2 (by decide)).trans <|
  (W20_keep m ρ c main_arg2 (by decide)).trans <|
  (W19_keep m ρ c main_arg2 (by decide)).trans <|
  (W18_keep m ρ c main_arg2 (by decide)).trans <|
  (W17_keep m ρ c main_arg2 (by decide)).trans <|
  (W16_keep m ρ c main_arg2 (by decide)).trans <|
  (W15_keep m ρ c main_arg2 (by decide)).trans <|
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans rfl
theorem W21_main_arg3 (m : (ℓ : Loc nD τ sig) → Buf (Elt F) ℓ) (ρ : Dev nD → PrngReg) (c : Dev nD) : W21 m ρ c (Proc.devRef .tc main_arg3) = m ((c : Thread nD τ).loc main_arg3) :=
  (W21_keep m ρ c main_arg3 (by decide)).trans <|
  (W20_keep m ρ c main_arg3 (by decide)).trans <|
  (W19_keep m ρ c main_arg3 (by decide)).trans <|
  (W18_keep m ρ c main_arg3 (by decide)).trans <|
  (W17_keep m ρ c main_arg3 (by decide)).trans <|
  (W16_keep m ρ c main_arg3 (by decide)).trans <|
  (W15_keep m ρ c main_arg3 (by decide)).trans <|
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans rfl
theorem W21_main_arg4 (m : (ℓ : Loc nD τ sig) → Buf (Elt F) ℓ) (ρ : Dev nD → PrngReg) (c : Dev nD) : W21 m ρ c (Proc.devRef .tc main_arg4) = m ((c : Thread nD τ).loc main_arg4) :=
  (W21_keep m ρ c main_arg4 (by decide)).trans <|
  (W20_keep m ρ c main_arg4 (by decide)).trans <|
  (W19_keep m ρ c main_arg4 (by decide)).trans <|
  (W18_keep m ρ c main_arg4 (by decide)).trans <|
  (W17_keep m ρ c main_arg4 (by decide)).trans <|
  (W16_keep m ρ c main_arg4 (by decide)).trans <|
  (W15_keep m ρ c main_arg4 (by decide)).trans <|
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_in1 m ρ c).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans rfl
theorem W21_main_arg5 (m : (ℓ : Loc nD τ sig) → Buf (Elt F) ℓ) (ρ : Dev nD → PrngReg) (c : Dev nD) : W21 m ρ c (Proc.devRef .tc main_arg5) = m ((c : Thread nD τ).loc main_arg5) :=
  (W21_keep m ρ c main_arg5 (by decide)).trans <|
  (W20_keep m ρ c main_arg5 (by decide)).trans <|
  (W19_keep m ρ c main_arg5 (by decide)).trans <|
  (W18_keep m ρ c main_arg5 (by decide)).trans <|
  (W17_keep m ρ c main_arg5 (by decide)).trans <|
  (W16_keep m ρ c main_arg5 (by decide)).trans <|
  (W15_keep m ρ c main_arg5 (by decide)).trans <|
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans rfl
theorem W21_main_arg6 (m : (ℓ : Loc nD τ sig) → Buf (Elt F) ℓ) (ρ : Dev nD → PrngReg) (c : Dev nD) : W21 m ρ c (Proc.devRef .tc main_arg6) = m ((c : Thread nD τ).loc main_arg6) :=
  (W21_keep m ρ c main_arg6 (by decide)).trans <|
  (W20_keep m ρ c main_arg6 (by decide)).trans <|
  (W19_keep m ρ c main_arg6 (by decide)).trans <|
  (W18_keep m ρ c main_arg6 (by decide)).trans <|
  (W17_keep m ρ c main_arg6 (by decide)).trans <|
  (W16_keep m ρ c main_arg6 (by decide)).trans <|
  (W15_keep m ρ c main_arg6 (by decide)).trans <|
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans rfl
theorem W21_main_arg7 (m : (ℓ : Loc nD τ sig) → Buf (Elt F) ℓ) (ρ : Dev nD → PrngReg) (c : Dev nD) : W21 m ρ c (Proc.devRef .tc main_arg7) = m ((c : Thread nD τ).loc main_arg7) :=
  (W21_keep m ρ c main_arg7 (by decide)).trans <|
  (W20_keep m ρ c main_arg7 (by decide)).trans <|
  (W19_keep m ρ c main_arg7 (by decide)).trans <|
  (W18_keep m ρ c main_arg7 (by decide)).trans <|
  (W17_keep m ρ c main_arg7 (by decide)).trans <|
  (W16_keep m ρ c main_arg7 (by decide)).trans <|
  (W15_keep m ρ c main_arg7 (by decide)).trans <|
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans rfl
theorem W21_main_arg8 (m : (ℓ : Loc nD τ sig) → Buf (Elt F) ℓ) (ρ : Dev nD → PrngReg) (c : Dev nD) : W21 m ρ c (Proc.devRef .tc main_arg8) = m ((c : Thread nD τ).loc main_arg8) :=
  (W21_in1 m ρ c).trans <|
  (W20_keep m ρ c main_arg8 (by decide)).trans <|
  (W19_keep m ρ c main_arg8 (by decide)).trans <|
  (W18_keep m ρ c main_arg8 (by decide)).trans <|
  (W17_keep m ρ c main_arg8 (by decide)).trans <|
  (W16_keep m ρ c main_arg8 (by decide)).trans <|
  (W15_keep m ρ c main_arg8 (by decide)).trans <|
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans rfl
theorem W21_main_arg9 (m : (ℓ : Loc nD τ sig) → Buf (Elt F) ℓ) (ρ : Dev nD → PrngReg) (c : Dev nD) : W21 m ρ c (Proc.devRef .tc main_arg9) = m ((c : Thread nD τ).loc main_arg9) :=
  (W21_keep m ρ c main_arg9 (by decide)).trans <|
  (W20_keep m ρ c main_arg9 (by decide)).trans <|
  (W19_keep m ρ c main_arg9 (by decide)).trans <|
  (W18_keep m ρ c main_arg9 (by decide)).trans <|
  (W17_keep m ρ c main_arg9 (by decide)).trans <|
  (W16_keep m ρ c main_arg9 (by decide)).trans <|
  (W15_keep m ρ c main_arg9 (by decide)).trans <|
  (W14_keep m ρ c main_arg9 (by decide)).trans <|
  (W13_keep m ρ c main_arg9 (by decide)).trans <|
  (W12_keep m ρ c main_arg9 (by decide)).trans <|
  (W11_keep m ρ c main_arg9 (by decide)).trans <|
  (W10_keep m ρ c main_arg9 (by decide)).trans <|
  (W9_keep m ρ c main_arg9 (by decide)).trans <|
  (W8_keep m ρ c main_arg9 (by decide)).trans <|
  (W7_keep m ρ c main_arg9 (by decide)).trans <|
  (W6_keep m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans rfl

/-! ## The proof data of the seven pipelines, and what rides beside the buffers -/

/-- Every pipeline's proof data, each at the contents its region is entered with. -/
def pdats (m : (ℓ : Loc nD τ sig) → Buf (Elt F) ℓ) (ρ : Dev nD → PrngReg) : (p : Fin 7) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V12 m ρ) c
  | ⟨4, _⟩ => fun c => dat4 (V15 m ρ) c
  | ⟨5, _⟩ => fun c => dat5 (V18 m ρ) c
  | ⟨6, _⟩ => fun c => dat6 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register, at some state, and its dues, which are none. -/
abbrev R (c : Dev nD) : sProp 𝕄 := iprop((∃ r, prngReg c r) ∗ ∃ W, owes (c : Thread nD τ) (0 : CellTallies nD τ sig Unit) W)
/-- A stretch of host operations as a segment of the run: from every unscoped buffer at the contents `W` to every
    unscoped buffer at what the operations compute from `W`, the rest of the core's state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core, its dues apart: every unscoped buffer at the last boundary's contents, the generator register at some state. -/
abbrev Tₙ (m : (ℓ : Loc nD τ sig) → Buf (Elt F) ℓ) (ρ : Dev nD → PrngReg) (c : Dev nD) : sProp 𝕄 := iprop(StableHlo.held (c : Thread nD τ) (Pipeline.ucRefs τ sig) (W21 m ρ c) ∗ ∃ r, prngReg c r)

end Cert.Kernel.Hand

end
-- ==== Proof.KRunReg0.lean ====
/- The run of @main: region 0 as a segment. A core enters it holding every unscoped buffer at the contents of boundary 5
   and leaves it holding every unscoped buffer at the contents of boundary 6: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KRunW

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 0 over a core's state: entered from every unscoped buffer at `W5`, left at `W6`. -/
def reg0 (m : (ℓ : Loc nD τ sig) → Buf (Elt F) ℓ) (ρ : Dev nD → PrngReg) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg1.lean ====
/- The run of @main: region 1 as a segment. A core enters it holding every unscoped buffer at the contents of boundary 7
   and leaves it holding every unscoped buffer at the contents of boundary 8: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KRunW

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 1 over a core's state: entered from every unscoped buffer at `W7`, left at `W8`. -/
def reg1 (m : (ℓ : Loc nD τ sig) → Buf (Elt F) ℓ) (ρ : Dev nD → PrngReg) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg2.lean ====
/- The run of @main: region 2 as a segment. A core enters it holding every unscoped buffer at the contents of boundary 9
   and leaves it holding every unscoped buffer at the contents of boundary 10: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KRunW

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 2 over a core's state: entered from every unscoped buffer at `W9`, left at `W10`. -/
def reg2 (m : (ℓ : Loc nD τ sig) → Buf (Elt F) ℓ) (ρ : Dev nD → PrngReg) : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg3.lean ====
/- The run of @main: region 3 as a segment. A core enters it holding every unscoped buffer at the contents of boundary 12
   and leaves it holding every unscoped buffer at the contents of boundary 13: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KRunW

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 3 over a core's state: entered from every unscoped buffer at `W12`, left at `W13`. -/
def reg3 (m : (ℓ : Loc nD τ sig) → Buf (Elt F) ℓ) (ρ : Dev nD → PrngReg) : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V12 m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec3 c (V12 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V12 m ρ c) (V13 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg4.lean ====
/- The run of @main: region 4 as a segment. A core enters it holding every unscoped buffer at the contents of boundary 15
   and leaves it holding every unscoped buffer at the contents of boundary 16: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KRunW

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 4 over a core's state: entered from every unscoped buffer at `W15`, left at `W16`. -/
def reg4 (m : (ℓ : Loc nD τ sig) → Buf (Elt F) ℓ) (ρ : Dev nD → PrngReg) : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg5.lean ====
/- The run of @main: region 5 as a segment. A core enters it holding every unscoped buffer at the contents of boundary 18
   and leaves it holding every unscoped buffer at the contents of boundary 19: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KRunW

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 5 over a core's state: entered from every unscoped buffer at `W18`, left at `W19`. -/
def reg5 (m : (ℓ : Loc nD τ sig) → Buf (Elt F) ℓ) (ρ : Dev nD → PrngReg) : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V18 m ρ) c).loose
  hwaits := Pipeline.hwaits_of_owed_zero _ _ _ _ L lv 5 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec5 c (V18 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V18 m ρ c) (V19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg6.lean ====
/- The run of @main: region 6 as a segment. A core enters it holding every unscoped buffer at the contents of boundary 20
   and leaves it holding every unscoped buffer at the contents of boundary 21: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KRunW

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 6 over a core's state: entered from every unscoped buffer at `W20`, left at `W21` (the last boundary). -/
def reg6 (m : (ℓ : Loc nD τ sig) → Buf (Elt F) ℓ) (ρ : Dev nD → PrngReg) : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V20 m ρ) c).loose
  hwaits := Pipeline.hwaits_of_owed_zero _ _ _ _ L lv 6 fun _ _ => rfl
  pre c := iprop(StableHlo.held (c : Thread nD τ) (Pipeline.ucRefs τ sig) (W20 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V20 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V20 m ρ c) (V21 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KRun.lean ====
/- The run of @main, assembled: its twenty-one items as segments in order (a host segment per stretch of host
   operations, from the contents of the boundary before it; a region segment per kernel call), @main shown to be the run of
   that list, and the conclusion: from any launch memory with every counter at zero, every weakly fair execution of @main on
   the TensorCores terminates without a fault, and in every final state the result array holds the contents of the last
   boundary while every argument array holds what it held at launch. Any carrier `F`. -/
import proofs.«121911_j27986006901054_1_alg».proof.Proof.KRunReg0
import proofs.«121911_j27986006901054_1_alg».proof.Proof.KRunReg1
import proofs.«121911_j27986006901054_1_alg».proof.Proof.KRunReg2
import proofs.«121911_j27986006901054_1_alg».proof.Proof.KRunReg3
import proofs.«121911_j27986006901054_1_alg».proof.Proof.KRunReg4
import proofs.«121911_j27986006901054_1_alg».proof.Proof.KRunReg5
import proofs.«121911_j27986006901054_1_alg».proof.Proof.KRunReg6

-- deciding that an index lies in a rectangle as long as a block's longest axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- @main's 21 items as segments, in order. -/
abbrev segs (m : (ℓ : Loc nD τ sig) → Buf (Elt F) ℓ) (ρ : Dev nD → PrngReg) : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .host (hseg hostOps3_1 hostOps3_1_sub hostOps3_1_fresh (W11 m ρ)),
    .region (reg3 m ρ),
    .host (hseg hostOps4 hostOps4_sub hostOps4_fresh (W13 m ρ)),
    .host (hseg hostOps4_1 hostOps4_1_sub hostOps4_1_fresh (W14 m ρ)),
    .region (reg4 m ρ),
    .host (hseg hostOps5 hostOps5_sub hostOps5_fresh (W16 m ρ)),
    .host (hseg hostOps5_1 hostOps5_1_sub hostOps5_1_fresh (W17 m ρ)),
    .region (reg5 m ρ),
    .host (hseg hostOps6 hostOps6_sub hostOps6_fresh (W19 m ρ)),
    .region (reg6 m ρ) ]

/-- @main is the run of the segments: both are the chain of the same twenty-one fragments. -/
theorem main_run (m : (ℓ : Loc nD τ sig) → Buf (Elt F) ℓ) (ρ : Dev nD → PrngReg) (c : Dev nD) : main (F := F) c = Pipeline.Seg.run (segs m ρ) := by
  rewrite [main_chain c, Pipeline.Seg.run_eq_chain,
    show (segs m ρ).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      StableHlo.seq hostOps3_1,
      Prog.lift (.customCall (Pipeline.entry 3) ()),
      StableHlo.seq hostOps4,
      StableHlo.seq hostOps4_1,
      Prog.lift (.customCall (Pipeline.entry 4) ()),
      StableHlo.seq hostOps5,
      StableHlo.seq hostOps5_1,
      Prog.lift (.customCall (Pipeline.entry 5) ()),
      StableHlo.seq hostOps6,
      Prog.lift (.customCall (Pipeline.entry 6) ()) ] from rfl]
  rfl

-- the launch theorem's implicit arguments are found by unifying its conclusion with the statement, which takes unfolding
-- plain definitions inside the type of an unknown
set_option backward.isDefEq.respectTransparency.types false in
/-- THE RUN. From any memory `m` with every counter at zero and any generator registers, every weakly fair execution of
    @main on the TensorCores terminates, nothing faulting; every final state holds, on every core, the result array
    `main_v100` at the last boundary's contents `W21` and each of the ten argument arrays at its launch contents. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v100) = W21 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v100 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c)⟩)

/-- info: 'Cert.Kernel.Hand.run_main' depends on axioms: [propext, Classical.choice, Quot.sound] -/
#guard_msgs in #print axioms run_main

end Cert.Kernel.Hand

end
-- ==== Proof.KIReg0.lean ====
/- REGION 0 of @main: the first TensorCore call (a matrix product with a weight matrix, plus a bias row, through the logistic function), stated at a PARAMETER `V` — the contents of the TensorCore's
   buffers when the region is entered. For each window: its block of `V` at a grid point. For the body: what it leaves
   in the output window's buffer as a function of the input blocks it loads, the triple saying that it does, the
   pipeline's proof data over `V`, and the obligation the pipeline asks of its body at every grid point. Everything here
   holds at any carrier `F` of the float operations. -/
import proofs.«121911_j27986006901054_1_alg».proof.Proof.Gen.KernelIdeal.Launch
import proofs.«121911_j27986006901054_1_alg».proof.Proof.Gen.KernelIdeal.Skeleton
import proofs.«121911_j27986006901054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds the window's block of the entry contents at every grid point, whether or
    not the pipeline copied it in at that point: where it did not, the block index is the one of the point before and the
    body left the buffer as it was. Stated for any proof data over the entry contents `V` whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of input window 1 holds the window's block of the entry contents at every grid point, whether or
    not the pipeline copied it in at that point: where it did not, the block index is the one of the point before and the
    body left the buffer as it was. Stated for any proof data over the entry contents `V` whose body keeps the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of input window 2 holds the window's block of the entry contents at every grid point, whether or
    not the pipeline copied it in at that point: where it did not, the block index is the one of the point before and the
    body left the buffer as it was. Stated for any proof data over the entry contents `V` whose body keeps the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S4096x128 := Rect.unit (s := S4096x128) ![0, 0] S4096x128.size inb_S4096x128_S4096x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S4096x128 := Rect.unit (s := S4096x128) ![0, 0] S4096x128.size inb_S4096x128_S4096x128_0_0

/-! ## What the body leaves in the output window's buffer -/

/-- The output buffer after the body, as a function of the blocks in the input buffers: the one store covers the
    buffer, and what it stores is the body's arithmetic applied to the loaded blocks. -/
def out0_3 (x0 : Vec F S4096x128 .f32) (x1 : Vec F S128x128 .f32) (x2 : Vec F S1x128 .f32) : Vec F S4096x128 .f32 :=
  View.canon [⟨r0_3, k0_pay1 (View.ld x0 r0_0) (View.ld x1 r0_1) (View.ld x2 r0_2)⟩]

/-- The one store's rectangle is the whole buffer: every index of the buffer lies in it. -/
theorem cover0_3 (p0 : Vec F S4096x128 .f32) (y : S4096x128.Idx) :
    ∃ pc ∈ ([⟨r0_3, p0⟩] : List (View.Piece (Elt F) S4096x128 .f32)), y ∈ pc.1.set :=
  View.cover_of_tiled [⟨r0_3, p0⟩] S4096x128.size (by rfl) y

/-! ## The body's triple -/

set_option maxHeartbeats 1000000 in
/-- Run on whole staging buffers, the inputs' reading `x0 …` and the output's holding anything, the body ends with the
    inputs' buffers unchanged and the output's reading `out0_3` of the inputs: it loads each buffer whole, computes, and
    stores once over the whole output buffer. -/
theorem sound_kernel0 (c : Dev nD) (E : Set ℕ) (i : grid0.Coords)
    (arg1 : Memref sig .tc .vmem S4096x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4096x128 .f32) (harg4 : arg4.IsWhole)
    (x0 : Vec F S4096x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_sigmoid_kernel i arg1 harg1 arg2 harg2 arg3 harg3 arg4 harg4) K := by
  simp only [cc0__fc_sigmoid_kernel_eq_skeleton]; unfold cc0__fc_sigmoid_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays are the entry contents `V`; after the body at grid
    point `t` each input buffer holds its block and the output buffer holds `out0_3` of the input blocks; the invariant
    is the one that leaves every other buffer and the random-number register alone; nothing is owed; shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic grid point -/

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold their blocks, so the body's triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of its body, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/- REGION 1 of @main: the second TensorCore call (the product of a matrix with the transpose of a block of rows), stated at a PARAMETER `V` — the contents of the TensorCore's
   buffers when the region is entered. For each window: its block of `V` at a grid point. For the body: what it leaves
   in the output window's buffer as a function of the input blocks it loads, the triple saying that it does, the
   pipeline's proof data over `V`, and the obligation the pipeline asks of its body at every grid point. Everything here
   holds at any carrier `F` of the float operations. -/
import proofs.«121911_j27986006901054_1_alg».proof.Proof.Gen.KernelIdeal.Launch
import proofs.«121911_j27986006901054_1_alg».proof.Proof.Gen.KernelIdeal.Skeleton
import proofs.«121911_j27986006901054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds the window's block of the entry contents at every grid point, whether or
    not the pipeline copied it in at that point: where it did not, the block index is the one of the point before and the
    body left the buffer as it was. Stated for any proof data over the entry contents `V` whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of input window 1 holds the window's block of the entry contents at every grid point, whether or
    not the pipeline copied it in at that point: where it did not, the block index is the one of the point before and the
    body left the buffer as it was. Stated for any proof data over the entry contents `V` whose body keeps the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S160x128 := Rect.unit (s := S160x128) ![0, 0] S160x128.size inb_S160x128_S160x128_0_0
abbrev r1_1 : Rect S4096x128 := Rect.unit (s := S4096x128) ![0, 0] S4096x128.size inb_S4096x128_S4096x128_0_0
abbrev r1_2 : Rect S160x4096 := Rect.unit (s := S160x4096) ![0, 0] S160x4096.size inb_S160x4096_S160x4096_0_0

/-! ## What the body leaves in the output window's buffer -/

/-- The output buffer after the body, as a function of the blocks in the input buffers: the one store covers the
    buffer, and what it stores is the body's arithmetic applied to the loaded blocks. -/
def out1_2 (x0 : Vec F S160x128 .f32) (x1 : Vec F S4096x128 .f32) : Vec F S160x4096 .f32 :=
  View.canon [⟨r1_2, k1_pay1 (View.ld x0 r1_0) (View.ld x1 r1_1)⟩]

/-- The one store's rectangle is the whole buffer: every index of the buffer lies in it. -/
theorem cover1_2 (p0 : Vec F S160x4096 .f32) (y : S160x4096.Idx) :
    ∃ pc ∈ ([⟨r1_2, p0⟩] : List (View.Piece (Elt F) S160x4096 .f32)), y ∈ pc.1.set :=
  View.cover_of_tiled [⟨r1_2, p0⟩] S160x4096.size (by rfl) y

/-! ## The body's triple -/

set_option maxHeartbeats 1000000 in
/-- Run on whole staging buffers, the inputs' reading `x0 …` and the output's holding anything, the body ends with the
    inputs' buffers unchanged and the output's reading `out1_2` of the inputs: it loads each buffer whole, computes, and
    stores once over the whole output buffer. -/
theorem sound_kernel1 (c : Dev nD) (E : Set ℕ) (i : grid1.Coords)
    (arg1 : Memref sig .tc .vmem S160x128 .f32) (harg1 : arg1.IsWhole)
    (arg2 : Memref sig .tc .vmem S4096x128 .f32) (harg2 : arg2.IsWhole)
    (arg3 : Memref sig .tc .vmem S160x4096 .f32) (harg3 : arg3.IsWhole)
    (x0 : Vec F S160x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__zx_kernel i arg1 harg1 arg2 harg2 arg3 harg3) K := by
  simp only [cc1__zx_kernel_eq_skeleton]; unfold cc1__zx_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this region's pipeline on core `c`: the arrays are the entry contents `V`; after the body at grid
    point `t` each input buffer holds its block and the output buffer holds `out1_2` of the input blocks; the invariant
    is the one that leaves every other buffer and the random-number register alone; nothing is owed; shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic grid point -/

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the input buffers hold their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of its body, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/- The step kernel of region 2 of @main (custom call 2, pipeline 2), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.KernelIdeal.Launch
import proofs.«121911_j27986006901054_1_alg».proof.Proof.Gen.KernelIdeal.Skeleton
import proofs.«121911_j27986006901054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store -/

/-- The whole 16×4096 output block as a rectangle: the body's store covers it entirely. -/
abbrev r2_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out2_4 (x0 : Vec F S160x4096 .f32) (x1 : Vec F S160x128 .f32) (x2 : Vec F S4096x128 .f32) (x3 : Vec F S16x160 .f32) : Vec F S16x4096 .f32 :=
  View.canon [⟨r2_0, k2_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover2_4 (p0 : Vec F S16x4096 .f32) (y : S16x4096.Idx) :
    ∃ pc ∈ ([⟨r2_0, p0⟩] : List (View.Piece (Elt F) S16x4096 .f32)), y ∈ pc.1.set :=
  View.cover_of_tiled [⟨r2_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out2_4 x0 x1 x2 x3`. -/
theorem sound_kernel2 (c : Dev nD) (E : Set ℕ) (i : grid2.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__step_kernel i arg1 harg1 arg2 harg2 arg3 harg3 arg4 harg4 arg5 harg5) K := by
  simp only [cc2__step_kernel_eq_skeleton]; unfold cc2__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the pipeline on core `c`. Its arrays are the region-entry contents `V`. After the body at
    point `t`, each input window's buffer still holds the window's block and the output window's buffer holds
    `out2_4` of the four input blocks. The invariant is the one of this class of kernels (the scoped remainder and
    the generator register, both untouched); shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/- What the body finds in each input window's buffer: the window's block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, the core's debt, and each window's current staging
    buffer at what the pipeline has left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the kernel's triple applies; the invariant and the
    core's debt are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
/- The step kernel of region 3 of @main (custom call 3, pipeline 3), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.KernelIdeal.Launch
import proofs.«121911_j27986006901054_1_alg».proof.Proof.Gen.KernelIdeal.Skeleton
import proofs.«121911_j27986006901054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store -/

/-- The whole 16×4096 output block as a rectangle: the body's store covers it entirely. -/
abbrev r3_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out3_4 (x0 : Vec F S160x4096 .f32) (x1 : Vec F S160x128 .f32) (x2 : Vec F S4096x128 .f32) (x3 : Vec F S16x160 .f32) : Vec F S16x4096 .f32 :=
  View.canon [⟨r3_0, k3_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover3_4 (p0 : Vec F S16x4096 .f32) (y : S16x4096.Idx) :
    ∃ pc ∈ ([⟨r3_0, p0⟩] : List (View.Piece (Elt F) S16x4096 .f32)), y ∈ pc.1.set :=
  View.cover_of_tiled [⟨r3_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out3_4 x0 x1 x2 x3`. -/
theorem sound_kernel3 (c : Dev nD) (E : Set ℕ) (i : grid3.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__step_kernel i arg1 harg1 arg2 harg2 arg3 harg3 arg4 harg4 arg5 harg5) K := by
  simp only [cc3__step_kernel_eq_skeleton]; unfold cc3__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the pipeline on core `c`. Its arrays are the region-entry contents `V`. After the body at
    point `t`, each input window's buffer still holds the window's block and the output window's buffer holds
    `out3_4` of the four input blocks. The invariant is the one of this class of kernels (the scoped remainder and
    the generator register, both untouched); shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/- What the body finds in each input window's buffer: the window's block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, the core's debt, and each window's current staging
    buffer at what the pipeline has left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What the body returns at point `t`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the kernel's triple applies; the invariant and the
    core's debt are not read and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4.lean ====
/- The step kernel of region 4 of @main (custom call 4, pipeline 4), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.KernelIdeal.Launch
import proofs.«121911_j27986006901054_1_alg».proof.Proof.Gen.KernelIdeal.Skeleton
import proofs.«121911_j27986006901054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store -/

/-- The whole 16×4096 output block as a rectangle: the body's store covers it entirely. -/
abbrev r4_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out4_4 (x0 : Vec F S160x4096 .f32) (x1 : Vec F S160x128 .f32) (x2 : Vec F S4096x128 .f32) (x3 : Vec F S16x160 .f32) : Vec F S16x4096 .f32 :=
  View.canon [⟨r4_0, k4_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover4_4 (p0 : Vec F S16x4096 .f32) (y : S16x4096.Idx) :
    ∃ pc ∈ ([⟨r4_0, p0⟩] : List (View.Piece (Elt F) S16x4096 .f32)), y ∈ pc.1.set :=
  View.cover_of_tiled [⟨r4_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out4_4 x0 x1 x2 x3`. -/
theorem sound_kernel4 (c : Dev nD) (E : Set ℕ) (i : grid4.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__step_kernel i arg1 harg1 arg2 harg2 arg3 harg3 arg4 harg4 arg5 harg5) K := by
  simp only [cc4__step_kernel_eq_skeleton]; unfold cc4__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the pipeline on core `c`. Its arrays are the region-entry contents `V`. After the body at
    point `t`, each input window's buffer still holds the window's block and the output window's buffer holds
    `out4_4` of the four input blocks. The invariant is the one of this class of kernels (the scoped remainder and
    the generator register, both untouched); shares are full and nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/- What the body finds in each input window's buffer: the window's block, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`: the invariant, the core's debt, and each window's current staging
    buffer at what the pipeline has left in it. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- What the body returns at point `t`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the input buffers hold their blocks, so the kernel's triple applies; the invariant and the
    core's debt are not read and pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIReg5.lean ====
/- The step kernel of region 5 of @main (custom call 5, pipeline 5), taken alone and stated at a parameter `V`:
   the contents of the TensorCore's buffers at the moment the region is entered. The kernel body loads its four
   input blocks whole (the block of the product array, the small matrix `z`, the block of `x`, and the 16×160
   constant), computes one vector value from them, and stores it whole into the output block. This module names
   each window's block at a grid point, the value the body leaves in the output buffer, proves the body's
   separation-logic triple, packages the proof data of the pipeline, and discharges its body obligation at
   every grid point. Everything is generic in the float model `F`. -/
import proofs.«121911_j27986006901054_1_alg».proof.Proof.Gen.KernelIdeal.Launch
import proofs.«121911_j27986006901054_1_alg».proof.Proof.Gen.KernelIdeal.Skeleton
import proofs.«121911_j27986006901054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership of an index in a rectangle with extents in the thousands recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- The block of window `w` at grid point `t`: the window's view at that point, read off the window's array as
    the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/- For each input window: whatever proof data has `V`'s array for this window and a body that leaves the window's
   block where it found it, the staging buffer the body is handed at a point holds the window's block there. At a
   point where the pipeline fetches the window this is what the fetch wrote; at a point where it does not (windows
   1 and 3 are fetched at the first point only), the block index has not moved since the previous point, and the
   body left that point's block in place. The windows are uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's one store -/

/-- The whole 16×4096 output block as a rectangle: the body's store covers it entirely. -/
abbrev r5_0 : Rect S16x4096 := Rect.unit (s := S16x4096) ![0, 0] S16x4096.size inb_S16x4096_S16x4096_0_0

/-- What the body leaves in the output window's staging buffer, as a function of the four input blocks: the single
    whole-block store of the payload computed from the loaded blocks, read back as a buffer. -/
def out5_4 (x0 : Vec F S160x4096 .f32) (x1 : Vec F S160x128 .f32) (x2 : Vec F S4096x128 .f32) (x3 : Vec F S16x160 .f32) : Vec F S16x4096 .f32 :=
  View.canon [⟨r5_0, k5_pay1 (View.ld x0 (Rect.unit (s := S160x4096) ![0, 0] S160x4096.size inb_S160x4096_S160x4096_0_0))
    (View.ld x1 (Rect.unit (s := S160x128) ![0, 0] S160x128.size inb_S160x128_S160x128_0_0))
    (View.ld x2 (Rect.unit (s := S4096x128) ![0, 0] S4096x128.size inb_S4096x128_S4096x128_0_0))
    (View.ld x3 (Rect.unit (s := S16x160) ![0, 0] S16x160.size inb_S16x160_S16x160_0_0))⟩]

/-- The one store tiles the output buffer, so every index of the buffer lies in it. -/
theorem cover5_4 (p0 : Vec F S16x4096 .f32) (y : S16x4096.Idx) :
    ∃ pc ∈ ([⟨r5_0, p0⟩] : List (View.Piece (Elt F) S16x4096 .f32)), y ∈ pc.1.set :=
  View.cover_of_tiled [⟨r5_0, p0⟩] S16x4096.size (by rfl) y

/-! ## The body's triple -/

set_option maxHeartbeats 1000000 in
/-- The kernel body, run on whole staging memrefs whose input buffers hold `x0 … x3` and whose output buffer holds
    anything, reaches its continuation with the inputs unchanged and the output buffer at `out5_4 x0 x1 x2 x3`. -/
theorem sound_kernel5 (c : Dev nD) (E : Set ℕ) (i : grid5.Coords)
    (arg1 : Memref sig .tc .vmem S160x4096 .f32) (harg1 : arg1.IsWhole) (arg2 : Memref sig .tc .vmem S160x128 .f32) (harg2 : arg2.IsWhole)
    (arg3 : Memref sig .tc .vmem S4096x128 .f32) (harg3 : arg3.IsWhole) (arg4 : Memref sig .tc .vmem S16x160 .f32) (harg4 : arg4.IsWhole)
    (arg5 : Memref sig .tc .vmem S16x4096 .f32) (harg5 : arg5.IsWhole)
    (x0 : Vec F S160x4096 .f32) (x1 : Vec F S160x128 .f32) (x2 : Vec F S4096x128 .f32) (x3 : Vec F S16x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__step_kernel i arg1 harg1 arg2 harg2 arg3 harg3 arg4 harg4 arg5 harg5) K := by
  simp only [cc5__step_kernel_eq_skeleton]; unfold cc5__step_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of the pipeline on core `c`. Its arrays are the region-entry contents `V`. After the body at
    point `t`, each input window's buffer still holds the window's block and the output window's buffer holds
    `out5_4` of the four input blocks. The invariant is the one of this class of kernels (the scoped remainder and
    the generator register, both untouched); shares are full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/- What the body finds in each input window's buffer: the window's block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`: the invariant, the core's debt, and each window's current staging
    buffer at what the pipeline has left in it. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- What the body returns at point `t`. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so the kernel's triple applies; the invariant and the
    core's debt are not read and pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIReg6.lean ====
/- REGION 6 of @main: the last TensorCore call (a matrix product with a weight matrix, plus a bias row, through the leaky rectifier), on a grid of one point, stated at a PARAMETER `V` — the contents of the TensorCore's
   buffers when the region is entered. For each window: its block of `V` at a grid point. For the body: what it leaves
   in the output window's buffer as a function of the input blocks it loads, the triple saying that it does, the
   pipeline's proof data over `V`, and the obligation the pipeline asks of its body at every grid point. Everything here
   holds at any carrier `F` of the float operations. -/
import proofs.«121911_j27986006901054_1_alg».proof.Proof.Gen.KernelIdeal.Launch
import proofs.«121911_j27986006901054_1_alg».proof.Proof.Gen.KernelIdeal.Skeleton
import proofs.«121911_j27986006901054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The staging buffer of input window 0 holds the window's block of the entry contents at every grid point, whether or
    not the pipeline copied it in at that point: where it did not, the block index is the one of the point before and the
    body left the buffer as it was. Stated for any proof data over the entry contents `V` whose body keeps the block. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The staging buffer of input window 1 holds the window's block of the entry contents at every grid point, whether or
    not the pipeline copied it in at that point: where it did not, the block index is the one of the point before and the
    body left the buffer as it was. Stated for any proof data over the entry contents `V` whose body keeps the block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The staging buffer of input window 2 holds the window's block of the entry contents at every grid point, whether or
    not the pipeline copied it in at that point: where it did not, the block index is the one of the point before and the
    body left the buffer as it was. Stated for any proof data over the entry contents `V` whose body keeps the block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_0 : Rect S2048x64 := Rect.unit (s := S2048x64) ![0, 0] S2048x64.size inb_S2048x64_S2048x64_0_0
abbrev r6_1 : Rect S64x128 := Rect.unit (s := S64x128) ![0, 0] S64x128.size inb_S64x128_S64x128_0_0
abbrev r6_2 : Rect S1x128 := Rect.unit (s := S1x128) ![0, 0] S1x128.size inb_S1x128_S1x128_0_0
abbrev r6_3 : Rect S2048x128 := Rect.unit (s := S2048x128) ![0, 0] S2048x128.size inb_S2048x128_S2048x128_0_0

/-! ## What the body leaves in the output window's buffer -/

/-- The output buffer after the body, as a function of the blocks in the input buffers: the one store covers the
    buffer, and what it stores is the body's arithmetic applied to the loaded blocks. -/
def out6_3 (x0 : Vec F S2048x64 .f32) (x1 : Vec F S64x128 .f32) (x2 : Vec F S1x128 .f32) : Vec F S2048x128 .f32 :=
  View.canon [⟨r6_3, k6_pay1 (View.ld x0 r6_0) (View.ld x1 r6_1) (View.ld x2 r6_2)⟩]

/-- The one store's rectangle is the whole buffer: every index of the buffer lies in it. -/
theorem cover6_3 (p0 : Vec F S2048x128 .f32) (y : S2048x128.Idx) :
    ∃ pc ∈ ([⟨r6_3, p0⟩] : List (View.Piece (Elt F) S2048x128 .f32)), y ∈ pc.1.set :=
  View.cover_of_tiled [⟨r6_3, p0⟩] S2048x128.size (by rfl) y

/-! ## The body's triple -/

set_option maxHeartbeats 1000000 in
/-- Run on whole staging buffers, the inputs' reading `x0 …` and the output's holding anything, the body ends with the
    inputs' buffers unchanged and the output's reading `out6_3` of the inputs: it loads each buffer whole, computes, and
    stores once over the whole output buffer. -/
theorem sound_kernel6 (c : Dev nD) (E : Set ℕ) (i : grid6.Coords)
    (arg1 : Memref sig .tc .vmem S2048x64 .f32) (harg1 : arg1.IsWhole)
    (arg2 : Memref sig .tc .vmem S64x128 .f32) (harg2 : arg2.IsWhole)
    (arg3 : Memref sig .tc .vmem S1x128 .f32) (harg3 : arg3.IsWhole)
    (arg4 : Memref sig .tc .vmem S2048x128 .f32) (harg4 : arg4.IsWhole)
    (x0 : Vec F S2048x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__final_kernel i arg1 harg1 arg2 harg2 arg3 harg3 arg4 harg4) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of this region's pipeline on core `c`: the arrays are the entry contents `V`; after the body at grid
    point `t` each input buffer holds its block and the output buffer holds `out6_3` of the input blocks; the invariant
    is the one that leaves every other buffer and the random-number register alone; nothing is owed; shares are full. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's staging buffer holds its block at every grid point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic grid point -/

/-- What the body is called with at grid point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the input buffers hold their blocks, so the body's triple applies; the invariant and what
    the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of its body, at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIRunW.lean ====
/- The run of @main, first part: what the TensorCore's buffers hold at each boundary between two items of @main, as a
   fold from the launch memory. An item that is a stretch of host operations leaves what the stretch's operations
   compute from the contents before it; an item that is a kernel region leaves its arrays at what the pipeline's
   write-backs produce and every other buffer as the region found it. Then, per item, the buffers it cannot have
   changed; per region, what each of its arrays holds afterwards; each argument array read back through the whole fold
   to the launch memory; and the data every later module shares (the proof data of all seven pipelines, each at its
   region's entry contents, and the part of a core's state that rides beside the buffers). Any carrier `F`. -/
import proofs.«121911_j27986006901054_1_alg».proof.Proof.KIReg0
import proofs.«121911_j27986006901054_1_alg».proof.Proof.KIReg1
import proofs.«121911_j27986006901054_1_alg».proof.Proof.KIReg2
import proofs.«121911_j27986006901054_1_alg».proof.Proof.KIReg3
import proofs.«121911_j27986006901054_1_alg».proof.Proof.KIReg4
import proofs.«121911_j27986006901054_1_alg».proof.Proof.KIReg5
import proofs.«121911_j27986006901054_1_alg».proof.Proof.KIReg6
import proofs.«121911_j27986006901054_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at each boundary -/

/-- Core `c`'s buffers at launch. -/
abbrev W0 (m : (ℓ : Loc nD τ sig) → Buf (Elt F) ℓ) (ρ : Dev nD → PrngReg) : Dev nD → Valuation τ sig (Elt F) := fun c b => m ((c : Dev nD), b)
/-- The same read at the TensorCore's references. -/
abbrev V0 (m : (ℓ : Loc nD τ sig) → Buf (Elt F) ℓ) (ρ : Dev nD → PrngReg) : (c : Dev nD) → (b : Ref sig .tc) → Buf (Elt F) ((c : Thread nD τ).loc b) := fun c b => W0 m ρ c b

/-- After item 0, the host stretch `hostOps0`. -/
abbrev W1 (m : (ℓ : Loc nD τ sig) → Buf (Elt F) ℓ) (ρ : Dev nD → PrngReg) : Dev nD → Valuation τ sig (Elt F) := fun c => StableHlo.after hostOps0 (W0 m ρ c)
/-- The same read at the TensorCore's references. -/
abbrev V1 (m : (ℓ : Loc nD τ sig) → Buf (Elt F) ℓ) (ρ : Dev nD → PrngReg) : (c : Dev nD) → (b : Ref sig .tc) → Buf (Elt F) ((c : Thread nD τ).loc b) := fun c b => W1 m ρ c b
/-- A buffer the stretch does not write keeps its contents. -/
theorem W1_keep (m : (ℓ : Loc nD τ sig) → Buf (Elt F) ℓ) (ρ : Dev nD → PrngReg) (c : Dev nD) (r : Ref sig .tc) (h : r ∉ hostOps0_W) :
    W1 m ρ c (Proc.devRef .tc r) = W0 m ρ c (Proc.devRef .tc r) :=
  StableHlo.after_of_writes_sub hostOps0 _ hostOps0_writes h

/-- After item 1, the host stretch `hostOps0_1`. -/
abbrev W2 (m : (ℓ : Loc nD τ sig) → Buf (Elt F) ℓ) (ρ : Dev nD → PrngReg) : Dev nD → Valuation τ sig (Elt F) := fun c => StableHlo.after hostOps0_1 (W1 m ρ c)
/-- The same read at the TensorCore's references. -/
abbrev V2 (m : (ℓ : Loc nD τ sig) → Buf (Elt F) ℓ) (ρ : Dev nD → PrngReg) : (c : Dev nD) → (b : Ref sig .tc) → Buf (Elt F) ((c : Thread nD τ).loc b) := fun c b => W2 m ρ c b
/-- A buffer the stretch does not write keeps its contents. -/
theorem W2_keep (m : (ℓ : Loc nD τ sig) → Buf (Elt F) ℓ) (ρ : Dev nD → PrngReg) (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After item 2, the host stretch `hostOps0_2`. -/
abbrev W3 (m : (ℓ : Loc nD τ sig) → Buf (Elt F) ℓ) (ρ : Dev nD → PrngReg) : Dev nD → Valuation τ sig (Elt F) := fun c => StableHlo.after hostOps0_2 (W2 m ρ c)
/-- The same read at the TensorCore's references. -/
abbrev V3 (m : (ℓ : Loc nD τ sig) → Buf (Elt F) ℓ) (ρ : Dev nD → PrngReg) : (c : Dev nD) → (b : Ref sig .tc) → Buf (Elt F) ((c : Thread nD τ).loc b) := fun c b => W3 m ρ c b
/-- A buffer the stretch does not write keeps its contents. -/
theorem W3_keep (m : (ℓ : Loc nD τ sig) → Buf (Elt F) ℓ) (ρ : Dev nD → PrngReg) (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After item 3, the host stretch `hostOps0_3`. -/
abbrev W4 (m : (ℓ : Loc nD τ sig) → Buf (Elt F) ℓ) (ρ : Dev nD → PrngReg) : Dev nD → Valuation τ sig (Elt F) := fun c => StableHlo.after hostOps0_3 (W3 m ρ c)
/-- The same read at the TensorCore's references. -/
abbrev V4 (m : (ℓ : Loc nD τ sig) → Buf (Elt F) ℓ) (ρ : Dev nD → PrngReg) : (c : Dev nD) → (b : Ref sig .tc) → Buf (Elt F) ((c : Thread nD τ).loc b) := fun c b => W4 m ρ c b
/-- A buffer the stretch does not write keeps its contents. -/
theorem W4_keep (m : (ℓ : Loc nD τ sig) → Buf (Elt F) ℓ) (ρ : Dev nD → PrngReg) (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- After item 4, the host stretch `hostOps0_4`. -/
abbrev W5 (m : (ℓ : Loc nD τ sig) → Buf (Elt F) ℓ) (ρ : Dev nD → PrngReg) : Dev nD → Valuation τ sig (Elt F) := fun c => StableHlo.after hostOps0_4 (W4 m ρ c)
/-- The same read at the TensorCore's references. -/
abbrev V5 (m : (ℓ : Loc nD τ sig) → Buf (Elt F) ℓ) (ρ : Dev nD → PrngReg) : (c : Dev nD) → (b : Ref sig .tc) → Buf (Elt F) ((c : Thread nD τ).loc b) := fun c b => W5 m ρ c b
/-- A buffer the stretch does not write keeps its contents. -/
theorem W5_keep (m : (ℓ : Loc nD τ sig) → Buf (Elt F) ℓ) (ρ : Dev nD → PrngReg) (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

/-- After item 5, region 0 (the product with the weight matrix plus the bias row, through the logistic function): its arrays at what the pipeline leaves (an input array as entered, the output
    array with every point's write-back folded in), every other buffer as entered. -/
def W6 (m : (ℓ : Loc nD τ sig) → Buf (Elt F) ℓ) (ρ : Dev nD → PrngReg) (c : Dev nD) : Valuation τ sig (Elt F) :=
  Pipeline.withArrays spec0 c (W5 m ρ c) fun w => (dat0 (V5 m ρ) c).arrAt w cfg0.N
theorem W6_arr (m : (ℓ : Loc nD τ sig) → Buf (Elt F) ℓ) (ρ : Dev nD → PrngReg) (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (m : (ℓ : Loc nD τ sig) → Buf (Elt F) ℓ) (ρ : Dev nD → PrngReg) (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 (m : (ℓ : Loc nD τ sig) → Buf (Elt F) ℓ) (ρ : Dev nD → PrngReg) : (c : Dev nD) → (b : Ref sig .tc) → Buf (Elt F) ((c : Thread nD τ).loc b) := fun c b => W6 m ρ c b
/-- At the region's exit each of its arrays holds what the pipeline leaves, and every other buffer what it held at entry. -/
theorem hF0 (m : (ℓ : Loc nD τ sig) → Buf (Elt F) ℓ) (ρ : Dev nD → PrngReg) (c : Dev nD) (w : Fin cfg0.W) : (dat0 (V5 m ρ) c).arrAt w cfg0.N = V6 m ρ c (Pipeline.arrRef spec0 w) :=
  (W6_arr m ρ c w).symm
theorem hrest0 (m : (ℓ : Loc nD τ sig) → Buf (Elt F) ℓ) (ρ : Dev nD → PrngReg) (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- A buffer that is none of the region's arrays keeps its contents. -/
theorem W6_keep (m : (ℓ : Loc nD τ sig) → Buf (Elt F) ℓ) (ρ : Dev nD → PrngReg) (c : Dev nD) (r : Ref sig .tc) (h : r ∉ ([main_v25, main_arg4, main_v26, main_v27] : List (Ref sig .tc))) :
    W6 m ρ c (Proc.devRef .tc r) = W5 m ρ c (Proc.devRef .tc r) :=
  have hm : ∀ w : Fin cfg0.W, Pipeline.arrRef spec0 w ∈ ([main_v25, main_arg4, main_v26, main_v27] : List (Ref sig .tc)) := by decide
  W6_of_ne m ρ c r fun w e => h (e ▸ hm w)
/-- The output array afterwards: the entry contents with every point's block written back. -/
theorem W6_out (m : (ℓ : Loc nD τ sig) → Buf (Elt F) ℓ) (ρ : Dev nD → PrngReg) (c : Dev nD) : W6 m ρ c (Proc.devRef .tc main_v27) = (dat0 (V5 m ρ) c).arrAt 3 cfg0.N :=
  W6_arr m ρ c 3
/-- Input window 0's array is never written back: it holds afterwards what it held at entry. -/
theorem W6_in0 (m : (ℓ : Loc nD τ sig) → Buf (Elt F) ℓ) (ρ : Dev nD → PrngReg) (c : Dev nD) : W6 m ρ c (Proc.devRef .tc main_v25) = W5 m ρ c (Proc.devRef .tc main_v25) :=
  (W6_arr m ρ c 0).trans (((dat0 (V5 m ρ) c).arrAt_in 0 rfl _).trans (A_eq0 (V5 m ρ) c 0))
/-- Input window 1's array is never written back: it holds afterwards what it held at entry. -/
theorem W6_in1 (m : (ℓ : Loc nD τ sig) → Buf (Elt F) ℓ) (ρ : Dev nD → PrngReg) (c : Dev nD) : W6 m ρ c (Proc.devRef .tc main_arg4) = W5 m ρ c (Proc.devRef .tc main_arg4) :=
  (W6_arr m ρ c 1).trans (((dat0 (V5 m ρ) c).arrAt_in 1 rfl _).trans (A_eq0 (V5 m ρ) c 1))
/-- Input window 2's array is never written back: it holds afterwards what it held at entry. -/
theorem W6_in2 (m : (ℓ : Loc nD τ sig) → Buf (Elt F) ℓ) (ρ : Dev nD → PrngReg) (c : Dev nD) : W6 m ρ c (Proc.devRef .tc main_v26) = W5 m ρ c (Proc.devRef .tc main_v26) :=
  (W6_arr m ρ c 2).trans (((dat0 (V5 m ρ) c).arrAt_in 2 rfl _).trans (A_eq0 (V5 m ρ) c 2))

/-- After item 6, the host stretch `hostOps1`. -/
abbrev W7 (m : (ℓ : Loc nD τ sig) → Buf (Elt F) ℓ) (ρ : Dev nD → PrngReg) : Dev nD → Valuation τ sig (Elt F) := fun c => StableHlo.after hostOps1 (W6 m ρ c)
/-- The same read at the TensorCore's references. -/
abbrev V7 (m : (ℓ : Loc nD τ sig) → Buf (Elt F) ℓ) (ρ : Dev nD → PrngReg) : (c : Dev nD) → (b : Ref sig .tc) → Buf (Elt F) ((c : Thread nD τ).loc b) := fun c b => W7 m ρ c b
/-- A buffer the stretch does not write keeps its contents. -/
theorem W7_keep (m : (ℓ : Loc nD τ sig) → Buf (Elt F) ℓ) (ρ : Dev nD → PrngReg) (c : Dev nD) (r : Ref sig .tc) (h : r ∉ hostOps1_W) :
    W7 m ρ c (Proc.devRef .tc r) = W6 m ρ c (Proc.devRef .tc r) :=
  StableHlo.after_of_writes_sub hostOps1 _ hostOps1_writes h

/-- After item 7, region 1 (the product of z with the transposed x blocks): its arrays at what the pipeline leaves (an input array as entered, the output
    array with every point's write-back folded in), every other buffer as entered. -/
def W8 (m : (ℓ : Loc nD τ sig) → Buf (Elt F) ℓ) (ρ : Dev nD → PrngReg) (c : Dev nD) : Valuation τ sig (Elt F) :=
  Pipeline.withArrays spec1 c (W7 m ρ c) fun w => (dat1 (V7 m ρ) c).arrAt w cfg1.N
theorem W8_arr (m : (ℓ : Loc nD τ sig) → Buf (Elt F) ℓ) (ρ : Dev nD → PrngReg) (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (m : (ℓ : Loc nD τ sig) → Buf (Elt F) ℓ) (ρ : Dev nD → PrngReg) (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 (m : (ℓ : Loc nD τ sig) → Buf (Elt F) ℓ) (ρ : Dev nD → PrngReg) : (c : Dev nD) → (b : Ref sig .tc) → Buf (Elt F) ((c : Thread nD τ).loc b) := fun c b => W8 m ρ c b
/-- At the region's exit each of its arrays holds what the pipeline leaves, and every other buffer what it held at entry. -/
theorem hF1 (m : (ℓ : Loc nD τ sig) → Buf (Elt F) ℓ) (ρ : Dev nD → PrngReg) (c : Dev nD) (w : Fin cfg1.W) : (dat1 (V7 m ρ) c).arrAt w cfg1.N = V8 m ρ c (Pipeline.arrRef spec1 w) :=
  (W8_arr m ρ c w).symm
theorem hrest1 (m : (ℓ : Loc nD τ sig) → Buf (Elt F) ℓ) (ρ : Dev nD → PrngReg) (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- A buffer that is none of the region's arrays keeps its contents. -/
theorem W8_keep (m : (ℓ : Loc nD τ sig) → Buf (Elt F) ℓ) (ρ : Dev nD → PrngReg) (c : Dev nD) (r : Ref sig .tc) (h : r ∉ ([main_v28, main_v27, main_v29] : List (Ref sig .tc))) :
    W8 m ρ c (Proc.devRef .tc r) = W7 m ρ c (Proc.devRef .tc r) :=
  have hm : ∀ w : Fin cfg1.W, Pipeline.arrRef spec1 w ∈ ([main_v28, main_v27, main_v29] : List (Ref sig .tc)) := by decide
  W8_of_ne m ρ c r fun w e => h (e ▸ hm w)
/-- The output array afterwards: the entry contents with every point's block written back. -/
theorem W8_out (m : (ℓ : Loc nD τ sig) → Buf (Elt F) ℓ) (ρ : Dev nD → PrngReg) (c : Dev nD) : W8 m ρ c (Proc.devRef .tc main_v29) = (dat1 (V7 m ρ) c).arrAt 2 cfg1.N :=
  W8_arr m ρ c 2
/-- Input window 0's array is never written back: it holds afterwards what it held at entry. -/
theorem W8_in0 (m : (ℓ : Loc nD τ sig) → Buf (Elt F) ℓ) (ρ : Dev nD → PrngReg) (c : Dev nD) : W8 m ρ c (Proc.devRef .tc main_v28) = W7 m ρ c (Proc.devRef .tc main_v28) :=
  (W8_arr m ρ c 0).trans (((dat1 (V7 m ρ) c).arrAt_in 0 rfl _).trans (A_eq1 (V7 m ρ) c 0))
/-- Input window 1's array is never written back: it holds afterwards what it held at entry. -/
theorem W8_in1 (m : (ℓ : Loc nD τ sig) → Buf (Elt F) ℓ) (ρ : Dev nD → PrngReg) (c : Dev nD) : W8 m ρ c (Proc.devRef .tc main_v27) = W7 m ρ c (Proc.devRef .tc main_v27) :=
  (W8_arr m ρ c 1).trans (((dat1 (V7 m ρ) c).arrAt_in 1 rfl _).trans (A_eq1 (V7 m ρ) c 1))

/-- After item 8, the host stretch `hostOps2`. -/
abbrev W9 (m : (ℓ : Loc nD τ sig) → Buf (Elt F) ℓ) (ρ : Dev nD → PrngReg) : Dev nD → Valuation τ sig (Elt F) := fun c => StableHlo.after hostOps2 (W8 m ρ c)
/-- The same read at the TensorCore's references. -/
abbrev V9 (m : (ℓ : Loc nD τ sig) → Buf (Elt F) ℓ) (ρ : Dev nD → PrngReg) : (c : Dev nD) → (b : Ref sig .tc) → Buf (Elt F) ((c : Thread nD τ).loc b) := fun c b => W9 m ρ c b
/-- A buffer the stretch does not write keeps its contents. -/
theorem W9_keep (m : (ℓ : Loc nD τ sig) → Buf (Elt F) ℓ) (ρ : Dev nD → PrngReg) (c : Dev nD) (r : Ref sig .tc) (h : r ∉ hostOps2_W) :
    W9 m ρ c (Proc.devRef .tc r) = W8 m ρ c (Proc.devRef .tc r) :=
  StableHlo.after_of_writes_sub hostOps2 _ hostOps2_writes h

/-- After item 9, region 2 (the first step): its arrays at what the pipeline leaves (an input array as entered, the output
    array with every point's write-back folded in), every other buffer as entered. -/
def W10 (m : (ℓ : Loc nD τ sig) → Buf (Elt F) ℓ) (ρ : Dev nD → PrngReg) (c : Dev nD) : Valuation τ sig (Elt F) :=
  Pipeline.withArrays spec2 c (W9 m ρ c) fun w => (dat2 (V9 m ρ) c).arrAt w cfg2.N
theorem W10_arr (m : (ℓ : Loc nD τ sig) → Buf (Elt F) ℓ) (ρ : Dev nD → PrngReg) (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (m : (ℓ : Loc nD τ sig) → Buf (Elt F) ℓ) (ρ : Dev nD → PrngReg) (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev V10 (m : (ℓ : Loc nD τ sig) → Buf (Elt F) ℓ) (ρ : Dev nD → PrngReg) : (c : Dev nD) → (b : Ref sig .tc) → Buf (Elt F) ((c : Thread nD τ).loc b) := fun c b => W10 m ρ c b
/-- At the region's exit each of its arrays holds what the pipeline leaves, and every other buffer what it held at entry. -/
theorem hF2 (m : (ℓ : Loc nD τ sig) → Buf (Elt F) ℓ) (ρ : Dev nD → PrngReg) (c : Dev nD) (w : Fin cfg2.W) : (dat2 (V9 m ρ) c).arrAt w cfg2.N = V10 m ρ c (Pipeline.arrRef spec2 w) :=
  (W10_arr m ρ c w).symm
theorem hrest2 (m : (ℓ : Loc nD τ sig) → Buf (Elt F) ℓ) (ρ : Dev nD → PrngReg) (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- A buffer that is none of the region's arrays keeps its contents. -/
theorem W10_keep (m : (ℓ : Loc nD τ sig) → Buf (Elt F) ℓ) (ρ : Dev nD → PrngReg) (c : Dev nD) (r : Ref sig .tc) (h : r ∉ ([main_v29, main_v28, main_v27, main_cst, main_v35] : List (Ref sig .tc))) :
    W10 m ρ c (Proc.devRef .tc r) = W9 m ρ c (Proc.devRef .tc r) :=
  have hm : ∀ w : Fin cfg2.W, Pipeline.arrRef spec2 w ∈ ([main_v29, main_v28, main_v27, main_cst, main_v35] : List (Ref sig .tc)) := by decide
  W10_of_ne m ρ c r fun w e => h (e ▸ hm w)
/-- The output array afterwards: the entry contents with every point's block written back. -/
theorem W10_out (m : (ℓ : Loc nD τ sig) → Buf (Elt F) ℓ) (ρ : Dev nD → PrngReg) (c : Dev nD) : W10 m ρ c (Proc.devRef .tc main_v35) = (dat2 (V9 m ρ) c).arrAt 4 cfg2.N :=
  W10_arr m ρ c 4
/-- Input window 0's array is never written back: it holds afterwards what it held at entry. -/
theorem W10_in0 (m : (ℓ : Loc nD τ sig) → Buf (Elt F) ℓ) (ρ : Dev nD → PrngReg) (c : Dev nD) : W10 m ρ c (Proc.devRef .tc main_v29) = W9 m ρ c (Proc.devRef .tc main_v29) :=
  (W10_arr m ρ c 0).trans (((dat2 (V9 m ρ) c).arrAt_in 0 rfl _).trans (A_eq2 (V9 m ρ) c 0))
/-- Input window 1's array is never written back: it holds afterwards what it held at entry. -/
theorem W10_in1 (m : (ℓ : Loc nD τ sig) → Buf (Elt F) ℓ) (ρ : Dev nD → PrngReg) (c : Dev nD) : W10 m ρ c (Proc.devRef .tc main_v28) = W9 m ρ c (Proc.devRef .tc main_v28) :=
  (W10_arr m ρ c 1).trans (((dat2 (V9 m ρ) c).arrAt_in 1 rfl _).trans (A_eq2 (V9 m ρ) c 1))
/-- Input window 2's array is never written back: it holds afterwards what it held at entry. -/
theorem W10_in2 (m : (ℓ : Loc nD τ sig) → Buf (Elt F) ℓ) (ρ : Dev nD → PrngReg) (c : Dev nD) : W10 m ρ c (Proc.devRef .tc main_v27) = W9 m ρ c (Proc.devRef .tc main_v27) :=
  (W10_arr m ρ c 2).trans (((dat2 (V9 m ρ) c).arrAt_in 2 rfl _).trans (A_eq2 (V9 m ρ) c 2))
/-- Input window 3's array is never written back: it holds afterwards what it held at entry. -/
theorem W10_in3 (m : (ℓ : Loc nD τ sig) → Buf (Elt F) ℓ) (ρ : Dev nD → PrngReg) (c : Dev nD) : W10 m ρ c (Proc.devRef .tc main_cst) = W9 m ρ c (Proc.devRef .tc main_cst) :=
  (W10_arr m ρ c 3).trans (((dat2 (V9 m ρ) c).arrAt_in 3 rfl _).trans (A_eq2 (V9 m ρ) c 3))

/-- After item 10, the host stretch `hostOps3`. -/
abbrev W11 (m : (ℓ : Loc nD τ sig) → Buf (Elt F) ℓ) (ρ : Dev nD → PrngReg) : Dev nD → Valuation τ sig (Elt F) := fun c => StableHlo.after hostOps3 (W10 m ρ c)
/-- The same read at the TensorCore's references. -/
abbrev V11 (m : (ℓ : Loc nD τ sig) → Buf (Elt F) ℓ) (ρ : Dev nD → PrngReg) : (c : Dev nD) → (b : Ref sig .tc) → Buf (Elt F) ((c : Thread nD τ).loc b) := fun c b => W11 m ρ c b
/-- A buffer the stretch does not write keeps its contents. -/
theorem W11_keep (m : (ℓ : Loc nD τ sig) → Buf (Elt F) ℓ) (ρ : Dev nD → PrngReg) (c : Dev nD) (r : Ref sig .tc) (h : r ∉ hostOps3_W) :
    W11 m ρ c (Proc.devRef .tc r) = W10 m ρ c (Proc.devRef .tc r) :=
  StableHlo.after_of_writes_sub hostOps3 _ hostOps3_writes h

/-- After item 11, the host stretch `hostOps3_1`. -/
abbrev W12 (m : (ℓ : Loc nD τ sig) → Buf (Elt F) ℓ) (ρ : Dev nD → PrngReg) : Dev nD → Valuation τ sig (Elt F) := fun c => StableHlo.after hostOps3_1 (W11 m ρ c)
/-- The same read at the TensorCore's references. -/
abbrev V12 (m : (ℓ : Loc nD τ sig) → Buf (Elt F) ℓ) (ρ : Dev nD → PrngReg) : (c : Dev nD) → (b : Ref sig .tc) → Buf (Elt F) ((c : Thread nD τ).loc b) := fun c b => W12 m ρ c b
/-- A buffer the stretch does not write keeps its contents. -/
theorem W12_keep (m : (ℓ : Loc nD τ sig) → Buf (Elt F) ℓ) (ρ : Dev nD → PrngReg) (c : Dev nD) (r : Ref sig .tc) (h : r ∉ hostOps3_1_W) :
    W12 m ρ c (Proc.devRef .tc r) = W11 m ρ c (Proc.devRef .tc r) :=
  StableHlo.after_of_writes_sub hostOps3_1 _ hostOps3_1_writes h

/-- After item 12, region 3 (the second step): its arrays at what the pipeline leaves (an input array as entered, the output
    array with every point's write-back folded in), every other buffer as entered. -/
def W13 (m : (ℓ : Loc nD τ sig) → Buf (Elt F) ℓ) (ρ : Dev nD → PrngReg) (c : Dev nD) : Valuation τ sig (Elt F) :=
  Pipeline.withArrays spec3 c (W12 m ρ c) fun w => (dat3 (V12 m ρ) c).arrAt w cfg3.N
theorem W13_arr (m : (ℓ : Loc nD τ sig) → Buf (Elt F) ℓ) (ρ : Dev nD → PrngReg) (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (m : (ℓ : Loc nD τ sig) → Buf (Elt F) ℓ) (ρ : Dev nD → PrngReg) (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
/-- The same read at the TensorCore's references. -/
abbrev V13 (m : (ℓ : Loc nD τ sig) → Buf (Elt F) ℓ) (ρ : Dev nD → PrngReg) : (c : Dev nD) → (b : Ref sig .tc) → Buf (Elt F) ((c : Thread nD τ).loc b) := fun c b => W13 m ρ c b
/-- At the region's exit each of its arrays holds what the pipeline leaves, and every other buffer what it held at entry. -/
theorem hF3 (m : (ℓ : Loc nD τ sig) → Buf (Elt F) ℓ) (ρ : Dev nD → PrngReg) (c : Dev nD) (w : Fin cfg3.W) : (dat3 (V12 m ρ) c).arrAt w cfg3.N = V13 m ρ c (Pipeline.arrRef spec3 w) :=
  (W13_arr m ρ c w).symm
theorem hrest3 (m : (ℓ : Loc nD τ sig) → Buf (Elt F) ℓ) (ρ : Dev nD → PrngReg) (c : Dev nD) : ∀ b, b ∉ Finset.univ.image (Pipeline.arrRef spec3) → V13 m ρ c b = V12 m ρ c b :=
  fun b hb => W13_of_ne m ρ c b fun w e => hb (Finset.mem_image.mpr ⟨w, Finset.mem_univ _, e⟩)
/-- A buffer that is none of the region's arrays keeps its contents. -/
theorem W13_keep (m : (ℓ : Loc nD τ sig) → Buf (Elt F) ℓ) (ρ : Dev nD → PrngReg) (c : Dev nD) (r : Ref sig .tc) (h : r ∉ ([main_v29, main_v52, main_v53, main_cst, main_v54] : List (Ref sig .tc))) :
    W13 m ρ c (Proc.devRef .tc r) = W12 m ρ c (Proc.devRef .tc r) :=
  have hm : ∀ w : Fin cfg3.W, Pipeline.arrRef spec3 w ∈ ([main_v29, main_v52, main_v53, main_cst, main_v54] : List (Ref sig .tc)) := by decide
  W13_of_ne m ρ c r fun w e => h (e ▸ hm w)
/-- The output array afterwards: the entry contents with every point's block written back. -/
theorem W13_out (m : (ℓ : Loc nD τ sig) → Buf (Elt F) ℓ) (ρ : Dev nD → PrngReg) (c : Dev nD) : W13 m ρ c (Proc.devRef .tc main_v54) = (dat3 (V12 m ρ) c).arrAt 4 cfg3.N :=
  W13_arr m ρ c 4
/-- Input window 0's array is never written back: it holds afterwards what it held at entry. -/
theorem W13_in0 (m : (ℓ : Loc nD τ sig) → Buf (Elt F) ℓ) (ρ : Dev nD → PrngReg) (c : Dev nD) : W13 m ρ c (Proc.devRef .tc main_v29) = W12 m ρ c (Proc.devRef .tc main_v29) :=
  (W13_arr m ρ c 0).trans (((dat3 (V12 m ρ) c).arrAt_in 0 rfl _).trans (A_eq3 (V12 m ρ) c 0))
/-- Input window 1's array is never written back: it holds afterwards what it held at entry. -/
theorem W13_in1 (m : (ℓ : Loc nD τ sig) → Buf (Elt F) ℓ) (ρ : Dev nD → PrngReg) (c : Dev nD) : W13 m ρ c (Proc.devRef .tc main_v52) = W12 m ρ c (Proc.devRef .tc main_v52) :=
  (W13_arr m ρ c 1).trans (((dat3 (V12 m ρ) c).arrAt_in 1 rfl _).trans (A_eq3 (V12 m ρ) c 1))
/-- Input window 2's array is never written back: it holds afterwards what it held at entry. -/
theorem W13_in2 (m : (ℓ : Loc nD τ sig) → Buf (Elt F) ℓ) (ρ : Dev nD → PrngReg) (c : Dev nD) : W13 m ρ c (Proc.devRef .tc main_v53) = W12 m ρ c (Proc.devRef .tc main_v53) :=
  (W13_arr m ρ c 2).trans (((dat3 (V12 m ρ) c).arrAt_in 2 rfl _).trans (A_eq3 (V12 m ρ) c 2))
/-- Input window 3's array is never written back: it holds afterwards what it held at entry. -/
theorem W13_in3 (m : (ℓ : Loc nD τ sig) → Buf (Elt F) ℓ) (ρ : Dev nD → PrngReg) (c : Dev nD) : W13 m ρ c (Proc.devRef .tc main_cst) = W12 m ρ c (Proc.devRef .tc main_cst) :=
  (W13_arr m ρ c 3).trans (((dat3 (V12 m ρ) c).arrAt_in 3 rfl _).trans (A_eq3 (V12 m ρ) c 3))

/-- After item 13, the host stretch `hostOps4`. -/
abbrev W14 (m : (ℓ : Loc nD τ sig) → Buf (Elt F) ℓ) (ρ : Dev nD → PrngReg) : Dev nD → Valuation τ sig (Elt F) := fun c => StableHlo.after hostOps4 (W13 m ρ c)
/-- The same read at the TensorCore's references. -/
abbrev V14 (m : (ℓ : Loc nD τ sig) → Buf (Elt F) ℓ) (ρ : Dev nD → PrngReg) : (c : Dev nD) → (b : Ref sig .tc) → Buf (Elt F) ((c : Thread nD τ).loc b) := fun c b => W14 m ρ c b
/-- A buffer the stretch does not write keeps its contents. -/
theorem W14_keep (m : (ℓ : Loc nD τ sig) → Buf (Elt F) ℓ) (ρ : Dev nD → PrngReg) (c : Dev nD) (r : Ref sig .tc) (h : r ∉ hostOps4_W) :
    W14 m ρ c (Proc.devRef .tc r) = W13 m ρ c (Proc.devRef .tc r) :=
  StableHlo.after_of_writes_sub hostOps4 _ hostOps4_writes h

/-- After item 14, the host stretch `hostOps4_1`. -/
abbrev W15 (m : (ℓ : Loc nD τ sig) → Buf (Elt F) ℓ) (ρ : Dev nD → PrngReg) : Dev nD → Valuation τ sig (Elt F) := fun c => StableHlo.after hostOps4_1 (W14 m ρ c)
/-- The same read at the TensorCore's references. -/
abbrev V15 (m : (ℓ : Loc nD τ sig) → Buf (Elt F) ℓ) (ρ : Dev nD → PrngReg) : (c : Dev nD) → (b : Ref sig .tc) → Buf (Elt F) ((c : Thread nD τ).loc b) := fun c b => W15 m ρ c b
/-- A buffer the stretch does not write keeps its contents. -/
theorem W15_keep (m : (ℓ : Loc nD τ sig) → Buf (Elt F) ℓ) (ρ : Dev nD → PrngReg) (c : Dev nD) (r : Ref sig .tc) (h : r ∉ hostOps4_1_W) :
    W15 m ρ c (Proc.devRef .tc r) = W14 m ρ c (Proc.devRef .tc r) :=
  StableHlo.after_of_writes_sub hostOps4_1 _ hostOps4_1_writes h

/-- After item 15, region 4 (the third step): its arrays at what the pipeline leaves (an input array as entered, the output
    array with every point's write-back folded in), every other buffer as entered. -/
def W16 (m : (ℓ : Loc nD τ sig) → Buf (Elt F) ℓ) (ρ : Dev nD → PrngReg) (c : Dev nD) : Valuation τ sig (Elt F) :=
  Pipeline.withArrays spec4 c (W15 m ρ c) fun w => (dat4 (V15 m ρ) c).arrAt w cfg4.N
theorem W16_arr (m : (ℓ : Loc nD τ sig) → Buf (Elt F) ℓ) (ρ : Dev nD → PrngReg) (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (m : (ℓ : Loc nD τ sig) → Buf (Elt F) ℓ) (ρ : Dev nD → PrngReg) (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
/-- The same read at the TensorCore's references. -/
abbrev V16 (m : (ℓ : Loc nD τ sig) → Buf (Elt F) ℓ) (ρ : Dev nD → PrngReg) : (c : Dev nD) → (b : Ref sig .tc) → Buf (Elt F) ((c : Thread nD τ).loc b) := fun c b => W16 m ρ c b
/-- At the region's exit each of its arrays holds what the pipeline leaves, and every other buffer what it held at entry. -/
theorem hF4 (m : (ℓ : Loc nD τ sig) → Buf (Elt F) ℓ) (ρ : Dev nD → PrngReg) (c : Dev nD) (w : Fin cfg4.W) : (dat4 (V15 m ρ) c).arrAt w cfg4.N = V16 m ρ c (Pipeline.arrRef spec4 w) :=
  (W16_arr m ρ c w).symm
theorem hrest4 (m : (ℓ : Loc nD τ sig) → Buf (Elt F) ℓ) (ρ : Dev nD → PrngReg) (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)
/-- A buffer that is none of the region's arrays keeps its contents. -/
theorem W16_keep (m : (ℓ : Loc nD τ sig) → Buf (Elt F) ℓ) (ρ : Dev nD → PrngReg) (c : Dev nD) (r : Ref sig .tc) (h : r ∉ ([main_v29, main_v71, main_v72, main_cst, main_v73] : List (Ref sig .tc))) :
    W16 m ρ c (Proc.devRef .tc r) = W15 m ρ c (Proc.devRef .tc r) :=
  have hm : ∀ w : Fin cfg4.W, Pipeline.arrRef spec4 w ∈ ([main_v29, main_v71, main_v72, main_cst, main_v73] : List (Ref sig .tc)) := by decide
  W16_of_ne m ρ c r fun w e => h (e ▸ hm w)
/-- The output array afterwards: the entry contents with every point's block written back. -/
theorem W16_out (m : (ℓ : Loc nD τ sig) → Buf (Elt F) ℓ) (ρ : Dev nD → PrngReg) (c : Dev nD) : W16 m ρ c (Proc.devRef .tc main_v73) = (dat4 (V15 m ρ) c).arrAt 4 cfg4.N :=
  W16_arr m ρ c 4
/-- Input window 0's array is never written back: it holds afterwards what it held at entry. -/
theorem W16_in0 (m : (ℓ : Loc nD τ sig) → Buf (Elt F) ℓ) (ρ : Dev nD → PrngReg) (c : Dev nD) : W16 m ρ c (Proc.devRef .tc main_v29) = W15 m ρ c (Proc.devRef .tc main_v29) :=
  (W16_arr m ρ c 0).trans (((dat4 (V15 m ρ) c).arrAt_in 0 rfl _).trans (A_eq4 (V15 m ρ) c 0))
/-- Input window 1's array is never written back: it holds afterwards what it held at entry. -/
theorem W16_in1 (m : (ℓ : Loc nD τ sig) → Buf (Elt F) ℓ) (ρ : Dev nD → PrngReg) (c : Dev nD) : W16 m ρ c (Proc.devRef .tc main_v71) = W15 m ρ c (Proc.devRef .tc main_v71) :=
  (W16_arr m ρ c 1).trans (((dat4 (V15 m ρ) c).arrAt_in 1 rfl _).trans (A_eq4 (V15 m ρ) c 1))
/-- Input window 2's array is never written back: it holds afterwards what it held at entry. -/
theorem W16_in2 (m : (ℓ : Loc nD τ sig) → Buf (Elt F) ℓ) (ρ : Dev nD → PrngReg) (c : Dev nD) : W16 m ρ c (Proc.devRef .tc main_v72) = W15 m ρ c (Proc.devRef .tc main_v72) :=
  (W16_arr m ρ c 2).trans (((dat4 (V15 m ρ) c).arrAt_in 2 rfl _).trans (A_eq4 (V15 m ρ) c 2))
/-- Input window 3's array is never written back: it holds afterwards what it held at entry. -/
theorem W16_in3 (m : (ℓ : Loc nD τ sig) → Buf (Elt F) ℓ) (ρ : Dev nD → PrngReg) (c : Dev nD) : W16 m ρ c (Proc.devRef .tc main_cst) = W15 m ρ c (Proc.devRef .tc main_cst) :=
  (W16_arr m ρ c 3).trans (((dat4 (V15 m ρ) c).arrAt_in 3 rfl _).trans (A_eq4 (V15 m ρ) c 3))

/-- After item 16, the host stretch `hostOps5`. -/
abbrev W17 (m : (ℓ : Loc nD τ sig) → Buf (Elt F) ℓ) (ρ : Dev nD → PrngReg) : Dev nD → Valuation τ sig (Elt F) := fun c => StableHlo.after hostOps5 (W16 m ρ c)
/-- The same read at the TensorCore's references. -/
abbrev V17 (m : (ℓ : Loc nD τ sig) → Buf (Elt F) ℓ) (ρ : Dev nD → PrngReg) : (c : Dev nD) → (b : Ref sig .tc) → Buf (Elt F) ((c : Thread nD τ).loc b) := fun c b => W17 m ρ c b
/-- A buffer the stretch does not write keeps its contents. -/
theorem W17_keep (m : (ℓ : Loc nD τ sig) → Buf (Elt F) ℓ) (ρ : Dev nD → PrngReg) (c : Dev nD) (r : Ref sig .tc) (h : r ∉ hostOps5_W) :
    W17 m ρ c (Proc.devRef .tc r) = W16 m ρ c (Proc.devRef .tc r) :=
  StableHlo.after_of_writes_sub hostOps5 _ hostOps5_writes h

/-- After item 17, the host stretch `hostOps5_1`. -/
abbrev W18 (m : (ℓ : Loc nD τ sig) → Buf (Elt F) ℓ) (ρ : Dev nD → PrngReg) : Dev nD → Valuation τ sig (Elt F) := fun c => StableHlo.after hostOps5_1 (W17 m ρ c)
/-- The same read at the TensorCore's references. -/
abbrev V18 (m : (ℓ : Loc nD τ sig) → Buf (Elt F) ℓ) (ρ : Dev nD → PrngReg) : (c : Dev nD) → (b : Ref sig .tc) → Buf (Elt F) ((c : Thread nD τ).loc b) := fun c b => W18 m ρ c b
/-- A buffer the stretch does not write keeps its contents. -/
theorem W18_keep (m : (ℓ : Loc nD τ sig) → Buf (Elt F) ℓ) (ρ : Dev nD → PrngReg) (c : Dev nD) (r : Ref sig .tc) (h : r ∉ hostOps5_1_W) :
    W18 m ρ c (Proc.devRef .tc r) = W17 m ρ c (Proc.devRef .tc r) :=
  StableHlo.after_of_writes_sub hostOps5_1 _ hostOps5_1_writes h

/-- After item 18, region 5 (the fourth step): its arrays at what the pipeline leaves (an input array as entered, the output
    array with every point's write-back folded in), every other buffer as entered. -/
def W19 (m : (ℓ : Loc nD τ sig) → Buf (Elt F) ℓ) (ρ : Dev nD → PrngReg) (c : Dev nD) : Valuation τ sig (Elt F) :=
  Pipeline.withArrays spec5 c (W18 m ρ c) fun w => (dat5 (V18 m ρ) c).arrAt w cfg5.N
theorem W19_arr (m : (ℓ : Loc nD τ sig) → Buf (Elt F) ℓ) (ρ : Dev nD → PrngReg) (c : Dev nD) (w : Fin cfg5.W) :
    W19 m ρ c (Proc.devRef .tc (Pipeline.arrRef spec5 w)) = (dat5 (V18 m ρ) c).arrAt w cfg5.N := by
  unfold W19; exact Pipeline.withArrays_arr spec5 launch5.win.arr_inj c _ _ w
theorem W19_of_ne (m : (ℓ : Loc nD τ sig) → Buf (Elt F) ℓ) (ρ : Dev nD → PrngReg) (c : Dev nD) (b : Ref sig .tc) (hb : ∀ w, Pipeline.arrRef spec5 w ≠ b) :
    W19 m ρ c (Proc.devRef .tc b) = W18 m ρ c (Proc.devRef .tc b) := by
  unfold W19; exact Pipeline.withArrays_of_ne spec5 c _ _ b hb
/-- The same read at the TensorCore's references. -/
abbrev V19 (m : (ℓ : Loc nD τ sig) → Buf (Elt F) ℓ) (ρ : Dev nD → PrngReg) : (c : Dev nD) → (b : Ref sig .tc) → Buf (Elt F) ((c : Thread nD τ).loc b) := fun c b => W19 m ρ c b
/-- At the region's exit each of its arrays holds what the pipeline leaves, and every other buffer what it held at entry. -/
theorem hF5 (m : (ℓ : Loc nD τ sig) → Buf (Elt F) ℓ) (ρ : Dev nD → PrngReg) (c : Dev nD) (w : Fin cfg5.W) : (dat5 (V18 m ρ) c).arrAt w cfg5.N = V19 m ρ c (Pipeline.arrRef spec5 w) :=
  (W19_arr m ρ c w).symm
theorem hrest5 (m : (ℓ : Loc nD τ sig) → Buf (Elt F) ℓ) (ρ : Dev nD → PrngReg) (c : Dev nD) : ∀ b, b ∉ Finset.univ.image (Pipeline.arrRef spec5) → V19 m ρ c b = V18 m ρ c b :=
  fun b hb => W19_of_ne m ρ c b fun w e => hb (Finset.mem_image.mpr ⟨w, Finset.mem_univ _, e⟩)
/-- A buffer that is none of the region's arrays keeps its contents. -/
theorem W19_keep (m : (ℓ : Loc nD τ sig) → Buf (Elt F) ℓ) (ρ : Dev nD → PrngReg) (c : Dev nD) (r : Ref sig .tc) (h : r ∉ ([main_v29, main_v90, main_v91, main_cst, main_v92] : List (Ref sig .tc))) :
    W19 m ρ c (Proc.devRef .tc r) = W18 m ρ c (Proc.devRef .tc r) :=
  have hm : ∀ w : Fin cfg5.W, Pipeline.arrRef spec5 w ∈ ([main_v29, main_v90, main_v91, main_cst, main_v92] : List (Ref sig .tc)) := by decide
  W19_of_ne m ρ c r fun w e => h (e ▸ hm w)
/-- The output array afterwards: the entry contents with every point's block written back. -/
theorem W19_out (m : (ℓ : Loc nD τ sig) → Buf (Elt F) ℓ) (ρ : Dev nD → PrngReg) (c : Dev nD) : W19 m ρ c (Proc.devRef .tc main_v92) = (dat5 (V18 m ρ) c).arrAt 4 cfg5.N :=
  W19_arr m ρ c 4
/-- Input window 0's array is never written back: it holds afterwards what it held at entry. -/
theorem W19_in0 (m : (ℓ : Loc nD τ sig) → Buf (Elt F) ℓ) (ρ : Dev nD → PrngReg) (c : Dev nD) : W19 m ρ c (Proc.devRef .tc main_v29) = W18 m ρ c (Proc.devRef .tc main_v29) :=
  (W19_arr m ρ c 0).trans (((dat5 (V18 m ρ) c).arrAt_in 0 rfl _).trans (A_eq5 (V18 m ρ) c 0))
/-- Input window 1's array is never written back: it holds afterwards what it held at entry. -/
theorem W19_in1 (m : (ℓ : Loc nD τ sig) → Buf (Elt F) ℓ) (ρ : Dev nD → PrngReg) (c : Dev nD) : W19 m ρ c (Proc.devRef .tc main_v90) = W18 m ρ c (Proc.devRef .tc main_v90) :=
  (W19_arr m ρ c 1).trans (((dat5 (V18 m ρ) c).arrAt_in 1 rfl _).trans (A_eq5 (V18 m ρ) c 1))
/-- Input window 2's array is never written back: it holds afterwards what it held at entry. -/
theorem W19_in2 (m : (ℓ : Loc nD τ sig) → Buf (Elt F) ℓ) (ρ : Dev nD → PrngReg) (c : Dev nD) : W19 m ρ c (Proc.devRef .tc main_v91) = W18 m ρ c (Proc.devRef .tc main_v91) :=
  (W19_arr m ρ c 2).trans (((dat5 (V18 m ρ) c).arrAt_in 2 rfl _).trans (A_eq5 (V18 m ρ) c 2))
/-- Input window 3's array is never written back: it holds afterwards what it held at entry. -/
theorem W19_in3 (m : (ℓ : Loc nD τ sig) → Buf (Elt F) ℓ) (ρ : Dev nD → PrngReg) (c : Dev nD) : W19 m ρ c (Proc.devRef .tc main_cst) = W18 m ρ c (Proc.devRef .tc main_cst) :=
  (W19_arr m ρ c 3).trans (((dat5 (V18 m ρ) c).arrAt_in 3 rfl _).trans (A_eq5 (V18 m ρ) c 3))

/-- After item 19, the host stretch `hostOps6`. -/
abbrev W20 (m : (ℓ : Loc nD τ sig) → Buf (Elt F) ℓ) (ρ : Dev nD → PrngReg) : Dev nD → Valuation τ sig (Elt F) := fun c => StableHlo.after hostOps6 (W19 m ρ c)
/-- The same read at the TensorCore's references. -/
abbrev V20 (m : (ℓ : Loc nD τ sig) → Buf (Elt F) ℓ) (ρ : Dev nD → PrngReg) : (c : Dev nD) → (b : Ref sig .tc) → Buf (Elt F) ((c : Thread nD τ).loc b) := fun c b => W20 m ρ c b
/-- A buffer the stretch does not write keeps its contents. -/
theorem W20_keep (m : (ℓ : Loc nD τ sig) → Buf (Elt F) ℓ) (ρ : Dev nD → PrngReg) (c : Dev nD) (r : Ref sig .tc) (h : r ∉ hostOps6_W) :
    W20 m ρ c (Proc.devRef .tc r) = W19 m ρ c (Proc.devRef .tc r) :=
  StableHlo.after_of_writes_sub hostOps6 _ hostOps6_writes h

/-- After item 20, region 6 (the final product plus bias): its arrays at what the pipeline leaves (an input array as entered, the output
    array with every point's write-back folded in), every other buffer as entered. -/
def W21 (m : (ℓ : Loc nD τ sig) → Buf (Elt F) ℓ) (ρ : Dev nD → PrngReg) (c : Dev nD) : Valuation τ sig (Elt F) :=
  Pipeline.withArrays spec6 c (W20 m ρ c) fun w => (dat6 (V20 m ρ) c).arrAt w cfg6.N
theorem W21_arr (m : (ℓ : Loc nD τ sig) → Buf (Elt F) ℓ) (ρ : Dev nD → PrngReg) (c : Dev nD) (w : Fin cfg6.W) :
    W21 m ρ c (Proc.devRef .tc (Pipeline.arrRef spec6 w)) = (dat6 (V20 m ρ) c).arrAt w cfg6.N := by
  unfold W21; exact Pipeline.withArrays_arr spec6 launch6.win.arr_inj c _ _ w
theorem W21_of_ne (m : (ℓ : Loc nD τ sig) → Buf (Elt F) ℓ) (ρ : Dev nD → PrngReg) (c : Dev nD) (b : Ref sig .tc) (hb : ∀ w, Pipeline.arrRef spec6 w ≠ b) :
    W21 m ρ c (Proc.devRef .tc b) = W20 m ρ c (Proc.devRef .tc b) := by
  unfold W21; exact Pipeline.withArrays_of_ne spec6 c _ _ b hb
/-- The same read at the TensorCore's references. -/
abbrev V21 (m : (ℓ : Loc nD τ sig) → Buf (Elt F) ℓ) (ρ : Dev nD → PrngReg) : (c : Dev nD) → (b : Ref sig .tc) → Buf (Elt F) ((c : Thread nD τ).loc b) := fun c b => W21 m ρ c b
/-- At the region's exit each of its arrays holds what the pipeline leaves, and every other buffer what it held at entry. -/
theorem hF6 (m : (ℓ : Loc nD τ sig) → Buf (Elt F) ℓ) (ρ : Dev nD → PrngReg) (c : Dev nD) (w : Fin cfg6.W) : (dat6 (V20 m ρ) c).arrAt w cfg6.N = V21 m ρ c (Pipeline.arrRef spec6 w) :=
  (W21_arr m ρ c w).symm
theorem hrest6 (m : (ℓ : Loc nD τ sig) → Buf (Elt F) ℓ) (ρ : Dev nD → PrngReg) (c : Dev nD) : ∀ b, b ∉ Finset.univ.image (Pipeline.arrRef spec6) → V21 m ρ c b = V20 m ρ c b :=
  fun b hb => W21_of_ne m ρ c b fun w e => hb (Finset.mem_image.mpr ⟨w, Finset.mem_univ _, e⟩)
/-- A buffer that is none of the region's arrays keeps its contents. -/
theorem W21_keep (m : (ℓ : Loc nD τ sig) → Buf (Elt F) ℓ) (ρ : Dev nD → PrngReg) (c : Dev nD) (r : Ref sig .tc) (h : r ∉ ([main_v98, main_arg8, main_v99, main_v100] : List (Ref sig .tc))) :
    W21 m ρ c (Proc.devRef .tc r) = W20 m ρ c (Proc.devRef .tc r) :=
  have hm : ∀ w : Fin cfg6.W, Pipeline.arrRef spec6 w ∈ ([main_v98, main_arg8, main_v99, main_v100] : List (Ref sig .tc)) := by decide
  W21_of_ne m ρ c r fun w e => h (e ▸ hm w)
/-- The output array afterwards: the entry contents with every point's block written back. -/
theorem W21_out (m : (ℓ : Loc nD τ sig) → Buf (Elt F) ℓ) (ρ : Dev nD → PrngReg) (c : Dev nD) : W21 m ρ c (Proc.devRef .tc main_v100) = (dat6 (V20 m ρ) c).arrAt 3 cfg6.N :=
  W21_arr m ρ c 3
/-- Input window 0's array is never written back: it holds afterwards what it held at entry. -/
theorem W21_in0 (m : (ℓ : Loc nD τ sig) → Buf (Elt F) ℓ) (ρ : Dev nD → PrngReg) (c : Dev nD) : W21 m ρ c (Proc.devRef .tc main_v98) = W20 m ρ c (Proc.devRef .tc main_v98) :=
  (W21_arr m ρ c 0).trans (((dat6 (V20 m ρ) c).arrAt_in 0 rfl _).trans (A_eq6 (V20 m ρ) c 0))
/-- Input window 1's array is never written back: it holds afterwards what it held at entry. -/
theorem W21_in1 (m : (ℓ : Loc nD τ sig) → Buf (Elt F) ℓ) (ρ : Dev nD → PrngReg) (c : Dev nD) : W21 m ρ c (Proc.devRef .tc main_arg8) = W20 m ρ c (Proc.devRef .tc main_arg8) :=
  (W21_arr m ρ c 1).trans (((dat6 (V20 m ρ) c).arrAt_in 1 rfl _).trans (A_eq6 (V20 m ρ) c 1))
/-- Input window 2's array is never written back: it holds afterwards what it held at entry. -/
theorem W21_in2 (m : (ℓ : Loc nD τ sig) → Buf (Elt F) ℓ) (ρ : Dev nD → PrngReg) (c : Dev nD) : W21 m ρ c (Proc.devRef .tc main_v99) = W20 m ρ c (Proc.devRef .tc main_v99) :=
  (W21_arr m ρ c 2).trans (((dat6 (V20 m ρ) c).arrAt_in 2 rfl _).trans (A_eq6 (V20 m ρ) c 2))

/-! ## The arguments end as launched

No host operation writes an argument array, and a region either does not touch it or reads it through an input window,
whose array is never written back: walking the fold backwards, an argument's buffer holds its launch contents. -/
theorem W21_main_arg0 (m : (ℓ : Loc nD τ sig) → Buf (Elt F) ℓ) (ρ : Dev nD → PrngReg) (c : Dev nD) : W21 m ρ c (Proc.devRef .tc main_arg0) = m ((c : Thread nD τ).loc main_arg0) :=
  (W21_keep m ρ c main_arg0 (by decide)).trans <|
  (W20_keep m ρ c main_arg0 (by decide)).trans <|
  (W19_keep m ρ c main_arg0 (by decide)).trans <|
  (W18_keep m ρ c main_arg0 (by decide)).trans <|
  (W17_keep m ρ c main_arg0 (by decide)).trans <|
  (W16_keep m ρ c main_arg0 (by decide)).trans <|
  (W15_keep m ρ c main_arg0 (by decide)).trans <|
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans rfl
theorem W21_main_arg1 (m : (ℓ : Loc nD τ sig) → Buf (Elt F) ℓ) (ρ : Dev nD → PrngReg) (c : Dev nD) : W21 m ρ c (Proc.devRef .tc main_arg1) = m ((c : Thread nD τ).loc main_arg1) :=
  (W21_keep m ρ c main_arg1 (by decide)).trans <|
  (W20_keep m ρ c main_arg1 (by decide)).trans <|
  (W19_keep m ρ c main_arg1 (by decide)).trans <|
  (W18_keep m ρ c main_arg1 (by decide)).trans <|
  (W17_keep m ρ c main_arg1 (by decide)).trans <|
  (W16_keep m ρ c main_arg1 (by decide)).trans <|
  (W15_keep m ρ c main_arg1 (by decide)).trans <|
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans rfl
theorem W21_main_arg2 (m : (ℓ : Loc nD τ sig) → Buf (Elt F) ℓ) (ρ : Dev nD → PrngReg) (c : Dev nD) : W21 m ρ c (Proc.devRef .tc main_arg2) = m ((c : Thread nD τ).loc main_arg2) :=
  (W21_keep m ρ c main_arg2 (by decide)).trans <|
  (W20_keep m ρ c main_arg2 (by decide)).trans <|
  (W19_keep m ρ c main_arg2 (by decide)).trans <|
  (W18_keep m ρ c main_arg2 (by decide)).trans <|
  (W17_keep m ρ c main_arg2 (by decide)).trans <|
  (W16_keep m ρ c main_arg2 (by decide)).trans <|
  (W15_keep m ρ c main_arg2 (by decide)).trans <|
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans rfl
theorem W21_main_arg3 (m : (ℓ : Loc nD τ sig) → Buf (Elt F) ℓ) (ρ : Dev nD → PrngReg) (c : Dev nD) : W21 m ρ c (Proc.devRef .tc main_arg3) = m ((c : Thread nD τ).loc main_arg3) :=
  (W21_keep m ρ c main_arg3 (by decide)).trans <|
  (W20_keep m ρ c main_arg3 (by decide)).trans <|
  (W19_keep m ρ c main_arg3 (by decide)).trans <|
  (W18_keep m ρ c main_arg3 (by decide)).trans <|
  (W17_keep m ρ c main_arg3 (by decide)).trans <|
  (W16_keep m ρ c main_arg3 (by decide)).trans <|
  (W15_keep m ρ c main_arg3 (by decide)).trans <|
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans rfl
theorem W21_main_arg4 (m : (ℓ : Loc nD τ sig) → Buf (Elt F) ℓ) (ρ : Dev nD → PrngReg) (c : Dev nD) : W21 m ρ c (Proc.devRef .tc main_arg4) = m ((c : Thread nD τ).loc main_arg4) :=
  (W21_keep m ρ c main_arg4 (by decide)).trans <|
  (W20_keep m ρ c main_arg4 (by decide)).trans <|
  (W19_keep m ρ c main_arg4 (by decide)).trans <|
  (W18_keep m ρ c main_arg4 (by decide)).trans <|
  (W17_keep m ρ c main_arg4 (by decide)).trans <|
  (W16_keep m ρ c main_arg4 (by decide)).trans <|
  (W15_keep m ρ c main_arg4 (by decide)).trans <|
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_in1 m ρ c).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans rfl
theorem W21_main_arg5 (m : (ℓ : Loc nD τ sig) → Buf (Elt F) ℓ) (ρ : Dev nD → PrngReg) (c : Dev nD) : W21 m ρ c (Proc.devRef .tc main_arg5) = m ((c : Thread nD τ).loc main_arg5) :=
  (W21_keep m ρ c main_arg5 (by decide)).trans <|
  (W20_keep m ρ c main_arg5 (by decide)).trans <|
  (W19_keep m ρ c main_arg5 (by decide)).trans <|
  (W18_keep m ρ c main_arg5 (by decide)).trans <|
  (W17_keep m ρ c main_arg5 (by decide)).trans <|
  (W16_keep m ρ c main_arg5 (by decide)).trans <|
  (W15_keep m ρ c main_arg5 (by decide)).trans <|
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans rfl
theorem W21_main_arg6 (m : (ℓ : Loc nD τ sig) → Buf (Elt F) ℓ) (ρ : Dev nD → PrngReg) (c : Dev nD) : W21 m ρ c (Proc.devRef .tc main_arg6) = m ((c : Thread nD τ).loc main_arg6) :=
  (W21_keep m ρ c main_arg6 (by decide)).trans <|
  (W20_keep m ρ c main_arg6 (by decide)).trans <|
  (W19_keep m ρ c main_arg6 (by decide)).trans <|
  (W18_keep m ρ c main_arg6 (by decide)).trans <|
  (W17_keep m ρ c main_arg6 (by decide)).trans <|
  (W16_keep m ρ c main_arg6 (by decide)).trans <|
  (W15_keep m ρ c main_arg6 (by decide)).trans <|
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans rfl
theorem W21_main_arg7 (m : (ℓ : Loc nD τ sig) → Buf (Elt F) ℓ) (ρ : Dev nD → PrngReg) (c : Dev nD) : W21 m ρ c (Proc.devRef .tc main_arg7) = m ((c : Thread nD τ).loc main_arg7) :=
  (W21_keep m ρ c main_arg7 (by decide)).trans <|
  (W20_keep m ρ c main_arg7 (by decide)).trans <|
  (W19_keep m ρ c main_arg7 (by decide)).trans <|
  (W18_keep m ρ c main_arg7 (by decide)).trans <|
  (W17_keep m ρ c main_arg7 (by decide)).trans <|
  (W16_keep m ρ c main_arg7 (by decide)).trans <|
  (W15_keep m ρ c main_arg7 (by decide)).trans <|
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans rfl
theorem W21_main_arg8 (m : (ℓ : Loc nD τ sig) → Buf (Elt F) ℓ) (ρ : Dev nD → PrngReg) (c : Dev nD) : W21 m ρ c (Proc.devRef .tc main_arg8) = m ((c : Thread nD τ).loc main_arg8) :=
  (W21_in1 m ρ c).trans <|
  (W20_keep m ρ c main_arg8 (by decide)).trans <|
  (W19_keep m ρ c main_arg8 (by decide)).trans <|
  (W18_keep m ρ c main_arg8 (by decide)).trans <|
  (W17_keep m ρ c main_arg8 (by decide)).trans <|
  (W16_keep m ρ c main_arg8 (by decide)).trans <|
  (W15_keep m ρ c main_arg8 (by decide)).trans <|
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans rfl
theorem W21_main_arg9 (m : (ℓ : Loc nD τ sig) → Buf (Elt F) ℓ) (ρ : Dev nD → PrngReg) (c : Dev nD) : W21 m ρ c (Proc.devRef .tc main_arg9) = m ((c : Thread nD τ).loc main_arg9) :=
  (W21_keep m ρ c main_arg9 (by decide)).trans <|
  (W20_keep m ρ c main_arg9 (by decide)).trans <|
  (W19_keep m ρ c main_arg9 (by decide)).trans <|
  (W18_keep m ρ c main_arg9 (by decide)).trans <|
  (W17_keep m ρ c main_arg9 (by decide)).trans <|
  (W16_keep m ρ c main_arg9 (by decide)).trans <|
  (W15_keep m ρ c main_arg9 (by decide)).trans <|
  (W14_keep m ρ c main_arg9 (by decide)).trans <|
  (W13_keep m ρ c main_arg9 (by decide)).trans <|
  (W12_keep m ρ c main_arg9 (by decide)).trans <|
  (W11_keep m ρ c main_arg9 (by decide)).trans <|
  (W10_keep m ρ c main_arg9 (by decide)).trans <|
  (W9_keep m ρ c main_arg9 (by decide)).trans <|
  (W8_keep m ρ c main_arg9 (by decide)).trans <|
  (W7_keep m ρ c main_arg9 (by decide)).trans <|
  (W6_keep m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans rfl

/-! ## The proof data of the seven pipelines, and what rides beside the buffers -/

/-- Every pipeline's proof data, each at the contents its region is entered with. -/
def pdats (m : (ℓ : Loc nD τ sig) → Buf (Elt F) ℓ) (ρ : Dev nD → PrngReg) : (p : Fin 7) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V12 m ρ) c
  | ⟨4, _⟩ => fun c => dat4 (V15 m ρ) c
  | ⟨5, _⟩ => fun c => dat5 (V18 m ρ) c
  | ⟨6, _⟩ => fun c => dat6 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register, at some state, and its dues, which are none. -/
abbrev R (c : Dev nD) : sProp 𝕄 := iprop((∃ r, prngReg c r) ∗ ∃ W, owes (c : Thread nD τ) (0 : CellTallies nD τ sig Unit) W)
/-- A stretch of host operations as a segment of the run: from every unscoped buffer at the contents `W` to every
    unscoped buffer at what the operations compute from `W`, the rest of the core's state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core, its dues apart: every unscoped buffer at the last boundary's contents, the generator register at some state. -/
abbrev Tₙ (m : (ℓ : Loc nD τ sig) → Buf (Elt F) ℓ) (ρ : Dev nD → PrngReg) (c : Dev nD) : sProp 𝕄 := iprop(StableHlo.held (c : Thread nD τ) (Pipeline.ucRefs τ sig) (W21 m ρ c) ∗ ∃ r, prngReg c r)

end Cert.KernelIdeal.Hand

end
-- ==== Proof.KIRunReg0.lean ====
/- The run of @main: region 0 as a segment. A core enters it holding every unscoped buffer at the contents of boundary 5
   and leaves it holding every unscoped buffer at the contents of boundary 6: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KIRunW

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 0 over a core's state: entered from every unscoped buffer at `W5`, left at `W6`. -/
def reg0 (m : (ℓ : Loc nD τ sig) → Buf (Elt F) ℓ) (ρ : Dev nD → PrngReg) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunReg1.lean ====
/- The run of @main: region 1 as a segment. A core enters it holding every unscoped buffer at the contents of boundary 7
   and leaves it holding every unscoped buffer at the contents of boundary 8: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KIRunW

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 1 over a core's state: entered from every unscoped buffer at `W7`, left at `W8`. -/
def reg1 (m : (ℓ : Loc nD τ sig) → Buf (Elt F) ℓ) (ρ : Dev nD → PrngReg) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunReg2.lean ====
/- The run of @main: region 2 as a segment. A core enters it holding every unscoped buffer at the contents of boundary 9
   and leaves it holding every unscoped buffer at the contents of boundary 10: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KIRunW

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 2 over a core's state: entered from every unscoped buffer at `W9`, left at `W10`. -/
def reg2 (m : (ℓ : Loc nD τ sig) → Buf (Elt F) ℓ) (ρ : Dev nD → PrngReg) : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunReg3.lean ====
/- The run of @main: region 3 as a segment. A core enters it holding every unscoped buffer at the contents of boundary 12
   and leaves it holding every unscoped buffer at the contents of boundary 13: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KIRunW

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 3 over a core's state: entered from every unscoped buffer at `W12`, left at `W13`. -/
def reg3 (m : (ℓ : Loc nD τ sig) → Buf (Elt F) ℓ) (ρ : Dev nD → PrngReg) : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V12 m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec3 c (V12 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V12 m ρ c) (V13 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunReg4.lean ====
/- The run of @main: region 4 as a segment. A core enters it holding every unscoped buffer at the contents of boundary 15
   and leaves it holding every unscoped buffer at the contents of boundary 16: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KIRunW

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 4 over a core's state: entered from every unscoped buffer at `W15`, left at `W16`. -/
def reg4 (m : (ℓ : Loc nD τ sig) → Buf (Elt F) ℓ) (ρ : Dev nD → PrngReg) : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunReg5.lean ====
/- The run of @main: region 5 as a segment. A core enters it holding every unscoped buffer at the contents of boundary 18
   and leaves it holding every unscoped buffer at the contents of boundary 19: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KIRunW

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 5 over a core's state: entered from every unscoped buffer at `W18`, left at `W19`. -/
def reg5 (m : (ℓ : Loc nD τ sig) → Buf (Elt F) ℓ) (ρ : Dev nD → PrngReg) : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V18 m ρ) c).loose
  hwaits := Pipeline.hwaits_of_owed_zero _ _ _ _ L lv 5 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec5 c (V18 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V18 m ρ c) (V19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunReg6.lean ====
/- The run of @main: region 6 as a segment. A core enters it holding every unscoped buffer at the contents of boundary 20
   and leaves it holding every unscoped buffer at the contents of boundary 21: on entry the region's arrays are split out
   of the unscoped buffers and the generator register goes into the pipeline's invariant; on exit the arrays, now at what the
   pipeline's write-backs left, are put back among the unscoped buffers and the register comes out again. The body owes
   nothing and the kernel has no semaphore of its own. Any carrier `F`. -/
import proofs.«121911_j27986006901054_1_alg».proof.Proof.KIRunW

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- applying a library lemma stated over a pinned configuration to the printed one takes unfolding plain definitions
-- inside the type of an unknown
set_option backward.isDefEq.respectTransparency.types false in
/-- Region 6 over a core's state: entered from every unscoped buffer at `W20`, left at `W21` (the last boundary). -/
def reg6 (m : (ℓ : Loc nD τ sig) → Buf (Elt F) ℓ) (ρ : Dev nD → PrngReg) : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V20 m ρ) c).loose
  hwaits := Pipeline.hwaits_of_owed_zero _ _ _ _ L lv 6 fun _ _ => rfl
  pre c := iprop(StableHlo.held (c : Thread nD τ) (Pipeline.ucRefs τ sig) (W20 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V20 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V20 m ρ c) (V21 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KIRun.lean ====
/- The run of @main, assembled: its twenty-one items as segments in order (a host segment per stretch of host
   operations, from the contents of the boundary before it; a region segment per kernel call), @main shown to be the run of
   that list, and the conclusion: from any launch memory with every counter at zero, every weakly fair execution of @main on
   the TensorCores terminates without a fault, and in every final state the result array holds the contents of the last
   boundary while every argument array holds what it held at launch. Any carrier `F`. -/
import proofs.«121911_j27986006901054_1_alg».proof.Proof.KIRunReg0
import proofs.«121911_j27986006901054_1_alg».proof.Proof.KIRunReg1
import proofs.«121911_j27986006901054_1_alg».proof.Proof.KIRunReg2
import proofs.«121911_j27986006901054_1_alg».proof.Proof.KIRunReg3
import proofs.«121911_j27986006901054_1_alg».proof.Proof.KIRunReg4
import proofs.«121911_j27986006901054_1_alg».proof.Proof.KIRunReg5
import proofs.«121911_j27986006901054_1_alg».proof.Proof.KIRunReg6

-- deciding that an index lies in a rectangle as long as a block's longest axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- @main's 21 items as segments, in order. -/
abbrev segs (m : (ℓ : Loc nD τ sig) → Buf (Elt F) ℓ) (ρ : Dev nD → PrngReg) : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .host (hseg hostOps3_1 hostOps3_1_sub hostOps3_1_fresh (W11 m ρ)),
    .region (reg3 m ρ),
    .host (hseg hostOps4 hostOps4_sub hostOps4_fresh (W13 m ρ)),
    .host (hseg hostOps4_1 hostOps4_1_sub hostOps4_1_fresh (W14 m ρ)),
    .region (reg4 m ρ),
    .host (hseg hostOps5 hostOps5_sub hostOps5_fresh (W16 m ρ)),
    .host (hseg hostOps5_1 hostOps5_1_sub hostOps5_1_fresh (W17 m ρ)),
    .region (reg5 m ρ),
    .host (hseg hostOps6 hostOps6_sub hostOps6_fresh (W19 m ρ)),
    .region (reg6 m ρ) ]

/-- @main is the run of the segments: both are the chain of the same twenty-one fragments. -/
theorem main_run (m : (ℓ : Loc nD τ sig) → Buf (Elt F) ℓ) (ρ : Dev nD → PrngReg) (c : Dev nD) : main (F := F) c = Pipeline.Seg.run (segs m ρ) := by
  rewrite [main_chain c, Pipeline.Seg.run_eq_chain,
    show (segs m ρ).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      StableHlo.seq hostOps3_1,
      Prog.lift (.customCall (Pipeline.entry 3) ()),
      StableHlo.seq hostOps4,
      StableHlo.seq hostOps4_1,
      Prog.lift (.customCall (Pipeline.entry 4) ()),
      StableHlo.seq hostOps5,
      StableHlo.seq hostOps5_1,
      Prog.lift (.customCall (Pipeline.entry 5) ()),
      StableHlo.seq hostOps6,
      Prog.lift (.customCall (Pipeline.entry 6) ()) ] from rfl]
  rfl

-- the launch theorem's implicit arguments are found by unifying its conclusion with the statement, which takes unfolding
-- plain definitions inside the type of an unknown
set_option backward.isDefEq.respectTransparency.types false in
/-- THE RUN. From any memory `m` with every counter at zero and any generator registers, every weakly fair execution of
    @main on the TensorCores terminates, nothing faulting; every final state holds, on every core, the result array
    `main_v100` at the last boundary's contents `W21` and each of the ten argument arrays at its launch contents. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v100) = W21 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v100 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c)⟩)

/-- info: 'Cert.KernelIdeal.Hand.run_main' depends on axioms: [propext, Classical.choice, Quot.sound] -/
#guard_msgs in #print axioms run_main

end Cert.KernelIdeal.Hand

end
-- ==== Proof.RefRunPart0.lean ====
import proofs.«121911_j27986006901054_1_alg».proof.Proof.Gen.ReferenceIdeal
import Idealize.ShloMosaic.Lib.StableHlo.Run

/-! # The reference's result as a composed term, stage by stage

The reference is a straight line of host operations.  Its result is written here as a composition of
small named functions, one per stage of the computation, each a function of the program's arguments
(through the earlier stages): the symmetric coupling matrix, the sigmoid layer of node features, the
edge index vectors, three rounds of propagation along the edges, the per-round products pooled by
segment, their concatenation, and the closing affine layer with its leaky rectifier. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The coupling matrix -/

/-- The leaky rectifier of the 45 free parameters per head: `w` where `w ≥ 0`, `0.01 · w` elsewhere. -/
def refW (a6 : (⟨S16x45, .f32⟩ : BufTy).Contents (Elt F)) : (⟨S16x45, .f32⟩ : BufTy).Contents (Elt F) :=
  select (cmpf .oge a6 (broadcastInDim S16x45 ![] bcast_S_S16x45 (constant S_ .f32 0x00000000#32))) a6 (mulf (broadcastInDim S16x45 ![] bcast_S_S16x45 (constant S_ .f32 0x3C23D70A#32)) a6)

/-- The row index `i` of the `k`-th pair `i < j < 10` (the pairs in lexicographic order). -/
def refRow : (⟨S45, .i32⟩ : BufTy).Contents (Elt F) :=
  select (constantI S45 1 0#1) (addi (fun i => lit0 (S45.rowMajor i)) (broadcastInDim S45 ![] bcast_S_S45 (constantI S_ 32 10#32))) (fun i => lit0 (S45.rowMajor i))

/-- The column index `j` of the `k`-th pair `i < j < 10`. -/
def refCol : (⟨S45, .i32⟩ : BufTy).Contents (Elt F) :=
  select (constantI S45 1 0#1) (addi (fun i => lit1 (S45.rowMajor i)) (broadcastInDim S45 ![] bcast_S_S45 (constantI S_ 32 10#32))) (fun i => lit1 (S45.rowMajor i))

/-- The 45 index pairs `(i, j)`, one per row. -/
def refIdx : (⟨S45x2, .i32⟩ : BufTy).Contents (Elt F) :=
  concatenate S45x2 1 [⟨S45x1, broadcastInDim S45x1 ![0] bcast_S45_S45x1_0 (refRow (F := F))⟩, ⟨S45x1, broadcastInDim S45x1 ![0] bcast_S45_S45x1_0 (refCol (F := F))⟩] concatenates_S45x1_S45x1_S45x2_d1

/-- The strictly upper triangular matrix per head: entry `(i, j)` of head `h` is the rectified parameter of the pair, zero elsewhere. -/
def refU (a6 : (⟨S16x45, .f32⟩ : BufTy).Contents (Elt F)) : (⟨S16x10x10, .f32⟩ : BufTy).Contents (Elt F) :=
  Host.scatter scatter_S16x10x10_S45x2_S16x45_0_12_12_1 (fun _ b => b) (broadcastInDim S16x10x10 ![] bcast_S_S16x10x10 (constant S_ .f32 0x00000000#32)) (refIdx (F := F)) (refW a6)

/-- The symmetric matrix `A = U + Uᵀ` per head. -/
def refA (a6 : (⟨S16x45, .f32⟩ : BufTy).Contents (Elt F)) : (⟨S16x10x10, .f32⟩ : BufTy).Contents (Elt F) :=
  addf (refU a6) (transpose S16x10x10 [0, 2, 1] (refU a6) transposes_S16x10x10_S16x10x10_0_2_1)

/-! ## The node features -/

/-- An index vector of 100000 entries with a negative entry moved up by 100000. -/
def refNormNode (a0 : (⟨S100000, .i32⟩ : BufTy).Contents (Elt F)) : (⟨S100000, .i32⟩ : BufTy).Contents (Elt F) :=
  select (cmpi .slt a0 (broadcastInDim S100000 ![] bcast_S_S100000 (constantI S_ 32 0#32))) (addi a0 (broadcastInDim S100000 ![] bcast_S_S100000 (constantI S_ 32 100000#32))) a0

/-- The embedding rows picked by the node indices. -/
def refEmb (a0 : (⟨S100000, .i32⟩ : BufTy).Contents (Elt F)) (a3 : (⟨S100000x128, .f32⟩ : BufTy).Contents (Elt F)) : (⟨S100000x128, .f32⟩ : BufTy).Contents (Elt F) :=
  Host.gather gather_S100000x128_S100000x1_S100000x128_1_0_n_n_0_1_1128 a3 (broadcastInDim S100000x1 ![0] bcast_S100000_S100000x1_0 (refNormNode a0))

/-- The affine layer on the embedding rows: `emb · W + b`. -/
def refLin (a0 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) : (⟨S100000x128, .f32⟩ : BufTy).Contents (Elt F) :=
  addf (Host.dotGeneral dot_S100000x128_S128x128_S100000x128_1_0_0_1_n_n none (refEmb a0 a3) a4) (broadcastInDim S100000x128 ![0, 1] bcast_S1x128_S100000x128_0_1 (broadcastInDim S1x128 ![1] bcast_S128_S1x128_1 a5))

/-- The logistic function elementwise: `1 / (1 + exp (-y))`. -/
def refSigmoid (y : (⟨S100000x128, .f32⟩ : BufTy).Contents (Elt F)) : (⟨S100000x128, .f32⟩ : BufTy).Contents (Elt F) :=
  Host.divf (broadcastInDim S100000x128 ![] bcast_S_S100000x128 (constant S_ .f32 0x3F800000#32)) (addf (broadcastInDim S100000x128 ![] bcast_S_S100000x128 (constant S_ .f32 0x3F800000#32)) (Host.exp (Host.negf y)))

/-- The sigmoid layer: the node features before any propagation. -/
def refX0 (a0 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) : (⟨S100000x128, .f32⟩ : BufTy).Contents (Elt F) :=
  refSigmoid (refLin a0 a3 a4 a5)

/-- The product of per-head vectors with node features over the 128 channels: entry `(h, r, n)` is `Σ_c z[h, r, c] · x[n, c]`. -/
def refDot (z : (⟨S16x10x128, .f32⟩ : BufTy).Contents (Elt F)) (x : (⟨S100000x128, .f32⟩ : BufTy).Contents (Elt F)) : (⟨S16x10x100000, .f32⟩ : BufTy).Contents (Elt F) :=
  Host.dotGeneral dot_S16x10x128_S100000x128_S16x10x100000_2_1_01_0_n_n none z x

/-- The product of the given vectors with the unpropagated features. -/
def refZx (a0 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a7 : (⟨S16x10x128, .f32⟩ : BufTy).Contents (Elt F)) : (⟨S16x10x100000, .f32⟩ : BufTy).Contents (Elt F) :=
  refDot a7 (refX0 a0 a3 a4 a5)

/-! ## The edges -/

/-- Row 0 of the edge table: the source node of each edge, as given. -/
def refSrcRaw (a1 : (⟨S2x640000, .i32⟩ : BufTy).Contents (Elt F)) : (⟨S640000, .i32⟩ : BufTy).Contents (Elt F) :=
  shapeCast S640000 (extractStridedSlice S1x640000 ![0, 0] a1 slices_S2x640000_S1x640000_0_0) shapeCasts_S1x640000_S640000

/-- Row 1 of the edge table: the target node of each edge, as given. -/
def refDstRaw (a1 : (⟨S2x640000, .i32⟩ : BufTy).Contents (Elt F)) : (⟨S640000, .i32⟩ : BufTy).Contents (Elt F) :=
  shapeCast S640000 (extractStridedSlice S1x640000 ![1, 0] a1 slices_S2x640000_S1x640000_1_0) shapeCasts_S1x640000_S640000

/-- The source indices as the gather reads them: a negative one moved up by 100000, one index per row. -/
def refSrc (a1 : (⟨S2x640000, .i32⟩ : BufTy).Contents (Elt F)) : (⟨S640000x1, .i32⟩ : BufTy).Contents (Elt F) :=
  broadcastInDim S640000x1 ![0] bcast_S640000_S640000x1_0 (select (cmpi .slt (refSrcRaw a1) (broadcastInDim S640000 ![] bcast_S_S640000 (constantI S_ 32 0#32))) (addi (refSrcRaw a1) (broadcastInDim S640000 ![] bcast_S_S640000 (constantI S_ 32 100000#32))) (refSrcRaw a1))

/-- The target indices as the scatter reads them: as given, one index per row. -/
def refDst (a1 : (⟨S2x640000, .i32⟩ : BufTy).Contents (Elt F)) : (⟨S640000x1, .i32⟩ : BufTy).Contents (Elt F) :=
  broadcastInDim S640000x1 ![0] bcast_S640000_S640000x1_0 (refDstRaw a1)

/-! ## Propagation -/

/-- One round of propagation: each node receives the sum, over the edges that end in it, of the features of the edge's source. -/
def refProp (src dst : (⟨S640000x1, .i32⟩ : BufTy).Contents (Elt F)) (x : (⟨S100000x128, .f32⟩ : BufTy).Contents (Elt F)) : (⟨S100000x128, .f32⟩ : BufTy).Contents (Elt F) :=
  Host.scatterAdd scatter_S100000x128_S640000x1_S640000x128_1_0_0_1 (broadcastInDim S100000x128 ![] bcast_S_S100000x128 (constant S_ .f32 0x00000000#32)) dst (Host.gather gather_S100000x128_S640000x1_S640000x128_1_0_n_n_0_1_1128 x src)

/-- The node features after one round. -/
def refX1 (a0 : (⟨S100000, .i32⟩ : BufTy).Contents (Elt F)) (a1 : (⟨S2x640000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) : (⟨S100000x128, .f32⟩ : BufTy).Contents (Elt F) :=
  refProp (refSrc a1) (refDst a1) (refX0 a0 a3 a4 a5)
/-- The node features after two rounds. -/
def refX2 (a0 : (⟨S100000, .i32⟩ : BufTy).Contents (Elt F)) (a1 : (⟨S2x640000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) : (⟨S100000x128, .f32⟩ : BufTy).Contents (Elt F) :=
  refProp (refSrc a1) (refDst a1) (refX1 a0 a1 a3 a4 a5)
/-- The node features after three rounds. -/
def refX3 (a0 : (⟨S100000, .i32⟩ : BufTy).Contents (Elt F)) (a1 : (⟨S2x640000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) : (⟨S100000x128, .f32⟩ : BufTy).Contents (Elt F) :=
  refProp (refSrc a1) (refDst a1) (refX2 a0 a1 a3 a4 a5)

/-- The per-head product `A · z`: entry `(h, r, c)` is `Σ_s A[h, r, s] · z[h, s, c]`. -/
def refMulA (A : (⟨S16x10x10, .f32⟩ : BufTy).Contents (Elt F)) (z : (⟨S16x10x128, .f32⟩ : BufTy).Contents (Elt F)) : (⟨S16x10x128, .f32⟩ : BufTy).Contents (Elt F) :=
  Host.dotGeneral dot_S16x10x10_S16x10x128_S16x10x128_2_1_1_2_0_0 none A z

/-- `A z`. -/
def refZ1 (a6 : (⟨S16x45, .f32⟩ : BufTy).Contents (Elt F)) (a7 : (⟨S16x10x128, .f32⟩ : BufTy).Contents (Elt F)) : (⟨S16x10x128, .f32⟩ : BufTy).Contents (Elt F) := refMulA (refA a6) a7
/-- `A² z`. -/
def refZ2 (a6 : (⟨S16x45, .f32⟩ : BufTy).Contents (Elt F)) (a7 : (⟨S16x10x128, .f32⟩ : BufTy).Contents (Elt F)) : (⟨S16x10x128, .f32⟩ : BufTy).Contents (Elt F) := refMulA (refA a6) (refZ1 a6 a7)
/-- `A³ z`. -/
def refZ3 (a6 : (⟨S16x45, .f32⟩ : BufTy).Contents (Elt F)) (a7 : (⟨S16x10x128, .f32⟩ : BufTy).Contents (Elt F)) : (⟨S16x10x128, .f32⟩ : BufTy).Contents (Elt F) := refMulA (refA a6) (refZ2 a6 a7)

/-! ## The products and their pooling -/

/-- Round 0: `zx · zx`. -/
def refT0 (a0 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a7 : (⟨S16x10x128, .f32⟩ : BufTy).Contents (Elt F)) : (⟨S16x10x100000, .f32⟩ : BufTy).Contents (Elt F) :=
  mulf (refZx a0 a3 a4 a5 a7) (refZx a0 a3 a4 a5 a7)
/-- Round 1: `zx · ((A z) · x₁)`. -/
def refT1 (a0 : (⟨S100000, .i32⟩ : BufTy).Contents (Elt F)) (a1 : (⟨S2x640000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) : (⟨S16x10x100000, .f32⟩ : BufTy).Contents (Elt F) :=
  mulf (refZx a0 a3 a4 a5 a7) (refDot (refZ1 a6 a7) (refX1 a0 a1 a3 a4 a5))
/-- Round 2: `zx · ((A² z) · x₂)`. -/
def refT2 (a0 : (⟨S100000, .i32⟩ : BufTy).Contents (Elt F)) (a1 : (⟨S2x640000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) : (⟨S16x10x100000, .f32⟩ : BufTy).Contents (Elt F) :=
  mulf (refZx a0 a3 a4 a5 a7) (refDot (refZ2 a6 a7) (refX2 a0 a1 a3 a4 a5))
/-- Round 3: `zx · ((A³ z) · x₃)`. -/
def refT3 (a0 : (⟨S100000, .i32⟩ : BufTy).Contents (Elt F)) (a1 : (⟨S2x640000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) : (⟨S16x10x100000, .f32⟩ : BufTy).Contents (Elt F) :=
  mulf (refZx a0 a3 a4 a5 a7) (refDot (refZ3 a6 a7) (refX3 a0 a1 a3 a4 a5))

/-- Pooling by segment: the nodes' values summed into their segment's row, then summed over the ten vectors of a head. -/
def refPoolOf (seg : (⟨S100000, .i32⟩ : BufTy).Contents (Elt F)) (t : (⟨S16x10x100000, .f32⟩ : BufTy).Contents (Elt F)) : (⟨S2048x16, .f32⟩ : BufTy).Contents (Elt F) :=
  Host.reduceAdd (Host.scatterAdd scatter_S2048x16x10_S100000x1_S100000x16x10_12_0_0_1 (broadcastInDim S2048x16x10 ![] bcast_S_S2048x16x10 (constant S_ .f32 0x00000000#32)) (broadcastInDim S100000x1 ![0] bcast_S100000_S100000x1_0 seg) (transpose S100000x16x10 [2, 0, 1] t transposes_S16x10x100000_S100000x16x10_2_0_1)) (constant S_ .f32 0x00000000#32) reducesTo_S2048x16x10_S2048x16_d2 h_S_

def refPool0 (a0 : (⟨S100000, .i32⟩ : BufTy).Contents (Elt F)) (a2 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a7 : (⟨S16x10x128, .f32⟩ : BufTy).Contents (Elt F)) : (⟨S2048x16, .f32⟩ : BufTy).Contents (Elt F) :=
  refPoolOf a2 (refT0 a0 a3 a4 a5 a7)
def refPool1 (a0 : (⟨S100000, .i32⟩ : BufTy).Contents (Elt F)) (a1 : (⟨S2x640000, .i32⟩ : BufTy).Contents (Elt F)) (a2 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) : (⟨S2048x16, .f32⟩ : BufTy).Contents (Elt F) :=
  refPoolOf a2 (refT1 a0 a1 a3 a4 a5 a6 a7)
def refPool2 (a0 : (⟨S100000, .i32⟩ : BufTy).Contents (Elt F)) (a1 : (⟨S2x640000, .i32⟩ : BufTy).Contents (Elt F)) (a2 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) : (⟨S2048x16, .f32⟩ : BufTy).Contents (Elt F) :=
  refPoolOf a2 (refT2 a0 a1 a3 a4 a5 a6 a7)
def refPool3 (a0 : (⟨S100000, .i32⟩ : BufTy).Contents (Elt F)) (a1 : (⟨S2x640000, .i32⟩ : BufTy).Contents (Elt F)) (a2 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) : (⟨S2048x16, .f32⟩ : BufTy).Contents (Elt F) :=
  refPoolOf a2 (refT3 a0 a1 a3 a4 a5 a6 a7)

/-! ## The closing layer -/

/-- Four pooled blocks side by side. -/
def refCatOf (p0 p1 p2 p3 : (⟨S2048x16, .f32⟩ : BufTy).Contents (Elt F)) : (⟨S2048x64, .f32⟩ : BufTy).Contents (Elt F) :=
  concatenate S2048x64 1 [⟨S2048x16, p0⟩, ⟨S2048x16, p1⟩, ⟨S2048x16, p2⟩, ⟨S2048x16, p3⟩] concatenates_S2048x16_S2048x16_S2048x16_S2048x16_S2048x64_d1

/-- The four rounds' pooled blocks side by side. -/
def refCat (a0 : (⟨S100000, .i32⟩ : BufTy).Contents (Elt F)) (a1 : (⟨S2x640000, .i32⟩ : BufTy).Contents (Elt F)) (a2 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) : (⟨S2048x64, .f32⟩ : BufTy).Contents (Elt F) :=
  refCatOf (refPool0 a0 a2 a3 a4 a5 a7) (refPool1 a0 a1 a2 a3 a4 a5 a6 a7) (refPool2 a0 a1 a2 a3 a4 a5 a6 a7) (refPool3 a0 a1 a2 a3 a4 a5 a6 a7)

/-- The closing affine layer: `cat · W + b`. -/
def refOutLin (cat : (⟨S2048x64, .f32⟩ : BufTy).Contents (Elt F)) (a8 : (⟨S64x128, .f32⟩ : BufTy).Contents (Elt F)) (a9 : (⟨S128, .f32⟩ : BufTy).Contents (Elt F)) : (⟨S2048x128, .f32⟩ : BufTy).Contents (Elt F) :=
  addf (Host.dotGeneral dot_S2048x64_S64x128_S2048x128_1_0_0_1_n_n none cat a8) (broadcastInDim S2048x128 ![0, 1] bcast_S1x128_S2048x128_0_1 (broadcastInDim S1x128 ![1] bcast_S128_S1x128_1 a9))

/-- The leaky rectifier elementwise: `y` where `y ≥ 0`, `0.01 · y` elsewhere. -/
def refLeaky (y : (⟨S2048x128, .f32⟩ : BufTy).Contents (Elt F)) : (⟨S2048x128, .f32⟩ : BufTy).Contents (Elt F) :=
  select (cmpf .oge y (broadcastInDim S2048x128 ![] bcast_S_S2048x128 (constant S_ .f32 0x00000000#32))) y (mulf (broadcastInDim S2048x128 ![] bcast_S_S2048x128 (constant S_ .f32 0x3C23D70A#32)) y)

/-- The reference's result as a function of its ten arguments. -/
def refVal (a0 : (⟨S100000, .i32⟩ : BufTy).Contents (Elt F)) (a1 : (⟨S2x640000, .i32⟩ : BufTy).Contents (Elt F)) (a2 : (⟨S100000, .i32⟩ : BufTy).Contents (Elt F)) (a3 : (⟨S100000x128, .f32⟩ : BufTy).Contents (Elt F)) (a4 : (⟨S128x128, .f32⟩ : BufTy).Contents (Elt F)) (a5 : (⟨S128, .f32⟩ : BufTy).Contents (Elt F)) (a6 : (⟨S16x45, .f32⟩ : BufTy).Contents (Elt F)) (a7 : (⟨S16x10x128, .f32⟩ : BufTy).Contents (Elt F)) (a8 : (⟨S64x128, .f32⟩ : BufTy).Contents (Elt F)) (a9 : (⟨S128, .f32⟩ : BufTy).Contents (Elt F)) : (⟨S2048x128, .f32⟩ : BufTy).Contents (Elt F) :=
  refLeaky (refOutLin (refCat a0 a1 a2 a3 a4 a5 a6 a7) a8 a9)

end Cert.ReferenceIdeal.RefRun

end
-- ==== Proof.RefRunPart1.lean ====
import proofs.«121911_j27986006901054_1_alg».proof.Proof.Gen.ReferenceIdeal
import Idealize.ShloMosaic.Lib.StableHlo.Run

/-! # The reference as a list of host operations

The reference's body, window by window, as the list of its operations in order; a call of an outlined
one-operation function is that operation, at the call's buffers.  Each window of the printed program is the
straight line of its list, and the whole program the straight line of their concatenation. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 1 … 60 (the first window). -/
abbrev ops_part0 : List (HloOp τ sig (Elt F)) :=
  [ nullary main_c (fun i => lit0 (S45.rowMajor i)),
    nullary main_c_0 (constantI S45 1 0#1),
    nullary main_c_1 (fun i => lit1 (S45.rowMajor i)),
    nullary main_c_2 (constantI S45 1 0#1),
    nullary main_cst (constant S_ .f32 0x00000000#32),
    unary main_cst main_v0 (broadcastInDim S16x10x10 ![] bcast_S_S16x10x10 : (⟨S_, .f32⟩ : BufTy).Contents (Elt F) → (⟨S16x10x10, .f32⟩ : BufTy).Contents (Elt F)),
    nullary main_cst_3 (constant S_ .f32 0x00000000#32),
    unary main_cst_3 main_v1 (broadcastInDim S16x45 ![] bcast_S_S16x45 : (⟨S_, .f32⟩ : BufTy).Contents (Elt F) → (⟨S16x45, .f32⟩ : BufTy).Contents (Elt F)),
    binary main_arg6 main_v1 main_v2 (cmpf .oge : (⟨S16x45, .f32⟩ : BufTy).Contents (Elt F) → (⟨S16x45, .f32⟩ : BufTy).Contents (Elt F) → (⟨S16x45, .i1⟩ : BufTy).Contents (Elt F)),
    nullary main_cst_4 (constant S_ .f32 0x3C23D70A#32),
    unary main_cst_4 main_v3 (broadcastInDim S16x45 ![] bcast_S_S16x45 : (⟨S_, .f32⟩ : BufTy).Contents (Elt F) → (⟨S16x45, .f32⟩ : BufTy).Contents (Elt F)),
    binary main_v3 main_arg6 main_v4 (mulf : (⟨S16x45, .f32⟩ : BufTy).Contents (Elt F) → (⟨S16x45, .f32⟩ : BufTy).Contents (Elt F) → (⟨S16x45, .f32⟩ : BufTy).Contents (Elt F)),
    TRef.ternary (.of main_v2) (.of main_arg6) (.of main_v4) main_call0.v0 select,
    nullary main_c_5 (constantI S_ 32 10#32),
    unary main_c_5 main_v6 (broadcastInDim S45 ![] bcast_S_S45 : (⟨S_, .i32⟩ : BufTy).Contents (Elt F) → (⟨S45, .i32⟩ : BufTy).Contents (Elt F)),
    binary main_c main_v6 main_v7 (addi : (⟨S45, .i32⟩ : BufTy).Contents (Elt F) → (⟨S45, .i32⟩ : BufTy).Contents (Elt F) → (⟨S45, .i32⟩ : BufTy).Contents (Elt F)),
    ternary main_c_0 main_v7 main_c main_v8 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    nullary main_c_6 (constantI S_ 32 10#32),
    unary main_c_6 main_v9 (broadcastInDim S45 ![] bcast_S_S45 : (⟨S_, .i32⟩ : BufTy).Contents (Elt F) → (⟨S45, .i32⟩ : BufTy).Contents (Elt F)),
    binary main_c_1 main_v9 main_v10 (addi : (⟨S45, .i32⟩ : BufTy).Contents (Elt F) → (⟨S45, .i32⟩ : BufTy).Contents (Elt F) → (⟨S45, .i32⟩ : BufTy).Contents (Elt F)),
    ternary main_c_2 main_v10 main_c_1 main_v11 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v8 main_v12 (broadcastInDim S45x1 ![0] bcast_S45_S45x1_0 : (⟨S45, .i32⟩ : BufTy).Contents (Elt F) → (⟨S45x1, .i32⟩ : BufTy).Contents (Elt F)),
    unary main_v11 main_v13 (broadcastInDim S45x1 ![0] bcast_S45_S45x1_0 : (⟨S45, .i32⟩ : BufTy).Contents (Elt F) → (⟨S45x1, .i32⟩ : BufTy).Contents (Elt F)),
    binary main_v12 main_v13 main_v14 ((fun a b => concatenate S45x2 1 [⟨S45x1, a⟩, ⟨S45x1, b⟩] concatenates_S45x1_S45x1_S45x2_d1) : (⟨S45x1, .i32⟩ : BufTy).Contents (Elt F) → (⟨S45x1, .i32⟩ : BufTy).Contents (Elt F) → (⟨S45x2, .i32⟩ : BufTy).Contents (Elt F)),
    ternary main_v0 main_v14 main_v5 main_v15 ((fun x i u => Host.scatter scatter_S16x10x10_S45x2_S16x45_0_12_12_1 (fun _ b => b) x i u) : (⟨S16x10x10, .f32⟩ : BufTy).Contents (Elt F) → (⟨S45x2, .i32⟩ : BufTy).Contents (Elt F) → (⟨S16x45, .f32⟩ : BufTy).Contents (Elt F) → (⟨S16x10x10, .f32⟩ : BufTy).Contents (Elt F)),
    unary main_v15 main_v16 ((transpose S16x10x10 [0, 2, 1] · transposes_S16x10x10_S16x10x10_0_2_1) : (⟨S16x10x10, .f32⟩ : BufTy).Contents (Elt F) → (⟨S16x10x10, .f32⟩ : BufTy).Contents (Elt F)),
    binary main_v15 main_v16 main_v17 (addf : (⟨S16x10x10, .f32⟩ : BufTy).Contents (Elt F) → (⟨S16x10x10, .f32⟩ : BufTy).Contents (Elt F) → (⟨S16x10x10, .f32⟩ : BufTy).Contents (Elt F)),
    nullary main_c_7 (constantI S_ 32 0#32),
    unary main_c_7 main_v18 (broadcastInDim S100000 ![] bcast_S_S100000 : (⟨S_, .i32⟩ : BufTy).Contents (Elt F) → (⟨S100000, .i32⟩ : BufTy).Contents (Elt F)),
    binary main_arg0 main_v18 main_v19 (cmpi .slt : (⟨S100000, .i32⟩ : BufTy).Contents (Elt F) → (⟨S100000, .i32⟩ : BufTy).Contents (Elt F) → (⟨S100000, .i1⟩ : BufTy).Contents (Elt F)),
    nullary main_c_8 (constantI S_ 32 100000#32),
    unary main_c_8 main_v20 (broadcastInDim S100000 ![] bcast_S_S100000 : (⟨S_, .i32⟩ : BufTy).Contents (Elt F) → (⟨S100000, .i32⟩ : BufTy).Contents (Elt F)),
    binary main_arg0 main_v20 main_v21 (addi : (⟨S100000, .i32⟩ : BufTy).Contents (Elt F) → (⟨S100000, .i32⟩ : BufTy).Contents (Elt F) → (⟨S100000, .i32⟩ : BufTy).Contents (Elt F)),
    ternary main_v19 main_v21 main_arg0 main_v22 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v22 main_v23 (broadcastInDim S100000x1 ![0] bcast_S100000_S100000x1_0 : (⟨S100000, .i32⟩ : BufTy).Contents (Elt F) → (⟨S100000x1, .i32⟩ : BufTy).Contents (Elt F)),
    binary main_arg3 main_v23 main_v24 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    binary main_v24 main_arg4 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    unary main_v28 main_v29 (Host.negf : (⟨S100000x128, .f32⟩ : BufTy).Contents (Elt F) → (⟨S100000x128, .f32⟩ : BufTy).Contents (Elt F)),
    unary main_v29 main_v30 (Host.exp : (⟨S100000x128, .f32⟩ : BufTy).Contents (Elt F) → (⟨S100000x128, .f32⟩ : BufTy).Contents (Elt F)),
    nullary main_cst_9 (constant S_ .f32 0x3F800000#32),
    unary main_cst_9 main_v31 (broadcastInDim S100000x128 ![] bcast_S_S100000x128 : (⟨S_, .f32⟩ : BufTy).Contents (Elt F) → (⟨S100000x128, .f32⟩ : BufTy).Contents (Elt F)),
    binary main_v31 main_v30 main_v32 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3F800000#32),
    unary main_cst_10 main_v33 (broadcastInDim S100000x128 ![] bcast_S_S100000x128 : (⟨S_, .f32⟩ : BufTy).Contents (Elt F) → (⟨S100000x128, .f32⟩ : BufTy).Contents (Elt F)),
    binary main_v33 main_v32 main_v34 (Host.divf : (⟨S100000x128, .f32⟩ : BufTy).Contents (Elt F) → (⟨S100000x128, .f32⟩ : BufTy).Contents (Elt F) → (⟨S100000x128, .f32⟩ : BufTy).Contents (Elt F)),
    binary main_arg7 main_v34 main_v35 ((fun l r => Host.dotGeneral dot_S16x10x128_S100000x128_S16x10x100000_2_1_01_0_n_n none l r) : (⟨S16x10x128, .f32⟩ : BufTy).Contents (Elt F) → (⟨S100000x128, .f32⟩ : BufTy).Contents (Elt F) → (⟨S16x10x100000, .f32⟩ : BufTy).Contents (Elt F)),
    unary main_arg1 main_v36 ((extractStridedSlice S1x640000 ![0, 0] · slices_S2x640000_S1x640000_0_0) : (⟨S2x640000, .i32⟩ : BufTy).Contents (Elt F) → (⟨S1x640000, .i32⟩ : BufTy).Contents (Elt F)),
    reshape main_v36 main_v37 rfl shapeCasts_S1x640000_S640000,
    unary main_arg1 main_v38 ((extractStridedSlice S1x640000 ![1, 0] · slices_S2x640000_S1x640000_1_0) : (⟨S2x640000, .i32⟩ : BufTy).Contents (Elt F) → (⟨S1x640000, .i32⟩ : BufTy).Contents (Elt F)),
    reshape main_v38 main_v39 rfl shapeCasts_S1x640000_S640000,
    binary main_v35 main_v35 main_v40 (mulf : (⟨S16x10x100000, .f32⟩ : BufTy).Contents (Elt F) → (⟨S16x10x100000, .f32⟩ : BufTy).Contents (Elt F) → (⟨S16x10x100000, .f32⟩ : BufTy).Contents (Elt F)),
    unary main_v40 main_v41 ((transpose S100000x16x10 [2, 0, 1] · transposes_S16x10x100000_S100000x16x10_2_0_1) : (⟨S16x10x100000, .f32⟩ : BufTy).Contents (Elt F) → (⟨S100000x16x10, .f32⟩ : BufTy).Contents (Elt F)),
    nullary main_cst_11 (constant S_ .f32 0x00000000#32),
    unary main_cst_11 main_v42 (broadcastInDim S2048x16x10 ![] bcast_S_S2048x16x10 : (⟨S_, .f32⟩ : BufTy).Contents (Elt F) → (⟨S2048x16x10, .f32⟩ : BufTy).Contents (Elt F)),
    unary main_arg2 main_v43 (broadcastInDim S100000x1 ![0] bcast_S100000_S100000x1_0 : (⟨S100000, .i32⟩ : BufTy).Contents (Elt F) → (⟨S100000x1, .i32⟩ : BufTy).Contents (Elt F)),
    ternary main_v42 main_v43 main_v41 main_v44 ((fun x i u => Host.scatterAdd scatter_S2048x16x10_S100000x1_S100000x16x10_12_0_0_1 x i u) : (⟨S2048x16x10, .f32⟩ : BufTy).Contents (Elt F) → (⟨S100000x1, .i32⟩ : BufTy).Contents (Elt F) → (⟨S100000x16x10, .f32⟩ : BufTy).Contents (Elt F) → (⟨S2048x16x10, .f32⟩ : BufTy).Contents (Elt F)),
    nullary main_cst_12 (constant S_ .f32 0x00000000#32) ]

/-- The operations 61 … 120 (the second window). -/
abbrev ops_part1 : List (HloOp τ sig (Elt F)) :=
  [ binary main_v44 main_cst_12 main_v45 ((fun x v => Host.reduceAdd x v reducesTo_S2048x16x10_S2048x16_d2 h_S_) : (⟨S2048x16x10, .f32⟩ : BufTy).Contents (Elt F) → (⟨S_, .f32⟩ : BufTy).Contents (Elt F) → (⟨S2048x16, .f32⟩ : BufTy).Contents (Elt F)),
    nullary main_c_13 (constantI S_ 32 0#32),
    unary main_c_13 main_v46 (broadcastInDim S640000 ![] bcast_S_S640000 : (⟨S_, .i32⟩ : BufTy).Contents (Elt F) → (⟨S640000, .i32⟩ : BufTy).Contents (Elt F)),
    binary main_v37 main_v46 main_v47 (cmpi .slt : (⟨S640000, .i32⟩ : BufTy).Contents (Elt F) → (⟨S640000, .i32⟩ : BufTy).Contents (Elt F) → (⟨S640000, .i1⟩ : BufTy).Contents (Elt F)),
    nullary main_c_14 (constantI S_ 32 100000#32),
    unary main_c_14 main_v48 (broadcastInDim S640000 ![] bcast_S_S640000 : (⟨S_, .i32⟩ : BufTy).Contents (Elt F) → (⟨S640000, .i32⟩ : BufTy).Contents (Elt F)),
    binary main_v37 main_v48 main_v49 (addi : (⟨S640000, .i32⟩ : BufTy).Contents (Elt F) → (⟨S640000, .i32⟩ : BufTy).Contents (Elt F) → (⟨S640000, .i32⟩ : BufTy).Contents (Elt F)),
    ternary main_v47 main_v49 main_v37 main_v50 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v50 main_v51 (broadcastInDim S640000x1 ![0] bcast_S640000_S640000x1_0 : (⟨S640000, .i32⟩ : BufTy).Contents (Elt F) → (⟨S640000x1, .i32⟩ : BufTy).Contents (Elt F)),
    binary main_v34 main_v51 main_v52 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_15 (constant S_ .f32 0x00000000#32),
    unary main_cst_15 main_v53 (broadcastInDim S100000x128 ![] bcast_S_S100000x128 : (⟨S_, .f32⟩ : BufTy).Contents (Elt F) → (⟨S100000x128, .f32⟩ : BufTy).Contents (Elt F)),
    unary main_v39 main_v54 (broadcastInDim S640000x1 ![0] bcast_S640000_S640000x1_0 : (⟨S640000, .i32⟩ : BufTy).Contents (Elt F) → (⟨S640000x1, .i32⟩ : BufTy).Contents (Elt F)),
    ternary main_v53 main_v54 main_v52 main_v55 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    binary main_v17 main_arg7 main_v56 ((fun l r => Host.dotGeneral dot_S16x10x10_S16x10x128_S16x10x128_2_1_1_2_0_0 none l r) : (⟨S16x10x10, .f32⟩ : BufTy).Contents (Elt F) → (⟨S16x10x128, .f32⟩ : BufTy).Contents (Elt F) → (⟨S16x10x128, .f32⟩ : BufTy).Contents (Elt F)),
    binary main_v56 main_v55 main_v57 ((fun l r => Host.dotGeneral dot_S16x10x128_S100000x128_S16x10x100000_2_1_01_0_n_n none l r) : (⟨S16x10x128, .f32⟩ : BufTy).Contents (Elt F) → (⟨S100000x128, .f32⟩ : BufTy).Contents (Elt F) → (⟨S16x10x100000, .f32⟩ : BufTy).Contents (Elt F)),
    binary main_v35 main_v57 main_v58 (mulf : (⟨S16x10x100000, .f32⟩ : BufTy).Contents (Elt F) → (⟨S16x10x100000, .f32⟩ : BufTy).Contents (Elt F) → (⟨S16x10x100000, .f32⟩ : BufTy).Contents (Elt F)),
    unary main_v58 main_v59 ((transpose S100000x16x10 [2, 0, 1] · transposes_S16x10x100000_S100000x16x10_2_0_1) : (⟨S16x10x100000, .f32⟩ : BufTy).Contents (Elt F) → (⟨S100000x16x10, .f32⟩ : BufTy).Contents (Elt F)),
    nullary main_cst_16 (constant S_ .f32 0x00000000#32),
    unary main_cst_16 main_v60 (broadcastInDim S2048x16x10 ![] bcast_S_S2048x16x10 : (⟨S_, .f32⟩ : BufTy).Contents (Elt F) → (⟨S2048x16x10, .f32⟩ : BufTy).Contents (Elt F)),
    unary main_arg2 main_v61 (broadcastInDim S100000x1 ![0] bcast_S100000_S100000x1_0 : (⟨S100000, .i32⟩ : BufTy).Contents (Elt F) → (⟨S100000x1, .i32⟩ : BufTy).Contents (Elt F)),
    ternary main_v60 main_v61 main_v59 main_v62 ((fun x i u => Host.scatterAdd scatter_S2048x16x10_S100000x1_S100000x16x10_12_0_0_1 x i u) : (⟨S2048x16x10, .f32⟩ : BufTy).Contents (Elt F) → (⟨S100000x1, .i32⟩ : BufTy).Contents (Elt F) → (⟨S100000x16x10, .f32⟩ : BufTy).Contents (Elt F) → (⟨S2048x16x10, .f32⟩ : BufTy).Contents (Elt F)),
    nullary main_cst_17 (constant S_ .f32 0x00000000#32),
    binary main_v62 main_cst_17 main_v63 ((fun x v => Host.reduceAdd x v reducesTo_S2048x16x10_S2048x16_d2 h_S_) : (⟨S2048x16x10, .f32⟩ : BufTy).Contents (Elt F) → (⟨S_, .f32⟩ : BufTy).Contents (Elt F) → (⟨S2048x16, .f32⟩ : BufTy).Contents (Elt F)),
    nullary main_c_18 (constantI S_ 32 0#32),
    unary main_c_18 main_v64 (broadcastInDim S640000 ![] bcast_S_S640000 : (⟨S_, .i32⟩ : BufTy).Contents (Elt F) → (⟨S640000, .i32⟩ : BufTy).Contents (Elt F)),
    binary main_v37 main_v64 main_v65 (cmpi .slt : (⟨S640000, .i32⟩ : BufTy).Contents (Elt F) → (⟨S640000, .i32⟩ : BufTy).Contents (Elt F) → (⟨S640000, .i1⟩ : BufTy).Contents (Elt F)),
    nullary main_c_19 (constantI S_ 32 100000#32),
    unary main_c_19 main_v66 (broadcastInDim S640000 ![] bcast_S_S640000 : (⟨S_, .i32⟩ : BufTy).Contents (Elt F) → (⟨S640000, .i32⟩ : BufTy).Contents (Elt F)),
    binary main_v37 main_v66 main_v67 (addi : (⟨S640000, .i32⟩ : BufTy).Contents (Elt F) → (⟨S640000, .i32⟩ : BufTy).Contents (Elt F) → (⟨S640000, .i32⟩ : BufTy).Contents (Elt F)),
    ternary main_v65 main_v67 main_v37 main_v68 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v68 main_v69 (broadcastInDim S640000x1 ![0] bcast_S640000_S640000x1_0 : (⟨S640000, .i32⟩ : BufTy).Contents (Elt F) → (⟨S640000x1, .i32⟩ : BufTy).Contents (Elt F)),
    binary main_v55 main_v69 main_v70 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_20 (constant S_ .f32 0x00000000#32),
    unary main_cst_20 main_v71 (broadcastInDim S100000x128 ![] bcast_S_S100000x128 : (⟨S_, .f32⟩ : BufTy).Contents (Elt F) → (⟨S100000x128, .f32⟩ : BufTy).Contents (Elt F)),
    unary main_v39 main_v72 (broadcastInDim S640000x1 ![0] bcast_S640000_S640000x1_0 : (⟨S640000, .i32⟩ : BufTy).Contents (Elt F) → (⟨S640000x1, .i32⟩ : BufTy).Contents (Elt F)),
    ternary main_v71 main_v72 main_v70 main_v73 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    binary main_v17 main_v56 main_v74 ((fun l r => Host.dotGeneral dot_S16x10x10_S16x10x128_S16x10x128_2_1_1_2_0_0 none l r) : (⟨S16x10x10, .f32⟩ : BufTy).Contents (Elt F) → (⟨S16x10x128, .f32⟩ : BufTy).Contents (Elt F) → (⟨S16x10x128, .f32⟩ : BufTy).Contents (Elt F)),
    binary main_v74 main_v73 main_v75 ((fun l r => Host.dotGeneral dot_S16x10x128_S100000x128_S16x10x100000_2_1_01_0_n_n none l r) : (⟨S16x10x128, .f32⟩ : BufTy).Contents (Elt F) → (⟨S100000x128, .f32⟩ : BufTy).Contents (Elt F) → (⟨S16x10x100000, .f32⟩ : BufTy).Contents (Elt F)),
    binary main_v35 main_v75 main_v76 (mulf : (⟨S16x10x100000, .f32⟩ : BufTy).Contents (Elt F) → (⟨S16x10x100000, .f32⟩ : BufTy).Contents (Elt F) → (⟨S16x10x100000, .f32⟩ : BufTy).Contents (Elt F)),
    unary main_v76 main_v77 ((transpose S100000x16x10 [2, 0, 1] · transposes_S16x10x100000_S100000x16x10_2_0_1) : (⟨S16x10x100000, .f32⟩ : BufTy).Contents (Elt F) → (⟨S100000x16x10, .f32⟩ : BufTy).Contents (Elt F)),
    nullary main_cst_21 (constant S_ .f32 0x00000000#32),
    unary main_cst_21 main_v78 (broadcastInDim S2048x16x10 ![] bcast_S_S2048x16x10 : (⟨S_, .f32⟩ : BufTy).Contents (Elt F) → (⟨S2048x16x10, .f32⟩ : BufTy).Contents (Elt F)),
    unary main_arg2 main_v79 (broadcastInDim S100000x1 ![0] bcast_S100000_S100000x1_0 : (⟨S100000, .i32⟩ : BufTy).Contents (Elt F) → (⟨S100000x1, .i32⟩ : BufTy).Contents (Elt F)),
    ternary main_v78 main_v79 main_v77 main_v80 ((fun x i u => Host.scatterAdd scatter_S2048x16x10_S100000x1_S100000x16x10_12_0_0_1 x i u) : (⟨S2048x16x10, .f32⟩ : BufTy).Contents (Elt F) → (⟨S100000x1, .i32⟩ : BufTy).Contents (Elt F) → (⟨S100000x16x10, .f32⟩ : BufTy).Contents (Elt F) → (⟨S2048x16x10, .f32⟩ : BufTy).Contents (Elt F)),
    nullary main_cst_22 (constant S_ .f32 0x00000000#32),
    binary main_v80 main_cst_22 main_v81 ((fun x v => Host.reduceAdd x v reducesTo_S2048x16x10_S2048x16_d2 h_S_) : (⟨S2048x16x10, .f32⟩ : BufTy).Contents (Elt F) → (⟨S_, .f32⟩ : BufTy).Contents (Elt F) → (⟨S2048x16, .f32⟩ : BufTy).Contents (Elt F)),
    nullary main_c_23 (constantI S_ 32 0#32),
    unary main_c_23 main_v82 (broadcastInDim S640000 ![] bcast_S_S640000 : (⟨S_, .i32⟩ : BufTy).Contents (Elt F) → (⟨S640000, .i32⟩ : BufTy).Contents (Elt F)),
    binary main_v37 main_v82 main_v83 (cmpi .slt : (⟨S640000, .i32⟩ : BufTy).Contents (Elt F) → (⟨S640000, .i32⟩ : BufTy).Contents (Elt F) → (⟨S640000, .i1⟩ : BufTy).Contents (Elt F)),
    nullary main_c_24 (constantI S_ 32 100000#32),
    unary main_c_24 main_v84 (broadcastInDim S640000 ![] bcast_S_S640000 : (⟨S_, .i32⟩ : BufTy).Contents (Elt F) → (⟨S640000, .i32⟩ : BufTy).Contents (Elt F)),
    binary main_v37 main_v84 main_v85 (addi : (⟨S640000, .i32⟩ : BufTy).Contents (Elt F) → (⟨S640000, .i32⟩ : BufTy).Contents (Elt F) → (⟨S640000, .i32⟩ : BufTy).Contents (Elt F)),
    ternary main_v83 main_v85 main_v37 main_v86 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v86 main_v87 (broadcastInDim S640000x1 ![0] bcast_S640000_S640000x1_0 : (⟨S640000, .i32⟩ : BufTy).Contents (Elt F) → (⟨S640000x1, .i32⟩ : BufTy).Contents (Elt F)),
    binary main_v73 main_v87 main_v88 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_25 (constant S_ .f32 0x00000000#32),
    unary main_cst_25 main_v89 (broadcastInDim S100000x128 ![] bcast_S_S100000x128 : (⟨S_, .f32⟩ : BufTy).Contents (Elt F) → (⟨S100000x128, .f32⟩ : BufTy).Contents (Elt F)),
    unary main_v39 main_v90 (broadcastInDim S640000x1 ![0] bcast_S640000_S640000x1_0 : (⟨S640000, .i32⟩ : BufTy).Contents (Elt F) → (⟨S640000x1, .i32⟩ : BufTy).Contents (Elt F)),
    ternary main_v89 main_v90 main_v88 main_v91 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ]

/-- The operations 121 … 142 (the third window). -/
abbrev ops_part2 : List (HloOp τ sig (Elt F)) :=
  [ binary main_v17 main_v74 main_v92 ((fun l r => Host.dotGeneral dot_S16x10x10_S16x10x128_S16x10x128_2_1_1_2_0_0 none l r) : (⟨S16x10x10, .f32⟩ : BufTy).Contents (Elt F) → (⟨S16x10x128, .f32⟩ : BufTy).Contents (Elt F) → (⟨S16x10x128, .f32⟩ : BufTy).Contents (Elt F)),
    binary main_v92 main_v91 main_v93 ((fun l r => Host.dotGeneral dot_S16x10x128_S100000x128_S16x10x100000_2_1_01_0_n_n none l r) : (⟨S16x10x128, .f32⟩ : BufTy).Contents (Elt F) → (⟨S100000x128, .f32⟩ : BufTy).Contents (Elt F) → (⟨S16x10x100000, .f32⟩ : BufTy).Contents (Elt F)),
    binary main_v35 main_v93 main_v94 (mulf : (⟨S16x10x100000, .f32⟩ : BufTy).Contents (Elt F) → (⟨S16x10x100000, .f32⟩ : BufTy).Contents (Elt F) → (⟨S16x10x100000, .f32⟩ : BufTy).Contents (Elt F)),
    unary main_v94 main_v95 ((transpose S100000x16x10 [2, 0, 1] · transposes_S16x10x100000_S100000x16x10_2_0_1) : (⟨S16x10x100000, .f32⟩ : BufTy).Contents (Elt F) → (⟨S100000x16x10, .f32⟩ : BufTy).Contents (Elt F)),
    nullary main_cst_26 (constant S_ .f32 0x00000000#32),
    unary main_cst_26 main_v96 (broadcastInDim S2048x16x10 ![] bcast_S_S2048x16x10 : (⟨S_, .f32⟩ : BufTy).Contents (Elt F) → (⟨S2048x16x10, .f32⟩ : BufTy).Contents (Elt F)),
    unary main_arg2 main_v97 (broadcastInDim S100000x1 ![0] bcast_S100000_S100000x1_0 : (⟨S100000, .i32⟩ : BufTy).Contents (Elt F) → (⟨S100000x1, .i32⟩ : BufTy).Contents (Elt F)),
    ternary main_v96 main_v97 main_v95 main_v98 ((fun x i u => Host.scatterAdd scatter_S2048x16x10_S100000x1_S100000x16x10_12_0_0_1 x i u) : (⟨S2048x16x10, .f32⟩ : BufTy).Contents (Elt F) → (⟨S100000x1, .i32⟩ : BufTy).Contents (Elt F) → (⟨S100000x16x10, .f32⟩ : BufTy).Contents (Elt F) → (⟨S2048x16x10, .f32⟩ : BufTy).Contents (Elt F)),
    nullary main_cst_27 (constant S_ .f32 0x00000000#32),
    binary main_v98 main_cst_27 main_v99 ((fun x v => Host.reduceAdd x v reducesTo_S2048x16x10_S2048x16_d2 h_S_) : (⟨S2048x16x10, .f32⟩ : BufTy).Contents (Elt F) → (⟨S_, .f32⟩ : BufTy).Contents (Elt F) → (⟨S2048x16, .f32⟩ : BufTy).Contents (Elt F)),
    nary ![main_v45, main_v63, main_v81, main_v99] main_v100 (fun u => concatenate S2048x64 1 [⟨S2048x16, u 0⟩, ⟨S2048x16, u 1⟩, ⟨S2048x16, u 2⟩, ⟨S2048x16, u 3⟩] concatenates_S2048x16_S2048x16_S2048x16_S2048x16_S2048x64_d1),
    binary main_v100 main_arg8 main_v101 ((fun l r => Host.dotGeneral dot_S2048x64_S64x128_S2048x128_1_0_0_1_n_n none l r) : (⟨S2048x64, .f32⟩ : BufTy).Contents (Elt F) → (⟨S64x128, .f32⟩ : BufTy).Contents (Elt F) → (⟨S2048x128, .f32⟩ : BufTy).Contents (Elt F)),
    unary main_arg9 main_v102 (broadcastInDim S1x128 ![1] bcast_S128_S1x128_1 : (⟨S128, .f32⟩ : BufTy).Contents (Elt F) → (⟨S1x128, .f32⟩ : BufTy).Contents (Elt F)),
    unary main_v102 main_v103 (broadcastInDim S2048x128 ![0, 1] bcast_S1x128_S2048x128_0_1 : (⟨S1x128, .f32⟩ : BufTy).Contents (Elt F) → (⟨S2048x128, .f32⟩ : BufTy).Contents (Elt F)),
    binary main_v101 main_v103 main_v104 (addf : (⟨S2048x128, .f32⟩ : BufTy).Contents (Elt F) → (⟨S2048x128, .f32⟩ : BufTy).Contents (Elt F) → (⟨S2048x128, .f32⟩ : BufTy).Contents (Elt F)),
    nullary main_cst_28 (constant S_ .f32 0x00000000#32),
    unary main_cst_28 main_v105 (broadcastInDim S2048x128 ![] bcast_S_S2048x128 : (⟨S_, .f32⟩ : BufTy).Contents (Elt F) → (⟨S2048x128, .f32⟩ : BufTy).Contents (Elt F)),
    binary main_v104 main_v105 main_v106 (cmpf .oge : (⟨S2048x128, .f32⟩ : BufTy).Contents (Elt F) → (⟨S2048x128, .f32⟩ : BufTy).Contents (Elt F) → (⟨S2048x128, .i1⟩ : BufTy).Contents (Elt F)),
    nullary main_cst_29 (constant S_ .f32 0x3C23D70A#32),
    unary main_cst_29 main_v107 (broadcastInDim S2048x128 ![] bcast_S_S2048x128 : (⟨S_, .f32⟩ : BufTy).Contents (Elt F) → (⟨S2048x128, .f32⟩ : BufTy).Contents (Elt F)),
    binary main_v107 main_v104 main_v108 (mulf : (⟨S2048x128, .f32⟩ : BufTy).Contents (Elt F) → (⟨S2048x128, .f32⟩ : BufTy).Contents (Elt F) → (⟨S2048x128, .f32⟩ : BufTy).Contents (Elt F)),
    TRef.ternary (.of main_v106) (.of main_v104) (.of main_v108) main_call1.v0 select ]

/-- All 142 operations, in order. -/
abbrev ops : List (HloOp τ sig (Elt F)) :=
  ops_part0 ++ (ops_part1 ++ ops_part2)

set_option maxRecDepth 8192 in
theorem main_part0_eq (c : Dev nD) : main_part0 (F := F) c = seq ops_part0 := by
  simp only [main_part0, fn_where.body, seq, bind_assoc, pure_bind]
  rfl
set_option maxRecDepth 8192 in
theorem main_part1_eq (c : Dev nD) : main_part1 (F := F) c = seq ops_part1 := rfl
set_option maxRecDepth 8192 in
theorem main_part2_eq (c : Dev nD) : main_part2 (F := F) c = seq ops_part2 := by
  simp only [main_part2, fn_where_0.body, seq, bind_assoc, pure_bind]
set_option maxRecDepth 8192 in
theorem main_eq (c : Dev nD) : main (F := F) c = seq ops := by
  simp only [ops, seq_append, ← main_part0_eq c, ← main_part1_eq c, ← main_part2_eq c]
  rfl

end Cert.ReferenceIdeal.RefRun

end
-- ==== Proof.RefRunPart2.lean ====
import proofs.«121911_j27986006901054_1_alg».proof.Proof.RefRunPart1

/-! # Side facts of the operation lists

Nothing of the signature is scoped; every operation touches TensorCore buffers only; and each window writes
exactly the buffers of its own values, so that a buffer outside that list keeps its contents through it. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., nullary_bufs_sub .., nullary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., nullary_bufs_sub .., unary_bufs_sub .., unary_bufs_sub .., ternary_bufs_sub .., nullary_bufs_sub ..⟩
set_option maxRecDepth 8192 in
theorem ops_part1_sub : (ops_part1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
set_option maxRecDepth 8192 in
theorem ops_part2_sub : (ops_part2 : List (HloOp τ sig (Elt F))).Forall fun op => op.bufs ⊆ tcRefs τ sig :=
  ⟨binary_bufs_sub .., binary_bufs_sub .., binary_bufs_sub .., unary_bufs_sub .., nullary_bufs_sub .., unary_bufs_sub .., unary_bufs_sub .., ternary_bufs_sub .., nullary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-- The buffers that window 0's operations write. -/
abbrev ops_part0_W : List (Ref sig .tc) := [main_c, main_c_0, main_c_1, main_c_2, main_cst, main_v0, main_cst_3, main_v1, main_v2, main_cst_4, main_v3, main_v4, main_v5, main_c_5, main_v6, main_v7, main_v8, main_c_6, main_v9, main_v10, main_v11, main_v12, main_v13, main_v14, main_v15, main_v16, main_v17, main_c_7, main_v18, main_v19, main_c_8, main_v20, main_v21, main_v22, main_v23, main_v24, main_v25, main_v26, main_v27, main_v28, main_v29, main_v30, main_cst_9, main_v31, main_v32, main_cst_10, main_v33, main_v34, main_v35, main_v36, main_v37, main_v38, main_v39, main_v40, main_v41, main_cst_11, main_v42, main_v43, main_v44, main_cst_12]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window 1's operations write. -/
abbrev ops_part1_W : List (Ref sig .tc) := [main_v45, main_c_13, main_v46, main_v47, main_c_14, main_v48, main_v49, main_v50, main_v51, main_v52, main_cst_15, main_v53, main_v54, main_v55, main_v56, main_v57, main_v58, main_v59, main_cst_16, main_v60, main_v61, main_v62, main_cst_17, main_v63, main_c_18, main_v64, main_v65, main_c_19, main_v66, main_v67, main_v68, main_v69, main_v70, main_cst_20, main_v71, main_v72, main_v73, main_v74, main_v75, main_v76, main_v77, main_cst_21, main_v78, main_v79, main_v80, main_cst_22, main_v81, main_c_23, main_v82, main_v83, main_c_24, main_v84, main_v85, main_v86, main_v87, main_v88, main_cst_25, main_v89, main_v90, main_v91]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window 2's operations write. -/
abbrev ops_part2_W : List (Ref sig .tc) := [main_v92, main_v93, main_v94, main_v95, main_cst_26, main_v96, main_v97, main_v98, main_cst_27, main_v99, main_v100, main_v101, main_v102, main_v103, main_v104, main_cst_28, main_v105, main_v106, main_cst_29, main_v107, main_v108, main_v109]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.RefRunPart3.lean ====
import proofs.«121911_j27986006901054_1_alg».proof.Proof.RefRunPart0
import proofs.«121911_j27986006901054_1_alg».proof.Proof.RefRunPart2

/-! # The first window's values

The contents of the buffers that later windows read, after the first sixty operations: the coupling matrix,
the sigmoid layer, its product with the given vectors, the two rows of the edge table, and the first
round's segment sums before their reduction; the arguments keep their contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first window. -/
def val1 (V0 : Valuation τ sig (Elt F)) : Valuation τ sig (Elt F) := after ops_part0 V0

/-- A buffer that the first window does not write keeps its contents through it. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)
theorem val1_main_arg8 (V0 : Valuation τ sig (Elt F)) : val1 V0 (no_index (Proc.devRef .tc main_arg8)) = V0 (Proc.devRef .tc main_arg8) :=
  val1_keep V0 main_arg8 (by decide)
theorem val1_main_arg9 (V0 : Valuation τ sig (Elt F)) : val1 V0 (no_index (Proc.devRef .tc main_arg9)) = V0 (Proc.devRef .tc main_arg9) :=
  val1_keep V0 main_arg9 (by decide)

set_option maxRecDepth 8192 in
set_option maxHeartbeats 2000000 in
theorem val1_main_v17 (V0 : Valuation τ sig (Elt F)) : val1 V0 (no_index (Proc.devRef .tc main_v17)) = refA (V0 (Proc.devRef .tc main_arg6)) := by
  unfold val1
  simp only [ops_part0]
  after_results_simp
  all_goals rfl
set_option maxRecDepth 8192 in
set_option maxHeartbeats 2000000 in
theorem val1_main_v34 (V0 : Valuation τ sig (Elt F)) : val1 V0 (no_index (Proc.devRef .tc main_v34)) = refX0 (V0 (Proc.devRef .tc main_arg0)) (V0 (Proc.devRef .tc main_arg3)) (V0 (Proc.devRef .tc main_arg4)) (V0 (Proc.devRef .tc main_arg5)) := by
  unfold val1
  simp only [ops_part0]
  after_results_simp
  all_goals rfl
set_option maxRecDepth 8192 in
set_option maxHeartbeats 2000000 in
theorem val1_main_v35 (V0 : Valuation τ sig (Elt F)) : val1 V0 (no_index (Proc.devRef .tc main_v35)) = refZx (V0 (Proc.devRef .tc main_arg0)) (V0 (Proc.devRef .tc main_arg3)) (V0 (Proc.devRef .tc main_arg4)) (V0 (Proc.devRef .tc main_arg5)) (V0 (Proc.devRef .tc main_arg7)) := by
  unfold val1
  simp only [ops_part0]
  after_results_simp
  all_goals rfl
set_option maxRecDepth 8192 in
set_option maxHeartbeats 2000000 in
theorem val1_main_v37 (V0 : Valuation τ sig (Elt F)) : val1 V0 (no_index (Proc.devRef .tc main_v37)) = refSrcRaw (V0 (Proc.devRef .tc main_arg1)) := by
  unfold val1
  simp only [ops_part0]
  after_results_simp
  all_goals rfl
set_option maxRecDepth 8192 in
set_option maxHeartbeats 2000000 in
theorem val1_main_v39 (V0 : Valuation τ sig (Elt F)) : val1 V0 (no_index (Proc.devRef .tc main_v39)) = refDstRaw (V0 (Proc.devRef .tc main_arg1)) := by
  unfold val1
  simp only [ops_part0]
  after_results_simp
  all_goals rfl
set_option maxRecDepth 8192 in
set_option maxHeartbeats 2000000 in
theorem val1_main_v44 (V0 : Valuation τ sig (Elt F)) : val1 V0 (no_index (Proc.devRef .tc main_v44)) = Host.scatterAdd scatter_S2048x16x10_S100000x1_S100000x16x10_12_0_0_1 (broadcastInDim S2048x16x10 ![] bcast_S_S2048x16x10 (constant S_ .f32 0x00000000#32)) (broadcastInDim S100000x1 ![0] bcast_S100000_S100000x1_0 (V0 (Proc.devRef .tc main_arg2))) (transpose S100000x16x10 [2, 0, 1] (refT0 (V0 (Proc.devRef .tc main_arg0)) (V0 (Proc.devRef .tc main_arg3)) (V0 (Proc.devRef .tc main_arg4)) (V0 (Proc.devRef .tc main_arg5)) (V0 (Proc.devRef .tc main_arg7))) transposes_S16x10x100000_S100000x16x10_2_0_1) := by
  unfold val1
  simp only [ops_part0]
  after_results_simp
  all_goals rfl
set_option maxRecDepth 8192 in
set_option maxHeartbeats 2000000 in
theorem val1_main_cst_12 (V0 : Valuation τ sig (Elt F)) : val1 V0 (no_index (Proc.devRef .tc main_cst_12)) = (constant S_ .f32 0x00000000#32 : (⟨S_, .f32⟩ : BufTy).Contents (Elt F)) := by
  unfold val1
  simp only [ops_part0]
  after_results_simp
  all_goals rfl

end Cert.ReferenceIdeal.RefRun

end
-- ==== Proof.RefRunPart4.lean ====
import proofs.«121911_j27986006901054_1_alg».proof.Proof.RefRunPart3

/-! # The second window's values

After the next sixty operations: the pooled blocks of rounds 0, 1 and 2, the vectors `A² z`, and the node
features after three rounds of propagation; what the first window left for later is still there. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first two windows. -/
def val2 (V0 : Valuation τ sig (Elt F)) : Valuation τ sig (Elt F) := after ops_part1 (val1 V0)

/-- A buffer that the second window does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_v17 (V0 : Valuation τ sig (Elt F)) : val2 V0 (no_index (Proc.devRef .tc main_v17)) = refA (V0 (Proc.devRef .tc main_arg6)) :=
  (val2_keep V0 main_v17 (by decide)).trans (val1_main_v17 V0)
theorem val2_main_v35 (V0 : Valuation τ sig (Elt F)) : val2 V0 (no_index (Proc.devRef .tc main_v35)) = refZx (V0 (Proc.devRef .tc main_arg0)) (V0 (Proc.devRef .tc main_arg3)) (V0 (Proc.devRef .tc main_arg4)) (V0 (Proc.devRef .tc main_arg5)) (V0 (Proc.devRef .tc main_arg7)) :=
  (val2_keep V0 main_v35 (by decide)).trans (val1_main_v35 V0)

set_option maxRecDepth 8192 in
set_option maxHeartbeats 2000000 in
theorem val2_main_v45 (V0 : Valuation τ sig (Elt F)) : val2 V0 (no_index (Proc.devRef .tc main_v45)) = refPool0 (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg7)) := by
  unfold val2
  simp only [ops_part1]
  after_results_simp
  simp only [val1_main_v17, val1_main_v34, val1_main_v35, val1_main_v37, val1_main_v39, val1_main_v44, val1_main_cst_12, val1_main_arg2, val1_main_arg7] <;> rfl
set_option maxRecDepth 8192 in
set_option maxHeartbeats 2000000 in
theorem val2_main_v74 (V0 : Valuation τ sig (Elt F)) : val2 V0 (no_index (Proc.devRef .tc main_v74)) = refZ2 (V0 (Proc.devRef .tc main_arg6)) (V0 (Proc.devRef .tc main_arg7)) := by
  unfold val2
  simp only [ops_part1]
  after_results_simp
  simp only [val1_main_v17, val1_main_v34, val1_main_v35, val1_main_v37, val1_main_v39, val1_main_v44, val1_main_cst_12, val1_main_arg2, val1_main_arg7] <;> rfl
set_option maxRecDepth 8192 in
set_option maxHeartbeats 2000000 in
theorem val2_main_v91 (V0 : Valuation τ sig (Elt F)) : val2 V0 (no_index (Proc.devRef .tc main_v91)) = refX3 (V0 (Proc.devRef .tc main_arg0)) (V0 (Proc.devRef .tc main_arg1)) (V0 (Proc.devRef .tc main_arg3)) (V0 (Proc.devRef .tc main_arg4)) (V0 (Proc.devRef .tc main_arg5)) := by
  unfold val2
  simp only [ops_part1]
  after_results_simp
  simp only [val1_main_v17, val1_main_v34, val1_main_v35, val1_main_v37, val1_main_v39, val1_main_v44, val1_main_cst_12, val1_main_arg2, val1_main_arg7] <;> rfl
set_option maxRecDepth 8192 in
set_option maxHeartbeats 2000000 in
theorem val2_main_v63 (V0 : Valuation τ sig (Elt F)) : val2 V0 (no_index (Proc.devRef .tc main_v63)) = refPool1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val2
  simp only [ops_part1]
  after_results_simp
  simp only [val1_main_v17, val1_main_v34, val1_main_v35, val1_main_v37, val1_main_v39, val1_main_v44, val1_main_cst_12, val1_main_arg2, val1_main_arg7] <;> rfl
set_option maxRecDepth 8192 in
set_option maxHeartbeats 2000000 in
theorem val2_main_v81 (V0 : Valuation τ sig (Elt F)) : val2 V0 (no_index (Proc.devRef .tc main_v81)) = refPool2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val2
  simp only [ops_part1]
  after_results_simp
  simp only [val1_main_v17, val1_main_v34, val1_main_v35, val1_main_v37, val1_main_v39, val1_main_v44, val1_main_cst_12, val1_main_arg2, val1_main_arg7] <;> rfl

end Cert.ReferenceIdeal.RefRun

end
-- ==== Proof.RefRunPart5.lean ====
import proofs.«121911_j27986006901054_1_alg».proof.Proof.RefRunPart4
import Idealize.ShloMosaic.Lib.Pipeline.Frame

/-! # The third window's values, and the whole line

After the last operations the result buffer holds the composed term of the arguments, the arguments keep
their contents, and the three windows run in turn are the whole list run as one. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after all three windows. -/
def val3 (V0 : Valuation τ sig (Elt F)) : Valuation τ sig (Elt F) := after ops_part2 (val2 V0)

/-- A buffer that the third window does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)

/-- Four blocks side by side, by name: under the name the blocks are plain arguments. -/
theorem refCatOf_fold (p0 : (main_v45 : Ref sig .tc).ty.Contents (Elt F)) (p1 : (main_v63 : Ref sig .tc).ty.Contents (Elt F))
    (p2 : (main_v81 : Ref sig .tc).ty.Contents (Elt F)) (p3 : (main_v99 : Ref sig .tc).ty.Contents (Elt F)) :
    (concatenate S2048x64 1 [⟨S2048x16, p0⟩, ⟨S2048x16, p1⟩, ⟨S2048x16, p2⟩, ⟨S2048x16, p3⟩] concatenates_S2048x16_S2048x16_S2048x16_S2048x16_S2048x64_d1 : (main_v100 : Ref sig .tc).ty.Contents (Elt F)) = refCatOf p0 p1 p2 p3 := rfl

set_option maxRecDepth 8192 in
set_option maxHeartbeats 2000000 in
theorem val3_main_v109 (V0 : Valuation τ sig (Elt F)) : val3 V0 (no_index (Proc.devRef .tc main_v109)) = refVal (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val3
  simp only [ops_part2]
  after_results_simp
  dsimp only [Matrix.cons_val]
  simp only [refCatOf_fold]
  after_results_simp
  simp only [val2_main_v17, val2_main_v35, val2_main_v45, val2_main_v63, val2_main_v81, val2_main_v74, val2_main_v91, val2_main_arg2, val2_main_arg8, val2_main_arg9]
  rfl

theorem after_ops (V0 : Valuation τ sig (Elt F)) : after ops V0 = val3 V0 := by
  simp only [ops, after_append]
  rfl

end Cert.ReferenceIdeal.RefRun

end
-- ==== Proof.RefRun.lean ====
import proofs.«121911_j27986006901054_1_alg».proof.Proof.RefRunPart5

/-! # The reference's run

Every weakly fair execution of the reference terminates with its result buffer at the composed term
`refVal` of the arguments' launch contents, and the arguments unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- On every device, for any float values, from any memory with zero counters: every weakly fair execution of the
    reference terminates with the result at `refVal` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v109) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v109).trans (by simp only [after_ops]; exact val3_main_v109 (launchContents m c)),
      (h c main_arg0).trans (by simp only [after_ops]; exact val3_main_arg0 (launchContents m c)),
      (h c main_arg1).trans (by simp only [after_ops]; exact val3_main_arg1 (launchContents m c)),
      (h c main_arg2).trans (by simp only [after_ops]; exact val3_main_arg2 (launchContents m c)),
      (h c main_arg3).trans (by simp only [after_ops]; exact val3_main_arg3 (launchContents m c)),
      (h c main_arg4).trans (by simp only [after_ops]; exact val3_main_arg4 (launchContents m c)),
      (h c main_arg5).trans (by simp only [after_ops]; exact val3_main_arg5 (launchContents m c)),
      (h c main_arg6).trans (by simp only [after_ops]; exact val3_main_arg6 (launchContents m c)),
      (h c main_arg7).trans (by simp only [after_ops]; exact val3_main_arg7 (launchContents m c)),
      (h c main_arg8).trans (by simp only [after_ops]; exact val3_main_arg8 (launchContents m c)),
      (h c main_arg9).trans (by simp only [after_ops]; exact val3_main_arg9 (launchContents m c))⟩)
    (run_seq scopedRefs_eq scopedSems_eq defs main (fun _ => ops) main_eq (fun _ => ops_sub) m ρ)

end Cert.ReferenceIdeal.RefRun

end
-- ==== Proof.KIPay0.lean ====
/-
  The first kernel's arithmetic, read at one element, at the ideal values (a float is an extended real, a change of
  format is the identity, a matrix product into a zero accumulator is the plain sum of products).

  The body is a fully connected layer followed by the logistic function: a block `x` of 4096 rows of 128 features is
  multiplied by the 128 × 128 weight matrix `w`, the one-row bias `b` is added to every row, and the logistic function
  is applied entry by entry:  out(p, q) = σ( ∑ₖ x(p, k) · w(k, q) + b(0, q) ).
-/
import proofs.«121911_j27986006901054_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Idealize.ShloMosaic Idealize.ShloMosaic.ValueIdx
open Cert.KernelIdeal Cert.KernelIdeal.Gen
open scoped BigOperators

/-! ## The contraction's operand indices

The dimension numbers contract axis 1 of the left operand with axis 0 of the right (an ordinary matrix product): at
output index (r, c) and contraction position k the left operand is read at (r, k), the right at (k, c). -/

/-- Left operand, free axis: the output's row. -/
theorem fc_lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

/-- Left operand, contracted axis: the contraction position. -/
theorem fc_lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q

/-- Right operand, contracted axis: the contraction position. -/
theorem fc_rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q

/-- Right operand, free axis: the output's column. -/
theorem fc_rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The product x · w into a zero accumulator, at (r, c): the sum over the 128 features. -/
theorem matmul_fc_apply (x : FVec Ideal S4096x128 .bf16) (w : FVec Ideal S128x128 .bf16) (r : Fin 4096) (c : Fin 128) :
    matmul (F := Ideal) dot_S4096x128_S128x128_S4096x128_1_0_0_1_n_n none x w
        (constant (F := Ideal) S4096x128 .f32 0x00000000#32) (ix2 r c)
      = ∑ k : Fin 128, x (ix2 r k) * w (ix2 k c) := by
  refine (Ideal.matmul_constant_zero_apply dot_S4096x128_S128x128_S4096x128_1_0_0_1_n_n none x w (ix2 r c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r c)
      ((contrEquiv1 dot_S4096x128_S128x128_S4096x128_1_0_0_1_n_n 128 rfl rfl).symm k) = ix2 r k :=
    funext fun a => Fin.ext (by
      match a with
      | ⟨0, _⟩ => exact fc_lhs_0 _ _
      | ⟨1, _⟩ => exact (fc_lhs_1 _ _).trans hk)
  have er : dot_S4096x128_S128x128_S4096x128_1_0_0_1_n_n.rhsIdx (ix2 r c)
      ((contrEquiv1 dot_S4096x128_S128x128_S4096x128_1_0_0_1_n_n 128 rfl rfl).symm k) = ix2 k c :=
    funext fun a => Fin.ext (by
      match a with
      | ⟨0, _⟩ => exact (fc_rhs_0 _ _).trans hk
      | ⟨1, _⟩ => exact fc_rhs_1 _ _)
  rw [el, er]

/-! ## The payload -/

/-- Element (p, q) of the first kernel's stored block: the logistic function of the q-th output feature of row p, that is
    of the inner product of row p of `x` with column q of `w`, plus the bias's q-th entry (the bias is a single row laid
    along every row of the block). The identity shape casts and the narrowings to the short format change nothing at the
    ideal values. -/
theorem k0_pay1_apply (x : Vec Ideal S4096x128 .f32) (w : Vec Ideal S128x128 .f32) (b : Vec Ideal S1x128 .f32)
    (p : Fin 4096) (q : Fin 128) :
    k0_pay1 (F := Ideal) x w b (ix2 p q)
      = Ideal.logistic ((∑ k : Fin 128, x (ix2 p k) * w (ix2 k q)) + b (ix2 0 q)) := by
  unfold k0_pay1
  show Ideal.logistic ((_ : EReal) + _) = _
  refine congrArg Ideal.logistic (congrArg₂ (· + ·) ?_ ?_)
  · refine (matmul_fc_apply _ _ p q).trans ?_
    refine Finset.sum_congr rfl fun k _ => ?_
    rw [truncf_apply, truncf_apply, shapeCast_self]
  · refine (broadcastTo_1b_ab_apply _ broadcasts_S1x128_S4096x128 p q).trans ?_
    rw [shapeCast_self]

end Cert.KernelIdeal.HandValue

end
-- ==== Proof.KIVal0.lean ====
/- REGION 0 of @main, from blocks to the array, at the ideal values: the output array after the region is the logistic layer (input times weights, plus the bias row, through the logistic function), entry by entry.
   Stated over a PARAMETER `V`, the contents of the TensorCore's buffers when the region is entered. The steps: the
   windows' index maps over the grid; one block of the result as a function of the blocks loaded, by the body's
   arithmetic read at one entry; what each grid point writes back is its block of ONE function of the whole arrays; the
   output's blocks cover its array; so the array after the region is that function. -/
import proofs.«121911_j27986006901054_1_alg».proof.Proof.KIReg0
import proofs.«121911_j27986006901054_1_alg».proof.Proof.KIPay0
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the contents of the TensorCore's buffers when the region is entered
variable (V : (c : Dev nD) → (b : Ref sig .tc) → Buf (Elt Ideal) ((c : Thread nD τ).loc b))

/-- The offsets of every whole-buffer access are zero on both axes. -/
theorem zeros0 : (![0, 0] : Fin 2 → Nat) = fun _ => 0 := funext fun a => by fin_cases a <;> rfl

/-- The layer, entry by entry: entry (n, q) is the logistic function of the inner product of row n of the input with
    column q of the weights, plus entry q of the bias row. -/
def layer0 (X : S102400x128.Idx → EReal) (W : S128x128.Idx → EReal) (B : S1x128.Idx → EReal) : S102400x128.Idx → EReal :=
  fun i => Ideal.logistic ((∑ k : Fin 128, X (ix2 (i 0) k) * W (ix2 k (i 1))) + B (ix2 0 (i 1)))

/-- The index maps over the grid: the input's and the output's row block are both the grid point; the weights and the
    bias are always block (0, 0). -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block of the layer: if the first loaded block is rows 4096·b … 4096·b + 4095 of the input and the other two are
    the weights and the bias, the body's arithmetic at (p, q) is the layer's entry (4096·b + p, q). -/
theorem block0 (x : Vec Ideal S4096x128 .f32) (w : Vec Ideal S128x128 .f32) (bs : Vec Ideal S1x128 .f32)
    (X : S102400x128.Idx → EReal) (W : S128x128.Idx → EReal) (B : S1x128.Idx → EReal) (b : ℕ)
    (hx : ∀ (p : Fin 4096) (k : Fin 128) (n : Fin 102400), n.val = b * 4096 + p.val → x (ix2 p k) = X (ix2 n k))
    (hw : ∀ (k : Fin 128) (q : Fin 128), w (ix2 k q) = W (ix2 k q))
    (hb : ∀ (q : Fin 128), bs (ix2 0 q) = B (ix2 0 q))
    (y : S4096x128.Idx) (i : S102400x128.Idx) (h0 : (i 0).val = b * 4096 + (y 0).val) (h1 : (i 1).val = (y 1).val) :
    k0_pay1 (F := Ideal) x w bs y = layer0 X W B i := by
  obtain ⟨p, q, rfl⟩ : ∃ (p : Fin 4096) (q : Fin 128), y = ix2 p q := ⟨y 0, y 1, eq_ix2 y⟩
  obtain ⟨n, q', rfl⟩ : ∃ (n : Fin 102400) (q' : Fin 128), i = ix2 n q' := ⟨i 0, i 1, eq_ix2 i⟩
  obtain rfl : q' = q := Fin.ext h1
  rw [k0_pay1_apply]
  show _ = Ideal.logistic ((∑ k : Fin 128, X (ix2 n k) * W (ix2 k q')) + B (ix2 0 q'))
  rw [hb q']
  refine congrArg (fun s => Ideal.logistic (s + B (ix2 0 q'))) (Finset.sum_congr rfl fun k _ => ?_)
  rw [hx p k n h0, hw k q']

/-- What grid point `t` writes back is block `t` of the layer of the arrays as the region finds them. -/
theorem flushed0_eq (c : Dev nD) (t : Fin cfg0.N) :
    (dat0 (F := Ideal) V c).flushed 3 t
      = ((cfg0.win 3).blk t).view.read (Elt Ideal) (layer0 (V c main_v25) (V c main_arg4) (V c main_v26)) := by
  show (cfg0.win 3).cut (grid0.coords t) ((dat0 V c).after 3 t) = _
  rw [after0_3]
  unfold out0_3
  rw [View.canon_unit_zero zeros0]
  simp only [View.ld_unit_zero (S := S4096x128) zeros0, View.ld_unit_zero (S := S128x128) zeros0, View.ld_unit_zero (S := S1x128) zeros0]
  obtain ⟨e00, e01, e10, e11, e20, e21, e30, e31⟩ := maps0 t
  funext y
  show k0_pay1 (F := Ideal) (iblk0 V c 0 t) (iblk0 V c 1 t) (iblk0 V c 2 t) y
    = layer0 (V c main_v25) (V c main_arg4) (V c main_v26) (((cfg0.win 3).blk t).view.emb y)
  refine block0 (iblk0 V c 0 t) (iblk0 V c 1 t) (iblk0 V c 2 t) (V c main_v25) (V c main_arg4) (V c main_v26) t.val ?_ ?_ ?_ y
    (((cfg0.win 3).blk t).view.emb y) ?_ ?_
  · intro p k n hn
    show V c main_v25 (((cfg0.win 0).blk t).view.emb (ix2 p k)) = V c main_v25 (ix2 n k)
    congr 1
    funext a; apply Fin.ext
    match a with
    | ⟨0, _⟩ => show win0_0.index t (0 : Fin 2) * 4096 + 1 * p.val = n.val; omega
    | ⟨1, _⟩ => show win0_0.index t (1 : Fin 2) * 128 + 1 * k.val = k.val; omega
  · intro k q
    show V c main_arg4 (((cfg0.win 1).blk t).view.emb (ix2 k q)) = V c main_arg4 (ix2 k q)
    congr 1
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · intro q
    show V c main_v26 (((cfg0.win 2).blk t).view.emb (ix2 0 q)) = V c main_v26 (ix2 0 q)
    congr 1
    funext a; apply Fin.ext
    match a with
    | ⟨0, _⟩ => show win0_2.index t (0 : Fin 2) * 1 + 1 * 0 = 0; omega
    | ⟨1, _⟩ => show win0_2.index t (1 : Fin 2) * 128 + 1 * q.val = q.val; omega
  · show win0_3.index t (0 : Fin 2) * 4096 + 1 * (y 0).val = t.val * 4096 + (y 0).val; omega
  · show win0_3.index t (1 : Fin 2) * 128 + 1 * (y 1).val = (y 1).val; omega

/-- An index of the output array is in point `t`'s block iff each coordinate is in the block's range on its axis. -/
theorem mem_blk0 (t : Fin cfg0.N) (i : S102400x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v27).slice (win0_3.rect t)).set ↔ _
  rw [View.set_slice_whole, Rect.mem_set_unit]
  exact Iff.rfl

/-- Every index of the output array is in some point's block: row n is in the block of point n / 4096. -/
theorem cover0 (i : S102400x128.Idx) : ∃ t : Fin cfg0.N, (cfg0.win 3).flush t = true ∧ i ∈ ((cfg0.win 3).blk t).view.set := by
  have hi0 : (i 0).val < 102400 := (i 0).isLt
  have hi1 : (i 1).val < 128 := (i 1).isLt
  have hN : cfg0.N = 25 := N_0
  let t : Fin cfg0.N := ⟨(i 0).val / 4096, by rw [hN]; omega⟩
  have htv : t.val = (i 0).val / 4096 := rfl
  obtain ⟨e00, e01, e10, e11, e20, e21, e30, e31⟩ := maps0 t
  refine ⟨t, flush0_3 t, ?_⟩
  rw [mem_blk0]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The output array after the region is the layer, as one function of the arrays the region finds. -/
theorem final0 (c : Dev nD) : (dat0 (F := Ideal) V c).arrAt 3 cfg0.N = layer0 (V c main_v25) (V c main_arg4) (V c main_v26) :=
  (dat0 (F := Ideal) V c).arrAt_eq_of_cover 3 (layer0 (V c main_v25) (V c main_arg4) (V c main_v26)) (fun t _ => flushed0_eq V c t) cover0

/-- The layer at (n, q), spelled out. -/
theorem layer0_apply (X : S102400x128.Idx → EReal) (W : S128x128.Idx → EReal) (B : S1x128.Idx → EReal) (n : Fin 102400) (q : Fin 128) :
    layer0 X W B (ix2 n q) = Ideal.logistic ((∑ k : Fin 128, X (ix2 n k) * W (ix2 k q)) + B (ix2 0 q)) := rfl

/-- REGION 0's output, entry by entry: entry (n, q) is the logistic function of the inner product of row n of the input
    with column q of the weights, plus entry q of the bias row. -/
theorem region0_value (c : Dev nD) (n : Fin 102400) (q : Fin 128) :
    (dat0 (F := Ideal) V c).arrAt 3 cfg0.N (ix2 n q)
      = Ideal.logistic ((∑ k : Fin 128, (by exact V c main_v25 (ix2 n k) : EReal) * (by exact V c main_arg4 (ix2 k q) : EReal))
          + (by exact V c main_v26 (ix2 0 q) : EReal)) := by
  rw [final0]; rfl

end Cert.KernelIdeal.HandValue

end
-- ==== Proof.KIPay1.lean ====
/-
  The second kernel's arithmetic, read at one element, at the ideal values (a float is an extended real, a change of
  format is the identity, a matrix product into a zero accumulator is the plain sum of products).

  The body takes a block `z` of 160 rows and a block `x` of 4096 rows, both 128 wide, and contracts the two along their
  SECOND axes: element (j, p) of the result is the inner product of row j of `z` with row p of `x`, that is
  (z · xᵀ)(j, p) = ∑ₖ z(j, k) · x(p, k).
-/
import proofs.«121911_j27986006901054_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Idealize.ShloMosaic Idealize.ShloMosaic.ValueIdx
open Cert.KernelIdeal Cert.KernelIdeal.Gen
open scoped BigOperators

/-! ## The contraction's operand indices

The dimension numbers contract axis 1 of the left operand with axis 1 of the right; the free axis of each is axis 0.
At output index (j, p) and contraction position k the left operand is read at (j, k), the right at (p, k). -/

/-- Left operand, free axis: the output's row. -/
theorem zx_lhs_0 (i : S160x4096.Idx) (q : dot_S160x128_S4096x128_S160x4096_1_1_0_0_n_n.contr.Idx) :
    (dot_S160x128_S4096x128_S160x4096_1_1_0_0_n_n.lhsIdx i q 0).val = (i 0).val := by
  unfold DotDims.lhsIdx
  rw [dif_neg (show ¬(0 : Fin S160x128.rank) ∈ dot_S160x128_S4096x128_S160x4096_1_1_0_0_n_n.lhsBatch by decide),
    dif_pos (show (0 : Fin S160x128.rank) ∈ dot_S160x128_S4096x128_S160x4096_1_1_0_0_n_n.lhsNonContracting by decide)]
  rfl

/-- Left operand, contracted axis: the contraction position. -/
theorem zx_lhs_1 (i : S160x4096.Idx) (q : dot_S160x128_S4096x128_S160x4096_1_1_0_0_n_n.contr.Idx) :
    (dot_S160x128_S4096x128_S160x4096_1_1_0_0_n_n.lhsIdx i q 1).val = (q ⟨0, by decide⟩).val :=
  dot_S160x128_S4096x128_S160x4096_1_1_0_0_n_n.lhsIdx_val_of_single rfl i q

/-- Right operand, free axis: the output's column. -/
theorem zx_rhs_0 (i : S160x4096.Idx) (q : dot_S160x128_S4096x128_S160x4096_1_1_0_0_n_n.contr.Idx) :
    (dot_S160x128_S4096x128_S160x4096_1_1_0_0_n_n.rhsIdx i q 0).val = (i 1).val := by
  unfold DotDims.rhsIdx
  rw [dif_neg (show ¬(0 : Fin S4096x128.rank) ∈ dot_S160x128_S4096x128_S160x4096_1_1_0_0_n_n.rhsBatch by decide),
    dif_pos (show (0 : Fin S4096x128.rank) ∈ dot_S160x128_S4096x128_S160x4096_1_1_0_0_n_n.rhsNonContracting by decide)]
  rfl

/-- Right operand, contracted axis: the contraction position. -/
theorem zx_rhs_1 (i : S160x4096.Idx) (q : dot_S160x128_S4096x128_S160x4096_1_1_0_0_n_n.contr.Idx) :
    (dot_S160x128_S4096x128_S160x4096_1_1_0_0_n_n.rhsIdx i q 1).val = (q ⟨0, by decide⟩).val :=
  dot_S160x128_S4096x128_S160x4096_1_1_0_0_n_n.rhsIdx_val_of_single rfl i q

/-- The product z · xᵀ into a zero accumulator, at (j, p): the sum over the 128 shared columns. -/
theorem matmul_zx_apply (z : FVec Ideal S160x128 .bf16) (x : FVec Ideal S4096x128 .bf16) (j : Fin 160) (p : Fin 4096) :
    matmul (F := Ideal) dot_S160x128_S4096x128_S160x4096_1_1_0_0_n_n none z x
        (constant (F := Ideal) S160x4096 .f32 0x00000000#32) (ix2 j p)
      = ∑ k : Fin 128, z (ix2 j k) * x (ix2 p k) := by
  refine (Ideal.matmul_constant_zero_apply dot_S160x128_S4096x128_S160x4096_1_1_0_0_n_n none z x (ix2 j p)).trans ?_
  rw [← Equiv.sum_comp (contrEquiv1 dot_S160x128_S4096x128_S160x4096_1_1_0_0_n_n 128 rfl rfl).symm]
  refine Finset.sum_congr rfl fun k _ => ?_
  have hk := contrEquiv1_symm_val dot_S160x128_S4096x128_S160x4096_1_1_0_0_n_n 128 rfl rfl k
  have el : dot_S160x128_S4096x128_S160x4096_1_1_0_0_n_n.lhsIdx (ix2 j p)
      ((contrEquiv1 dot_S160x128_S4096x128_S160x4096_1_1_0_0_n_n 128 rfl rfl).symm k) = ix2 j k :=
    funext fun a => Fin.ext (by
      match a with
      | ⟨0, _⟩ => exact zx_lhs_0 _ _
      | ⟨1, _⟩ => exact (zx_lhs_1 _ _).trans hk)
  have er : dot_S160x128_S4096x128_S160x4096_1_1_0_0_n_n.rhsIdx (ix2 j p)
      ((contrEquiv1 dot_S160x128_S4096x128_S160x4096_1_1_0_0_n_n 128 rfl rfl).symm k) = ix2 p k :=
    funext fun a => Fin.ext (by
      match a with
      | ⟨0, _⟩ => exact zx_rhs_0 _ _
      | ⟨1, _⟩ => exact (zx_rhs_1 _ _).trans hk)
  rw [el, er]

/-! ## The payload -/

/-- Element (j, p) of the second kernel's stored block: the inner product of row j of `z` with row p of `x`. The two
    identity shape casts and the two narrowings to the short format change nothing at the ideal values. -/
theorem k1_pay1_apply (z : Vec Ideal S160x128 .f32) (x : Vec Ideal S4096x128 .f32) (j : Fin 160) (p : Fin 4096) :
    k1_pay1 (F := Ideal) z x (ix2 j p) = ∑ k : Fin 128, z (ix2 j k) * x (ix2 p k) := by
  unfold k1_pay1
  refine (matmul_zx_apply _ _ j p).trans ?_
  refine Finset.sum_congr rfl fun k _ => ?_
  rw [truncf_apply, truncf_apply, shapeCast_self, shapeCast_self]

end Cert.KernelIdeal.HandValue

end
-- ==== Proof.KIVal1.lean ====
/- REGION 1 of @main, from blocks to the array, at the ideal values: the output array after the region is the product of the small matrix with the transpose of the tall one, entry by entry.
   Stated over a PARAMETER `V`, the contents of the TensorCore's buffers when the region is entered. The steps: the
   windows' index maps over the grid; one block of the result as a function of the blocks loaded, by the body's
   arithmetic read at one entry; what each grid point writes back is its block of ONE function of the whole arrays; the
   output's blocks cover its array; so the array after the region is that function. -/
import proofs.«121911_j27986006901054_1_alg».proof.Proof.KIReg1
import proofs.«121911_j27986006901054_1_alg».proof.Proof.KIPay1
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the contents of the TensorCore's buffers when the region is entered
variable (V : (c : Dev nD) → (b : Ref sig .tc) → Buf (Elt Ideal) ((c : Thread nD τ).loc b))

/-- The offsets of every whole-buffer access are zero on both axes. -/
theorem zeros1 : (![0, 0] : Fin 2 → Nat) = fun _ => 0 := funext fun a => by fin_cases a <;> rfl

/-- The product of the small matrix with the transpose of the tall one, entry by entry: entry (j, n) is the inner
    product of row j of the first with row n of the second. -/
def prodT1 (Z : S160x128.Idx → EReal) (X : S102400x128.Idx → EReal) : S160x102400.Idx → EReal :=
  fun i => ∑ k : Fin 128, Z (ix2 (i 0) k) * X (ix2 (i 1) k)

/-- The index maps over the grid: the small matrix is always block (0, 0); the tall one's row block and the output's
    column block are both the grid point. -/
theorem maps1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- One block of the product: if the first loaded block is the small matrix and the second is rows
    4096·b … 4096·b + 4095 of the tall one, the body's arithmetic at (j, p) is the product's entry (j, 4096·b + p). -/
theorem block1 (z : Vec Ideal S160x128 .f32) (x : Vec Ideal S4096x128 .f32)
    (Z : S160x128.Idx → EReal) (X : S102400x128.Idx → EReal) (b : ℕ)
    (hz : ∀ (j : Fin 160) (k : Fin 128), z (ix2 j k) = Z (ix2 j k))
    (hx : ∀ (p : Fin 4096) (k : Fin 128) (n : Fin 102400), n.val = b * 4096 + p.val → x (ix2 p k) = X (ix2 n k))
    (y : S160x4096.Idx) (i : S160x102400.Idx) (h0 : (i 0).val = (y 0).val) (h1 : (i 1).val = b * 4096 + (y 1).val) :
    k1_pay1 (F := Ideal) z x y = prodT1 Z X i := by
  obtain ⟨j, p, rfl⟩ : ∃ (j : Fin 160) (p : Fin 4096), y = ix2 j p := ⟨y 0, y 1, eq_ix2 y⟩
  obtain ⟨j', n, rfl⟩ : ∃ (j' : Fin 160) (n : Fin 102400), i = ix2 j' n := ⟨i 0, i 1, eq_ix2 i⟩
  obtain rfl : j' = j := Fin.ext h0
  rw [k1_pay1_apply]
  show _ = ∑ k : Fin 128, Z (ix2 j' k) * X (ix2 n k)
  refine Finset.sum_congr rfl fun k _ => ?_
  rw [hz j' k, hx p k n h1]

/-- What grid point `t` writes back is block `t` of the product of the arrays as the region finds them. -/
theorem flushed1_eq (c : Dev nD) (t : Fin cfg1.N) :
    (dat1 (F := Ideal) V c).flushed 2 t
      = ((cfg1.win 2).blk t).view.read (Elt Ideal) (prodT1 (V c main_v28) (V c main_v27)) := by
  show (cfg1.win 2).cut (grid1.coords t) ((dat1 V c).after 2 t) = _
  rw [after1_2]
  unfold out1_2
  rw [View.canon_unit_zero zeros1]
  simp only [View.ld_unit_zero (S := S160x128) zeros1, View.ld_unit_zero (S := S4096x128) zeros1]
  obtain ⟨e00, e01, e10, e11, e20, e21⟩ := maps1 t
  funext y
  show k1_pay1 (F := Ideal) (iblk1 V c 0 t) (iblk1 V c 1 t) y = prodT1 (V c main_v28) (V c main_v27) (((cfg1.win 2).blk t).view.emb y)
  refine block1 (iblk1 V c 0 t) (iblk1 V c 1 t) (V c main_v28) (V c main_v27) t.val ?_ ?_ y (((cfg1.win 2).blk t).view.emb y) ?_ ?_
  · intro j k
    show V c main_v28 (((cfg1.win 0).blk t).view.emb (ix2 j k)) = V c main_v28 (ix2 j k)
    congr 1
    funext a; apply Fin.ext
    match a with
    | ⟨0, _⟩ => show win1_0.index t (0 : Fin 2) * 160 + 1 * j.val = j.val; omega
    | ⟨1, _⟩ => show win1_0.index t (1 : Fin 2) * 128 + 1 * k.val = k.val; omega
  · intro p k n hn
    show V c main_v27 (((cfg1.win 1).blk t).view.emb (ix2 p k)) = V c main_v27 (ix2 n k)
    congr 1
    funext a; apply Fin.ext
    match a with
    | ⟨0, _⟩ => show win1_1.index t (0 : Fin 2) * 4096 + 1 * p.val = n.val; omega
    | ⟨1, _⟩ => show win1_1.index t (1 : Fin 2) * 128 + 1 * k.val = k.val; omega
  · show win1_2.index t (0 : Fin 2) * 160 + 1 * (y 0).val = (y 0).val; omega
  · show win1_2.index t (1 : Fin 2) * 4096 + 1 * (y 1).val = t.val * 4096 + (y 1).val; omega

/-- An index of the output array is in point `t`'s block iff each coordinate is in the block's range on its axis. -/
theorem mem_blk1 (t : Fin cfg1.N) (i : S160x102400.Idx) :
    i ∈ ((cfg1.win 2).blk t).view.set ↔ ∀ a : Fin 2, win1_2.index t a * S160x4096.size a ≤ (i a).val ∧ (i a).val < win1_2.index t a * S160x4096.size a + S160x4096.size a := by
  show i ∈ ((View.whole main_v29).slice (win1_2.rect t)).set ↔ _
  rw [View.set_slice_whole, Rect.mem_set_unit]
  exact Iff.rfl

/-- Every index of the output array is in some point's block: column n is in the block of point n / 4096. -/
theorem cover1 (i : S160x102400.Idx) : ∃ t : Fin cfg1.N, (cfg1.win 2).flush t = true ∧ i ∈ ((cfg1.win 2).blk t).view.set := by
  have hi0 : (i 0).val < 160 := (i 0).isLt
  have hi1 : (i 1).val < 102400 := (i 1).isLt
  have hN : cfg1.N = 25 := N_1
  let t : Fin cfg1.N := ⟨(i 1).val / 4096, by rw [hN]; omega⟩
  have htv : t.val = (i 1).val / 4096 := rfl
  obtain ⟨e00, e01, e10, e11, e20, e21⟩ := maps1 t
  refine ⟨t, flush1_2 t, ?_⟩
  rw [mem_blk1]
  intro a
  match a with
  | ⟨0, _⟩ => show win1_2.index t (0 : Fin 2) * 160 ≤ (i 0).val ∧ (i 0).val < win1_2.index t (0 : Fin 2) * 160 + 160; omega
  | ⟨1, _⟩ => show win1_2.index t (1 : Fin 2) * 4096 ≤ (i 1).val ∧ (i 1).val < win1_2.index t (1 : Fin 2) * 4096 + 4096; omega

/-- The output array after the region is the product, as one function of the arrays the region finds. -/
theorem final1 (c : Dev nD) : (dat1 (F := Ideal) V c).arrAt 2 cfg1.N = prodT1 (V c main_v28) (V c main_v27) :=
  (dat1 (F := Ideal) V c).arrAt_eq_of_cover 2 (prodT1 (V c main_v28) (V c main_v27)) (fun t _ => flushed1_eq V c t) cover1

/-- The product at (j, n), spelled out. -/
theorem prodT1_apply (Z : S160x128.Idx → EReal) (X : S102400x128.Idx → EReal) (j : Fin 160) (n : Fin 102400) :
    prodT1 Z X (ix2 j n) = ∑ k : Fin 128, Z (ix2 j k) * X (ix2 n k) := rfl

/-- REGION 1's output, entry by entry: entry (j, n) is the inner product of row j of the small matrix with row n of
    the tall one. -/
theorem region1_value (c : Dev nD) (j : Fin 160) (n : Fin 102400) :
    (dat1 (F := Ideal) V c).arrAt 2 cfg1.N (ix2 j n)
      = ∑ k : Fin 128, (by exact V c main_v28 (ix2 j k) : EReal) * (by exact V c main_v27 (ix2 n k) : EReal) := by
  rw [final1]; rfl

end Cert.KernelIdeal.HandValue

end
-- ==== Proof.GlueKern.lean ====
/-
  The host's layout operations around the kernels, read at one element.

  The kernels work on 102400 rows (25 blocks of 4096) where the data has 100000: the host pads the rows with 2400
  more before the first kernel and cuts them off again after it, and cuts the padded columns of each step's result.
  A row inside the data is untouched by either. The stack z of shape [16, 10, 128] enters the kernels flattened to
  [160, 128] — row 10·g + s is the row (g, s) — and a bias vector enters as a one-row matrix.
-/
import proofs.«121911_j27986006901054_1_alg».proof.KernelIdeal
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.Glue

open Idealize.ShloMosaic Idealize.ShloMosaic.ValueIdx
open scoped BigOperators

section Kernel

/-! ## Padding and cutting rows and columns -/

/-- The padded array, at a row of the data, is the data. -/
theorem pad_rows (x : FVec Ideal Cert.KernelIdeal.S100000x128 .f32) (v : FVec Ideal Cert.KernelIdeal.S_ .f32)
    (hp : Cert.KernelIdeal.S100000x128.Pads (![0, 0] : Fin 2 → Nat) ![2400, 0] ![0, 0] Cert.KernelIdeal.S102400x128)
    (hs : 0 < Cert.KernelIdeal.S_.numel) (n : Fin 100000) (q : Fin 128) :
    pad Cert.KernelIdeal.S102400x128 ![0, 0] ![2400, 0] ![0, 0] x v hp hs (ix2 ⟨n.val, by omega⟩ q) = x (ix2 n q) := by
  refine pad_apply_of_inside _ _ _ x v hp hs _ (ix2 n q) fun a => ?_
  match a with
  | ⟨0, _⟩ => show n.val = 0 + n.val * (0 + 1); omega
  | ⟨1, _⟩ => show q.val = 0 + q.val * (0 + 1); omega

/-- The first 100000 rows of a 102400-row array. -/
theorem slice_rows (x : FVec Ideal Cert.KernelIdeal.S102400x128 .f32)
    (hs : Cert.KernelIdeal.S102400x128.Slices ![0, 0] Cert.KernelIdeal.S100000x128) (n : Fin 100000) (q : Fin 128) :
    extractStridedSlice Cert.KernelIdeal.S100000x128 ![0, 0] x hs (ix2 n q) = x (ix2 ⟨n.val, by omega⟩ q) :=
  slice2_axis0_apply 0 x hs n q ⟨n.val, by omega⟩ (Nat.zero_add _).symm

/-- The first 100000 columns of a 102400-column array. -/
theorem slice_cols (x : FVec Ideal Cert.KernelIdeal.S16x102400 .f32)
    (hs : Cert.KernelIdeal.S16x102400.Slices ![0, 0] Cert.KernelIdeal.S16x100000) (g : Fin 16) (n : Fin 100000) :
    extractStridedSlice Cert.KernelIdeal.S16x100000 ![0, 0] x hs (ix2 g n) = x (ix2 g ⟨n.val, by omega⟩) :=
  slice2_axis1_apply 0 x hs g n ⟨n.val, by omega⟩ (Nat.zero_add _).symm

/-! ## The stack flattened, a bias as one row -/

/-- The stack [16, 10, 128] flattened to [160, 128]: row 10·g + s is the row (g, s). -/
theorem flat_z (z : FVec Ideal Cert.KernelIdeal.S16x10x128 .f32)
    (hc : Cert.KernelIdeal.S16x10x128.ShapeCasts Cert.KernelIdeal.S160x128) (g : Fin 16) (s : Fin 10) (k : Fin 128) :
    shapeCast Cert.KernelIdeal.S160x128 z hc (ix2 ⟨10 * g.val + s.val, by omega⟩ k) = z (ix3 g s k) := by
  refine shapeCast_apply z hc _ (ix3 g s k) ?_
  rw [Shape.rowMajor_val_three, Shape.rowMajor_val_two]
  show (g.val * 10 + s.val) * 128 + k.val = (10 * g.val + s.val) * 128 + k.val
  omega

/-- A vector of 128 entries as a one-row matrix. -/
theorem row_of_vec (b : FVec Ideal Cert.KernelIdeal.S128 .f32)
    (hc : Cert.KernelIdeal.S128.ShapeCasts Cert.KernelIdeal.S1x128) (q : Fin 128) :
    shapeCast Cert.KernelIdeal.S1x128 b hc (ix2 (0 : Fin 1) q) = b (ix1 q) :=
  shapeCast_a_1a_apply b hc 0 q

end Kernel

end Cert.Glue
-- ==== Proof.GlueRef.lean ====
/-
  The reference's dense layers read at one element, at the ideal values (a float is an extended real, every
  operation the exact one).

  Three facts. The feature layer: σ(emb · w + b) entry by entry, σ the logistic function, which the reference spells
  as 1 / (1 + exp(-h)). The pairing of the stack z with the node features x: a contraction of the last axis of both,
  zx(g, s, n) = ∑ₖ z(g, s, k) · x(n, k). The last layer: cat · w + b followed by the leaky rectifier
  h ↦ (h ≥ 0 ? h : 0.01 · h), 0.01 being the single-precision number nearest to it.
-/
import proofs.«121911_j27986006901054_1_alg».proof.ReferenceIdeal
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

namespace Cert.Glue

open Idealize.ShloMosaic Idealize.ShloMosaic.ValueIdx
open scoped BigOperators

section Reference
variable [Cert.ReferenceIdeal.Facts₀]

/-! ## The pairing of the stack with the node features

The dimension numbers contract axis 2 of the left operand with axis 1 of the right and keep the left operand's two
leading axes followed by the right operand's leading axis: at output index (g, s, n) and contraction position k the
left operand is read at (g, s, k), the right one at (n, k). -/

theorem ref_zx (z : FVec Ideal Cert.ReferenceIdeal.S16x10x128 .f32) (x : FVec Ideal Cert.ReferenceIdeal.S100000x128 .f32)
    (g : Fin 16) (s : Fin 10) (n : Fin 100000) :
    Host.dotGeneral (F := Ideal) Cert.ReferenceIdeal.dot_S16x10x128_S100000x128_S16x10x100000_2_1_01_0_n_n none z x (ix3 g s n)
      = ∑ k : Fin 128, z (ix3 g s k) * x (ix2 n k) := by
  show FloatOps.dotGeneral _ none _ z x (ix3 g s n) = _
  rw [Ideal.dotGeneral_apply,
    ← Equiv.sum_comp (contrEquiv1 Cert.ReferenceIdeal.dot_S16x10x128_S100000x128_S16x10x100000_2_1_01_0_n_n 128 rfl rfl).symm]
  refine Finset.sum_congr rfl fun c _ => ?_
  have c3 := contrEquiv1_symm_val Cert.ReferenceIdeal.dot_S16x10x128_S100000x128_S16x10x100000_2_1_01_0_n_n 128 rfl rfl c
  have l3 : Cert.ReferenceIdeal.dot_S16x10x128_S100000x128_S16x10x100000_2_1_01_0_n_n.lhsIdx (ix3 g s n)
      ((contrEquiv1 _ 128 rfl rfl).symm c) = ix3 g s c := by
    funext ax; apply Fin.ext
    match ax with
    | ⟨0, _⟩ => simp [DotDims.lhsIdx, Cert.ReferenceIdeal.dot_S16x10x128_S100000x128_S16x10x100000_2_1_01_0_n_n]; rfl
    | ⟨1, _⟩ => simp [DotDims.lhsIdx, Cert.ReferenceIdeal.dot_S16x10x128_S100000x128_S16x10x100000_2_1_01_0_n_n]; rfl
    | ⟨2, _⟩ => simp [DotDims.lhsIdx, Cert.ReferenceIdeal.dot_S16x10x128_S100000x128_S16x10x100000_2_1_01_0_n_n]; exact c3
  have r2 : Cert.ReferenceIdeal.dot_S16x10x128_S100000x128_S16x10x100000_2_1_01_0_n_n.rhsIdx (ix3 g s n)
      ((contrEquiv1 _ 128 rfl rfl).symm c) = ix2 n c := by
    funext ax; apply Fin.ext
    match ax with
    | ⟨0, _⟩ => simp [DotDims.rhsIdx, Cert.ReferenceIdeal.dot_S16x10x128_S100000x128_S16x10x100000_2_1_01_0_n_n]; rfl
    | ⟨1, _⟩ => simp [DotDims.rhsIdx, Cert.ReferenceIdeal.dot_S16x10x128_S100000x128_S16x10x100000_2_1_01_0_n_n]; exact c3
  rw [l3, r2]

/-! ## The constants -/

/-- The single-precision word of one. -/
theorem ofBits_one_f32 : Ideal.ofBits .f32 0x3F800000#32 = 1 := by
  simp [Ideal.ofBits, Ideal.ieee, -EReal.coe_mul]; norm_num

/-! ## A bias vector spread over the rows -/

/-- The bias as a one-row matrix. -/
theorem bcast_row_ref (b : FVec Ideal Cert.ReferenceIdeal.S128 .f32)
    (hb : Cert.ReferenceIdeal.S128.BroadcastsInDim Cert.ReferenceIdeal.S1x128 (![1] : Fin 1 → Fin Cert.ReferenceIdeal.S1x128.rank))
    (u : Fin 1) (q : Fin 128) :
    broadcastInDim Cert.ReferenceIdeal.S1x128 ![1] hb b (ix2 u q) = b (ix1 q) := by
  refine broadcastInDim_apply _ hb b _ (ix1 q) fun a => ?_
  match a with
  | ⟨0, _⟩ => rfl

/-- The one-row matrix repeated down m rows: every row is the bias. -/
theorem bcast_rows_ref {m : Nat} (b : FVec Ideal Cert.ReferenceIdeal.S128 .f32)
    (hb : Cert.ReferenceIdeal.S128.BroadcastsInDim Cert.ReferenceIdeal.S1x128 (![1] : Fin 1 → Fin Cert.ReferenceIdeal.S1x128.rank))
    (hb2 : Cert.ReferenceIdeal.S1x128.BroadcastsInDim (⟨2, ![m, 128]⟩ : Shape) (![0, 1] : Fin 2 → Fin (⟨2, ![m, 128]⟩ : Shape).rank))
    (r : Fin m) (q : Fin 128) :
    broadcastInDim (⟨2, ![m, 128]⟩ : Shape) ![0, 1] hb2 (broadcastInDim Cert.ReferenceIdeal.S1x128 ![1] hb b) (ix2 r q) = b (ix1 q) := by
  refine (broadcastInDim_apply _ hb2 _ (ix2 r q) (ix2 (0 : Fin 1) q) fun a => ?_).trans (bcast_row_ref b hb 0 q)
  match a with
  | ⟨0, _⟩ => rfl
  | ⟨1, _⟩ => rfl

/-! ## An ordinary matrix product on the host

The dimension numbers contract axis 1 of the left operand with axis 0 of the right: at output index (r, c) and
contraction position k the left operand is read at (r, k), the right one at (k, c). -/

theorem dot_rows_cols {m k n : Nat}
    (wf : DotDims.WF (⟨2, ![m, k]⟩ : Shape) ⟨2, ![k, n]⟩ ⟨2, ![m, n]⟩ [1] [0] [0] [1] [] [])
    (A : FVec Ideal (⟨2, ![m, k]⟩ : Shape) .f32) (B : FVec Ideal (⟨2, ![k, n]⟩ : Shape) .f32) (a : Fin m) (b : Fin n) :
    Host.dotGeneral (F := Ideal) (⟨[1], [0], [0], [1], [], [], wf⟩ : DotDims _ _ _) none A B (ix2 a b)
      = ∑ c : Fin k, A (ix2 a c) * B (ix2 c b) :=
  StackMember.dotGeneral_plain_apply none A B a b

/-! ## The feature layer -/

theorem ref_sigmoid_layer (emb : FVec Ideal Cert.ReferenceIdeal.S100000x128 .f32) (w : FVec Ideal Cert.ReferenceIdeal.S128x128 .f32)
    (b5 : FVec Ideal Cert.ReferenceIdeal.S128 .f32)
    (hb : Cert.ReferenceIdeal.S128.BroadcastsInDim Cert.ReferenceIdeal.S1x128 (![1] : Fin 1 → Fin Cert.ReferenceIdeal.S1x128.rank))
    (hb2 : Cert.ReferenceIdeal.S1x128.BroadcastsInDim Cert.ReferenceIdeal.S100000x128 (![0, 1] : Fin 2 → Fin Cert.ReferenceIdeal.S100000x128.rank))
    (hb0 : Cert.ReferenceIdeal.S_.BroadcastsInDim Cert.ReferenceIdeal.S100000x128 (![] : Fin 0 → Fin Cert.ReferenceIdeal.S100000x128.rank))
    (n : Fin 100000) (q : Fin 128) :
    Host.divf (F := Ideal)
        (broadcastInDim Cert.ReferenceIdeal.S100000x128 ![] hb0 (constant (F := Ideal) Cert.ReferenceIdeal.S_ .f32 0x3F800000#32))
        (addf (broadcastInDim Cert.ReferenceIdeal.S100000x128 ![] hb0 (constant (F := Ideal) Cert.ReferenceIdeal.S_ .f32 0x3F800000#32))
          (Host.exp (Host.negf (addf
            (Host.dotGeneral (F := Ideal) Cert.ReferenceIdeal.dot_S100000x128_S128x128_S100000x128_1_0_0_1_n_n none emb w)
            (broadcastInDim Cert.ReferenceIdeal.S100000x128 ![0, 1] hb2 (broadcastInDim Cert.ReferenceIdeal.S1x128 ![1] hb b5))))))
        (ix2 n q)
      = Ideal.logistic ((∑ k : Fin 128, emb (ix2 n k) * w (ix2 k q)) + b5 (ix1 q)) := by
  have hdot : Host.dotGeneral (F := Ideal) Cert.ReferenceIdeal.dot_S100000x128_S128x128_S100000x128_1_0_0_1_n_n none emb w (ix2 n q)
      = ∑ k : Fin 128, emb (ix2 n k) * w (ix2 k q) := dot_rows_cols _ emb w n q
  have hbias := bcast_rows_ref (m := 100000) b5 hb hb2 n q
  show Ideal.div (Ideal.ofBits .f32 0x3F800000#32) (Ideal.ofBits .f32 0x3F800000#32 + Ideal.exp (-(
      Host.dotGeneral (F := Ideal) Cert.ReferenceIdeal.dot_S100000x128_S128x128_S100000x128_1_0_0_1_n_n none emb w (ix2 n q)
      + broadcastInDim Cert.ReferenceIdeal.S100000x128 ![0, 1] hb2 (broadcastInDim Cert.ReferenceIdeal.S1x128 ![1] hb b5) (ix2 n q)))) = _
  rw [hdot, hbias, ofBits_one_f32]
  rfl

/-! ## The last layer -/

theorem ref_final (cat : FVec Ideal Cert.ReferenceIdeal.S2048x64 .f32) (w : FVec Ideal Cert.ReferenceIdeal.S64x128 .f32)
    (b9 : FVec Ideal Cert.ReferenceIdeal.S128 .f32)
    (hb : Cert.ReferenceIdeal.S128.BroadcastsInDim Cert.ReferenceIdeal.S1x128 (![1] : Fin 1 → Fin Cert.ReferenceIdeal.S1x128.rank))
    (hb2 : Cert.ReferenceIdeal.S1x128.BroadcastsInDim Cert.ReferenceIdeal.S2048x128 (![0, 1] : Fin 2 → Fin Cert.ReferenceIdeal.S2048x128.rank))
    (hb0 : Cert.ReferenceIdeal.S_.BroadcastsInDim Cert.ReferenceIdeal.S2048x128 (![] : Fin 0 → Fin Cert.ReferenceIdeal.S2048x128.rank))
    (r : Fin 2048) (q : Fin 128) :
    select
        (cmpf .oge
          (addf (Host.dotGeneral (F := Ideal) Cert.ReferenceIdeal.dot_S2048x64_S64x128_S2048x128_1_0_0_1_n_n none cat w)
            (broadcastInDim Cert.ReferenceIdeal.S2048x128 ![0, 1] hb2 (broadcastInDim Cert.ReferenceIdeal.S1x128 ![1] hb b9)))
          (broadcastInDim Cert.ReferenceIdeal.S2048x128 ![] hb0 (constant (F := Ideal) Cert.ReferenceIdeal.S_ .f32 0x00000000#32)))
        (addf (Host.dotGeneral (F := Ideal) Cert.ReferenceIdeal.dot_S2048x64_S64x128_S2048x128_1_0_0_1_n_n none cat w)
          (broadcastInDim Cert.ReferenceIdeal.S2048x128 ![0, 1] hb2 (broadcastInDim Cert.ReferenceIdeal.S1x128 ![1] hb b9)))
        (mulf (broadcastInDim Cert.ReferenceIdeal.S2048x128 ![] hb0 (constant (F := Ideal) Cert.ReferenceIdeal.S_ .f32 0x3C23D70A#32))
          (addf (Host.dotGeneral (F := Ideal) Cert.ReferenceIdeal.dot_S2048x64_S64x128_S2048x128_1_0_0_1_n_n none cat w)
            (broadcastInDim Cert.ReferenceIdeal.S2048x128 ![0, 1] hb2 (broadcastInDim Cert.ReferenceIdeal.S1x128 ![1] hb b9))))
        (ix2 r q)
      = Scalar.select
          (FloatOps.cmpf (F := Ideal) .oge ((∑ k : Fin 64, cat (ix2 r k) * w (ix2 k q)) + b9 (ix1 q)) (Ideal.ofBits .f32 0x00000000#32))
          ((∑ k : Fin 64, cat (ix2 r k) * w (ix2 k q)) + b9 (ix1 q))
          (Ideal.ofBits .f32 0x3C23D70A#32 * ((∑ k : Fin 64, cat (ix2 r k) * w (ix2 k q)) + b9 (ix1 q))) := by
  have hdot : Host.dotGeneral (F := Ideal) Cert.ReferenceIdeal.dot_S2048x64_S64x128_S2048x128_1_0_0_1_n_n none cat w (ix2 r q)
      = ∑ k : Fin 64, cat (ix2 r k) * w (ix2 k q) := dot_rows_cols _ cat w r q
  have hbias := bcast_rows_ref (m := 2048) b9 hb hb2 r q
  have hh : addf (Host.dotGeneral (F := Ideal) Cert.ReferenceIdeal.dot_S2048x64_S64x128_S2048x128_1_0_0_1_n_n none cat w)
      (broadcastInDim Cert.ReferenceIdeal.S2048x128 ![0, 1] hb2 (broadcastInDim Cert.ReferenceIdeal.S1x128 ![1] hb b9)) (ix2 r q)
      = (∑ k : Fin 64, cat (ix2 r k) * w (ix2 k q)) + b9 (ix1 q) := by
    rw [addf_apply, hdot, hbias]
  rw [select_apply, cmpf_apply, mulf_apply, hh]
  rfl

end Reference

end Cert.Glue
-- ==== Proof.BridgeX0.lean ====
/- The node features before any propagation, and their pairing with the stack of vectors: the kernel program's values
   against the reference's, at the ideal values (a float is an extended real, every operation the exact one).

   The kernel program pads the 100000 gathered embedding rows to 102400, runs the logistic layer on the padded rows
   in 25 blocks of 4096, and cuts the result back to 100000 rows; the reference runs the same layer on the 100000 rows
   directly. A row inside the data is untouched by the padding and by the cut, and the layer works row by row, so the two
   agree on every row of the data. The kernel program then pairs the stack, flattened from [16, 10, 128] to
   [160, 128], with the padded features, a contraction over the 128 channels; the reference pairs the unflattened stack
   with the unpadded features by the same contraction. Row 10·g + s of the flattened stack is the stack's row (g, s), so
   the two agree at every (g, s) and every node of the data. -/
import proofs.«121911_j27986006901054_1_alg».proof.Proof.KIRunW
import proofs.«121911_j27986006901054_1_alg».proof.Proof.KIVal0
import proofs.«121911_j27986006901054_1_alg».proof.Proof.KIVal1
import proofs.«121911_j27986006901054_1_alg».proof.Proof.GlueKern
import proofs.«121911_j27986006901054_1_alg».proof.Proof.GlueRef
import proofs.«121911_j27986006901054_1_alg».proof.Proof.RefRunPart0
import Idealize.ShloMosaic.Lib.StableHlo.Run
import Idealize.ShloMosaic.Lib.ValueIdx

noncomputable section

namespace Cert.KernelIdeal.Bridge

open Cert.KernelIdeal Cert.KernelIdeal.Gen Cert.KernelIdeal.Hand Cert.KernelIdeal.HandValue Cert.ReferenceIdeal.RefRun
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg) (c : Dev nD)

-- the program's arguments, as core `c` holds them at launch
local notation "a0" => W0 m ρ c (Proc.devRef Proc.tc main_arg0)
local notation "a3" => W0 m ρ c (Proc.devRef Proc.tc main_arg3)
local notation "a4" => W0 m ρ c (Proc.devRef Proc.tc main_arg4)
local notation "a5" => W0 m ρ c (Proc.devRef Proc.tc main_arg5)
local notation "a7" => W0 m ρ c (Proc.devRef Proc.tc main_arg7)

/-! ## What the first kernel is handed -/

set_option maxHeartbeats 1000000 in
/-- Its input rows: the embedding rows the node indices pick — the reference's gather, operation for operation —, padded
    with 2400 rows of zeros. -/
theorem v25_at5 : W5 m ρ c (Proc.devRef .tc main_v25)
    = pad S102400x128 ![0, 0] ![2400, 0] ![0, 0] (refEmb a0 a3 : FVec Ideal S100000x128 .f32)
        (sitofp .f32 (constantI S_ 32 0#32) : FVec Ideal S_ .f32) pads_S100000x128_S102400x128_024000_000 h_S_ := by
  unfold W5
  after_results
  rfl

set_option maxHeartbeats 1000000 in
/-- Its weights: the weight argument, which no host operation before it writes. -/
theorem arg4_at5 : W5 m ρ c (Proc.devRef .tc main_arg4) = a4 := by
  unfold W5
  after_results

set_option maxHeartbeats 1000000 in
/-- Its bias: the bias argument as a one-row matrix. -/
theorem v26_at5 : W5 m ρ c (Proc.devRef .tc main_v26) = shapeCast S1x128 a5 shapeCasts_S128_S1x128 := by
  unfold W5
  after_results
  rfl

/-! ## A row of the data, after the first kernel -/

/-- Row `n` of the first kernel's result, for `n` a row of the data, is row `n` of the reference's node features: the
    kernel's layer at that row reads row `n` of the padded input, which is row `n` of the gathered embedding, and the
    weights and the bias as given. -/
theorem x0pad_row (n : Fin 100000) (q : Fin 128) :
    W6 m ρ c (Proc.devRef .tc main_v27) (ix2 (⟨n.val, by omega⟩ : Fin 102400) q) = refX0 a0 a3 a4 a5 (ix2 n q) := by
  rw [W6_out, region0_value]
  have h25 : ∀ k : Fin 128, (by exact Hand.V5 m ρ c main_v25 (ix2 (⟨n.val, by omega⟩ : Fin 102400) k) : EReal) = refEmb a0 a3 (ix2 n k) :=
    fun k => (congrFun (v25_at5 m ρ c) _).trans (Glue.pad_rows _ _ _ _ n k)
  have h4 : ∀ k : Fin 128, (by exact Hand.V5 m ρ c main_arg4 (ix2 k q) : EReal) = a4 (ix2 k q) :=
    fun k => congrFun (arg4_at5 m ρ c) _
  have h26 : (by exact Hand.V5 m ρ c main_v26 (ix2 (0 : Fin 1) q) : EReal) = a5 (ix1 q) :=
    (congrFun (v26_at5 m ρ c) _).trans (Glue.row_of_vec _ _ q)
  have h : Ideal.logistic ((∑ k : Fin 128, (by exact Hand.V5 m ρ c main_v25 (ix2 (⟨n.val, by omega⟩ : Fin 102400) k) : EReal)
          * (by exact Hand.V5 m ρ c main_arg4 (ix2 k q) : EReal)) + (by exact Hand.V5 m ρ c main_v26 (ix2 (0 : Fin 1) q) : EReal))
      = Ideal.logistic ((∑ k : Fin 128, (by exact refEmb a0 a3 (ix2 n k) : EReal) * (by exact a4 (ix2 k q) : EReal))
          + (by exact a5 (ix1 q) : EReal)) := by
    exact congrArg₂ (fun s t : EReal => Ideal.logistic (s + t))
      (Finset.sum_congr rfl fun k _ => congrArg₂ (fun x y : EReal => x * y) (h25 k) (h4 k)) h26
  exact h.trans (Glue.ref_sigmoid_layer (refEmb a0 a3) a4 a5 _ _ _ n q).symm

/-! ## The features cut back to the data's rows -/

set_option maxHeartbeats 1000000 in
/-- The features the propagation rounds read: the first 100000 rows of the first kernel's result. -/
theorem v34_at9 : W9 m ρ c (Proc.devRef .tc main_v34)
    = extractStridedSlice S100000x128 ![0, 0] (W8 m ρ c (Proc.devRef .tc main_v27)) slices_S102400x128_S100000x128_0_0 := by
  unfold W9
  after_results

/-- They are the reference's node features. -/
theorem x0_eq : W9 m ρ c (Proc.devRef .tc main_v34) = refX0 a0 a3 a4 a5 := by
  rw [v34_at9]
  funext i
  obtain ⟨n, q, rfl⟩ : ∃ (n : Fin 100000) (q : Fin 128), i = ix2 n q := ⟨i 0, i 1, eq_ix2 i⟩
  exact (Glue.slice_rows _ _ n q).trans
    ((congrFun ((W8_in1 m ρ c).trans (W7_keep m ρ c main_v27 (by decide))) _).trans (x0pad_row m ρ c n q))

/-! ## The pairing of the stack with the features -/

set_option maxHeartbeats 1000000 in
/-- The stack argument is written by nothing before the second kernel. -/
theorem arg7_at6 : W6 m ρ c (Proc.devRef .tc main_arg7) = a7 :=
  (W6_keep m ρ c main_arg7 (by decide)).trans (by unfold W5; after_results)

set_option maxHeartbeats 1000000 in
/-- The second kernel's first operand: the stack flattened to 160 rows. -/
theorem v28_at7 : W7 m ρ c (Proc.devRef .tc main_v28) = shapeCast S160x128 a7 shapeCasts_S16x10x128_S160x128 := by
  rw [← arg7_at6 m ρ c]
  unfold W7
  after_results
  rfl

/-- Entry (10·g + s, n) of the second kernel's result, for `n` a node of the data, is entry (g, s, n) of the reference's
    pairing: both are the sum over the 128 channels of the stack's row (g, s) times the features' row `n`. -/
theorem zx_entry (g : Fin 16) (s : Fin 10) (n : Fin 100000) :
    W8 m ρ c (Proc.devRef .tc main_v29) (ix2 (⟨10 * g.val + s.val, by omega⟩ : Fin 160) (⟨n.val, by omega⟩ : Fin 102400))
      = refZx a0 a3 a4 a5 a7 (ix3 g s n) := by
  rw [W8_out, region1_value]
  have hz : ∀ k : Fin 128, (by exact Hand.V7 m ρ c main_v28 (ix2 (⟨10 * g.val + s.val, by omega⟩ : Fin 160) k) : EReal) = a7 (ix3 g s k) :=
    fun k => (congrFun (v28_at7 m ρ c) _).trans (Glue.flat_z _ _ g s k)
  have hx : ∀ k : Fin 128, (by exact Hand.V7 m ρ c main_v27 (ix2 (⟨n.val, by omega⟩ : Fin 102400) k) : EReal) = refX0 a0 a3 a4 a5 (ix2 n k) :=
    fun k => (congrFun (W7_keep m ρ c main_v27 (by decide)) _).trans (x0pad_row m ρ c n k)
  have h : (∑ k : Fin 128, (by exact Hand.V7 m ρ c main_v28 (ix2 (⟨10 * g.val + s.val, by omega⟩ : Fin 160) k) : EReal)
        * (by exact Hand.V7 m ρ c main_v27 (ix2 (⟨n.val, by omega⟩ : Fin 102400) k) : EReal))
      = ∑ k : Fin 128, (by exact a7 (ix3 g s k) : EReal) * (by exact refX0 a0 a3 a4 a5 (ix2 n k) : EReal) :=
    Finset.sum_congr rfl fun k _ => congrArg₂ (fun x y : EReal => x * y) (hz k) (hx k)
  exact h.trans (Glue.ref_zx a7 (refX0 a0 a3 a4 a5) g s n).symm

end Cert.KernelIdeal.Bridge

end
-- ==== Proof.BridgeProp.lean ====
/-
  The host's own arithmetic between the kernels, joined to the reference's stages.

  Between two kernels the host does, on whole arrays, exactly what the reference does: it reads the two rows of the
  edge table and turns them into index columns (a negative source index moved up by the number of nodes), gathers the
  node features along the sources and adds them up at the targets — one round of propagation, x ↦ P x — and multiplies
  the stack by the coupling matrix, z ↦ A z. Each of these values is therefore the reference's stage of the same name
  once its operands are: x₁ = P x₀, x₂ = P x₁, x₃ = P x₂ and z₁ = A z, z₂ = A z₁, z₃ = A z₂, with A the symmetric
  matrix U + Uᵀ built from the 45 free parameters per head. A buffer that no item in between writes holds at the later
  boundary what it held at the earlier one; that is all that connects the boundaries.
-/
import proofs.«121911_j27986006901054_1_alg».proof.Proof.KIRunW
import proofs.«121911_j27986006901054_1_alg».proof.Proof.RefRunPart0
import Idealize.ShloMosaic.Lib.StableHlo.Run
import Idealize.ShloMosaic.PureOps.Ideal.Laws

set_option maxRecDepth 16384

noncomputable section

namespace Cert.KernelIdeal.Bridge

open Cert.KernelIdeal Cert.KernelIdeal.Gen Cert.KernelIdeal.Hand Cert.ReferenceIdeal.RefRun
open Idealize.ShloMosaic Idealize.ShloMosaic.TcCoe Idealize.ShloMosaic.StableHlo

variable (m : (ℓ : Loc nD τ sig) → Buf (Elt Ideal) ℓ) (ρ : Dev nD → PrngReg) (c : Dev nD)

/-! ## Buffers carried from where they are written to where they are read -/

/-- The edge table is an argument: nothing writes it. -/
private theorem carry_arg1_8_0 :
    W8 m ρ c (Proc.devRef .tc main_arg1) = W0 m ρ c (Proc.devRef .tc main_arg1) :=
  (W8_keep m ρ c main_arg1 (by decide)).trans <|
    (W7_keep m ρ c main_arg1 (by decide)).trans <|
    (W6_keep m ρ c main_arg1 (by decide)).trans <|
    (W5_keep m ρ c main_arg1 (by decide)).trans <|
    (W4_keep m ρ c main_arg1 (by decide)).trans <|
    (W3_keep m ρ c main_arg1 (by decide)).trans <|
    (W2_keep m ρ c main_arg1 (by decide)).trans <|
    (W1_keep m ρ c main_arg1 (by decide))

/-- The stack z is an argument: nothing writes it. -/
private theorem carry_arg7_10_0 :
    W10 m ρ c (Proc.devRef .tc main_arg7) = W0 m ρ c (Proc.devRef .tc main_arg7) :=
  (W10_keep m ρ c main_arg7 (by decide)).trans <|
    (W9_keep m ρ c main_arg7 (by decide)).trans <|
    (W8_keep m ρ c main_arg7 (by decide)).trans <|
    (W7_keep m ρ c main_arg7 (by decide)).trans <|
    (W6_keep m ρ c main_arg7 (by decide)).trans <|
    (W5_keep m ρ c main_arg7 (by decide)).trans <|
    (W4_keep m ρ c main_arg7 (by decide)).trans <|
    (W3_keep m ρ c main_arg7 (by decide)).trans <|
    (W2_keep m ρ c main_arg7 (by decide)).trans <|
    (W1_keep m ρ c main_arg7 (by decide))

/-- The coupling matrix, written once before the first kernel. -/
private theorem carry_v17_10_3 :
    W10 m ρ c (Proc.devRef .tc main_v17) = W3 m ρ c (Proc.devRef .tc main_v17) :=
  (W10_keep m ρ c main_v17 (by decide)).trans <|
    (W9_keep m ρ c main_v17 (by decide)).trans <|
    (W8_keep m ρ c main_v17 (by decide)).trans <|
    (W7_keep m ρ c main_v17 (by decide)).trans <|
    (W6_keep m ρ c main_v17 (by decide)).trans <|
    (W5_keep m ρ c main_v17 (by decide)).trans <|
    (W4_keep m ρ c main_v17 (by decide))

/-- The coupling matrix across the second step's preparation. -/
private theorem carry_v17_13_10 :
    W13 m ρ c (Proc.devRef .tc main_v17) = W10 m ρ c (Proc.devRef .tc main_v17) :=
  (W13_keep m ρ c main_v17 (by decide)).trans <|
    (W12_keep m ρ c main_v17 (by decide)).trans <|
    (W11_keep m ρ c main_v17 (by decide))

/-- The coupling matrix across the third step's preparation. -/
private theorem carry_v17_16_13 :
    W16 m ρ c (Proc.devRef .tc main_v17) = W13 m ρ c (Proc.devRef .tc main_v17) :=
  (W16_keep m ρ c main_v17 (by decide)).trans <|
    (W15_keep m ρ c main_v17 (by decide)).trans <|
    (W14_keep m ρ c main_v17 (by decide))

/-- The source row across the first step. -/
private theorem carry_v31_10_9 :
    W10 m ρ c (Proc.devRef .tc main_v31) = W9 m ρ c (Proc.devRef .tc main_v31) :=
  (W10_keep m ρ c main_v31 (by decide))

/-- The source row up to the second round. -/
private theorem carry_v31_13_10 :
    W13 m ρ c (Proc.devRef .tc main_v31) = W10 m ρ c (Proc.devRef .tc main_v31) :=
  (W13_keep m ρ c main_v31 (by decide)).trans <|
    (W12_keep m ρ c main_v31 (by decide)).trans <|
    (W11_keep m ρ c main_v31 (by decide))

/-- The source row up to the third round. -/
private theorem carry_v31_16_13 :
    W16 m ρ c (Proc.devRef .tc main_v31) = W13 m ρ c (Proc.devRef .tc main_v31) :=
  (W16_keep m ρ c main_v31 (by decide)).trans <|
    (W15_keep m ρ c main_v31 (by decide)).trans <|
    (W14_keep m ρ c main_v31 (by decide))

/-- The target row across the first step. -/
private theorem carry_v33_10_9 :
    W10 m ρ c (Proc.devRef .tc main_v33) = W9 m ρ c (Proc.devRef .tc main_v33) :=
  (W10_keep m ρ c main_v33 (by decide))

/-- The target row up to the second round. -/
private theorem carry_v33_13_10 :
    W13 m ρ c (Proc.devRef .tc main_v33) = W10 m ρ c (Proc.devRef .tc main_v33) :=
  (W13_keep m ρ c main_v33 (by decide)).trans <|
    (W12_keep m ρ c main_v33 (by decide)).trans <|
    (W11_keep m ρ c main_v33 (by decide))

/-- The target row up to the third round. -/
private theorem carry_v33_16_13 :
    W16 m ρ c (Proc.devRef .tc main_v33) = W13 m ρ c (Proc.devRef .tc main_v33) :=
  (W16_keep m ρ c main_v33 (by decide)).trans <|
    (W15_keep m ρ c main_v33 (by decide)).trans <|
    (W14_keep m ρ c main_v33 (by decide))

/-- The unpropagated features across the first step. -/
private theorem carry_v34_10_9 :
    W10 m ρ c (Proc.devRef .tc main_v34) = W9 m ρ c (Proc.devRef .tc main_v34) :=
  (W10_keep m ρ c main_v34 (by decide))

/-- The once propagated features across the second step. -/
private theorem carry_v50_13_11 :
    W13 m ρ c (Proc.devRef .tc main_v50) = W11 m ρ c (Proc.devRef .tc main_v50) :=
  (W13_keep m ρ c main_v50 (by decide)).trans <|
    (W12_keep m ρ c main_v50 (by decide))

/-- The twice propagated features across the third step. -/
private theorem carry_v69_16_14 :
    W16 m ρ c (Proc.devRef .tc main_v69) = W14 m ρ c (Proc.devRef .tc main_v69) :=
  (W16_keep m ρ c main_v69 (by decide)).trans <|
    (W15_keep m ρ c main_v69 (by decide))

/-- A z across the second step. -/
private theorem carry_v51_13_11 :
    W13 m ρ c (Proc.devRef .tc main_v51) = W11 m ρ c (Proc.devRef .tc main_v51) :=
  (W13_keep m ρ c main_v51 (by decide)).trans <|
    (W12_keep m ρ c main_v51 (by decide))

/-- A² z across the third step. -/
private theorem carry_v70_16_14 :
    W16 m ρ c (Proc.devRef .tc main_v70) = W14 m ρ c (Proc.devRef .tc main_v70) :=
  (W16_keep m ρ c main_v70 (by decide)).trans <|
    (W15_keep m ρ c main_v70 (by decide))

/-! ## The edge table's two rows -/

/-- Row 0 of the edge table, as the host cuts it out. -/
theorem srcRaw_eq : W9 m ρ c (Proc.devRef .tc main_v31) = refSrcRaw (W0 m ρ c (Proc.devRef .tc main_arg1)) := by
  unfold W9; after_results
  rw [carry_arg1_8_0 m ρ c]
  rfl

/-- Row 1 of the edge table. -/
theorem dstRaw_eq : W9 m ρ c (Proc.devRef .tc main_v33) = refDstRaw (W0 m ρ c (Proc.devRef .tc main_arg1)) := by
  unfold W9; after_results
  rw [carry_arg1_8_0 m ρ c]
  rfl

/-! ## The index columns of each round

Each round computes its own copies of the two index columns from the two rows; they are the same columns. -/

theorem src1_eq : W11 m ρ c (Proc.devRef .tc main_v46) = refSrc (W0 m ρ c (Proc.devRef .tc main_arg1)) := by
  unfold W11; after_results
  rw [carry_v31_10_9 m ρ c, srcRaw_eq m ρ c]
  rfl

theorem dst1_eq : W11 m ρ c (Proc.devRef .tc main_v49) = refDst (W0 m ρ c (Proc.devRef .tc main_arg1)) := by
  unfold W11; after_results
  rw [carry_v33_10_9 m ρ c, dstRaw_eq m ρ c]
  rfl

theorem src2_eq : W14 m ρ c (Proc.devRef .tc main_v65) = refSrc (W0 m ρ c (Proc.devRef .tc main_arg1)) := by
  unfold W14; after_results
  rw [carry_v31_13_10 m ρ c, carry_v31_10_9 m ρ c, srcRaw_eq m ρ c]
  rfl

theorem dst2_eq : W14 m ρ c (Proc.devRef .tc main_v68) = refDst (W0 m ρ c (Proc.devRef .tc main_arg1)) := by
  unfold W14; after_results
  rw [carry_v33_13_10 m ρ c, carry_v33_10_9 m ρ c, dstRaw_eq m ρ c]
  rfl

theorem src3_eq : W17 m ρ c (Proc.devRef .tc main_v84) = refSrc (W0 m ρ c (Proc.devRef .tc main_arg1)) := by
  unfold W17; after_results
  rw [carry_v31_16_13 m ρ c, carry_v31_13_10 m ρ c, carry_v31_10_9 m ρ c, srcRaw_eq m ρ c]
  rfl

theorem dst3_eq : W17 m ρ c (Proc.devRef .tc main_v87) = refDst (W0 m ρ c (Proc.devRef .tc main_arg1)) := by
  unfold W17; after_results
  rw [carry_v33_16_13 m ρ c, carry_v33_13_10 m ρ c, carry_v33_10_9 m ρ c, dstRaw_eq m ρ c]
  rfl

/-! ## Three rounds of propagation -/

set_option maxHeartbeats 2000000 in
/-- x₁ = P x₀. -/
theorem x1_eq (hx0 : W9 m ρ c (Proc.devRef .tc main_v34) = refX0 (W0 m ρ c (Proc.devRef .tc main_arg0)) (W0 m ρ c (Proc.devRef .tc main_arg3)) (W0 m ρ c (Proc.devRef .tc main_arg4)) (W0 m ρ c (Proc.devRef .tc main_arg5))) :
    W11 m ρ c (Proc.devRef .tc main_v50) = refX1 (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) := by
  unfold W11; after_results_simp
  rw [carry_v31_10_9 m ρ c, carry_v33_10_9 m ρ c, carry_v34_10_9 m ρ c, srcRaw_eq m ρ c, dstRaw_eq m ρ c, hx0]
  rfl

set_option maxHeartbeats 2000000 in
/-- x₂ = P x₁. -/
theorem x2_eq (hx0 : W9 m ρ c (Proc.devRef .tc main_v34) = refX0 (W0 m ρ c (Proc.devRef .tc main_arg0)) (W0 m ρ c (Proc.devRef .tc main_arg3)) (W0 m ρ c (Proc.devRef .tc main_arg4)) (W0 m ρ c (Proc.devRef .tc main_arg5))) :
    W14 m ρ c (Proc.devRef .tc main_v69) = refX2 (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) := by
  unfold W14; after_results_simp
  rw [carry_v31_13_10 m ρ c, carry_v33_13_10 m ρ c, carry_v31_10_9 m ρ c, carry_v33_10_9 m ρ c, carry_v50_13_11 m ρ c,
    srcRaw_eq m ρ c, dstRaw_eq m ρ c, x1_eq m ρ c hx0]
  rfl

set_option maxHeartbeats 2000000 in
/-- x₃ = P x₂. -/
theorem x3_eq (hx0 : W9 m ρ c (Proc.devRef .tc main_v34) = refX0 (W0 m ρ c (Proc.devRef .tc main_arg0)) (W0 m ρ c (Proc.devRef .tc main_arg3)) (W0 m ρ c (Proc.devRef .tc main_arg4)) (W0 m ρ c (Proc.devRef .tc main_arg5))) :
    W17 m ρ c (Proc.devRef .tc main_v88) = refX3 (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) := by
  unfold W17; after_results_simp
  rw [carry_v31_16_13 m ρ c, carry_v33_16_13 m ρ c, carry_v31_13_10 m ρ c, carry_v33_13_10 m ρ c,
    carry_v31_10_9 m ρ c, carry_v33_10_9 m ρ c, carry_v69_16_14 m ρ c,
    srcRaw_eq m ρ c, dstRaw_eq m ρ c, x2_eq m ρ c hx0]
  rfl

/-! ## The coupling matrix and its powers applied to the stack -/

set_option maxHeartbeats 2000000 in
/-- A = U + Uᵀ, U the strictly upper triangular matrix of the rectified parameters. -/
theorem A_eq : W3 m ρ c (Proc.devRef .tc main_v17) = refA (W0 m ρ c (Proc.devRef .tc main_arg6)) := by
  unfold W3; after_results_simp
  rfl

set_option maxHeartbeats 2000000 in
/-- z₁ = A z. -/
theorem z1_eq : W11 m ρ c (Proc.devRef .tc main_v51) = refZ1 (W0 m ρ c (Proc.devRef .tc main_arg6)) (W0 m ρ c (Proc.devRef .tc main_arg7)) := by
  unfold W11; after_results_simp
  rw [carry_v17_10_3 m ρ c, carry_arg7_10_0 m ρ c, A_eq m ρ c]
  rfl

set_option maxHeartbeats 2000000 in
/-- z₂ = A z₁. -/
theorem z2_eq : W14 m ρ c (Proc.devRef .tc main_v70) = refZ2 (W0 m ρ c (Proc.devRef .tc main_arg6)) (W0 m ρ c (Proc.devRef .tc main_arg7)) := by
  unfold W14; after_results_simp
  rw [carry_v17_13_10 m ρ c, carry_v17_10_3 m ρ c, carry_v51_13_11 m ρ c, A_eq m ρ c, z1_eq m ρ c]
  rfl

set_option maxHeartbeats 2000000 in
/-- z₃ = A z₂. -/
theorem z3_eq : W17 m ρ c (Proc.devRef .tc main_v89) = refZ3 (W0 m ρ c (Proc.devRef .tc main_arg6)) (W0 m ρ c (Proc.devRef .tc main_arg7)) := by
  unfold W17; after_results_simp
  rw [carry_v17_16_13 m ρ c, carry_v17_13_10 m ρ c, carry_v17_10_3 m ρ c, carry_v70_16_14 m ρ c, A_eq m ρ c, z2_eq m ρ c]
  rfl

end Cert.KernelIdeal.Bridge
-- ==== Proof.KIPay2.lean ====
/-
  The step kernels' arithmetic (the third to sixth kernels share one body), read at one element, at the ideal values (a
  float is an extended real, a change of format is the identity, a matrix product into a zero accumulator is the plain
  sum of products).

  The body takes a block `zx` (160 × 4096), the matrix `z` (160 × 128), a block `x` (4096 × 128) and the matrix `gm`
  (16 × 160). It forms z · xᵀ (160 × 4096), multiplies it entry by entry with `zx`, and multiplies the result from the
  left by `gm`:  out(g, p) = ∑ⱼ gm(g, j) · ( zx(j, p) · ∑ₖ z(j, k) · x(p, k) ).
-/
import proofs.«121911_j27986006901054_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«121911_j27986006901054_1_alg».proof.Proof.KIPay1

noncomputable section

namespace Cert.KernelIdeal.HandValue

open Idealize.ShloMosaic Idealize.ShloMosaic.ValueIdx
open Cert.KernelIdeal Cert.KernelIdeal.Gen
open scoped BigOperators

/-! ## The outer contraction's operand indices

The outer product is an ordinary matrix product (axis 1 of the left operand against axis 0 of the right): at output
index (r, c) and contraction position k the left operand is read at (r, k), the right at (k, c). The inner product
z · xᵀ is the second kernel's, read at an index there. -/

/-- Left operand, free axis: the output's row. -/
theorem step_lhs_0 (i : S16x4096.Idx) (q : dot_S16x160_S160x4096_S16x4096_1_0_0_1_n_n.contr.Idx) :
    (dot_S16x160_S160x4096_S16x4096_1_0_0_1_n_n.lhsIdx i q 0).val = (i 0).val := by
  unfold DotDims.lhsIdx
  rw [dif_neg (show ¬(0 : Fin S16x160.rank) ∈ dot_S16x160_S160x4096_S16x4096_1_0_0_1_n_n.lhsBatch by decide),
    dif_pos (show (0 : Fin S16x160.rank) ∈ dot_S16x160_S160x4096_S16x4096_1_0_0_1_n_n.lhsNonContracting by decide)]
  rfl

/-- Left operand, contracted axis: the contraction position. -/
theorem step_lhs_1 (i : S16x4096.Idx) (q : dot_S16x160_S160x4096_S16x4096_1_0_0_1_n_n.contr.Idx) :
    (dot_S16x160_S160x4096_S16x4096_1_0_0_1_n_n.lhsIdx i q 1).val = (q ⟨0, by decide⟩).val :=
  dot_S16x160_S160x4096_S16x4096_1_0_0_1_n_n.lhsIdx_val_of_single rfl i q

/-- Right operand, contracted axis: the contraction position. -/
theorem step_rhs_0 (i : S16x4096.Idx) (q : dot_S16x160_S160x4096_S16x4096_1_0_0_1_n_n.contr.Idx) :
    (dot_S16x160_S160x4096_S16x4096_1_0_0_1_n_n.rhsIdx i q 0).val = (q ⟨0, by decide⟩).val :=
  dot_S16x160_S160x4096_S16x4096_1_0_0_1_n_n.rhsIdx_val_of_single rfl i q

/-- Right operand, free axis: the output's column. -/
theorem step_rhs_1 (i : S16x4096.Idx) (q : dot_S16x160_S160x4096_S16x4096_1_0_0_1_n_n.contr.Idx) :
    (dot_S16x160_S160x4096_S16x4096_1_0_0_1_n_n.rhsIdx i q 1).val = (i 1).val := by
  unfold DotDims.rhsIdx
  rw [dif_neg (show ¬(1 : Fin S160x4096.rank) ∈ dot_S16x160_S160x4096_S16x4096_1_0_0_1_n_n.rhsBatch by decide),
    dif_pos (show (1 : Fin S160x4096.rank) ∈ dot_S16x160_S160x4096_S16x4096_1_0_0_1_n_n.rhsNonContracting by decide)]
  rfl

/-- The product a · y into a zero accumulator, at (r, c): the sum over the 160 rows of y. -/
theorem matmul_step_apply (a : FVec Ideal S16x160 .bf16) (y : FVec Ideal S160x4096 .bf16) (r : Fin 16) (c : Fin 4096) :
    matmul (F := Ideal) dot_S16x160_S160x4096_S16x4096_1_0_0_1_n_n none a y
        (constant (F := Ideal) S16x4096 .f32 0x00000000#32) (ix2 r c)
      = ∑ k : Fin 160, a (ix2 r k) * y (ix2 k c) := by
  refine (Ideal.matmul_constant_zero_apply dot_S16x160_S160x4096_S16x4096_1_0_0_1_n_n none a y (ix2 r c)).trans ?_
  rw [← Equiv.sum_comp (contrEquiv1 dot_S16x160_S160x4096_S16x4096_1_0_0_1_n_n 160 rfl rfl).symm]
  refine Finset.sum_congr rfl fun k _ => ?_
  have hk := contrEquiv1_symm_val dot_S16x160_S160x4096_S16x4096_1_0_0_1_n_n 160 rfl rfl k
  have el : dot_S16x160_S160x4096_S16x4096_1_0_0_1_n_n.lhsIdx (ix2 r c)
      ((contrEquiv1 dot_S16x160_S160x4096_S16x4096_1_0_0_1_n_n 160 rfl rfl).symm k) = ix2 r k :=
    funext fun a => Fin.ext (by
      match a with
      | ⟨0, _⟩ => exact step_lhs_0 _ _
      | ⟨1, _⟩ => exact (step_lhs_1 _ _).trans hk)
  have er : dot_S16x160_S160x4096_S16x4096_1_0_0_1_n_n.rhsIdx (ix2 r c)
      ((contrEquiv1 dot_S16x160_S160x4096_S16x4096_1_0_0_1_n_n 160 rfl rfl).symm k) = ix2 k c :=
    funext fun a => Fin.ext (by
      match a with
      | ⟨0, _⟩ => exact (step_rhs_0 _ _).trans hk
      | ⟨1, _⟩ => exact step_rhs_1 _ _)
  rw [el, er]

/-! ## The payloads -/

/-- Element (g, p) of the third kernel's stored block: the g-th row of `gm` against column p of the entrywise product of `zx`
    with z · xᵀ. The identity shape casts and the narrowings to the short format change nothing at the ideal values. -/
theorem k2_pay1_apply (zx : Vec Ideal S160x4096 .f32) (z : Vec Ideal S160x128 .f32) (x : Vec Ideal S4096x128 .f32)
    (gm : Vec Ideal S16x160 .f32) (g : Fin 16) (p : Fin 4096) :
    k2_pay1 (F := Ideal) zx z x gm (ix2 g p)
      = ∑ j : Fin 160, gm (ix2 g j) * (zx (ix2 j p) * ∑ k : Fin 128, z (ix2 j k) * x (ix2 p k)) := by
  unfold k2_pay1
  refine (matmul_step_apply _ _ g p).trans ?_
  refine Finset.sum_congr rfl fun j _ => ?_
  rw [truncf_apply, truncf_apply, mulf_apply]
  refine congrArg₂ (· * ·) rfl (congrArg₂ (· * ·) ?_ ?_)
  · rw [shapeCast_self]
  · refine (matmul_zx_apply _ _ j p).trans ?_
    refine Finset.sum_congr rfl fun k _ => ?_
    rw [truncf_apply, truncf_apply, shapeCast_self, shapeCast_self]

/-- Element (g, p) of the fourth kernel's stored block (the same body as the third kernel's, under its own name). -/
theorem k3_pay1_apply (zx : Vec Ideal S160x4096 .f32) (z : Vec Ideal S160x128 .f32) (x : Vec Ideal S4096x128 .f32)
    (gm : Vec Ideal S16x160 .f32) (g : Fin 16) (p : Fin 4096) :
    k3_pay1 (F := Ideal) zx z x gm (ix2 g p)
      = ∑ j : Fin 160, gm (ix2 g j) * (zx (ix2 j p) * ∑ k : Fin 128, z (ix2 j k) * x (ix2 p k)) := by
  unfold k3_pay1
  refine (matmul_step_apply _ _ g p).trans ?_
  refine Finset.sum_congr rfl fun j _ => ?_
  rw [truncf_apply, truncf_apply, mulf_apply]
  refine congrArg₂ (· * ·) rfl (congrArg₂ (· * ·) ?_ ?_)
  · rw [shapeCast_self]
  · refine (matmul_zx_apply _ _ j p).trans ?_
    refine Finset.sum_congr rfl fun k _ => ?_
    rw [truncf_apply, truncf_apply, shapeCast_self, shapeCast_self]

/-- Element (g, p) of the fifth kernel's stored block (the same body as the third kernel's, under its own name). -/
theorem k4_pay1_apply (zx : Vec Ideal S160x4096 .f32) (z : Vec Ideal S160x128 .f32) (x : Vec Ideal S4096x128 .f32)
    (gm : Vec Ideal S16x160 .f32) (g : Fin 16) (p : Fin 4096) :
    k4_pay1 (F := Ideal) zx z x gm (ix2 g p)
      = ∑ j : Fin 160, gm (ix2 g j) * (zx (ix2 j p) * ∑ k : Fin 128, z (ix2 j k) * x (ix2 p k)) := by
  unfold k4_pay1
  refine (matmul_step_apply _ _ g p).trans ?_
  refine Finset.sum_congr rfl fun j _ => ?_
  rw [truncf_apply, truncf_apply, mulf_apply]
  refine congrArg₂ (· * ·) rfl (congrArg₂ (· * ·) ?_ ?_)
  · rw [shapeCast_self]
  · refine (matmul_zx_apply _ _ j p).trans ?_
    refine Finset.sum_congr rfl fun k _ => ?_
    rw [truncf_apply, truncf_apply, shapeCast_self, shapeCast_self]

/-- Element (g, p) of the sixth kernel's stored block (the same body as the third kernel's, under its own name). -/
theorem k5_pay1_apply (zx : Vec Ideal S160x4096 .f32) (z : Vec Ideal S160x128 .f32) (x : Vec Ideal S4096x128 .f32)
    (gm : Vec Ideal S16x160 .f32) (g : Fin 16) (p : Fin 4096) :
    k5_pay1 (F := Ideal) zx z x gm (ix2 g p)
      = ∑ j : Fin 160, gm (ix2 g j) * (zx (ix2 j p) * ∑ k : Fin 128, z (ix2 j k) * x (ix2 p k)) := by
  unfold k5_pay1
  refine (matmul_step_apply _ _ g p).trans ?_
  refine Finset.sum_congr rfl fun j _ => ?_
  rw [truncf_apply, truncf_apply, mulf_apply]
  refine congrArg₂ (· * ·) rfl (congrArg₂ (· * ·) ?_ ?_)
  · rw [shapeCast_self]
  · refine (matmul_zx_apply _ _ j p).trans ?_
    refine Finset.sum_congr rfl fun k _ => ?_
    rw [truncf_apply, truncf_apply, shapeCast_self, shapeCast_self]

end Cert.KernelIdeal.HandValue

end
-- ==== Proof.KIVal2.lean ====
/- REGION 2 of @main, from blocks to the array, at the ideal values: the output array after the region is one step's mixing of the gated products, entry by entry.
   Stated over a PARAMETER `V`, the contents of the TensorCore's buffers when the region is entered. The steps: the
   windows' index maps over the grid; one block of the result as a function of the blocks loaded, by the body's
   arithmetic read at one entry; what each grid point writes back is its block of ONE function of the whole arrays; the
   output's blocks cover its array; so the array after the region is that function. -/
import proofs.«121911_j27986006901054_1_alg».proof.Proof.KIReg2
import proofs.«121911_j27986006901054_1_alg».proof.Proof.KIPay2
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the contents of the TensorCore's buffers when the region is entered
variable (V : (c : Dev nD) → (b : Ref sig .tc) → Buf (Elt Ideal) ((c : Thread nD τ).loc b))

/-- The offsets of every whole-buffer access are zero on both axes. -/
theorem zeros2 : (![0, 0] : Fin 2 → Nat) = fun _ => 0 := funext fun a => by fin_cases a <;> rfl

/-- The step, entry by entry: entry (g, n) is the sum over the 160 rows j of the mixing matrix's entry (g, j) times the
    gate's entry (j, n) times the inner product of row j of the small matrix with row n of the tall one. -/
def step2 (ZX : S160x102400.Idx → EReal) (Z : S160x128.Idx → EReal) (X : S102400x128.Idx → EReal) (GM : S16x160.Idx → EReal) :
    S16x102400.Idx → EReal :=
  fun i => ∑ j : Fin 160, GM (ix2 (i 0) j) * (ZX (ix2 j (i 1)) * ∑ k : Fin 128, Z (ix2 j k) * X (ix2 (i 1) k))

/-- The index maps over the grid: the gate's column block, the tall matrix's row block and the output's column block are
    all the grid point; the small matrix and the mixing matrix are always block (0, 0). -/
theorem maps2 : ∀ t : Fin cfg2.N, win2_0.index t (0 : Fin 2) = 0 ∧ win2_0.index t (1 : Fin 2) = t.val
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = t.val :=
  (by decide +kernel : ∀ t : Fin grid2.N, _)

/-- One block of the step: if the loaded blocks are columns 4096·b … 4096·b + 4095 of the gate, the small matrix, rows
    4096·b … 4096·b + 4095 of the tall matrix and the mixing matrix, the body's arithmetic at (g, p) is the step's entry
    (g, 4096·b + p). -/
theorem block2 (zx : Vec Ideal S160x4096 .f32) (z : Vec Ideal S160x128 .f32) (x : Vec Ideal S4096x128 .f32) (gm : Vec Ideal S16x160 .f32)
    (ZX : S160x102400.Idx → EReal) (Z : S160x128.Idx → EReal) (X : S102400x128.Idx → EReal) (GM : S16x160.Idx → EReal) (b : ℕ)
    (hzx : ∀ (j : Fin 160) (p : Fin 4096) (n : Fin 102400), n.val = b * 4096 + p.val → zx (ix2 j p) = ZX (ix2 j n))
    (hz : ∀ (j : Fin 160) (k : Fin 128), z (ix2 j k) = Z (ix2 j k))
    (hx : ∀ (p : Fin 4096) (k : Fin 128) (n : Fin 102400), n.val = b * 4096 + p.val → x (ix2 p k) = X (ix2 n k))
    (hgm : ∀ (g : Fin 16) (j : Fin 160), gm (ix2 g j) = GM (ix2 g j))
    (y : S16x4096.Idx) (i : S16x102400.Idx) (h0 : (i 0).val = (y 0).val) (h1 : (i 1).val = b * 4096 + (y 1).val) :
    k2_pay1 (F := Ideal) zx z x gm y = step2 ZX Z X GM i := by
  obtain ⟨g, p, rfl⟩ : ∃ (g : Fin 16) (p : Fin 4096), y = ix2 g p := ⟨y 0, y 1, eq_ix2 y⟩
  obtain ⟨g', n, rfl⟩ : ∃ (g' : Fin 16) (n : Fin 102400), i = ix2 g' n := ⟨i 0, i 1, eq_ix2 i⟩
  obtain rfl : g' = g := Fin.ext h0
  rw [k2_pay1_apply]
  show _ = ∑ j : Fin 160, GM (ix2 g' j) * (ZX (ix2 j n) * ∑ k : Fin 128, Z (ix2 j k) * X (ix2 n k))
  refine Finset.sum_congr rfl fun j _ => ?_
  rw [hgm g' j, hzx j p n h1]
  refine congrArg (fun s => GM (ix2 g' j) * (ZX (ix2 j n) * s)) (Finset.sum_congr rfl fun k _ => ?_)
  rw [hz j k, hx p k n h1]

/-- What grid point `t` writes back is block `t` of the step of the arrays as the region finds them. -/
theorem flushed2_eq (c : Dev nD) (t : Fin cfg2.N) :
    (dat2 (F := Ideal) V c).flushed 4 t
      = ((cfg2.win 4).blk t).view.read (Elt Ideal) (step2 (V c main_v29) (V c main_v28) (V c main_v27) (V c main_cst)) := by
  show (cfg2.win 4).cut (grid2.coords t) ((dat2 V c).after 4 t) = _
  rw [after2_4]
  unfold out2_4
  rw [View.canon_unit_zero zeros2]
  simp only [View.ld_unit_zero (S := S160x4096) zeros2, View.ld_unit_zero (S := S160x128) zeros2,
    View.ld_unit_zero (S := S4096x128) zeros2, View.ld_unit_zero (S := S16x160) zeros2]
  obtain ⟨e00, e01, e10, e11, e20, e21, e30, e31, e40, e41⟩ := maps2 t
  funext y
  show k2_pay1 (F := Ideal) (iblk2 V c 0 t) (iblk2 V c 1 t) (iblk2 V c 2 t) (iblk2 V c 3 t) y
    = step2 (V c main_v29) (V c main_v28) (V c main_v27) (V c main_cst) (((cfg2.win 4).blk t).view.emb y)
  refine block2 (iblk2 V c 0 t) (iblk2 V c 1 t) (iblk2 V c 2 t) (iblk2 V c 3 t)
    (V c main_v29) (V c main_v28) (V c main_v27) (V c main_cst) t.val ?_ ?_ ?_ ?_ y (((cfg2.win 4).blk t).view.emb y) ?_ ?_
  · intro j p n hn
    show V c main_v29 (((cfg2.win 0).blk t).view.emb (ix2 j p)) = V c main_v29 (ix2 j n)
    congr 1
    funext a; apply Fin.ext
    match a with
    | ⟨0, _⟩ => show win2_0.index t (0 : Fin 2) * 160 + 1 * j.val = j.val; omega
    | ⟨1, _⟩ => show win2_0.index t (1 : Fin 2) * 4096 + 1 * p.val = n.val; omega
  · intro j k
    show V c main_v28 (((cfg2.win 1).blk t).view.emb (ix2 j k)) = V c main_v28 (ix2 j k)
    congr 1
    funext a; apply Fin.ext
    match a with
    | ⟨0, _⟩ => show win2_1.index t (0 : Fin 2) * 160 + 1 * j.val = j.val; omega
    | ⟨1, _⟩ => show win2_1.index t (1 : Fin 2) * 128 + 1 * k.val = k.val; omega
  · intro p k n hn
    show V c main_v27 (((cfg2.win 2).blk t).view.emb (ix2 p k)) = V c main_v27 (ix2 n k)
    congr 1
    funext a; apply Fin.ext
    match a with
    | ⟨0, _⟩ => show win2_2.index t (0 : Fin 2) * 4096 + 1 * p.val = n.val; omega
    | ⟨1, _⟩ => show win2_2.index t (1 : Fin 2) * 128 + 1 * k.val = k.val; omega
  · intro g j
    show V c main_cst (((cfg2.win 3).blk t).view.emb (ix2 g j)) = V c main_cst (ix2 g j)
    congr 1
    funext a; apply Fin.ext
    match a with
    | ⟨0, _⟩ => show win2_3.index t (0 : Fin 2) * 16 + 1 * g.val = g.val; omega
    | ⟨1, _⟩ => show win2_3.index t (1 : Fin 2) * 160 + 1 * j.val = j.val; omega
  · show win2_4.index t (0 : Fin 2) * 16 + 1 * (y 0).val = (y 0).val; omega
  · show win2_4.index t (1 : Fin 2) * 4096 + 1 * (y 1).val = t.val * 4096 + (y 1).val; omega

/-- An index of the output array is in point `t`'s block iff each coordinate is in the block's range on its axis. -/
theorem mem_blk2 (t : Fin cfg2.N) (i : S16x102400.Idx) :
    i ∈ ((cfg2.win 4).blk t).view.set ↔ ∀ a : Fin 2, win2_4.index t a * S16x4096.size a ≤ (i a).val ∧ (i a).val < win2_4.index t a * S16x4096.size a + S16x4096.size a := by
  show i ∈ ((View.whole main_v35).slice (win2_4.rect t)).set ↔ _
  rw [View.set_slice_whole, Rect.mem_set_unit]
  exact Iff.rfl

/-- Every index of the output array is in some point's block: column n is in the block of point n / 4096. -/
theorem cover2 (i : S16x102400.Idx) : ∃ t : Fin cfg2.N, (cfg2.win 4).flush t = true ∧ i ∈ ((cfg2.win 4).blk t).view.set := by
  have hi0 : (i 0).val < 16 := (i 0).isLt
  have hi1 : (i 1).val < 102400 := (i 1).isLt
  have hN : cfg2.N = 25 := N_2
  let t : Fin cfg2.N := ⟨(i 1).val / 4096, by rw [hN]; omega⟩
  have htv : t.val = (i 1).val / 4096 := rfl
  obtain ⟨e00, e01, e10, e11, e20, e21, e30, e31, e40, e41⟩ := maps2 t
  refine ⟨t, flush2_4 t, ?_⟩
  rw [mem_blk2]
  intro a
  match a with
  | ⟨0, _⟩ => show win2_4.index t (0 : Fin 2) * 16 ≤ (i 0).val ∧ (i 0).val < win2_4.index t (0 : Fin 2) * 16 + 16; omega
  | ⟨1, _⟩ => show win2_4.index t (1 : Fin 2) * 4096 ≤ (i 1).val ∧ (i 1).val < win2_4.index t (1 : Fin 2) * 4096 + 4096; omega

/-- The output array after the region is the step, as one function of the arrays the region finds. -/
theorem final2 (c : Dev nD) :
    (dat2 (F := Ideal) V c).arrAt 4 cfg2.N = step2 (V c main_v29) (V c main_v28) (V c main_v27) (V c main_cst) :=
  (dat2 (F := Ideal) V c).arrAt_eq_of_cover 4 (step2 (V c main_v29) (V c main_v28) (V c main_v27) (V c main_cst))
    (fun t _ => flushed2_eq V c t) cover2

/-- The step at (g, n), spelled out. -/
theorem step2_apply (ZX : S160x102400.Idx → EReal) (Z : S160x128.Idx → EReal) (X : S102400x128.Idx → EReal) (GM : S16x160.Idx → EReal)
    (g : Fin 16) (n : Fin 102400) :
    step2 ZX Z X GM (ix2 g n) = ∑ j : Fin 160, GM (ix2 g j) * (ZX (ix2 j n) * ∑ k : Fin 128, Z (ix2 j k) * X (ix2 n k)) := rfl

/-- REGION 2's output, entry by entry: entry (g, n) is the sum over the 160 rows j of the mixing matrix's entry (g, j)
    times the gate's entry (j, n) times the inner product of row j of the small matrix with row n of the tall one. -/
theorem region2_value (c : Dev nD) (g : Fin 16) (n : Fin 102400) :
    (dat2 (F := Ideal) V c).arrAt 4 cfg2.N (ix2 g n)
      = ∑ j : Fin 160, (by exact V c main_cst (ix2 g j) : EReal) * ((by exact V c main_v29 (ix2 j n) : EReal)
          * ∑ k : Fin 128, (by exact V c main_v28 (ix2 j k) : EReal) * (by exact V c main_v27 (ix2 n k) : EReal)) := by
  rw [final2]; rfl

end Cert.KernelIdeal.HandValue

end
-- ==== Proof.KIVal3.lean ====
/- REGION 3 of @main, from blocks to the array, at the ideal values: the output array after the region is one step's mixing of the gated products, entry by entry.
   Stated over a PARAMETER `V`, the contents of the TensorCore's buffers when the region is entered. The steps: the
   windows' index maps over the grid; one block of the result as a function of the blocks loaded, by the body's
   arithmetic read at one entry; what each grid point writes back is its block of ONE function of the whole arrays; the
   output's blocks cover its array; so the array after the region is that function. -/
import proofs.«121911_j27986006901054_1_alg».proof.Proof.KIReg3
import proofs.«121911_j27986006901054_1_alg».proof.Proof.KIPay2
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the contents of the TensorCore's buffers when the region is entered
variable (V : (c : Dev nD) → (b : Ref sig .tc) → Buf (Elt Ideal) ((c : Thread nD τ).loc b))

/-- The offsets of every whole-buffer access are zero on both axes. -/
theorem zeros3 : (![0, 0] : Fin 2 → Nat) = fun _ => 0 := funext fun a => by fin_cases a <;> rfl

/-- The step, entry by entry: entry (g, n) is the sum over the 160 rows j of the mixing matrix's entry (g, j) times the
    gate's entry (j, n) times the inner product of row j of the small matrix with row n of the tall one. -/
def step3 (ZX : S160x102400.Idx → EReal) (Z : S160x128.Idx → EReal) (X : S102400x128.Idx → EReal) (GM : S16x160.Idx → EReal) :
    S16x102400.Idx → EReal :=
  fun i => ∑ j : Fin 160, GM (ix2 (i 0) j) * (ZX (ix2 j (i 1)) * ∑ k : Fin 128, Z (ix2 j k) * X (ix2 (i 1) k))

/-- The index maps over the grid: the gate's column block, the tall matrix's row block and the output's column block are
    all the grid point; the small matrix and the mixing matrix are always block (0, 0). -/
theorem maps3 : ∀ t : Fin cfg3.N, win3_0.index t (0 : Fin 2) = 0 ∧ win3_0.index t (1 : Fin 2) = t.val
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = t.val :=
  (by decide +kernel : ∀ t : Fin grid3.N, _)

/-- One block of the step: if the loaded blocks are columns 4096·b … 4096·b + 4095 of the gate, the small matrix, rows
    4096·b … 4096·b + 4095 of the tall matrix and the mixing matrix, the body's arithmetic at (g, p) is the step's entry
    (g, 4096·b + p). -/
theorem block3 (zx : Vec Ideal S160x4096 .f32) (z : Vec Ideal S160x128 .f32) (x : Vec Ideal S4096x128 .f32) (gm : Vec Ideal S16x160 .f32)
    (ZX : S160x102400.Idx → EReal) (Z : S160x128.Idx → EReal) (X : S102400x128.Idx → EReal) (GM : S16x160.Idx → EReal) (b : ℕ)
    (hzx : ∀ (j : Fin 160) (p : Fin 4096) (n : Fin 102400), n.val = b * 4096 + p.val → zx (ix2 j p) = ZX (ix2 j n))
    (hz : ∀ (j : Fin 160) (k : Fin 128), z (ix2 j k) = Z (ix2 j k))
    (hx : ∀ (p : Fin 4096) (k : Fin 128) (n : Fin 102400), n.val = b * 4096 + p.val → x (ix2 p k) = X (ix2 n k))
    (hgm : ∀ (g : Fin 16) (j : Fin 160), gm (ix2 g j) = GM (ix2 g j))
    (y : S16x4096.Idx) (i : S16x102400.Idx) (h0 : (i 0).val = (y 0).val) (h1 : (i 1).val = b * 4096 + (y 1).val) :
    k3_pay1 (F := Ideal) zx z x gm y = step3 ZX Z X GM i := by
  obtain ⟨g, p, rfl⟩ : ∃ (g : Fin 16) (p : Fin 4096), y = ix2 g p := ⟨y 0, y 1, eq_ix2 y⟩
  obtain ⟨g', n, rfl⟩ : ∃ (g' : Fin 16) (n : Fin 102400), i = ix2 g' n := ⟨i 0, i 1, eq_ix2 i⟩
  obtain rfl : g' = g := Fin.ext h0
  rw [k3_pay1_apply]
  show _ = ∑ j : Fin 160, GM (ix2 g' j) * (ZX (ix2 j n) * ∑ k : Fin 128, Z (ix2 j k) * X (ix2 n k))
  refine Finset.sum_congr rfl fun j _ => ?_
  rw [hgm g' j, hzx j p n h1]
  refine congrArg (fun s => GM (ix2 g' j) * (ZX (ix2 j n) * s)) (Finset.sum_congr rfl fun k _ => ?_)
  rw [hz j k, hx p k n h1]

/-- What grid point `t` writes back is block `t` of the step of the arrays as the region finds them. -/
theorem flushed3_eq (c : Dev nD) (t : Fin cfg3.N) :
    (dat3 (F := Ideal) V c).flushed 4 t
      = ((cfg3.win 4).blk t).view.read (Elt Ideal) (step3 (V c main_v29) (V c main_v52) (V c main_v53) (V c main_cst)) := by
  show (cfg3.win 4).cut (grid3.coords t) ((dat3 V c).after 4 t) = _
  rw [after3_4]
  unfold out3_4
  rw [View.canon_unit_zero zeros3]
  simp only [View.ld_unit_zero (S := S160x4096) zeros3, View.ld_unit_zero (S := S160x128) zeros3,
    View.ld_unit_zero (S := S4096x128) zeros3, View.ld_unit_zero (S := S16x160) zeros3]
  obtain ⟨e00, e01, e10, e11, e20, e21, e30, e31, e40, e41⟩ := maps3 t
  funext y
  show k3_pay1 (F := Ideal) (iblk3 V c 0 t) (iblk3 V c 1 t) (iblk3 V c 2 t) (iblk3 V c 3 t) y
    = step3 (V c main_v29) (V c main_v52) (V c main_v53) (V c main_cst) (((cfg3.win 4).blk t).view.emb y)
  refine block3 (iblk3 V c 0 t) (iblk3 V c 1 t) (iblk3 V c 2 t) (iblk3 V c 3 t)
    (V c main_v29) (V c main_v52) (V c main_v53) (V c main_cst) t.val ?_ ?_ ?_ ?_ y (((cfg3.win 4).blk t).view.emb y) ?_ ?_
  · intro j p n hn
    show V c main_v29 (((cfg3.win 0).blk t).view.emb (ix2 j p)) = V c main_v29 (ix2 j n)
    congr 1
    funext a; apply Fin.ext
    match a with
    | ⟨0, _⟩ => show win3_0.index t (0 : Fin 2) * 160 + 1 * j.val = j.val; omega
    | ⟨1, _⟩ => show win3_0.index t (1 : Fin 2) * 4096 + 1 * p.val = n.val; omega
  · intro j k
    show V c main_v52 (((cfg3.win 1).blk t).view.emb (ix2 j k)) = V c main_v52 (ix2 j k)
    congr 1
    funext a; apply Fin.ext
    match a with
    | ⟨0, _⟩ => show win3_1.index t (0 : Fin 2) * 160 + 1 * j.val = j.val; omega
    | ⟨1, _⟩ => show win3_1.index t (1 : Fin 2) * 128 + 1 * k.val = k.val; omega
  · intro p k n hn
    show V c main_v53 (((cfg3.win 2).blk t).view.emb (ix2 p k)) = V c main_v53 (ix2 n k)
    congr 1
    funext a; apply Fin.ext
    match a with
    | ⟨0, _⟩ => show win3_2.index t (0 : Fin 2) * 4096 + 1 * p.val = n.val; omega
    | ⟨1, _⟩ => show win3_2.index t (1 : Fin 2) * 128 + 1 * k.val = k.val; omega
  · intro g j
    show V c main_cst (((cfg3.win 3).blk t).view.emb (ix2 g j)) = V c main_cst (ix2 g j)
    congr 1
    funext a; apply Fin.ext
    match a with
    | ⟨0, _⟩ => show win3_3.index t (0 : Fin 2) * 16 + 1 * g.val = g.val; omega
    | ⟨1, _⟩ => show win3_3.index t (1 : Fin 2) * 160 + 1 * j.val = j.val; omega
  · show win3_4.index t (0 : Fin 2) * 16 + 1 * (y 0).val = (y 0).val; omega
  · show win3_4.index t (1 : Fin 2) * 4096 + 1 * (y 1).val = t.val * 4096 + (y 1).val; omega

/-- An index of the output array is in point `t`'s block iff each coordinate is in the block's range on its axis. -/
theorem mem_blk3 (t : Fin cfg3.N) (i : S16x102400.Idx) :
    i ∈ ((cfg3.win 4).blk t).view.set ↔ ∀ a : Fin 2, win3_4.index t a * S16x4096.size a ≤ (i a).val ∧ (i a).val < win3_4.index t a * S16x4096.size a + S16x4096.size a := by
  show i ∈ ((View.whole main_v54).slice (win3_4.rect t)).set ↔ _
  rw [View.set_slice_whole, Rect.mem_set_unit]
  exact Iff.rfl

/-- Every index of the output array is in some point's block: column n is in the block of point n / 4096. -/
theorem cover3 (i : S16x102400.Idx) : ∃ t : Fin cfg3.N, (cfg3.win 4).flush t = true ∧ i ∈ ((cfg3.win 4).blk t).view.set := by
  have hi0 : (i 0).val < 16 := (i 0).isLt
  have hi1 : (i 1).val < 102400 := (i 1).isLt
  have hN : cfg3.N = 25 := N_3
  let t : Fin cfg3.N := ⟨(i 1).val / 4096, by rw [hN]; omega⟩
  have htv : t.val = (i 1).val / 4096 := rfl
  obtain ⟨e00, e01, e10, e11, e20, e21, e30, e31, e40, e41⟩ := maps3 t
  refine ⟨t, flush3_4 t, ?_⟩
  rw [mem_blk3]
  intro a
  match a with
  | ⟨0, _⟩ => show win3_4.index t (0 : Fin 2) * 16 ≤ (i 0).val ∧ (i 0).val < win3_4.index t (0 : Fin 2) * 16 + 16; omega
  | ⟨1, _⟩ => show win3_4.index t (1 : Fin 2) * 4096 ≤ (i 1).val ∧ (i 1).val < win3_4.index t (1 : Fin 2) * 4096 + 4096; omega

/-- The output array after the region is the step, as one function of the arrays the region finds. -/
theorem final3 (c : Dev nD) :
    (dat3 (F := Ideal) V c).arrAt 4 cfg3.N = step3 (V c main_v29) (V c main_v52) (V c main_v53) (V c main_cst) :=
  (dat3 (F := Ideal) V c).arrAt_eq_of_cover 4 (step3 (V c main_v29) (V c main_v52) (V c main_v53) (V c main_cst))
    (fun t _ => flushed3_eq V c t) cover3

/-- The step at (g, n), spelled out. -/
theorem step3_apply (ZX : S160x102400.Idx → EReal) (Z : S160x128.Idx → EReal) (X : S102400x128.Idx → EReal) (GM : S16x160.Idx → EReal)
    (g : Fin 16) (n : Fin 102400) :
    step3 ZX Z X GM (ix2 g n) = ∑ j : Fin 160, GM (ix2 g j) * (ZX (ix2 j n) * ∑ k : Fin 128, Z (ix2 j k) * X (ix2 n k)) := rfl

/-- REGION 3's output, entry by entry: entry (g, n) is the sum over the 160 rows j of the mixing matrix's entry (g, j)
    times the gate's entry (j, n) times the inner product of row j of the small matrix with row n of the tall one. -/
theorem region3_value (c : Dev nD) (g : Fin 16) (n : Fin 102400) :
    (dat3 (F := Ideal) V c).arrAt 4 cfg3.N (ix2 g n)
      = ∑ j : Fin 160, (by exact V c main_cst (ix2 g j) : EReal) * ((by exact V c main_v29 (ix2 j n) : EReal)
          * ∑ k : Fin 128, (by exact V c main_v52 (ix2 j k) : EReal) * (by exact V c main_v53 (ix2 n k) : EReal)) := by
  rw [final3]; rfl

end Cert.KernelIdeal.HandValue

end
-- ==== Proof.KIVal4.lean ====
/- REGION 4 of @main, from blocks to the array, at the ideal values: the output array after the region is one step's mixing of the gated products, entry by entry.
   Stated over a PARAMETER `V`, the contents of the TensorCore's buffers when the region is entered. The steps: the
   windows' index maps over the grid; one block of the result as a function of the blocks loaded, by the body's
   arithmetic read at one entry; what each grid point writes back is its block of ONE function of the whole arrays; the
   output's blocks cover its array; so the array after the region is that function. -/
import proofs.«121911_j27986006901054_1_alg».proof.Proof.KIReg4
import proofs.«121911_j27986006901054_1_alg».proof.Proof.KIPay2
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the contents of the TensorCore's buffers when the region is entered
variable (V : (c : Dev nD) → (b : Ref sig .tc) → Buf (Elt Ideal) ((c : Thread nD τ).loc b))

/-- The offsets of every whole-buffer access are zero on both axes. -/
theorem zeros4 : (![0, 0] : Fin 2 → Nat) = fun _ => 0 := funext fun a => by fin_cases a <;> rfl

/-- The step, entry by entry: entry (g, n) is the sum over the 160 rows j of the mixing matrix's entry (g, j) times the
    gate's entry (j, n) times the inner product of row j of the small matrix with row n of the tall one. -/
def step4 (ZX : S160x102400.Idx → EReal) (Z : S160x128.Idx → EReal) (X : S102400x128.Idx → EReal) (GM : S16x160.Idx → EReal) :
    S16x102400.Idx → EReal :=
  fun i => ∑ j : Fin 160, GM (ix2 (i 0) j) * (ZX (ix2 j (i 1)) * ∑ k : Fin 128, Z (ix2 j k) * X (ix2 (i 1) k))

/-- The index maps over the grid: the gate's column block, the tall matrix's row block and the output's column block are
    all the grid point; the small matrix and the mixing matrix are always block (0, 0). -/
theorem maps4 : ∀ t : Fin cfg4.N, win4_0.index t (0 : Fin 2) = 0 ∧ win4_0.index t (1 : Fin 2) = t.val
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = t.val :=
  (by decide +kernel : ∀ t : Fin grid4.N, _)

/-- One block of the step: if the loaded blocks are columns 4096·b … 4096·b + 4095 of the gate, the small matrix, rows
    4096·b … 4096·b + 4095 of the tall matrix and the mixing matrix, the body's arithmetic at (g, p) is the step's entry
    (g, 4096·b + p). -/
theorem block4 (zx : Vec Ideal S160x4096 .f32) (z : Vec Ideal S160x128 .f32) (x : Vec Ideal S4096x128 .f32) (gm : Vec Ideal S16x160 .f32)
    (ZX : S160x102400.Idx → EReal) (Z : S160x128.Idx → EReal) (X : S102400x128.Idx → EReal) (GM : S16x160.Idx → EReal) (b : ℕ)
    (hzx : ∀ (j : Fin 160) (p : Fin 4096) (n : Fin 102400), n.val = b * 4096 + p.val → zx (ix2 j p) = ZX (ix2 j n))
    (hz : ∀ (j : Fin 160) (k : Fin 128), z (ix2 j k) = Z (ix2 j k))
    (hx : ∀ (p : Fin 4096) (k : Fin 128) (n : Fin 102400), n.val = b * 4096 + p.val → x (ix2 p k) = X (ix2 n k))
    (hgm : ∀ (g : Fin 16) (j : Fin 160), gm (ix2 g j) = GM (ix2 g j))
    (y : S16x4096.Idx) (i : S16x102400.Idx) (h0 : (i 0).val = (y 0).val) (h1 : (i 1).val = b * 4096 + (y 1).val) :
    k4_pay1 (F := Ideal) zx z x gm y = step4 ZX Z X GM i := by
  obtain ⟨g, p, rfl⟩ : ∃ (g : Fin 16) (p : Fin 4096), y = ix2 g p := ⟨y 0, y 1, eq_ix2 y⟩
  obtain ⟨g', n, rfl⟩ : ∃ (g' : Fin 16) (n : Fin 102400), i = ix2 g' n := ⟨i 0, i 1, eq_ix2 i⟩
  obtain rfl : g' = g := Fin.ext h0
  rw [k4_pay1_apply]
  show _ = ∑ j : Fin 160, GM (ix2 g' j) * (ZX (ix2 j n) * ∑ k : Fin 128, Z (ix2 j k) * X (ix2 n k))
  refine Finset.sum_congr rfl fun j _ => ?_
  rw [hgm g' j, hzx j p n h1]
  refine congrArg (fun s => GM (ix2 g' j) * (ZX (ix2 j n) * s)) (Finset.sum_congr rfl fun k _ => ?_)
  rw [hz j k, hx p k n h1]

/-- What grid point `t` writes back is block `t` of the step of the arrays as the region finds them. -/
theorem flushed4_eq (c : Dev nD) (t : Fin cfg4.N) :
    (dat4 (F := Ideal) V c).flushed 4 t
      = ((cfg4.win 4).blk t).view.read (Elt Ideal) (step4 (V c main_v29) (V c main_v71) (V c main_v72) (V c main_cst)) := by
  show (cfg4.win 4).cut (grid4.coords t) ((dat4 V c).after 4 t) = _
  rw [after4_4]
  unfold out4_4
  rw [View.canon_unit_zero zeros4]
  simp only [View.ld_unit_zero (S := S160x4096) zeros4, View.ld_unit_zero (S := S160x128) zeros4,
    View.ld_unit_zero (S := S4096x128) zeros4, View.ld_unit_zero (S := S16x160) zeros4]
  obtain ⟨e00, e01, e10, e11, e20, e21, e30, e31, e40, e41⟩ := maps4 t
  funext y
  show k4_pay1 (F := Ideal) (iblk4 V c 0 t) (iblk4 V c 1 t) (iblk4 V c 2 t) (iblk4 V c 3 t) y
    = step4 (V c main_v29) (V c main_v71) (V c main_v72) (V c main_cst) (((cfg4.win 4).blk t).view.emb y)
  refine block4 (iblk4 V c 0 t) (iblk4 V c 1 t) (iblk4 V c 2 t) (iblk4 V c 3 t)
    (V c main_v29) (V c main_v71) (V c main_v72) (V c main_cst) t.val ?_ ?_ ?_ ?_ y (((cfg4.win 4).blk t).view.emb y) ?_ ?_
  · intro j p n hn
    show V c main_v29 (((cfg4.win 0).blk t).view.emb (ix2 j p)) = V c main_v29 (ix2 j n)
    congr 1
    funext a; apply Fin.ext
    match a with
    | ⟨0, _⟩ => show win4_0.index t (0 : Fin 2) * 160 + 1 * j.val = j.val; omega
    | ⟨1, _⟩ => show win4_0.index t (1 : Fin 2) * 4096 + 1 * p.val = n.val; omega
  · intro j k
    show V c main_v71 (((cfg4.win 1).blk t).view.emb (ix2 j k)) = V c main_v71 (ix2 j k)
    congr 1
    funext a; apply Fin.ext
    match a with
    | ⟨0, _⟩ => show win4_1.index t (0 : Fin 2) * 160 + 1 * j.val = j.val; omega
    | ⟨1, _⟩ => show win4_1.index t (1 : Fin 2) * 128 + 1 * k.val = k.val; omega
  · intro p k n hn
    show V c main_v72 (((cfg4.win 2).blk t).view.emb (ix2 p k)) = V c main_v72 (ix2 n k)
    congr 1
    funext a; apply Fin.ext
    match a with
    | ⟨0, _⟩ => show win4_2.index t (0 : Fin 2) * 4096 + 1 * p.val = n.val; omega
    | ⟨1, _⟩ => show win4_2.index t (1 : Fin 2) * 128 + 1 * k.val = k.val; omega
  · intro g j
    show V c main_cst (((cfg4.win 3).blk t).view.emb (ix2 g j)) = V c main_cst (ix2 g j)
    congr 1
    funext a; apply Fin.ext
    match a with
    | ⟨0, _⟩ => show win4_3.index t (0 : Fin 2) * 16 + 1 * g.val = g.val; omega
    | ⟨1, _⟩ => show win4_3.index t (1 : Fin 2) * 160 + 1 * j.val = j.val; omega
  · show win4_4.index t (0 : Fin 2) * 16 + 1 * (y 0).val = (y 0).val; omega
  · show win4_4.index t (1 : Fin 2) * 4096 + 1 * (y 1).val = t.val * 4096 + (y 1).val; omega

/-- An index of the output array is in point `t`'s block iff each coordinate is in the block's range on its axis. -/
theorem mem_blk4 (t : Fin cfg4.N) (i : S16x102400.Idx) :
    i ∈ ((cfg4.win 4).blk t).view.set ↔ ∀ a : Fin 2, win4_4.index t a * S16x4096.size a ≤ (i a).val ∧ (i a).val < win4_4.index t a * S16x4096.size a + S16x4096.size a := by
  show i ∈ ((View.whole main_v73).slice (win4_4.rect t)).set ↔ _
  rw [View.set_slice_whole, Rect.mem_set_unit]
  exact Iff.rfl

/-- Every index of the output array is in some point's block: column n is in the block of point n / 4096. -/
theorem cover4 (i : S16x102400.Idx) : ∃ t : Fin cfg4.N, (cfg4.win 4).flush t = true ∧ i ∈ ((cfg4.win 4).blk t).view.set := by
  have hi0 : (i 0).val < 16 := (i 0).isLt
  have hi1 : (i 1).val < 102400 := (i 1).isLt
  have hN : cfg4.N = 25 := N_4
  let t : Fin cfg4.N := ⟨(i 1).val / 4096, by rw [hN]; omega⟩
  have htv : t.val = (i 1).val / 4096 := rfl
  obtain ⟨e00, e01, e10, e11, e20, e21, e30, e31, e40, e41⟩ := maps4 t
  refine ⟨t, flush4_4 t, ?_⟩
  rw [mem_blk4]
  intro a
  match a with
  | ⟨0, _⟩ => show win4_4.index t (0 : Fin 2) * 16 ≤ (i 0).val ∧ (i 0).val < win4_4.index t (0 : Fin 2) * 16 + 16; omega
  | ⟨1, _⟩ => show win4_4.index t (1 : Fin 2) * 4096 ≤ (i 1).val ∧ (i 1).val < win4_4.index t (1 : Fin 2) * 4096 + 4096; omega

/-- The output array after the region is the step, as one function of the arrays the region finds. -/
theorem final4 (c : Dev nD) :
    (dat4 (F := Ideal) V c).arrAt 4 cfg4.N = step4 (V c main_v29) (V c main_v71) (V c main_v72) (V c main_cst) :=
  (dat4 (F := Ideal) V c).arrAt_eq_of_cover 4 (step4 (V c main_v29) (V c main_v71) (V c main_v72) (V c main_cst))
    (fun t _ => flushed4_eq V c t) cover4

/-- The step at (g, n), spelled out. -/
theorem step4_apply (ZX : S160x102400.Idx → EReal) (Z : S160x128.Idx → EReal) (X : S102400x128.Idx → EReal) (GM : S16x160.Idx → EReal)
    (g : Fin 16) (n : Fin 102400) :
    step4 ZX Z X GM (ix2 g n) = ∑ j : Fin 160, GM (ix2 g j) * (ZX (ix2 j n) * ∑ k : Fin 128, Z (ix2 j k) * X (ix2 n k)) := rfl

/-- REGION 4's output, entry by entry: entry (g, n) is the sum over the 160 rows j of the mixing matrix's entry (g, j)
    times the gate's entry (j, n) times the inner product of row j of the small matrix with row n of the tall one. -/
theorem region4_value (c : Dev nD) (g : Fin 16) (n : Fin 102400) :
    (dat4 (F := Ideal) V c).arrAt 4 cfg4.N (ix2 g n)
      = ∑ j : Fin 160, (by exact V c main_cst (ix2 g j) : EReal) * ((by exact V c main_v29 (ix2 j n) : EReal)
          * ∑ k : Fin 128, (by exact V c main_v71 (ix2 j k) : EReal) * (by exact V c main_v72 (ix2 n k) : EReal)) := by
  rw [final4]; rfl

end Cert.KernelIdeal.HandValue

end
-- ==== Proof.KIVal5.lean ====
/- REGION 5 of @main, from blocks to the array, at the ideal values: the output array after the region is one step's mixing of the gated products, entry by entry.
   Stated over a PARAMETER `V`, the contents of the TensorCore's buffers when the region is entered. The steps: the
   windows' index maps over the grid; one block of the result as a function of the blocks loaded, by the body's
   arithmetic read at one entry; what each grid point writes back is its block of ONE function of the whole arrays; the
   output's blocks cover its array; so the array after the region is that function. -/
import proofs.«121911_j27986006901054_1_alg».proof.Proof.KIReg5
import proofs.«121911_j27986006901054_1_alg».proof.Proof.KIPay2
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the contents of the TensorCore's buffers when the region is entered
variable (V : (c : Dev nD) → (b : Ref sig .tc) → Buf (Elt Ideal) ((c : Thread nD τ).loc b))

/-- The offsets of every whole-buffer access are zero on both axes. -/
theorem zeros5 : (![0, 0] : Fin 2 → Nat) = fun _ => 0 := funext fun a => by fin_cases a <;> rfl

/-- The step, entry by entry: entry (g, n) is the sum over the 160 rows j of the mixing matrix's entry (g, j) times the
    gate's entry (j, n) times the inner product of row j of the small matrix with row n of the tall one. -/
def step5 (ZX : S160x102400.Idx → EReal) (Z : S160x128.Idx → EReal) (X : S102400x128.Idx → EReal) (GM : S16x160.Idx → EReal) :
    S16x102400.Idx → EReal :=
  fun i => ∑ j : Fin 160, GM (ix2 (i 0) j) * (ZX (ix2 j (i 1)) * ∑ k : Fin 128, Z (ix2 j k) * X (ix2 (i 1) k))

/-- The index maps over the grid: the gate's column block, the tall matrix's row block and the output's column block are
    all the grid point; the small matrix and the mixing matrix are always block (0, 0). -/
theorem maps5 : ∀ t : Fin cfg5.N, win5_0.index t (0 : Fin 2) = 0 ∧ win5_0.index t (1 : Fin 2) = t.val
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = t.val :=
  (by decide +kernel : ∀ t : Fin grid5.N, _)

/-- One block of the step: if the loaded blocks are columns 4096·b … 4096·b + 4095 of the gate, the small matrix, rows
    4096·b … 4096·b + 4095 of the tall matrix and the mixing matrix, the body's arithmetic at (g, p) is the step's entry
    (g, 4096·b + p). -/
theorem block5 (zx : Vec Ideal S160x4096 .f32) (z : Vec Ideal S160x128 .f32) (x : Vec Ideal S4096x128 .f32) (gm : Vec Ideal S16x160 .f32)
    (ZX : S160x102400.Idx → EReal) (Z : S160x128.Idx → EReal) (X : S102400x128.Idx → EReal) (GM : S16x160.Idx → EReal) (b : ℕ)
    (hzx : ∀ (j : Fin 160) (p : Fin 4096) (n : Fin 102400), n.val = b * 4096 + p.val → zx (ix2 j p) = ZX (ix2 j n))
    (hz : ∀ (j : Fin 160) (k : Fin 128), z (ix2 j k) = Z (ix2 j k))
    (hx : ∀ (p : Fin 4096) (k : Fin 128) (n : Fin 102400), n.val = b * 4096 + p.val → x (ix2 p k) = X (ix2 n k))
    (hgm : ∀ (g : Fin 16) (j : Fin 160), gm (ix2 g j) = GM (ix2 g j))
    (y : S16x4096.Idx) (i : S16x102400.Idx) (h0 : (i 0).val = (y 0).val) (h1 : (i 1).val = b * 4096 + (y 1).val) :
    k5_pay1 (F := Ideal) zx z x gm y = step5 ZX Z X GM i := by
  obtain ⟨g, p, rfl⟩ : ∃ (g : Fin 16) (p : Fin 4096), y = ix2 g p := ⟨y 0, y 1, eq_ix2 y⟩
  obtain ⟨g', n, rfl⟩ : ∃ (g' : Fin 16) (n : Fin 102400), i = ix2 g' n := ⟨i 0, i 1, eq_ix2 i⟩
  obtain rfl : g' = g := Fin.ext h0
  rw [k5_pay1_apply]
  show _ = ∑ j : Fin 160, GM (ix2 g' j) * (ZX (ix2 j n) * ∑ k : Fin 128, Z (ix2 j k) * X (ix2 n k))
  refine Finset.sum_congr rfl fun j _ => ?_
  rw [hgm g' j, hzx j p n h1]
  refine congrArg (fun s => GM (ix2 g' j) * (ZX (ix2 j n) * s)) (Finset.sum_congr rfl fun k _ => ?_)
  rw [hz j k, hx p k n h1]

/-- What grid point `t` writes back is block `t` of the step of the arrays as the region finds them. -/
theorem flushed5_eq (c : Dev nD) (t : Fin cfg5.N) :
    (dat5 (F := Ideal) V c).flushed 4 t
      = ((cfg5.win 4).blk t).view.read (Elt Ideal) (step5 (V c main_v29) (V c main_v90) (V c main_v91) (V c main_cst)) := by
  show (cfg5.win 4).cut (grid5.coords t) ((dat5 V c).after 4 t) = _
  rw [after5_4]
  unfold out5_4
  rw [View.canon_unit_zero zeros5]
  simp only [View.ld_unit_zero (S := S160x4096) zeros5, View.ld_unit_zero (S := S160x128) zeros5,
    View.ld_unit_zero (S := S4096x128) zeros5, View.ld_unit_zero (S := S16x160) zeros5]
  obtain ⟨e00, e01, e10, e11, e20, e21, e30, e31, e40, e41⟩ := maps5 t
  funext y
  show k5_pay1 (F := Ideal) (iblk5 V c 0 t) (iblk5 V c 1 t) (iblk5 V c 2 t) (iblk5 V c 3 t) y
    = step5 (V c main_v29) (V c main_v90) (V c main_v91) (V c main_cst) (((cfg5.win 4).blk t).view.emb y)
  refine block5 (iblk5 V c 0 t) (iblk5 V c 1 t) (iblk5 V c 2 t) (iblk5 V c 3 t)
    (V c main_v29) (V c main_v90) (V c main_v91) (V c main_cst) t.val ?_ ?_ ?_ ?_ y (((cfg5.win 4).blk t).view.emb y) ?_ ?_
  · intro j p n hn
    show V c main_v29 (((cfg5.win 0).blk t).view.emb (ix2 j p)) = V c main_v29 (ix2 j n)
    congr 1
    funext a; apply Fin.ext
    match a with
    | ⟨0, _⟩ => show win5_0.index t (0 : Fin 2) * 160 + 1 * j.val = j.val; omega
    | ⟨1, _⟩ => show win5_0.index t (1 : Fin 2) * 4096 + 1 * p.val = n.val; omega
  · intro j k
    show V c main_v90 (((cfg5.win 1).blk t).view.emb (ix2 j k)) = V c main_v90 (ix2 j k)
    congr 1
    funext a; apply Fin.ext
    match a with
    | ⟨0, _⟩ => show win5_1.index t (0 : Fin 2) * 160 + 1 * j.val = j.val; omega
    | ⟨1, _⟩ => show win5_1.index t (1 : Fin 2) * 128 + 1 * k.val = k.val; omega
  · intro p k n hn
    show V c main_v91 (((cfg5.win 2).blk t).view.emb (ix2 p k)) = V c main_v91 (ix2 n k)
    congr 1
    funext a; apply Fin.ext
    match a with
    | ⟨0, _⟩ => show win5_2.index t (0 : Fin 2) * 4096 + 1 * p.val = n.val; omega
    | ⟨1, _⟩ => show win5_2.index t (1 : Fin 2) * 128 + 1 * k.val = k.val; omega
  · intro g j
    show V c main_cst (((cfg5.win 3).blk t).view.emb (ix2 g j)) = V c main_cst (ix2 g j)
    congr 1
    funext a; apply Fin.ext
    match a with
    | ⟨0, _⟩ => show win5_3.index t (0 : Fin 2) * 16 + 1 * g.val = g.val; omega
    | ⟨1, _⟩ => show win5_3.index t (1 : Fin 2) * 160 + 1 * j.val = j.val; omega
  · show win5_4.index t (0 : Fin 2) * 16 + 1 * (y 0).val = (y 0).val; omega
  · show win5_4.index t (1 : Fin 2) * 4096 + 1 * (y 1).val = t.val * 4096 + (y 1).val; omega

/-- An index of the output array is in point `t`'s block iff each coordinate is in the block's range on its axis. -/
theorem mem_blk5 (t : Fin cfg5.N) (i : S16x102400.Idx) :
    i ∈ ((cfg5.win 4).blk t).view.set ↔ ∀ a : Fin 2, win5_4.index t a * S16x4096.size a ≤ (i a).val ∧ (i a).val < win5_4.index t a * S16x4096.size a + S16x4096.size a := by
  show i ∈ ((View.whole main_v92).slice (win5_4.rect t)).set ↔ _
  rw [View.set_slice_whole, Rect.mem_set_unit]
  exact Iff.rfl

/-- Every index of the output array is in some point's block: column n is in the block of point n / 4096. -/
theorem cover5 (i : S16x102400.Idx) : ∃ t : Fin cfg5.N, (cfg5.win 4).flush t = true ∧ i ∈ ((cfg5.win 4).blk t).view.set := by
  have hi0 : (i 0).val < 16 := (i 0).isLt
  have hi1 : (i 1).val < 102400 := (i 1).isLt
  have hN : cfg5.N = 25 := N_5
  let t : Fin cfg5.N := ⟨(i 1).val / 4096, by rw [hN]; omega⟩
  have htv : t.val = (i 1).val / 4096 := rfl
  obtain ⟨e00, e01, e10, e11, e20, e21, e30, e31, e40, e41⟩ := maps5 t
  refine ⟨t, flush5_4 t, ?_⟩
  rw [mem_blk5]
  intro a
  match a with
  | ⟨0, _⟩ => show win5_4.index t (0 : Fin 2) * 16 ≤ (i 0).val ∧ (i 0).val < win5_4.index t (0 : Fin 2) * 16 + 16; omega
  | ⟨1, _⟩ => show win5_4.index t (1 : Fin 2) * 4096 ≤ (i 1).val ∧ (i 1).val < win5_4.index t (1 : Fin 2) * 4096 + 4096; omega

/-- The output array after the region is the step, as one function of the arrays the region finds. -/
theorem final5 (c : Dev nD) :
    (dat5 (F := Ideal) V c).arrAt 4 cfg5.N = step5 (V c main_v29) (V c main_v90) (V c main_v91) (V c main_cst) :=
  (dat5 (F := Ideal) V c).arrAt_eq_of_cover 4 (step5 (V c main_v29) (V c main_v90) (V c main_v91) (V c main_cst))
    (fun t _ => flushed5_eq V c t) cover5

/-- The step at (g, n), spelled out. -/
theorem step5_apply (ZX : S160x102400.Idx → EReal) (Z : S160x128.Idx → EReal) (X : S102400x128.Idx → EReal) (GM : S16x160.Idx → EReal)
    (g : Fin 16) (n : Fin 102400) :
    step5 ZX Z X GM (ix2 g n) = ∑ j : Fin 160, GM (ix2 g j) * (ZX (ix2 j n) * ∑ k : Fin 128, Z (ix2 j k) * X (ix2 n k)) := rfl

/-- REGION 5's output, entry by entry: entry (g, n) is the sum over the 160 rows j of the mixing matrix's entry (g, j)
    times the gate's entry (j, n) times the inner product of row j of the small matrix with row n of the tall one. -/
theorem region5_value (c : Dev nD) (g : Fin 16) (n : Fin 102400) :
    (dat5 (F := Ideal) V c).arrAt 4 cfg5.N (ix2 g n)
      = ∑ j : Fin 160, (by exact V c main_cst (ix2 g j) : EReal) * ((by exact V c main_v29 (ix2 j n) : EReal)
          * ∑ k : Fin 128, (by exact V c main_v90 (ix2 j k) : EReal) * (by exact V c main_v91 (ix2 n k) : EReal)) := by
  rw [final5]; rfl

end Cert.KernelIdeal.HandValue

end
-- ==== Proof.BridgeRed.lean ====
/- The four rounds' reductions at the ideal values. Each round's region multiplies, entry by entry, the gate (the array
   region 1 produced) with the product of a small matrix and the transpose of a tall one, and mixes the 160 rows of the
   result down to 16 with a fixed 16×160 matrix of literals. Here that is stated for the arrays of the whole run: the
   array a round's region leaves, at entry (g, p), is  Σ_jj mix[g, jj] · (gate[jj, p] · Σ_k Z[jj, k] · X[p, k])  with
   mix the literal matrix, gate the array region 1 left, and Z, X the small and tall matrices as the region finds them.
   The mixing matrix and the gate are carried back to where they were written: no item in between writes them. -/
import proofs.«121911_j27986006901054_1_alg».proof.Proof.KIRunW
import proofs.«121911_j27986006901054_1_alg».proof.Proof.KIVal2
import proofs.«121911_j27986006901054_1_alg».proof.Proof.KIVal3
import proofs.«121911_j27986006901054_1_alg».proof.Proof.KIVal4
import proofs.«121911_j27986006901054_1_alg».proof.Proof.KIVal5
import Idealize.ShloMosaic.Lib.StableHlo.Run
import Idealize.ShloMosaic.Lib.ValueIdx

noncomputable section

namespace Cert.KernelIdeal.Bridge

open Cert.KernelIdeal Cert.KernelIdeal.Gen Cert.KernelIdeal.Hand Cert.KernelIdeal.HandValue
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The two arrays every round shares -/

/-- The mixing matrix is a literal of the program: the first stretch of host operations writes it, entry by entry, as
    the exact value of its 32-bit pattern. -/
theorem mix_at1 :
    W1 m ρ c (Proc.devRef .tc main_cst)
      = (fun i => FloatOps.ofBits (F := Ideal) .f32 (lit2 (S16x160.rowMajor i)) : Buf (Elt Ideal) ((c : Thread nD τ).loc main_cst)) := by
  unfold W1
  after_results

/-- No later item up to the first round's region writes the mixing matrix. -/
theorem mix_at9 : W9 m ρ c (Proc.devRef .tc main_cst) = W1 m ρ c (Proc.devRef .tc main_cst) := by
  rw [W9_keep m ρ c main_cst (by decide),
    W8_keep m ρ c main_cst (by decide),
    W7_keep m ρ c main_cst (by decide),
    W6_keep m ρ c main_cst (by decide),
    W5_keep m ρ c main_cst (by decide),
    W4_keep m ρ c main_cst (by decide),
    W3_keep m ρ c main_cst (by decide),
    W2_keep m ρ c main_cst (by decide)]

/-- The gate (the output of region 1) is not written by the stretch between region 1 and the first round. -/
theorem gate_at9 : W9 m ρ c (Proc.devRef .tc main_v29) = W8 m ρ c (Proc.devRef .tc main_v29) := by
  rw [W9_keep m ρ c main_v29 (by decide)]

/-- A round's region reads the mixing matrix and the gate without writing them, and the two stretches after it write
    neither: at the next round's entry both hold what they held at this round's. -/
theorem mix_at12 : W12 m ρ c (Proc.devRef .tc main_cst) = W9 m ρ c (Proc.devRef .tc main_cst) := by
  rw [W12_keep m ρ c main_cst (by decide), W11_keep m ρ c main_cst (by decide), W10_in3 m ρ c]
theorem gate_at12 : W12 m ρ c (Proc.devRef .tc main_v29) = W9 m ρ c (Proc.devRef .tc main_v29) := by
  rw [W12_keep m ρ c main_v29 (by decide), W11_keep m ρ c main_v29 (by decide), W10_in0 m ρ c]

/-- A round's region reads the mixing matrix and the gate without writing them, and the two stretches after it write
    neither: at the next round's entry both hold what they held at this round's. -/
theorem mix_at15 : W15 m ρ c (Proc.devRef .tc main_cst) = W12 m ρ c (Proc.devRef .tc main_cst) := by
  rw [W15_keep m ρ c main_cst (by decide), W14_keep m ρ c main_cst (by decide), W13_in3 m ρ c]
theorem gate_at15 : W15 m ρ c (Proc.devRef .tc main_v29) = W12 m ρ c (Proc.devRef .tc main_v29) := by
  rw [W15_keep m ρ c main_v29 (by decide), W14_keep m ρ c main_v29 (by decide), W13_in0 m ρ c]

/-- A round's region reads the mixing matrix and the gate without writing them, and the two stretches after it write
    neither: at the next round's entry both hold what they held at this round's. -/
theorem mix_at18 : W18 m ρ c (Proc.devRef .tc main_cst) = W15 m ρ c (Proc.devRef .tc main_cst) := by
  rw [W18_keep m ρ c main_cst (by decide), W17_keep m ρ c main_cst (by decide), W16_in3 m ρ c]
theorem gate_at18 : W18 m ρ c (Proc.devRef .tc main_v29) = W15 m ρ c (Proc.devRef .tc main_v29) := by
  rw [W18_keep m ρ c main_v29 (by decide), W17_keep m ρ c main_v29 (by decide), W16_in0 m ρ c]

/-- The mixing matrix at every round's entry is the literal. -/
theorem mix_entry9 : W9 m ρ c (Proc.devRef .tc main_cst) = W1 m ρ c (Proc.devRef .tc main_cst) := mix_at9 m ρ c
theorem mix_entry12 : W12 m ρ c (Proc.devRef .tc main_cst) = W1 m ρ c (Proc.devRef .tc main_cst) := (mix_at12 m ρ c).trans (mix_entry9 m ρ c)
theorem mix_entry15 : W15 m ρ c (Proc.devRef .tc main_cst) = W1 m ρ c (Proc.devRef .tc main_cst) := (mix_at15 m ρ c).trans (mix_entry12 m ρ c)
theorem mix_entry18 : W18 m ρ c (Proc.devRef .tc main_cst) = W1 m ρ c (Proc.devRef .tc main_cst) := (mix_at18 m ρ c).trans (mix_entry15 m ρ c)

/-- The gate at every round's entry is what region 1 left. -/
theorem gate_entry9 : W9 m ρ c (Proc.devRef .tc main_v29) = W8 m ρ c (Proc.devRef .tc main_v29) := gate_at9 m ρ c
theorem gate_entry12 : W12 m ρ c (Proc.devRef .tc main_v29) = W8 m ρ c (Proc.devRef .tc main_v29) := (gate_at12 m ρ c).trans (gate_entry9 m ρ c)
theorem gate_entry15 : W15 m ρ c (Proc.devRef .tc main_v29) = W8 m ρ c (Proc.devRef .tc main_v29) := (gate_at15 m ρ c).trans (gate_entry12 m ρ c)
theorem gate_entry18 : W18 m ρ c (Proc.devRef .tc main_v29) = W8 m ρ c (Proc.devRef .tc main_v29) := (gate_at18 m ρ c).trans (gate_entry15 m ρ c)

/-! ## The four rounds -/

/-- Round 0: entry (g, p) of the array region 2 leaves is the sum over the 160 rows jj of the literal mixing entry
    (g, jj) times the gate's entry (jj, p) times the inner product of row jj of the small matrix with row p of the tall
    one, the small and the tall matrix being the arrays the region finds at its entry. -/
theorem red0_entry (g : Fin 16) (p : Fin 102400) :
    (by exact W10 m ρ c (Proc.devRef .tc main_v35) (ix2 g p) : EReal)
      = ∑ jj : Fin 160, (FloatOps.ofBits (F := Ideal) .f32 (lit2 (S16x160.rowMajor (ix2 g jj))) : EReal)
          * ((by exact W8 m ρ c (Proc.devRef .tc main_v29) (ix2 jj p) : EReal)
            * ∑ k : Fin 128, (by exact W9 m ρ c (Proc.devRef .tc main_v28) (ix2 jj k) : EReal) * (by exact W9 m ρ c (Proc.devRef .tc main_v27) (ix2 p k) : EReal)) := by
  refine ((congrFun (W10_out m ρ c) (ix2 g p)).trans (region2_value (V9 m ρ) c g p)).trans ?_
  show @Eq EReal _ _
  refine Finset.sum_congr rfl fun jj _ => ?_
  beta_reduce
  refine congrArg₂ (· * ·) ?_ (congrArg₂ (· * ·) ?_ rfl)
  · exact (congrFun (mix_entry9 m ρ c) (ix2 g jj)).trans (congrFun (mix_at1 m ρ c) (ix2 g jj))
  · exact congrFun (gate_entry9 m ρ c) (ix2 jj p)

/-- Round 1: entry (g, p) of the array region 3 leaves is the sum over the 160 rows jj of the literal mixing entry
    (g, jj) times the gate's entry (jj, p) times the inner product of row jj of the small matrix with row p of the tall
    one, the small and the tall matrix being the arrays the region finds at its entry. -/
theorem red1_entry (g : Fin 16) (p : Fin 102400) :
    (by exact W13 m ρ c (Proc.devRef .tc main_v54) (ix2 g p) : EReal)
      = ∑ jj : Fin 160, (FloatOps.ofBits (F := Ideal) .f32 (lit2 (S16x160.rowMajor (ix2 g jj))) : EReal)
          * ((by exact W8 m ρ c (Proc.devRef .tc main_v29) (ix2 jj p) : EReal)
            * ∑ k : Fin 128, (by exact W12 m ρ c (Proc.devRef .tc main_v52) (ix2 jj k) : EReal) * (by exact W12 m ρ c (Proc.devRef .tc main_v53) (ix2 p k) : EReal)) := by
  refine ((congrFun (W13_out m ρ c) (ix2 g p)).trans (region3_value (V12 m ρ) c g p)).trans ?_
  show @Eq EReal _ _
  refine Finset.sum_congr rfl fun jj _ => ?_
  beta_reduce
  refine congrArg₂ (· * ·) ?_ (congrArg₂ (· * ·) ?_ rfl)
  · exact (congrFun (mix_entry12 m ρ c) (ix2 g jj)).trans (congrFun (mix_at1 m ρ c) (ix2 g jj))
  · exact congrFun (gate_entry12 m ρ c) (ix2 jj p)

/-- Round 2: entry (g, p) of the array region 4 leaves is the sum over the 160 rows jj of the literal mixing entry
    (g, jj) times the gate's entry (jj, p) times the inner product of row jj of the small matrix with row p of the tall
    one, the small and the tall matrix being the arrays the region finds at its entry. -/
theorem red2_entry (g : Fin 16) (p : Fin 102400) :
    (by exact W16 m ρ c (Proc.devRef .tc main_v73) (ix2 g p) : EReal)
      = ∑ jj : Fin 160, (FloatOps.ofBits (F := Ideal) .f32 (lit2 (S16x160.rowMajor (ix2 g jj))) : EReal)
          * ((by exact W8 m ρ c (Proc.devRef .tc main_v29) (ix2 jj p) : EReal)
            * ∑ k : Fin 128, (by exact W15 m ρ c (Proc.devRef .tc main_v71) (ix2 jj k) : EReal) * (by exact W15 m ρ c (Proc.devRef .tc main_v72) (ix2 p k) : EReal)) := by
  refine ((congrFun (W16_out m ρ c) (ix2 g p)).trans (region4_value (V15 m ρ) c g p)).trans ?_
  show @Eq EReal _ _
  refine Finset.sum_congr rfl fun jj _ => ?_
  beta_reduce
  refine congrArg₂ (· * ·) ?_ (congrArg₂ (· * ·) ?_ rfl)
  · exact (congrFun (mix_entry15 m ρ c) (ix2 g jj)).trans (congrFun (mix_at1 m ρ c) (ix2 g jj))
  · exact congrFun (gate_entry15 m ρ c) (ix2 jj p)

/-- Round 3: entry (g, p) of the array region 5 leaves is the sum over the 160 rows jj of the literal mixing entry
    (g, jj) times the gate's entry (jj, p) times the inner product of row jj of the small matrix with row p of the tall
    one, the small and the tall matrix being the arrays the region finds at its entry. -/
theorem red3_entry (g : Fin 16) (p : Fin 102400) :
    (by exact W19 m ρ c (Proc.devRef .tc main_v92) (ix2 g p) : EReal)
      = ∑ jj : Fin 160, (FloatOps.ofBits (F := Ideal) .f32 (lit2 (S16x160.rowMajor (ix2 g jj))) : EReal)
          * ((by exact W8 m ρ c (Proc.devRef .tc main_v29) (ix2 jj p) : EReal)
            * ∑ k : Fin 128, (by exact W18 m ρ c (Proc.devRef .tc main_v90) (ix2 jj k) : EReal) * (by exact W18 m ρ c (Proc.devRef .tc main_v91) (ix2 p k) : EReal)) := by
  refine ((congrFun (W19_out m ρ c) (ix2 g p)).trans (region5_value (V18 m ρ) c g p)).trans ?_
  show @Eq EReal _ _
  refine Finset.sum_congr rfl fun jj _ => ?_
  beta_reduce
  refine congrArg₂ (· * ·) ?_ (congrArg₂ (· * ·) ?_ rfl)
  · exact (congrFun (mix_entry18 m ρ c) (ix2 g jj)).trans (congrFun (mix_at1 m ρ c) (ix2 g jj))
  · exact congrFun (gate_entry18 m ρ c) (ix2 jj p)

end Cert.KernelIdeal.Bridge

end
-- ==== Proof.PoolMathTable.lean ====
import proofs.«121911_j27986006901054_1_alg».proof.KernelIdeal
import proofs.«121911_j27986006901054_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-!
# The grouping matrix and the sum it selects

The [16,160] literal matrix of the kernel program has a one at (g, j) exactly when j lies in the
g-th block of ten consecutive columns, and a zero elsewhere. Multiplying a column vector of 160
extended reals by row g of it therefore keeps the ten entries 10g, …, 10g+9 and adds them up: every
other term is 0 · x = 0, which holds for every extended real, infinite ones included.
-/

namespace Cert.PoolMath

open Idealize.ShloMosaic ValueIdx

/-- Row g of the 0/1 block matrix, applied to a vector of 160 extended reals, is the sum of the ten
    entries of the g-th block. Only 0 · x = 0, 1 · x = x and re-indexing of a finite sum are used. -/
theorem group_sum (a : Fin 160 → EReal) (g : Fin 16) :
    ∑ j : Fin 160, (if j.val / 10 = g.val then (1 : EReal) else 0) * a j
      = ∑ s : Fin 10, a ⟨10 * g.val + s.val, by omega⟩ := by
  simp only [ite_mul, one_mul, zero_mul]
  rw [← Finset.sum_filter]
  symm
  refine Finset.sum_bij (fun (s : Fin 10) _ => (⟨10 * g.val + s.val, by omega⟩ : Fin 160)) ?_ ?_ ?_ ?_
  · intro s _
    simp only [Finset.mem_filter, Finset.mem_univ, true_and]
    omega
  · intro s₁ _ s₂ _ h
    have := congrArg Fin.val h
    simp only at this
    exact Fin.ext (by omega)
  · intro j hj
    simp only [Finset.mem_filter, Finset.mem_univ, true_and] at hj
    exact ⟨⟨j.val % 10, Nat.mod_lt _ (by decide)⟩, Finset.mem_univ _, Fin.ext (by simp only; omega)⟩
  · intro s _
    rfl

/-- The literal table of the kernel program, entry by entry: position i = 160·g + j holds the
    word of the float one when j lies in block g, and the zero word otherwise. -/
theorem lit2_eq : ∀ i : Fin 2560, Cert.KernelIdeal.lit2 i
    = if (i.val % 160) / 10 = i.val / 160 then 0x3F800000#32 else 0x00000000#32 := by
  decide +kernel

/-- The word 0x3F800000 read as an extended real is 1. -/
theorem ofBits_one_f32 : Ideal.ofBits .f32 0x3F800000#32 = 1 := by
  have h : ((8388608 : ℝ) * ((2 : ℝ) ^ 23)⁻¹ : ℝ) = 1 := by norm_num
  simp [Ideal.ofBits, Ideal.ieee]
  exact_mod_cast h

/-- The block matrix read at the extended reals: entry (g, j) is 1 when j lies in block g, else 0. -/
theorem gmat_entry (g : Fin 16) (j : Fin 160) :
    (FloatOps.ofBits (F := Ideal) .f32
        (Cert.KernelIdeal.lit2 (Cert.KernelIdeal.S16x160.rowMajor (ix2 g j))) : EReal)
      = if j.val / 10 = g.val then 1 else 0 := by
  have hv : (Cert.KernelIdeal.S16x160.rowMajor (ix2 g j)).val = g.val * 160 + j.val :=
    Shape.rowMajor_val_two _
  refine (congrArg (fun w => (FloatOps.ofBits (F := Ideal) .f32 w : EReal))
    (lit2_eq (Cert.KernelIdeal.S16x160.rowMajor (ix2 g j)))).trans ?_
  show (FloatOps.ofBits (F := Ideal) .f32
      (if (Cert.KernelIdeal.S16x160.rowMajor (ix2 g j)).val % 160 / 10
          = (Cert.KernelIdeal.S16x160.rowMajor (ix2 g j)).val / 160 then 0x3F800000#32 else 0x00000000#32) : EReal) = _
  rw [hv]
  have h1 : (g.val * 160 + j.val) % 160 = j.val := by omega
  have h2 : (g.val * 160 + j.val) / 160 = g.val := by omega
  rw [h1, h2]
  split
  · exact ofBits_one_f32
  · exact Ideal.ofBits_zero_f32

end Cert.PoolMath
-- ==== Proof.PoolMathScatter.lean ====
import proofs.«121911_j27986006901054_1_alg».proof.KernelIdeal
import proofs.«121911_j27986006901054_1_alg».proof.ReferenceIdeal
import Idealize.ShloMosaic.Lib.ValueIdx
import Idealize.ShloMosaic.Lib.Pipeline.Value
import Idealize.ShloMosaic.Lib.ValueLayout
import Idealize.ShloMosaic.PureOps.Ideal.Laws

/-!
# The two accumulating scatters read at one element

Both programs pool per-node values into per-graph rows with an accumulating scatter whose single
index component names the row. An update row n lands in operand row idx[n] (read as a signed
integer) when that integer is a valid row number, and is dropped otherwise; the remaining
coordinates are copied unchanged. So the scattered array at row b is the operand's entry plus the
sum, over the nodes n with idx[n] = b, of the update entry of node n at the same trailing
coordinates. The set of contributing nodes is the same for both programs.
-/

namespace Cert.PoolMath

open Idealize.ShloMosaic ValueIdx

/-! ## The kernel program's scatter: operand [2048,16], updates [100000,16] -/

section Kernel
variable [Cert.KernelIdeal.Facts₀]

/-- The kernel program's scatter dimensions, under a short name. -/
abbrev dK : ScatterDims Cert.KernelIdeal.S2048x16 Cert.KernelIdeal.S100000x1 Cert.KernelIdeal.S100000x16 :=
  Cert.KernelIdeal.scatter_S2048x16_S100000x1_S100000x16_1_0_0_1

/-- The index word update row j reads: row (j 0), the one column. -/
theorem K_siIdx (j : Cert.KernelIdeal.S100000x16.Idx) (c : Fin (dK).scatterDimsToOperandDims.length) :
    (dK).siIdx j c = ix2 (j 0) 0 := by
  have hc : c.val < 1 := c.isLt
  funext b'
  match b' with
  | ⟨0, _⟩ => exact Fin.ext rfl
  | ⟨1, _⟩ => exact Fin.ext (show c.val = 0 by omega)

theorem K_start0 (j : Cert.KernelIdeal.S100000x16.Idx) (idx : IVec Cert.KernelIdeal.S100000x1 32) :
    (dK).start j idx 0 = (idx (ix2 (j 0) 0)).toInt := by
  have h : (dK).start j idx 0 = (idx ((dK).siIdx j ⟨0, Nat.one_pos⟩)).toInt := rfl
  rw [h, K_siIdx]
  rfl

theorem K_start1 (j : Cert.KernelIdeal.S100000x16.Idx) (idx : IVec Cert.KernelIdeal.S100000x1 32) :
    (dK).start j idx 1 = 0 := rfl

theorem K_window0 (j : Cert.KernelIdeal.S100000x16.Idx) : (dK).window j 0 = 0 := rfl

theorem K_window1 (j : Cert.KernelIdeal.S100000x16.Idx) : (dK).window j 1 = (j 1).val := rfl

/-- Update (n, g') lands at (b, g) exactly when node n's index word is b and g' = g. -/
theorem K_resultIdx_iff (j : Cert.KernelIdeal.S100000x16.Idx) (idx : IVec Cert.KernelIdeal.S100000x1 32)
    (b : Fin 2048) (g : Fin 16) :
    (dK).resultIdx? j idx = some (ix2 b g)
      ↔ (idx (ix2 (j 0) 0)).toInt = (b.val : ℤ) ∧ j 1 = g := by
  have hj1 : (j 1).val < 16 := (j 1).isLt
  have hb : b.val < 2048 := b.isLt
  unfold ScatterDims.resultIdx?
  split
  · rename_i h
    have h0 : 0 ≤ (dK).start j idx 0 + ((dK).window j 0 : ℕ) := (h 0).1
    rw [K_start0, K_window0] at h0
    rw [Option.some.injEq]
    constructor
    · intro he
      have e0 : ((dK).start j idx 0 + ((dK).window j 0 : ℕ)).toNat = b.val :=
        congrArg (fun f => (f 0).val) he
      have e1 : ((dK).start j idx 1 + ((dK).window j 1 : ℕ)).toNat = g.val :=
        congrArg (fun f => (f 1).val) he
      rw [K_start0, K_window0] at e0
      rw [K_start1, K_window1] at e1
      exact ⟨by omega, Fin.ext (by omega)⟩
    · rintro ⟨ht, hg⟩
      funext a
      match a with
      | ⟨0, _⟩ =>
        refine Fin.ext ?_
        show ((dK).start j idx 0 + ((dK).window j 0 : ℕ)).toNat = b.val
        rw [K_start0, K_window0]; omega
      | ⟨1, _⟩ =>
        refine Fin.ext ?_
        show ((dK).start j idx 1 + ((dK).window j 1 : ℕ)).toNat = g.val
        rw [K_start1, K_window1, hg]; omega
  · rename_i h
    constructor
    · intro he; cases he
    · rintro ⟨ht, hg⟩
      refine absurd (fun a => ?_) h
      match a with
      | ⟨0, _⟩ =>
        show 0 ≤ (dK).start j idx 0 + ((dK).window j 0 : ℕ)
            ∧ (dK).start j idx 0 + ((dK).window j 0 : ℕ) < ((2048 : ℕ) : ℤ)
        rw [K_start0, K_window0]; omega
      | ⟨1, _⟩ =>
        show 0 ≤ (dK).start j idx 1 + ((dK).window j 1 : ℕ)
            ∧ (dK).start j idx 1 + ((dK).window j 1 : ℕ) < ((16 : ℕ) : ℤ)
        rw [K_start1, K_window1]; omega

/-- The kernel program's scatter at (b, g): the operand's entry plus the updates (n, g) of the
    nodes n whose index word is b. -/
theorem scatterK_apply (x : FVec Ideal Cert.KernelIdeal.S2048x16 .f32) (idx : IVec Cert.KernelIdeal.S100000x1 32)
    (upd : FVec Ideal Cert.KernelIdeal.S100000x16 .f32) (b : Fin 2048) (g : Fin 16) :
    Host.scatterAdd (F := Ideal) Cert.KernelIdeal.scatter_S2048x16_S100000x1_S100000x16_1_0_0_1 x idx upd (ix2 b g)
      = x (ix2 b g) + ∑ n ∈ Finset.univ.filter (fun n : Fin 100000 => (idx (ix2 n 0)).toInt = (b.val : ℤ)),
          upd (ix2 n g) := by
  show x (ix2 b g) + ∑ j ∈ Finset.univ.filter (fun j => (dK).resultIdx? j idx = some (ix2 b g)), upd j = _
  refine congrArg (x (ix2 b g) + ·) ?_
  symm
  refine Finset.sum_bij (fun (n : Fin 100000) _ => (ix2 n g : Cert.KernelIdeal.S100000x16.Idx)) ?_ ?_ ?_ ?_
  · intro n hn
    rw [Finset.mem_filter] at hn ⊢
    exact ⟨Finset.mem_univ _, (K_resultIdx_iff _ idx b g).2 ⟨hn.2, rfl⟩⟩
  · intro n₁ _ n₂ _ h
    exact congrFun h 0
  · intro j hj
    rw [Finset.mem_filter] at hj
    have hh := (K_resultIdx_iff j idx b g).1 hj.2
    refine ⟨j 0, ?_, ?_⟩
    · exact Finset.mem_filter.2 ⟨Finset.mem_univ _, hh.1⟩
    · rw [← hh.2]; exact (eq_ix2 j).symm
  · intro n _
    rfl

end Kernel

/-! ## The reference's scatter: operand [2048,16,10], updates [100000,16,10] -/

section Reference
variable [Cert.ReferenceIdeal.Facts₀]

/-- The reference's scatter dimensions, under a short name. -/
abbrev dR : ScatterDims Cert.ReferenceIdeal.S2048x16x10 Cert.ReferenceIdeal.S100000x1 Cert.ReferenceIdeal.S100000x16x10 :=
  Cert.ReferenceIdeal.scatter_S2048x16x10_S100000x1_S100000x16x10_12_0_0_1

theorem R_siIdx (j : Cert.ReferenceIdeal.S100000x16x10.Idx) (c : Fin (dR).scatterDimsToOperandDims.length) :
    (dR).siIdx j c = ix2 (j 0) 0 := by
  have hc : c.val < 1 := c.isLt
  funext b'
  match b' with
  | ⟨0, _⟩ => exact Fin.ext rfl
  | ⟨1, _⟩ => exact Fin.ext (show c.val = 0 by omega)

theorem R_start0 (j : Cert.ReferenceIdeal.S100000x16x10.Idx) (idx : IVec Cert.ReferenceIdeal.S100000x1 32) :
    (dR).start j idx 0 = (idx (ix2 (j 0) 0)).toInt := by
  have h : (dR).start j idx 0 = (idx ((dR).siIdx j ⟨0, Nat.one_pos⟩)).toInt := rfl
  rw [h, R_siIdx]
  rfl

theorem R_start1 (j : Cert.ReferenceIdeal.S100000x16x10.Idx) (idx : IVec Cert.ReferenceIdeal.S100000x1 32) :
    (dR).start j idx 1 = 0 := rfl

theorem R_start2 (j : Cert.ReferenceIdeal.S100000x16x10.Idx) (idx : IVec Cert.ReferenceIdeal.S100000x1 32) :
    (dR).start j idx 2 = 0 := rfl

theorem R_window0 (j : Cert.ReferenceIdeal.S100000x16x10.Idx) : (dR).window j 0 = 0 := rfl

theorem R_window1 (j : Cert.ReferenceIdeal.S100000x16x10.Idx) : (dR).window j 1 = (j 1).val := rfl

theorem R_window2 (j : Cert.ReferenceIdeal.S100000x16x10.Idx) : (dR).window j 2 = (j 2).val := rfl

/-- Update (n, g', s') lands at (b, g, s) exactly when node n's index word is b, g' = g and s' = s. -/
theorem R_resultIdx_iff (j : Cert.ReferenceIdeal.S100000x16x10.Idx) (idx : IVec Cert.ReferenceIdeal.S100000x1 32)
    (b : Fin 2048) (g : Fin 16) (s : Fin 10) :
    (dR).resultIdx? j idx = some (ix3 b g s)
      ↔ (idx (ix2 (j 0) 0)).toInt = (b.val : ℤ) ∧ j 1 = g ∧ j 2 = s := by
  have hj1 : (j 1).val < 16 := (j 1).isLt
  have hj2 : (j 2).val < 10 := (j 2).isLt
  have hb : b.val < 2048 := b.isLt
  unfold ScatterDims.resultIdx?
  split
  · rename_i h
    have h0 : 0 ≤ (dR).start j idx 0 + ((dR).window j 0 : ℕ) := (h 0).1
    rw [R_start0, R_window0] at h0
    rw [Option.some.injEq]
    constructor
    · intro he
      have e0 : ((dR).start j idx 0 + ((dR).window j 0 : ℕ)).toNat = b.val :=
        congrArg (fun f => (f 0).val) he
      have e1 : ((dR).start j idx 1 + ((dR).window j 1 : ℕ)).toNat = g.val :=
        congrArg (fun f => (f 1).val) he
      have e2 : ((dR).start j idx 2 + ((dR).window j 2 : ℕ)).toNat = s.val :=
        congrArg (fun f => (f 2).val) he
      rw [R_start0, R_window0] at e0
      rw [R_start1, R_window1] at e1
      rw [R_start2, R_window2] at e2
      exact ⟨by omega, Fin.ext (by omega), Fin.ext (by omega)⟩
    · rintro ⟨ht, hg, hs⟩
      funext a
      match a with
      | ⟨0, _⟩ =>
        refine Fin.ext ?_
        show ((dR).start j idx 0 + ((dR).window j 0 : ℕ)).toNat = b.val
        rw [R_start0, R_window0]; omega
      | ⟨1, _⟩ =>
        refine Fin.ext ?_
        show ((dR).start j idx 1 + ((dR).window j 1 : ℕ)).toNat = g.val
        rw [R_start1, R_window1, hg]; omega
      | ⟨2, _⟩ =>
        refine Fin.ext ?_
        show ((dR).start j idx 2 + ((dR).window j 2 : ℕ)).toNat = s.val
        rw [R_start2, R_window2, hs]; omega
  · rename_i h
    constructor
    · intro he; cases he
    · rintro ⟨ht, hg, hs⟩
      refine absurd (fun a => ?_) h
      match a with
      | ⟨0, _⟩ =>
        show 0 ≤ (dR).start j idx 0 + ((dR).window j 0 : ℕ)
            ∧ (dR).start j idx 0 + ((dR).window j 0 : ℕ) < ((2048 : ℕ) : ℤ)
        rw [R_start0, R_window0]; omega
      | ⟨1, _⟩ =>
        show 0 ≤ (dR).start j idx 1 + ((dR).window j 1 : ℕ)
            ∧ (dR).start j idx 1 + ((dR).window j 1 : ℕ) < ((16 : ℕ) : ℤ)
        rw [R_start1, R_window1]; omega
      | ⟨2, _⟩ =>
        show 0 ≤ (dR).start j idx 2 + ((dR).window j 2 : ℕ)
            ∧ (dR).start j idx 2 + ((dR).window j 2 : ℕ) < ((10 : ℕ) : ℤ)
        rw [R_start2, R_window2]; omega

/-- The reference's scatter at (b, g, s): the operand's entry plus the updates (n, g, s) of the
    nodes n whose index word is b. -/
theorem scatterR_apply (x : FVec Ideal Cert.ReferenceIdeal.S2048x16x10 .f32) (idx : IVec Cert.ReferenceIdeal.S100000x1 32)
    (upd : FVec Ideal Cert.ReferenceIdeal.S100000x16x10 .f32) (b : Fin 2048) (g : Fin 16) (s : Fin 10) :
    Host.scatterAdd (F := Ideal) Cert.ReferenceIdeal.scatter_S2048x16x10_S100000x1_S100000x16x10_12_0_0_1 x idx upd (ix3 b g s)
      = x (ix3 b g s) + ∑ n ∈ Finset.univ.filter (fun n : Fin 100000 => (idx (ix2 n 0)).toInt = (b.val : ℤ)),
          upd (ix3 n g s) := by
  show x (ix3 b g s) + ∑ j ∈ Finset.univ.filter (fun j => (dR).resultIdx? j idx = some (ix3 b g s)), upd j = _
  refine congrArg (x (ix3 b g s) + ·) ?_
  symm
  refine Finset.sum_bij (fun (n : Fin 100000) _ => (ix3 n g s : Cert.ReferenceIdeal.S100000x16x10.Idx)) ?_ ?_ ?_ ?_
  · intro n hn
    rw [Finset.mem_filter] at hn ⊢
    exact ⟨Finset.mem_univ _, (R_resultIdx_iff _ idx b g s).2 ⟨hn.2, rfl, rfl⟩⟩
  · intro n₁ _ n₂ _ h
    exact congrFun h 0
  · intro j hj
    rw [Finset.mem_filter] at hj
    have hh := (R_resultIdx_iff j idx b g s).1 hj.2
    refine ⟨j 0, ?_, ?_⟩
    · exact Finset.mem_filter.2 ⟨Finset.mem_univ _, hh.1⟩
    · rw [← hh.2.1, ← hh.2.2]; exact (eq_ix3 j).symm
  · intro n _
    rfl

end Reference

end Cert.PoolMath
-- ==== Proof.PoolMath.lean ====
import proofs.«121911_j27986006901054_1_alg».proof.Proof.PoolMathTable
import proofs.«121911_j27986006901054_1_alg».proof.Proof.PoolMathScatter

/-!
# Pooling over the nodes of each graph: the two programs agree

The kernel program first multiplies by the 0/1 block matrix (which adds up, for each of the sixteen
groups g, the ten rows 10g … 10g+9 of a [160, N] array) and then adds the result over the nodes n of
each graph b. The reference scatters the [16, 10, N] array over the graphs first and adds over the
ten rows afterwards. Both are the double sum Σ_s Σ_{n in graph b} tw[g, s, n]; the two orders of
summation agree because finite sums in a commutative additive monoid may be exchanged, and the
extended reals are one. No finiteness of any entry is used: the only products are by 0 and by 1.
-/

namespace Cert.PoolMath

open Idealize.ShloMosaic ValueIdx

/-! ## The kernel program's chain: slice, transpose, scatter from zero -/

section Kernel
variable [Cert.KernelIdeal.Facts₀]
open Cert.KernelIdeal (S16x102400 S16x100000 S100000x16 S_ S2048x16 S100000 S100000x1)

/-- The kernel program's pooled array at (b, g): the sum over the nodes n of graph b of the
    group-summed array at (g, n). The first 100000 of the 102400 padded columns are read. -/
theorem poolK_apply
    (hs : S16x102400.Slices ![0, 0] S16x100000) (ht : S16x100000.Transposes [1, 0] S100000x16)
    (hz : S_.BroadcastsInDim S2048x16 (![] : Fin 0 → Fin S2048x16.rank))
    (hi : S100000.BroadcastsInDim S100000x1 (![0] : Fin 1 → Fin S100000x1.rank))
    (batch : IVec S100000 32) (red : FVec Ideal S16x102400 .f32) (b : Fin 2048) (g : Fin 16) :
    Host.scatterAdd (F := Ideal) Cert.KernelIdeal.scatter_S2048x16_S100000x1_S100000x16_1_0_0_1
        (broadcastInDim S2048x16 ![] hz (constant (F := Ideal) S_ .f32 0x00000000#32))
        (broadcastInDim S100000x1 ![0] hi batch)
        (transpose S100000x16 [1, 0] (extractStridedSlice S16x100000 ![0, 0] red hs) ht) (ix2 b g)
      = ∑ n ∈ Finset.univ.filter (fun n : Fin 100000 => (batch (ix1 n)).toInt = (b.val : ℤ)),
          red (ix2 g ⟨n.val, by omega⟩) := by
  refine (scatterK_apply _ _ _ b g).trans ?_
  have hx : broadcastInDim S2048x16 ![] hz (constant (F := Ideal) S_ .f32 0x00000000#32) (ix2 b g) = (0 : EReal) :=
    (broadcastInDim_apply _ hz _ (ix2 b g) ix0 (fun a => a.elim0)).trans Ideal.ofBits_zero_f32
  have hidx : ∀ n : Fin 100000, broadcastInDim S100000x1 ![0] hi batch (ix2 n 0) = batch (ix1 n) := fun n =>
    broadcastInDim_apply _ hi batch (ix2 n 0) (ix1 n) (fun a => match a with | ⟨0, _⟩ => rfl)
  have hupd : ∀ n : Fin 100000,
      transpose S100000x16 [1, 0] (extractStridedSlice S16x100000 ![0, 0] red hs) ht (ix2 n g)
        = red (ix2 g ⟨n.val, by omega⟩) := fun n =>
    (transpose_ix2_apply _ ht n g).trans
      (slice2_axis1_apply 0 red hs g n ⟨n.val, by omega⟩ (Nat.zero_add _).symm)
  rw [hx, zero_add]
  exact Finset.sum_congr (Finset.filter_congr fun n _ => by rw [hidx n]) (fun n _ => hupd n)

end Kernel

/-! ## The reference's chain: transpose, scatter from zero, sum over the ten rows -/

section Reference
variable [Cert.ReferenceIdeal.Facts₀]
open Cert.ReferenceIdeal (S16x10x100000 S100000x16x10 S_ S2048x16x10 S2048x16 S100000 S100000x1)

/-- The reference's pooled array at (b, g): over the ten rows s of group g, the sum over the nodes n
    of graph b of the array at (g, s, n). -/
theorem poolR_apply
    (ht : S16x10x100000.Transposes [2, 0, 1] S100000x16x10)
    (hz : S_.BroadcastsInDim S2048x16x10 (![] : Fin 0 → Fin S2048x16x10.rank))
    (hi : S100000.BroadcastsInDim S100000x1 (![0] : Fin 1 → Fin S100000x1.rank))
    (hr : S2048x16x10.ReducesTo [2] S2048x16) (h0 : 0 < S_.numel)
    (batch : IVec S100000 32) (tw : FVec Ideal S16x10x100000 .f32) (b : Fin 2048) (g : Fin 16) :
    Host.reduceAdd (F := Ideal)
        (Host.scatterAdd (F := Ideal) Cert.ReferenceIdeal.scatter_S2048x16x10_S100000x1_S100000x16x10_12_0_0_1
          (broadcastInDim S2048x16x10 ![] hz (constant (F := Ideal) S_ .f32 0x00000000#32))
          (broadcastInDim S100000x1 ![0] hi batch)
          (transpose S100000x16x10 [2, 0, 1] tw ht))
        (constant (F := Ideal) S_ .f32 0x00000000#32) hr h0 (ix2 b g)
      = ∑ s : Fin 10, ∑ n ∈ Finset.univ.filter (fun n : Fin 100000 => (batch (ix1 n)).toInt = (b.val : ℤ)),
          tw (ix3 g s n) := by
  have hred : S2048x16x10.Reduces [2] S2048x16 := by decide
  have hinit : constant (F := Ideal) S_ .f32 0x00000000#32 (Shape.Idx.first h0) = (0 : EReal) :=
    Ideal.ofBits_zero_f32
  refine (Ideal.hostReduceAdd_single hr hred _ _ (ix2 b g)).trans ?_
  rw [hinit, zero_add]
  refine Finset.sum_congr rfl fun s _ => ?_
  have hl : hred.lift (ix2 b g) s = ix3 b g s := funext fun c =>
    match c with
    | ⟨0, _⟩ => Fin.ext rfl
    | ⟨1, _⟩ => Fin.ext rfl
    | ⟨2, _⟩ => Fin.ext rfl
  have hx : broadcastInDim S2048x16x10 ![] hz (constant (F := Ideal) S_ .f32 0x00000000#32) (ix3 b g s) = (0 : EReal) :=
    (broadcastInDim_apply _ hz _ (ix3 b g s) ix0 (fun a => a.elim0)).trans Ideal.ofBits_zero_f32
  have hidx : ∀ n : Fin 100000, broadcastInDim S100000x1 ![0] hi batch (ix2 n 0) = batch (ix1 n) := fun n =>
    broadcastInDim_apply _ hi batch (ix2 n 0) (ix1 n) (fun a => match a with | ⟨0, _⟩ => rfl)
  have hupd : ∀ n : Fin 100000, transpose S100000x16x10 [2, 0, 1] tw ht (ix3 n g s) = tw (ix3 g s n) := fun n =>
    transpose_apply _ tw ht (ix3 n g s) (ix3 g s n) (fun c =>
      match c with
      | ⟨0, _⟩ => rfl
      | ⟨1, _⟩ => rfl
      | ⟨2, _⟩ => rfl)
  rw [hl]
  refine (scatterR_apply _ _ _ b g s).trans ?_
  rw [hx, zero_add]
  exact Finset.sum_congr (Finset.filter_congr fun n _ => by rw [hidx n]) (fun n _ => hupd n)

end Reference

/-! ## The two chains agree -/

/-- If `red` is the block matrix times `tw2`, and `tw2` holds the reference's [16,10,N] array with
    its first two axes merged (row 10g+s is (g, s)), then the kernel program's pooled array equals the
    reference's, entry by entry. -/
theorem pool_eq [Cert.KernelIdeal.Facts₀] [Cert.ReferenceIdeal.Facts₀]
    (hsK : Cert.KernelIdeal.S16x102400.Slices ![0, 0] Cert.KernelIdeal.S16x100000)
    (htK : Cert.KernelIdeal.S16x100000.Transposes [1, 0] Cert.KernelIdeal.S100000x16)
    (hzK : Cert.KernelIdeal.S_.BroadcastsInDim Cert.KernelIdeal.S2048x16 (![] : Fin 0 → Fin Cert.KernelIdeal.S2048x16.rank))
    (hiK : Cert.KernelIdeal.S100000.BroadcastsInDim Cert.KernelIdeal.S100000x1 (![0] : Fin 1 → Fin Cert.KernelIdeal.S100000x1.rank))
    (htR : Cert.ReferenceIdeal.S16x10x100000.Transposes [2, 0, 1] Cert.ReferenceIdeal.S100000x16x10)
    (hzR : Cert.ReferenceIdeal.S_.BroadcastsInDim Cert.ReferenceIdeal.S2048x16x10 (![] : Fin 0 → Fin Cert.ReferenceIdeal.S2048x16x10.rank))
    (hiR : Cert.ReferenceIdeal.S100000.BroadcastsInDim Cert.ReferenceIdeal.S100000x1 (![0] : Fin 1 → Fin Cert.ReferenceIdeal.S100000x1.rank))
    (hrR : Cert.ReferenceIdeal.S2048x16x10.ReducesTo [2] Cert.ReferenceIdeal.S2048x16) (h0R : 0 < Cert.ReferenceIdeal.S_.numel)
    (batch : IVec Cert.KernelIdeal.S100000 32)
    (red : FVec Ideal Cert.KernelIdeal.S16x102400 .f32) (tw2 : FVec Ideal Cert.KernelIdeal.S160x102400 .f32)
    (tw : FVec Ideal Cert.ReferenceIdeal.S16x10x100000 .f32)
    (hred : ∀ (g : Fin 16) (n' : Fin 102400), red (ix2 g n')
        = ∑ j : Fin 160, (FloatOps.ofBits (F := Ideal) .f32
            (Cert.KernelIdeal.lit2 (Cert.KernelIdeal.S16x160.rowMajor (ix2 g j))) : EReal) * tw2 (ix2 j n'))
    (htw : ∀ (g : Fin 16) (s : Fin 10) (n : Fin 100000),
        tw2 (ix2 ⟨10 * g.val + s.val, by omega⟩ ⟨n.val, by omega⟩) = tw (ix3 g s n)) :
    Host.scatterAdd (F := Ideal) Cert.KernelIdeal.scatter_S2048x16_S100000x1_S100000x16_1_0_0_1
        (broadcastInDim Cert.KernelIdeal.S2048x16 ![] hzK (constant (F := Ideal) Cert.KernelIdeal.S_ .f32 0x00000000#32))
        (broadcastInDim Cert.KernelIdeal.S100000x1 ![0] hiK batch)
        (transpose Cert.KernelIdeal.S100000x16 [1, 0]
          (extractStridedSlice Cert.KernelIdeal.S16x100000 ![0, 0] red hsK) htK)
      = Host.reduceAdd (F := Ideal)
        (Host.scatterAdd (F := Ideal) Cert.ReferenceIdeal.scatter_S2048x16x10_S100000x1_S100000x16x10_12_0_0_1
          (broadcastInDim Cert.ReferenceIdeal.S2048x16x10 ![] hzR (constant (F := Ideal) Cert.ReferenceIdeal.S_ .f32 0x00000000#32))
          (broadcastInDim Cert.ReferenceIdeal.S100000x1 ![0] hiR batch)
          (transpose Cert.ReferenceIdeal.S100000x16x10 [2, 0, 1] tw htR))
        (constant (F := Ideal) Cert.ReferenceIdeal.S_ .f32 0x00000000#32) hrR h0R := by
  funext i
  obtain ⟨b, g, rfl⟩ : ∃ (b : Fin 2048) (g : Fin 16), i = ix2 b g := ⟨i 0, i 1, eq_ix2 i⟩
  refine (poolK_apply hsK htK hzK hiK batch red b g).trans ?_
  refine Eq.trans ?_ (poolR_apply htR hzR hiR hrR h0R batch tw b g).symm
  rw [Finset.sum_comm]
  refine Finset.sum_congr rfl fun n _ => ?_
  have h1 : ∀ j : Fin 160,
      (FloatOps.ofBits (F := Ideal) .f32
          (Cert.KernelIdeal.lit2 (Cert.KernelIdeal.S16x160.rowMajor (ix2 g j))) : EReal)
          * tw2 (ix2 j ⟨n.val, by omega⟩)
        = (if j.val / 10 = g.val then (1 : EReal) else 0) * tw2 (ix2 j ⟨n.val, by omega⟩) := fun j =>
    congrArg (fun t : EReal => t * tw2 (ix2 j ⟨n.val, by omega⟩)) (gmat_entry g j)
  exact (hred g ⟨n.val, by omega⟩).trans <|
    (Finset.sum_congr rfl fun j _ => h1 j).trans <|
    (group_sum (fun j => tw2 (ix2 j ⟨n.val, by omega⟩)) g).trans <|
    Finset.sum_congr rfl fun s _ => htw g s n

end Cert.PoolMath
-- ==== Proof.PoolMathRound.lean ====
import proofs.«121911_j27986006901054_1_alg».proof.Proof.PoolMath
import proofs.«121911_j27986006901054_1_alg».proof.Proof.GlueRef
import proofs.«121911_j27986006901054_1_alg».proof.Proof.RefRunPart0

/-!
# One round of pooling, both programs

In every round the kernel program's step region produces, at (g, p), the block-matrix sum over the
160 rows jj of  gate[jj, p] · Σ_k Z[jj, k] · X[p, k], and the host then pools it over the nodes of each
graph. The reference multiplies the gate array [16, 10, N] entrywise by the product of a stack z
[16, 10, 128] with node features x [N, 128] over the 128 channels, and pools that. When the kernel
side's arrays are the reference's with the two leading axes of the stack merged (row 10g + s is
(g, s)) and the node rows padded, the pooled arrays agree.
-/

namespace Cert.PoolMath

open Idealize.ShloMosaic ValueIdx Cert.ReferenceIdeal.RefRun

/-- One round: the kernel program's pooling chain applied to the step region's output equals the
    reference's pooling of the gate times the channel product. -/
theorem pool_round [Cert.KernelIdeal.Facts₀]
    (hsK : Cert.KernelIdeal.S16x102400.Slices ![0, 0] Cert.KernelIdeal.S16x100000)
    (htK : Cert.KernelIdeal.S16x100000.Transposes [1, 0] Cert.KernelIdeal.S100000x16)
    (hzK : Cert.KernelIdeal.S_.BroadcastsInDim Cert.KernelIdeal.S2048x16 (![] : Fin 0 → Fin Cert.KernelIdeal.S2048x16.rank))
    (hiK : Cert.KernelIdeal.S100000.BroadcastsInDim Cert.KernelIdeal.S100000x1 (![0] : Fin 1 → Fin Cert.KernelIdeal.S100000x1.rank))
    (batch : IVec Cert.KernelIdeal.S100000 32)
    (red : FVec Ideal Cert.KernelIdeal.S16x102400 .f32) (ZX : FVec Ideal Cert.KernelIdeal.S160x102400 .f32)
    (Z : FVec Ideal Cert.KernelIdeal.S160x128 .f32) (X : FVec Ideal Cert.KernelIdeal.S102400x128 .f32)
    (zx : FVec Ideal Cert.ReferenceIdeal.S16x10x100000 .f32) (z : FVec Ideal Cert.ReferenceIdeal.S16x10x128 .f32)
    (x : FVec Ideal Cert.ReferenceIdeal.S100000x128 .f32)
    (hred : ∀ (g : Fin 16) (p : Fin 102400), red (ix2 g p)
        = ∑ jj : Fin 160, (FloatOps.ofBits (F := Ideal) .f32
            (Cert.KernelIdeal.lit2 (Cert.KernelIdeal.S16x160.rowMajor (ix2 g jj))) : EReal)
            * (ZX (ix2 jj p) * ∑ k : Fin 128, Z (ix2 jj k) * X (ix2 p k)))
    (hzx : ∀ (g : Fin 16) (s : Fin 10) (n : Fin 100000),
        ZX (ix2 ⟨10 * g.val + s.val, by omega⟩ ⟨n.val, by omega⟩) = zx (ix3 g s n))
    (hz : ∀ (g : Fin 16) (s : Fin 10) (k : Fin 128), Z (ix2 ⟨10 * g.val + s.val, by omega⟩ k) = z (ix3 g s k))
    (hx : ∀ (n : Fin 100000) (k : Fin 128), X (ix2 ⟨n.val, by omega⟩ k) = x (ix2 n k)) :
    Host.scatterAdd (F := Ideal) Cert.KernelIdeal.scatter_S2048x16_S100000x1_S100000x16_1_0_0_1
        (broadcastInDim Cert.KernelIdeal.S2048x16 ![] hzK (constant (F := Ideal) Cert.KernelIdeal.S_ .f32 0x00000000#32))
        (broadcastInDim Cert.KernelIdeal.S100000x1 ![0] hiK batch)
        (transpose Cert.KernelIdeal.S100000x16 [1, 0]
          (extractStridedSlice Cert.KernelIdeal.S16x100000 ![0, 0] red hsK) htK)
      = refPoolOf (F := Ideal) batch (mulf (F := Ideal) zx (refDot (F := Ideal) z x)) := by
  unfold refPoolOf
  refine pool_eq hsK htK hzK hiK _ _ _ _ _ batch red
    (fun i => ZX (ix2 (i 0) (i 1)) * ∑ k : Fin 128, Z (ix2 (i 0) k) * X (ix2 (i 1) k))
    (mulf (F := Ideal) zx (refDot (F := Ideal) z x)) (fun g p => hred g p) (fun g s n => ?_)
  show ZX (ix2 ⟨10 * g.val + s.val, _⟩ ⟨n.val, _⟩)
      * ∑ k : Fin 128, Z (ix2 ⟨10 * g.val + s.val, _⟩ k) * X (ix2 ⟨n.val, _⟩ k)
    = zx (ix3 g s n) * refDot (F := Ideal) z x (ix3 g s n)
  rw [hzx g s n]
  unfold refDot
  rw [Cert.Glue.ref_zx z x g s n]
  refine congrArg (zx (ix3 g s n) * ·) (Finset.sum_congr rfl fun k _ => ?_)
  rw [hz g s k, hx n k]

end Cert.PoolMath
-- ==== Proof.BridgePool.lean ====
/- The pooled blocks of the four rounds, kernel program against reference, at the ideal instance.

   In each round the kernel program's step region leaves an array whose entry (g, p) is the block-matrix sum over the 160
   rows jj of  gate[jj, p] · Σ_k Z[jj, k] · X[p, k];  the host then cuts the padding columns, transposes, and adds the
   nodes' rows into their graph's row. The reference multiplies the gate array entrywise by the channel product of a
   stack z with the node features x and pools the result by graph, then adds over the ten rows of each group. Z is z with
   its two leading axes merged, X is x with its rows padded, the gate is the same array with its leading axes merged: so
   the two pooled blocks agree, round by round. Only sums, products by 0 and 1, and re-indexing are used. -/
import proofs.«121911_j27986006901054_1_alg».proof.Proof.KIRunW
import proofs.«121911_j27986006901054_1_alg».proof.Proof.GlueKern
import proofs.«121911_j27986006901054_1_alg».proof.Proof.PoolMathRound
import proofs.«121911_j27986006901054_1_alg».proof.Proof.BridgeX0
import proofs.«121911_j27986006901054_1_alg».proof.Proof.BridgeProp
import proofs.«121911_j27986006901054_1_alg».proof.Proof.BridgeRed
import Idealize.ShloMosaic.Lib.StableHlo.Run

noncomputable section

namespace Cert.KernelIdeal.Bridge

open Cert.KernelIdeal Cert.KernelIdeal.Gen Cert.KernelIdeal.Hand Cert.ReferenceIdeal.RefRun
open Idealize.ShloMosaic Idealize.ShloMosaic.TcCoe Idealize.SL.Sem Idealize.ShloMosaic.StableHlo ValueIdx

variable (m : (ℓ : Loc nD τ sig) → Buf (Elt Ideal) ℓ) (ρ : Dev nD → PrngReg) (c : Dev nD)

local notation "a0" => (W0 m ρ c (Proc.devRef Proc.tc main_arg0))
local notation "a1" => (W0 m ρ c (Proc.devRef Proc.tc main_arg1))
local notation "a2" => (W0 m ρ c (Proc.devRef Proc.tc main_arg2))
local notation "a3" => (W0 m ρ c (Proc.devRef Proc.tc main_arg3))
local notation "a4" => (W0 m ρ c (Proc.devRef Proc.tc main_arg4))
local notation "a5" => (W0 m ρ c (Proc.devRef Proc.tc main_arg5))
local notation "a6" => (W0 m ρ c (Proc.devRef Proc.tc main_arg6))
local notation "a7" => (W0 m ρ c (Proc.devRef Proc.tc main_arg7))

/-! ## The host's pooling chain as one function -/

/-- Cut the 2400 padding columns, transpose to node-major, and add each node's row into the row of its graph, from zero. -/
def poolChain (batch : IVec S100000 32) (red : FVec Ideal S16x102400 .f32) : FVec Ideal S2048x16 .f32 :=
  Host.scatterAdd (F := Ideal) scatter_S2048x16_S100000x1_S100000x16_1_0_0_1
    (broadcastInDim S2048x16 ![] bcast_S_S2048x16 (constant (F := Ideal) S_ .f32 0x00000000#32))
    (broadcastInDim S100000x1 ![0] bcast_S100000_S100000x1_0 batch)
    (transpose S100000x16 [1, 0] (extractStridedSlice S16x100000 ![0, 0] red slices_S16x102400_S16x100000_0_0)
      transposes_S16x100000_S100000x16_1_0)

/-! ## The graph ids and the stack are arguments: no item writes them -/

/-- The graph ids at the first step region's exit are the launch contents. -/
theorem arg2_W10 : W10 m ρ c (Proc.devRef .tc main_arg2) = a2 := by
  rw [W10_keep m ρ c main_arg2 (by decide), W9_keep m ρ c main_arg2 (by decide), W8_keep m ρ c main_arg2 (by decide), W7_keep m ρ c main_arg2 (by decide), W6_keep m ρ c main_arg2 (by decide), W5_keep m ρ c main_arg2 (by decide), W4_keep m ρ c main_arg2 (by decide), W3_keep m ρ c main_arg2 (by decide), W2_keep m ρ c main_arg2 (by decide), W1_keep m ρ c main_arg2 (by decide)]

theorem arg2_W13 : W13 m ρ c (Proc.devRef .tc main_arg2) = a2 := by
  rw [W13_keep m ρ c main_arg2 (by decide), W12_keep m ρ c main_arg2 (by decide), W11_keep m ρ c main_arg2 (by decide)]
  exact arg2_W10 m ρ c

theorem arg2_W16 : W16 m ρ c (Proc.devRef .tc main_arg2) = a2 := by
  rw [W16_keep m ρ c main_arg2 (by decide), W15_keep m ρ c main_arg2 (by decide), W14_keep m ρ c main_arg2 (by decide)]
  exact arg2_W13 m ρ c

theorem arg2_W19 : W19 m ρ c (Proc.devRef .tc main_arg2) = a2 := by
  rw [W19_keep m ρ c main_arg2 (by decide), W18_keep m ρ c main_arg2 (by decide), W17_keep m ρ c main_arg2 (by decide)]
  exact arg2_W16 m ρ c

/-- The stack at the first region's exit is the launch contents. -/
theorem arg7_W6 : W6 m ρ c (Proc.devRef .tc main_arg7) = a7 := by
  rw [W6_keep m ρ c main_arg7 (by decide), W5_keep m ρ c main_arg7 (by decide), W4_keep m ρ c main_arg7 (by decide), W3_keep m ρ c main_arg7 (by decide), W2_keep m ρ c main_arg7 (by decide), W1_keep m ρ c main_arg7 (by decide)]

/-! ## What each round's host stretch computes, as whole arrays -/

/-- Round 0: the pooled block is the pooling chain applied to the graph ids and the step region's output. -/
theorem pool0_step : W11 m ρ c (Proc.devRef .tc main_v40)
    = poolChain (W10 m ρ c (Proc.devRef .tc main_arg2)) (W10 m ρ c (Proc.devRef .tc main_v35)) := by
  unfold W11
  after_results
  rfl

/-- Round 1: the pooled block is the pooling chain applied to the graph ids and the step region's output. -/
theorem pool1_step : W14 m ρ c (Proc.devRef .tc main_v59)
    = poolChain (W13 m ρ c (Proc.devRef .tc main_arg2)) (W13 m ρ c (Proc.devRef .tc main_v54)) := by
  unfold W14
  after_results
  rfl

/-- Round 2: the pooled block is the pooling chain applied to the graph ids and the step region's output. -/
theorem pool2_step : W17 m ρ c (Proc.devRef .tc main_v78)
    = poolChain (W16 m ρ c (Proc.devRef .tc main_arg2)) (W16 m ρ c (Proc.devRef .tc main_v73)) := by
  unfold W17
  after_results
  rfl

/-- Round 3: the pooled block is the pooling chain applied to the graph ids and the step region's output. -/
theorem pool3_step : W20 m ρ c (Proc.devRef .tc main_v97)
    = poolChain (W19 m ρ c (Proc.devRef .tc main_arg2)) (W19 m ρ c (Proc.devRef .tc main_v92)) := by
  unfold W20
  after_results
  rfl

/-- Round 0: the flattened stack the regions read is the stack argument with its two leading axes merged. -/
theorem z0_step : W9 m ρ c (Proc.devRef .tc main_v28)
    = shapeCast S160x128 (a7 : FVec Ideal S16x10x128 .f32) shapeCasts_S16x10x128_S160x128 := by
  rw [W9_keep m ρ c main_v28 (by decide), W8_in0 m ρ c, ← arg7_W6 m ρ c]
  unfold W7
  after_results
  rfl

/-- Round 0: the padded features the step region reads are the first region's output, untouched in between. -/
theorem x0_keep : W9 m ρ c (Proc.devRef .tc main_v27) = W6 m ρ c (Proc.devRef .tc main_v27) := by
  rw [W9_keep m ρ c main_v27 (by decide), W8_in1 m ρ c, W7_keep m ρ c main_v27 (by decide)]

set_option maxHeartbeats 2000000 in
/-- Round 1, over any contents before the stretch: the propagated stack is the coupling matrix times the previous stack. -/
theorem zsrc1_after (V : Valuation τ sig (Elt Ideal)) : StableHlo.after hostOps3 V (Proc.devRef .tc main_v51)
    = Host.dotGeneral (F := Ideal) (φ₁ := .f32) (φ₂ := .f32) dot_S16x10x10_S16x10x128_S16x10x128_2_1_1_2_0_0 none
        (V (Proc.devRef .tc main_v17) : FVec Ideal S16x10x10 .f32) (V (Proc.devRef .tc main_arg7) : FVec Ideal S16x10x128 .f32) := by
  after_results_simp
  try rfl

set_option maxHeartbeats 2000000 in
/-- Round 1, over any contents before the stretch: the flattened stack is that product with its two leading axes merged. -/
theorem zflat1_after (V : Valuation τ sig (Elt Ideal)) : StableHlo.after hostOps3 V (Proc.devRef .tc main_v52)
    = shapeCast S160x128 (Host.dotGeneral (F := Ideal) (φ₁ := .f32) (φ₂ := .f32) dot_S16x10x10_S16x10x128_S16x10x128_2_1_1_2_0_0 none
        (V (Proc.devRef .tc main_v17) : FVec Ideal S16x10x10 .f32) (V (Proc.devRef .tc main_arg7) : FVec Ideal S16x10x128 .f32)) shapeCasts_S16x10x128_S160x128 := by
  after_results_simp
  try rfl

/-- Round 1: the flattened stack is the round's propagated stack with its two leading axes merged. -/
theorem z1_step : W12 m ρ c (Proc.devRef .tc main_v52)
    = shapeCast S160x128 (W11 m ρ c (Proc.devRef .tc main_v51) : FVec Ideal S16x10x128 .f32) shapeCasts_S16x10x128_S160x128 :=
  (W12_keep m ρ c main_v52 (by decide)).trans
    ((zflat1_after (W10 m ρ c)).trans
      (congrArg (fun x : FVec Ideal S16x10x128 .f32 => shapeCast S160x128 x shapeCasts_S16x10x128_S160x128)
        (zsrc1_after (W10 m ρ c)).symm))

/-- Round 1, over any contents before the stretch: the padded features are the propagated features with 2400 rows appended. -/
theorem xpad1_after (V : Valuation τ sig (Elt Ideal)) : StableHlo.after hostOps3_1 V (Proc.devRef .tc main_v53)
    = pad S102400x128 ![0, 0] ![2400, 0] ![0, 0] (V (Proc.devRef .tc main_v50) : FVec Ideal S100000x128 .f32)
        (sitofp .f32 (V (Proc.devRef .tc main_c_15) : IVec S_ 32) : FVec Ideal S_ .f32) pads_S100000x128_S102400x128_024000_000 h_S_ := by
  after_results
  try rfl

/-- Round 1: the padded features are the round's propagated features with 2400 rows appended. -/
theorem x1_step : W12 m ρ c (Proc.devRef .tc main_v53)
    = pad S102400x128 ![0, 0] ![2400, 0] ![0, 0] (W11 m ρ c (Proc.devRef .tc main_v50) : FVec Ideal S100000x128 .f32)
        (sitofp .f32 (W11 m ρ c (Proc.devRef .tc main_c_15) : IVec S_ 32) : FVec Ideal S_ .f32) pads_S100000x128_S102400x128_024000_000 h_S_ :=
  xpad1_after (W11 m ρ c)

set_option maxHeartbeats 2000000 in
/-- Round 2, over any contents before the stretch: the propagated stack is the coupling matrix times the previous stack. -/
theorem zsrc2_after (V : Valuation τ sig (Elt Ideal)) : StableHlo.after hostOps4 V (Proc.devRef .tc main_v70)
    = Host.dotGeneral (F := Ideal) (φ₁ := .f32) (φ₂ := .f32) dot_S16x10x10_S16x10x128_S16x10x128_2_1_1_2_0_0 none
        (V (Proc.devRef .tc main_v17) : FVec Ideal S16x10x10 .f32) (V (Proc.devRef .tc main_v51) : FVec Ideal S16x10x128 .f32) := by
  after_results_simp
  try rfl

set_option maxHeartbeats 2000000 in
/-- Round 2, over any contents before the stretch: the flattened stack is that product with its two leading axes merged. -/
theorem zflat2_after (V : Valuation τ sig (Elt Ideal)) : StableHlo.after hostOps4 V (Proc.devRef .tc main_v71)
    = shapeCast S160x128 (Host.dotGeneral (F := Ideal) (φ₁ := .f32) (φ₂ := .f32) dot_S16x10x10_S16x10x128_S16x10x128_2_1_1_2_0_0 none
        (V (Proc.devRef .tc main_v17) : FVec Ideal S16x10x10 .f32) (V (Proc.devRef .tc main_v51) : FVec Ideal S16x10x128 .f32)) shapeCasts_S16x10x128_S160x128 := by
  after_results_simp
  try rfl

/-- Round 2: the flattened stack is the round's propagated stack with its two leading axes merged. -/
theorem z2_step : W15 m ρ c (Proc.devRef .tc main_v71)
    = shapeCast S160x128 (W14 m ρ c (Proc.devRef .tc main_v70) : FVec Ideal S16x10x128 .f32) shapeCasts_S16x10x128_S160x128 :=
  (W15_keep m ρ c main_v71 (by decide)).trans
    ((zflat2_after (W13 m ρ c)).trans
      (congrArg (fun x : FVec Ideal S16x10x128 .f32 => shapeCast S160x128 x shapeCasts_S16x10x128_S160x128)
        (zsrc2_after (W13 m ρ c)).symm))

/-- Round 2, over any contents before the stretch: the padded features are the propagated features with 2400 rows appended. -/
theorem xpad2_after (V : Valuation τ sig (Elt Ideal)) : StableHlo.after hostOps4_1 V (Proc.devRef .tc main_v72)
    = pad S102400x128 ![0, 0] ![2400, 0] ![0, 0] (V (Proc.devRef .tc main_v69) : FVec Ideal S100000x128 .f32)
        (sitofp .f32 (V (Proc.devRef .tc main_c_20) : IVec S_ 32) : FVec Ideal S_ .f32) pads_S100000x128_S102400x128_024000_000 h_S_ := by
  after_results
  try rfl

/-- Round 2: the padded features are the round's propagated features with 2400 rows appended. -/
theorem x2_step : W15 m ρ c (Proc.devRef .tc main_v72)
    = pad S102400x128 ![0, 0] ![2400, 0] ![0, 0] (W14 m ρ c (Proc.devRef .tc main_v69) : FVec Ideal S100000x128 .f32)
        (sitofp .f32 (W14 m ρ c (Proc.devRef .tc main_c_20) : IVec S_ 32) : FVec Ideal S_ .f32) pads_S100000x128_S102400x128_024000_000 h_S_ :=
  xpad2_after (W14 m ρ c)

set_option maxHeartbeats 2000000 in
/-- Round 3, over any contents before the stretch: the propagated stack is the coupling matrix times the previous stack. -/
theorem zsrc3_after (V : Valuation τ sig (Elt Ideal)) : StableHlo.after hostOps5 V (Proc.devRef .tc main_v89)
    = Host.dotGeneral (F := Ideal) (φ₁ := .f32) (φ₂ := .f32) dot_S16x10x10_S16x10x128_S16x10x128_2_1_1_2_0_0 none
        (V (Proc.devRef .tc main_v17) : FVec Ideal S16x10x10 .f32) (V (Proc.devRef .tc main_v70) : FVec Ideal S16x10x128 .f32) := by
  after_results_simp
  try rfl

set_option maxHeartbeats 2000000 in
/-- Round 3, over any contents before the stretch: the flattened stack is that product with its two leading axes merged. -/
theorem zflat3_after (V : Valuation τ sig (Elt Ideal)) : StableHlo.after hostOps5 V (Proc.devRef .tc main_v90)
    = shapeCast S160x128 (Host.dotGeneral (F := Ideal) (φ₁ := .f32) (φ₂ := .f32) dot_S16x10x10_S16x10x128_S16x10x128_2_1_1_2_0_0 none
        (V (Proc.devRef .tc main_v17) : FVec Ideal S16x10x10 .f32) (V (Proc.devRef .tc main_v70) : FVec Ideal S16x10x128 .f32)) shapeCasts_S16x10x128_S160x128 := by
  after_results_simp
  try rfl

/-- Round 3: the flattened stack is the round's propagated stack with its two leading axes merged. -/
theorem z3_step : W18 m ρ c (Proc.devRef .tc main_v90)
    = shapeCast S160x128 (W17 m ρ c (Proc.devRef .tc main_v89) : FVec Ideal S16x10x128 .f32) shapeCasts_S16x10x128_S160x128 :=
  (W18_keep m ρ c main_v90 (by decide)).trans
    ((zflat3_after (W16 m ρ c)).trans
      (congrArg (fun x : FVec Ideal S16x10x128 .f32 => shapeCast S160x128 x shapeCasts_S16x10x128_S160x128)
        (zsrc3_after (W16 m ρ c)).symm))

/-- Round 3, over any contents before the stretch: the padded features are the propagated features with 2400 rows appended. -/
theorem xpad3_after (V : Valuation τ sig (Elt Ideal)) : StableHlo.after hostOps5_1 V (Proc.devRef .tc main_v91)
    = pad S102400x128 ![0, 0] ![2400, 0] ![0, 0] (V (Proc.devRef .tc main_v88) : FVec Ideal S100000x128 .f32)
        (sitofp .f32 (V (Proc.devRef .tc main_c_25) : IVec S_ 32) : FVec Ideal S_ .f32) pads_S100000x128_S102400x128_024000_000 h_S_ := by
  after_results
  try rfl

/-- Round 3: the padded features are the round's propagated features with 2400 rows appended. -/
theorem x3_step : W18 m ρ c (Proc.devRef .tc main_v91)
    = pad S102400x128 ![0, 0] ![2400, 0] ![0, 0] (W17 m ρ c (Proc.devRef .tc main_v88) : FVec Ideal S100000x128 .f32)
        (sitofp .f32 (W17 m ρ c (Proc.devRef .tc main_c_25) : IVec S_ 32) : FVec Ideal S_ .f32) pads_S100000x128_S102400x128_024000_000 h_S_ :=
  xpad3_after (W17 m ρ c)

/-! ## The four rounds, from their ingredients

Each statement takes as hypotheses the entry formula of the round's step region (its output as the block-matrix sum),
the gate array against the reference's, and the round's stack and features against the reference's. -/

/-- Round 0. The stack is the argument itself and the features are the first region's output. -/
theorem pool0_of
    (hred : ∀ (g : Fin 16) (p : Fin 102400), (by exact W10 m ρ c (Proc.devRef .tc main_v35) (ix2 g p) : EReal)
        = ∑ jj : Fin 160, (FloatOps.ofBits (F := Ideal) .f32 (lit2 (S16x160.rowMajor (ix2 g jj))) : EReal)
            * ((by exact W8 m ρ c (Proc.devRef .tc main_v29) (ix2 jj p) : EReal)
              * ∑ k : Fin 128, (by exact W9 m ρ c (Proc.devRef .tc main_v28) (ix2 jj k) : EReal)
                  * (by exact W9 m ρ c (Proc.devRef .tc main_v27) (ix2 p k) : EReal)))
    (hzx : ∀ (g : Fin 16) (s : Fin 10) (n : Fin 100000),
        (by exact W8 m ρ c (Proc.devRef .tc main_v29) (ix2 ⟨10 * g.val + s.val, by omega⟩ ⟨n.val, by omega⟩) : EReal)
          = refZx (F := Ideal) a0 a3 a4 a5 a7 (ix3 g s n))
    (hx0 : ∀ (n : Fin 100000) (q : Fin 128),
        (by exact W6 m ρ c (Proc.devRef .tc main_v27) (ix2 ⟨n.val, by omega⟩ q) : EReal)
          = refX0 (F := Ideal) a0 a3 a4 a5 (ix2 n q)) :
    W11 m ρ c (Proc.devRef .tc main_v40) = refPool0 (F := Ideal) a0 a2 a3 a4 a5 a7 := by
  rw [pool0_step m ρ c, arg2_W10 m ρ c]
  unfold poolChain refPool0 refT0 refZx
  exact Cert.PoolMath.pool_round _ _ _ _ a2 (W10 m ρ c (Proc.devRef .tc main_v35)) (W8 m ρ c (Proc.devRef .tc main_v29))
    (W9 m ρ c (Proc.devRef .tc main_v28)) (W9 m ρ c (Proc.devRef .tc main_v27))
    (refDot (F := Ideal) a7 (refX0 (F := Ideal) a0 a3 a4 a5)) a7 (refX0 (F := Ideal) a0 a3 a4 a5)
    hred hzx
    (fun g s k => (congrFun (z0_step m ρ c) (ix2 ⟨10 * g.val + s.val, by omega⟩ k)).trans
      (Cert.Glue.flat_z _ _ g s k))
    (fun n k => (congrFun (x0_keep m ρ c) (ix2 ⟨n.val, by omega⟩ k)).trans (hx0 n k))

/-- Round 1. -/
theorem pool1_of
    (hred : ∀ (g : Fin 16) (p : Fin 102400), (by exact W13 m ρ c (Proc.devRef .tc main_v54) (ix2 g p) : EReal)
        = ∑ jj : Fin 160, (FloatOps.ofBits (F := Ideal) .f32 (lit2 (S16x160.rowMajor (ix2 g jj))) : EReal)
            * ((by exact W8 m ρ c (Proc.devRef .tc main_v29) (ix2 jj p) : EReal)
              * ∑ k : Fin 128, (by exact W12 m ρ c (Proc.devRef .tc main_v52) (ix2 jj k) : EReal)
                  * (by exact W12 m ρ c (Proc.devRef .tc main_v53) (ix2 p k) : EReal)))
    (hzx : ∀ (g : Fin 16) (s : Fin 10) (n : Fin 100000),
        (by exact W8 m ρ c (Proc.devRef .tc main_v29) (ix2 ⟨10 * g.val + s.val, by omega⟩ ⟨n.val, by omega⟩) : EReal)
          = refZx (F := Ideal) a0 a3 a4 a5 a7 (ix3 g s n))
    (hz : W11 m ρ c (Proc.devRef .tc main_v51) = refZ1 (F := Ideal) a6 a7)
    (hx : W11 m ρ c (Proc.devRef .tc main_v50) = refX1 (F := Ideal) a0 a1 a3 a4 a5) :
    W14 m ρ c (Proc.devRef .tc main_v59) = refPool1 (F := Ideal) a0 a1 a2 a3 a4 a5 a6 a7 := by
  rw [pool1_step m ρ c, arg2_W13 m ρ c]
  unfold poolChain refPool1 refT1
  exact Cert.PoolMath.pool_round _ _ _ _ a2 (W13 m ρ c (Proc.devRef .tc main_v54)) (W8 m ρ c (Proc.devRef .tc main_v29))
    (W12 m ρ c (Proc.devRef .tc main_v52)) (W12 m ρ c (Proc.devRef .tc main_v53))
    (refZx (F := Ideal) a0 a3 a4 a5 a7) (refZ1 (F := Ideal) a6 a7) (refX1 (F := Ideal) a0 a1 a3 a4 a5)
    hred hzx
    (fun g s k => (congrFun (z1_step m ρ c) (ix2 ⟨10 * g.val + s.val, by omega⟩ k)).trans
      ((Cert.Glue.flat_z _ _ g s k).trans (congrFun hz (ix3 g s k))))
    (fun n k => (congrFun (x1_step m ρ c) (ix2 ⟨n.val, by omega⟩ k)).trans
      ((Cert.Glue.pad_rows _ _ _ _ n k).trans (congrFun hx (ix2 n k))))

/-- Round 2. -/
theorem pool2_of
    (hred : ∀ (g : Fin 16) (p : Fin 102400), (by exact W16 m ρ c (Proc.devRef .tc main_v73) (ix2 g p) : EReal)
        = ∑ jj : Fin 160, (FloatOps.ofBits (F := Ideal) .f32 (lit2 (S16x160.rowMajor (ix2 g jj))) : EReal)
            * ((by exact W8 m ρ c (Proc.devRef .tc main_v29) (ix2 jj p) : EReal)
              * ∑ k : Fin 128, (by exact W15 m ρ c (Proc.devRef .tc main_v71) (ix2 jj k) : EReal)
                  * (by exact W15 m ρ c (Proc.devRef .tc main_v72) (ix2 p k) : EReal)))
    (hzx : ∀ (g : Fin 16) (s : Fin 10) (n : Fin 100000),
        (by exact W8 m ρ c (Proc.devRef .tc main_v29) (ix2 ⟨10 * g.val + s.val, by omega⟩ ⟨n.val, by omega⟩) : EReal)
          = refZx (F := Ideal) a0 a3 a4 a5 a7 (ix3 g s n))
    (hz : W14 m ρ c (Proc.devRef .tc main_v70) = refZ2 (F := Ideal) a6 a7)
    (hx : W14 m ρ c (Proc.devRef .tc main_v69) = refX2 (F := Ideal) a0 a1 a3 a4 a5) :
    W17 m ρ c (Proc.devRef .tc main_v78) = refPool2 (F := Ideal) a0 a1 a2 a3 a4 a5 a6 a7 := by
  rw [pool2_step m ρ c, arg2_W16 m ρ c]
  unfold poolChain refPool2 refT2
  exact Cert.PoolMath.pool_round _ _ _ _ a2 (W16 m ρ c (Proc.devRef .tc main_v73)) (W8 m ρ c (Proc.devRef .tc main_v29))
    (W15 m ρ c (Proc.devRef .tc main_v71)) (W15 m ρ c (Proc.devRef .tc main_v72))
    (refZx (F := Ideal) a0 a3 a4 a5 a7) (refZ2 (F := Ideal) a6 a7) (refX2 (F := Ideal) a0 a1 a3 a4 a5)
    hred hzx
    (fun g s k => (congrFun (z2_step m ρ c) (ix2 ⟨10 * g.val + s.val, by omega⟩ k)).trans
      ((Cert.Glue.flat_z _ _ g s k).trans (congrFun hz (ix3 g s k))))
    (fun n k => (congrFun (x2_step m ρ c) (ix2 ⟨n.val, by omega⟩ k)).trans
      ((Cert.Glue.pad_rows _ _ _ _ n k).trans (congrFun hx (ix2 n k))))

/-- Round 3. -/
theorem pool3_of
    (hred : ∀ (g : Fin 16) (p : Fin 102400), (by exact W19 m ρ c (Proc.devRef .tc main_v92) (ix2 g p) : EReal)
        = ∑ jj : Fin 160, (FloatOps.ofBits (F := Ideal) .f32 (lit2 (S16x160.rowMajor (ix2 g jj))) : EReal)
            * ((by exact W8 m ρ c (Proc.devRef .tc main_v29) (ix2 jj p) : EReal)
              * ∑ k : Fin 128, (by exact W18 m ρ c (Proc.devRef .tc main_v90) (ix2 jj k) : EReal)
                  * (by exact W18 m ρ c (Proc.devRef .tc main_v91) (ix2 p k) : EReal)))
    (hzx : ∀ (g : Fin 16) (s : Fin 10) (n : Fin 100000),
        (by exact W8 m ρ c (Proc.devRef .tc main_v29) (ix2 ⟨10 * g.val + s.val, by omega⟩ ⟨n.val, by omega⟩) : EReal)
          = refZx (F := Ideal) a0 a3 a4 a5 a7 (ix3 g s n))
    (hz : W17 m ρ c (Proc.devRef .tc main_v89) = refZ3 (F := Ideal) a6 a7)
    (hx : W17 m ρ c (Proc.devRef .tc main_v88) = refX3 (F := Ideal) a0 a1 a3 a4 a5) :
    W20 m ρ c (Proc.devRef .tc main_v97) = refPool3 (F := Ideal) a0 a1 a2 a3 a4 a5 a6 a7 := by
  rw [pool3_step m ρ c, arg2_W19 m ρ c]
  unfold poolChain refPool3 refT3
  exact Cert.PoolMath.pool_round _ _ _ _ a2 (W19 m ρ c (Proc.devRef .tc main_v92)) (W8 m ρ c (Proc.devRef .tc main_v29))
    (W18 m ρ c (Proc.devRef .tc main_v90)) (W18 m ρ c (Proc.devRef .tc main_v91))
    (refZx (F := Ideal) a0 a3 a4 a5 a7) (refZ3 (F := Ideal) a6 a7) (refX3 (F := Ideal) a0 a1 a3 a4 a5)
    hred hzx
    (fun g s k => (congrFun (z3_step m ρ c) (ix2 ⟨10 * g.val + s.val, by omega⟩ k)).trans
      ((Cert.Glue.flat_z _ _ g s k).trans (congrFun hz (ix3 g s k))))
    (fun n k => (congrFun (x3_step m ρ c) (ix2 ⟨n.val, by omega⟩ k)).trans
      ((Cert.Glue.pad_rows _ _ _ _ n k).trans (congrFun hx (ix2 n k))))

/-! ## The four rounds

The ingredients: the step regions' entry formulas, the gate array against the reference's, the first region's output
against the reference's node features, and each round's propagated stack and features against the reference's. -/

/-- Round 0: the kernel program's first pooled block is the reference's. -/
theorem pool0_eq : W11 m ρ c (Proc.devRef .tc main_v40) = refPool0 (F := Ideal) a0 a2 a3 a4 a5 a7 :=
  pool0_of m ρ c (red0_entry m ρ c) (zx_entry m ρ c) (x0pad_row m ρ c)

/-- Round 1. -/
theorem pool1_eq : W14 m ρ c (Proc.devRef .tc main_v59) = refPool1 (F := Ideal) a0 a1 a2 a3 a4 a5 a6 a7 :=
  pool1_of m ρ c (red1_entry m ρ c) (zx_entry m ρ c) (z1_eq m ρ c) (x1_eq m ρ c (x0_eq m ρ c))

/-- Round 2. -/
theorem pool2_eq : W17 m ρ c (Proc.devRef .tc main_v78) = refPool2 (F := Ideal) a0 a1 a2 a3 a4 a5 a6 a7 :=
  pool2_of m ρ c (red2_entry m ρ c) (zx_entry m ρ c) (z2_eq m ρ c) (x2_eq m ρ c (x0_eq m ρ c))

/-- Round 3. -/
theorem pool3_eq : W20 m ρ c (Proc.devRef .tc main_v97) = refPool3 (F := Ideal) a0 a1 a2 a3 a4 a5 a6 a7 :=
  pool3_of m ρ c (red3_entry m ρ c) (zx_entry m ρ c) (z3_eq m ρ c) (x3_eq m ρ c (x0_eq m ρ c))

end Cert.KernelIdeal.Bridge

end
-- ==== Proof.KIPay6.lean ====
/-
  The last kernel's arithmetic, read at one element, at the ideal values (a float is an extended real, a change of
  format is the identity, a matrix product into a zero accumulator is the plain sum of products).

  The body is a fully connected layer followed by a leaky rectifier: the 2048 × 64 matrix `c` is multiplied by the
  64 × 128 weight matrix `w`, the one-row bias `b` is added to every row, and every entry h is kept when 0 ≤ h and
  replaced by slope · h otherwise, the slope being the single-precision constant nearest one hundredth:
  out(r, q) = leaky( ∑ₖ c(r, k) · w(k, q) + b(0, q) ).
-/
import proofs.«121911_j27986006901054_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Idealize.ShloMosaic Idealize.ShloMosaic.ValueIdx
open Cert.KernelIdeal Cert.KernelIdeal.Gen
open scoped BigOperators

/-! ## The leaky rectifier on one extended real -/

/-- The rectifier of the last kernel on one value `h`: `h` itself when the ordered comparison "h ≥ 0" holds, and the
    slope times `h` otherwise. The comparison is kept exactly as the ideal instance reads an ordered
    greater-or-equal, the one-bit word `Ideal.cmp .oge h 0`, which is the bit of the decision `0 ≤ h` on the extended
    reals; the choice is `Scalar.select` on that bit. The slope stays the word it is written as, read by
    `Ideal.ofBits`; it is never evaluated. -/
def leaky (h : EReal) : EReal :=
  Scalar.select (Ideal.cmp .oge h 0) h (Ideal.ofBits .f32 0x3C23D70A#32 * h)

/-- The same as a case distinction on `0 ≤ h`. -/
theorem leaky_eq_ite (h : EReal) : leaky h = if 0 ≤ h then h else Ideal.ofBits .f32 0x3C23D70A#32 * h := by
  unfold leaky Scalar.select Ideal.cmp
  by_cases h0 : 0 ≤ h
  · simp [h0]
  · simp [h0]

/-! ## The contraction's operand indices

The dimension numbers contract axis 1 of the left operand with axis 0 of the right (an ordinary matrix product): at
output index (r, c) and contraction position k the left operand is read at (r, k), the right at (k, c). -/

/-- Left operand, free axis: the output's row. -/
theorem final_lhs_0 (i : S2048x128.Idx) (q : dot_S2048x64_S64x128_S2048x128_1_0_0_1_n_n.contr.Idx) :
    (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide),
    dif_pos (show (0 : Fin S2048x64.rank) ∈ dot_S2048x64_S64x128_S2048x128_1_0_0_1_n_n.lhsNonContracting by decide)]
  rfl

/-- Left operand, contracted axis: the contraction position. -/
theorem final_lhs_1 (i : S2048x128.Idx) (q : dot_S2048x64_S64x128_S2048x128_1_0_0_1_n_n.contr.Idx) :
    (dot_S2048x64_S64x128_S2048x128_1_0_0_1_n_n.lhsIdx i q 1).val = (q ⟨0, by decide⟩).val :=
  dot_S2048x64_S64x128_S2048x128_1_0_0_1_n_n.lhsIdx_val_of_single rfl i q

/-- Right operand, contracted axis: the contraction position. -/
theorem final_rhs_0 (i : S2048x128.Idx) (q : dot_S2048x64_S64x128_S2048x128_1_0_0_1_n_n.contr.Idx) :
    (dot_S2048x64_S64x128_S2048x128_1_0_0_1_n_n.rhsIdx i q 0).val = (q ⟨0, by decide⟩).val :=
  dot_S2048x64_S64x128_S2048x128_1_0_0_1_n_n.rhsIdx_val_of_single rfl i q

/-- Right operand, free axis: the output's column. -/
theorem final_rhs_1 (i : S2048x128.Idx) (q : dot_S2048x64_S64x128_S2048x128_1_0_0_1_n_n.contr.Idx) :
    (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide),
    dif_pos (show (1 : Fin S64x128.rank) ∈ dot_S2048x64_S64x128_S2048x128_1_0_0_1_n_n.rhsNonContracting by decide)]
  rfl

/-- The product c · w into a zero accumulator, at (r, q): the sum over the 64 columns of c. -/
theorem matmul_final_apply (c : FVec Ideal S2048x64 .bf16) (w : FVec Ideal S64x128 .bf16) (r : Fin 2048) (q : Fin 128) :
    matmul (F := Ideal) dot_S2048x64_S64x128_S2048x128_1_0_0_1_n_n none c w
        (constant (F := Ideal) S2048x128 .f32 0x00000000#32) (ix2 r q)
      = ∑ k : Fin 64, c (ix2 r k) * w (ix2 k q) := by
  refine (Ideal.matmul_constant_zero_apply dot_S2048x64_S64x128_S2048x128_1_0_0_1_n_n none c w (ix2 r q)).trans ?_
  rw [← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 r q)
      ((contrEquiv1 dot_S2048x64_S64x128_S2048x128_1_0_0_1_n_n 64 rfl rfl).symm k) = ix2 r k :=
    funext fun a => Fin.ext (by
      match a with
      | ⟨0, _⟩ => exact final_lhs_0 _ _
      | ⟨1, _⟩ => exact (final_lhs_1 _ _).trans hk)
  have er : dot_S2048x64_S64x128_S2048x128_1_0_0_1_n_n.rhsIdx (ix2 r q)
      ((contrEquiv1 dot_S2048x64_S64x128_S2048x128_1_0_0_1_n_n 64 rfl rfl).symm k) = ix2 k q :=
    funext fun a => Fin.ext (by
      match a with
      | ⟨0, _⟩ => exact (final_rhs_0 _ _).trans hk
      | ⟨1, _⟩ => exact final_rhs_1 _ _)
  rw [el, er]

/-! ## The payload -/

/-- Element (r, q) of the last kernel's stored block: the leaky rectifier of the q-th output feature of row r, that is
    of the inner product of row r of `c` with column q of `w`, plus the bias's q-th entry (the bias is a single row laid
    along every row). The zero the comparison tests against is the zero word, which reads as the extended real 0. -/
theorem k6_pay1_apply (c : Vec Ideal S2048x64 .f32) (w : Vec Ideal S64x128 .f32) (b : Vec Ideal S1x128 .f32)
    (r : Fin 2048) (q : Fin 128) :
    k6_pay1 (F := Ideal) c w b (ix2 r q)
      = leaky ((∑ k : Fin 64, c (ix2 r k) * w (ix2 k q)) + b (ix2 0 q)) := by
  have hv : addf (F := Ideal) (matmul (F := Ideal) dot_S2048x64_S64x128_S2048x128_1_0_0_1_n_n none
        (truncf .bf16 (shapeCast S2048x64 c shapeCasts_S2048x64_S2048x64) bitsLt_bf16_f32) (truncf .bf16 w bitsLt_bf16_f32)
        (constant (F := Ideal) S2048x128 .f32 0x00000000#32))
      (broadcastTo S2048x128 (shapeCast S1x128 b shapeCasts_S1x128_S1x128) broadcasts_S1x128_S2048x128) (ix2 r q)
      = (∑ k : Fin 64, c (ix2 r k) * w (ix2 k q)) + b (ix2 0 q) := by
    rw [addf_apply]
    refine congrArg₂ (· + ·) ?_ ?_
    · refine (matmul_final_apply _ _ r q).trans ?_
      refine Finset.sum_congr rfl fun k _ => ?_
      rw [truncf_apply, truncf_apply, shapeCast_self]
    · refine (broadcastTo_1b_ab_apply _ broadcasts_S1x128_S2048x128 r q).trans ?_
      rw [shapeCast_self]
  unfold k6_pay1 leaky
  rw [← hv]
  show Scalar.select (Ideal.cmp .oge _ (Ideal.ofBits .f32 0x00000000#32)) _ _ = _
  rw [Ideal.ofBits_zero_f32]
  rfl

end Cert.KernelIdeal.HandValue

end
-- ==== Proof.KIVal6.lean ====
/- REGION 6 of @main, from blocks to the array, at the ideal values: the output array after the region is the last layer (input times weights, plus the bias row, through the leaky rectifier), entry by entry.
   Stated over a PARAMETER `V`, the contents of the TensorCore's buffers when the region is entered. The steps: the
   windows' index maps over the grid; one block of the result as a function of the blocks loaded, by the body's
   arithmetic read at one entry; what each grid point writes back is its block of ONE function of the whole arrays; the
   output's blocks cover its array; so the array after the region is that function. -/
import proofs.«121911_j27986006901054_1_alg».proof.Proof.KIReg6
import proofs.«121911_j27986006901054_1_alg».proof.Proof.KIPay6
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the contents of the TensorCore's buffers when the region is entered
variable (V : (c : Dev nD) → (b : Ref sig .tc) → Buf (Elt Ideal) ((c : Thread nD τ).loc b))

/-- The offsets of every whole-buffer access are zero on both axes. -/
theorem zeros6 : (![0, 0] : Fin 2 → Nat) = fun _ => 0 := funext fun a => by fin_cases a <;> rfl

/-- The last layer, entry by entry: entry (r, q) is the leaky rectifier of the inner product of row r of the input with
    column q of the weights, plus entry q of the bias row. -/
def layer6 (C : S2048x64.Idx → EReal) (W : S64x128.Idx → EReal) (B : S1x128.Idx → EReal) : S2048x128.Idx → EReal :=
  fun i => leaky ((∑ k : Fin 64, C (ix2 (i 0) k) * W (ix2 k (i 1))) + B (ix2 0 (i 1)))

/-- The index maps at the grid's one point: every window's block is block (0, 0), the whole array. -/
theorem maps6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The one block of the layer: if the loaded blocks are the input, the weights and the bias, the body's arithmetic at
    (r, q) is the layer's entry (r, q). -/
theorem block6 (cs : Vec Ideal S2048x64 .f32) (w : Vec Ideal S64x128 .f32) (bs : Vec Ideal S1x128 .f32)
    (C : S2048x64.Idx → EReal) (W : S64x128.Idx → EReal) (B : S1x128.Idx → EReal)
    (hc : ∀ (r : Fin 2048) (k : Fin 64), cs (ix2 r k) = C (ix2 r k))
    (hw : ∀ (k : Fin 64) (q : Fin 128), w (ix2 k q) = W (ix2 k q))
    (hb : ∀ (q : Fin 128), bs (ix2 0 q) = B (ix2 0 q))
    (y : S2048x128.Idx) (i : S2048x128.Idx) (h0 : (i 0).val = (y 0).val) (h1 : (i 1).val = (y 1).val) :
    k6_pay1 (F := Ideal) cs w bs y = layer6 C W B i := by
  obtain ⟨r, q, rfl⟩ : ∃ (r : Fin 2048) (q : Fin 128), y = ix2 r q := ⟨y 0, y 1, eq_ix2 y⟩
  obtain ⟨r', q', rfl⟩ : ∃ (r' : Fin 2048) (q' : Fin 128), i = ix2 r' q' := ⟨i 0, i 1, eq_ix2 i⟩
  obtain rfl : r' = r := Fin.ext h0
  obtain rfl : q' = q := Fin.ext h1
  rw [k6_pay1_apply]
  show _ = leaky ((∑ k : Fin 64, C (ix2 r' k) * W (ix2 k q')) + B (ix2 0 q'))
  rw [hb q']
  refine congrArg (fun s => leaky (s + B (ix2 0 q'))) (Finset.sum_congr rfl fun k _ => ?_)
  rw [hc r' k, hw k q']

/-- What the grid's point writes back is its block of the layer of the arrays as the region finds them. -/
theorem flushed6_eq (c : Dev nD) (t : Fin cfg6.N) :
    (dat6 (F := Ideal) V c).flushed 3 t
      = ((cfg6.win 3).blk t).view.read (Elt Ideal) (layer6 (V c main_v98) (V c main_arg8) (V c main_v99)) := by
  show (cfg6.win 3).cut (grid6.coords t) ((dat6 V c).after 3 t) = _
  rw [after6_3]
  unfold out6_3
  rw [View.canon_unit_zero zeros6]
  simp only [View.ld_unit_zero (S := S2048x64) zeros6, View.ld_unit_zero (S := S64x128) zeros6, View.ld_unit_zero (S := S1x128) zeros6]
  obtain ⟨e00, e01, e10, e11, e20, e21, e30, e31⟩ := maps6 t
  funext y
  show k6_pay1 (F := Ideal) (iblk6 V c 0 t) (iblk6 V c 1 t) (iblk6 V c 2 t) y
    = layer6 (V c main_v98) (V c main_arg8) (V c main_v99) (((cfg6.win 3).blk t).view.emb y)
  refine block6 (iblk6 V c 0 t) (iblk6 V c 1 t) (iblk6 V c 2 t) (V c main_v98) (V c main_arg8) (V c main_v99) ?_ ?_ ?_ y
    (((cfg6.win 3).blk t).view.emb y) ?_ ?_
  · intro r k
    show V c main_v98 (((cfg6.win 0).blk t).view.emb (ix2 r k)) = V c main_v98 (ix2 r k)
    congr 1
    funext a; apply Fin.ext
    match a with
    | ⟨0, _⟩ => show win6_0.index t (0 : Fin 2) * 2048 + 1 * r.val = r.val; omega
    | ⟨1, _⟩ => show win6_0.index t (1 : Fin 2) * 64 + 1 * k.val = k.val; omega
  · intro k q
    show V c main_arg8 (((cfg6.win 1).blk t).view.emb (ix2 k q)) = V c main_arg8 (ix2 k q)
    congr 1
    funext a; apply Fin.ext
    match a with
    | ⟨0, _⟩ => show win6_1.index t (0 : Fin 2) * 64 + 1 * k.val = k.val; omega
    | ⟨1, _⟩ => show win6_1.index t (1 : Fin 2) * 128 + 1 * q.val = q.val; omega
  · intro q
    show V c main_v99 (((cfg6.win 2).blk t).view.emb (ix2 0 q)) = V c main_v99 (ix2 0 q)
    congr 1
    funext a; apply Fin.ext
    match a with
    | ⟨0, _⟩ => show win6_2.index t (0 : Fin 2) * 1 + 1 * 0 = 0; omega
    | ⟨1, _⟩ => show win6_2.index t (1 : Fin 2) * 128 + 1 * q.val = q.val; omega
  · show win6_3.index t (0 : Fin 2) * 2048 + 1 * (y 0).val = (y 0).val; omega
  · show win6_3.index t (1 : Fin 2) * 128 + 1 * (y 1).val = (y 1).val; omega

/-- An index of the output array is in the point's block iff each coordinate is in the block's range on its axis. -/
theorem mem_blk6 (t : Fin cfg6.N) (i : S2048x128.Idx) :
    i ∈ ((cfg6.win 3).blk t).view.set ↔ ∀ a : Fin 2, win6_3.index t a * S2048x128.size a ≤ (i a).val ∧ (i a).val < win6_3.index t a * S2048x128.size a + S2048x128.size a := by
  show i ∈ ((View.whole main_v100).slice (win6_3.rect t)).set ↔ _
  rw [View.set_slice_whole, Rect.mem_set_unit]
  exact Iff.rfl

/-- Every index of the output array is in the one point's block, which is the whole array. -/
theorem cover6 (i : S2048x128.Idx) : ∃ t : Fin cfg6.N, (cfg6.win 3).flush t = true ∧ i ∈ ((cfg6.win 3).blk t).view.set := by
  have hi0 : (i 0).val < 2048 := (i 0).isLt
  have hi1 : (i 1).val < 128 := (i 1).isLt
  have hN : cfg6.N = 1 := N_6
  let t : Fin cfg6.N := ⟨0, by rw [hN]; omega⟩
  obtain ⟨e00, e01, e10, e11, e20, e21, e30, e31⟩ := maps6 t
  refine ⟨t, flush6_3 t, ?_⟩
  rw [mem_blk6]
  intro a
  match a with
  | ⟨0, _⟩ => show win6_3.index t (0 : Fin 2) * 2048 ≤ (i 0).val ∧ (i 0).val < win6_3.index t (0 : Fin 2) * 2048 + 2048; omega
  | ⟨1, _⟩ => show win6_3.index t (1 : Fin 2) * 128 ≤ (i 1).val ∧ (i 1).val < win6_3.index t (1 : Fin 2) * 128 + 128; omega

/-- The output array after the region is the layer, as one function of the arrays the region finds. -/
theorem final6 (c : Dev nD) : (dat6 (F := Ideal) V c).arrAt 3 cfg6.N = layer6 (V c main_v98) (V c main_arg8) (V c main_v99) :=
  (dat6 (F := Ideal) V c).arrAt_eq_of_cover 3 (layer6 (V c main_v98) (V c main_arg8) (V c main_v99)) (fun t _ => flushed6_eq V c t) cover6

/-- The layer at (r, q), spelled out. -/
theorem layer6_apply (C : S2048x64.Idx → EReal) (W : S64x128.Idx → EReal) (B : S1x128.Idx → EReal) (r : Fin 2048) (q : Fin 128) :
    layer6 C W B (ix2 r q) = leaky ((∑ k : Fin 64, C (ix2 r k) * W (ix2 k q)) + B (ix2 0 q)) := rfl

/-- REGION 6's output, entry by entry: entry (r, q) is the leaky rectifier of the inner product of row r of the input with
    column q of the weights, plus entry q of the bias row. -/
theorem region6_value (c : Dev nD) (r : Fin 2048) (q : Fin 128) :
    (dat6 (F := Ideal) V c).arrAt 3 cfg6.N (ix2 r q)
      = leaky ((∑ k : Fin 64, (by exact V c main_v98 (ix2 r k) : EReal) * (by exact V c main_arg8 (ix2 k q) : EReal))
          + (by exact V c main_v99 (ix2 0 q) : EReal)) := by
  rw [final6]; rfl

end Cert.KernelIdeal.HandValue

end
-- ==== Proof.BridgeOut.lean ====
/- The last two steps that join the two programs at the ideal instance. The kernel program lays the four rounds' pooled
   blocks side by side and sends them through its closing region: a product with the weight matrix plus the bias row,
   through the leaky rectifier. The reference lays its four pooled blocks side by side in the same way and applies the
   same affine layer and rectifier as whole-array operations. Given that the pooled blocks agree round by round, the
   two results are one array: entry (r, q) of both is the rectifier of  Σ_k cat[r, k] · W[k, q] + b[q]. -/
import proofs.«121911_j27986006901054_1_alg».proof.Proof.KIRunW
import proofs.«121911_j27986006901054_1_alg».proof.Proof.KIVal6
import proofs.«121911_j27986006901054_1_alg».proof.Proof.GlueRef
import proofs.«121911_j27986006901054_1_alg».proof.Proof.GlueKern
import proofs.«121911_j27986006901054_1_alg».proof.Proof.RefRunPart0
import Idealize.ShloMosaic.Lib.StableHlo.Run
import Idealize.ShloMosaic.Lib.ValueIdx

noncomputable section

namespace Cert.KernelIdeal.Bridge

open Cert.KernelIdeal Cert.KernelIdeal.Gen Cert.KernelIdeal.Hand Cert.KernelIdeal.HandValue Cert.ReferenceIdeal.RefRun
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (ρ : Dev nD → PrngReg) (c : Dev nD)

-- the program's arguments, as core `c` holds them at launch
local notation "a0" => (W0 m ρ c (Proc.devRef Proc.tc main_arg0))
local notation "a1" => (W0 m ρ c (Proc.devRef Proc.tc main_arg1))
local notation "a2" => (W0 m ρ c (Proc.devRef Proc.tc main_arg2))
local notation "a3" => (W0 m ρ c (Proc.devRef Proc.tc main_arg3))
local notation "a4" => (W0 m ρ c (Proc.devRef Proc.tc main_arg4))
local notation "a5" => (W0 m ρ c (Proc.devRef Proc.tc main_arg5))
local notation "a6" => (W0 m ρ c (Proc.devRef Proc.tc main_arg6))
local notation "a7" => (W0 m ρ c (Proc.devRef Proc.tc main_arg7))
local notation "a8" => (W0 m ρ c (Proc.devRef Proc.tc main_arg8))
local notation "a9" => (W0 m ρ c (Proc.devRef Proc.tc main_arg9))

/-! ## The four pooled blocks side by side -/

/-- The side-by-side array the closing region reads is the four pooled blocks laid side by side: the first three as
    they stand before the last stretch of host operations, the fourth as that stretch computes it. -/
theorem cat_step :
    W20 m ρ c (Proc.devRef .tc main_v98)
      = refCatOf (F := Ideal) (W19 m ρ c (Proc.devRef .tc main_v40)) (W19 m ρ c (Proc.devRef .tc main_v59))
          (W19 m ρ c (Proc.devRef .tc main_v78)) (W20 m ρ c (Proc.devRef .tc main_v97)) := by
  unfold W20
  after_results
  rfl

/-- The first round's pooled block is untouched from the stretch that computes it to the last region's entry. -/
theorem keep_pool0 : W19 m ρ c (Proc.devRef .tc main_v40) = W11 m ρ c (Proc.devRef .tc main_v40) := by
  rw [W19_keep m ρ c main_v40 (by decide), W18_keep m ρ c main_v40 (by decide), W17_keep m ρ c main_v40 (by decide),
    W16_keep m ρ c main_v40 (by decide), W15_keep m ρ c main_v40 (by decide), W14_keep m ρ c main_v40 (by decide),
    W13_keep m ρ c main_v40 (by decide), W12_keep m ρ c main_v40 (by decide)]

/-- The second round's pooled block, likewise. -/
theorem keep_pool1 : W19 m ρ c (Proc.devRef .tc main_v59) = W14 m ρ c (Proc.devRef .tc main_v59) := by
  rw [W19_keep m ρ c main_v59 (by decide), W18_keep m ρ c main_v59 (by decide), W17_keep m ρ c main_v59 (by decide),
    W16_keep m ρ c main_v59 (by decide), W15_keep m ρ c main_v59 (by decide)]

/-- The third round's pooled block, likewise. -/
theorem keep_pool2 : W19 m ρ c (Proc.devRef .tc main_v78) = W17 m ρ c (Proc.devRef .tc main_v78) := by
  rw [W19_keep m ρ c main_v78 (by decide), W18_keep m ρ c main_v78 (by decide)]

/-- Pooled blocks that agree round by round give the same side-by-side array. -/
theorem cat_eq
    (hp0 : W11 m ρ c (Proc.devRef .tc main_v40) = refPool0 a0 a2 a3 a4 a5 a7)
    (hp1 : W14 m ρ c (Proc.devRef .tc main_v59) = refPool1 a0 a1 a2 a3 a4 a5 a6 a7)
    (hp2 : W17 m ρ c (Proc.devRef .tc main_v78) = refPool2 a0 a1 a2 a3 a4 a5 a6 a7)
    (hp3 : W20 m ρ c (Proc.devRef .tc main_v97) = refPool3 a0 a1 a2 a3 a4 a5 a6 a7) :
    W20 m ρ c (Proc.devRef .tc main_v98) = refCat a0 a1 a2 a3 a4 a5 a6 a7 := by
  rw [cat_step, keep_pool0, keep_pool1, keep_pool2, hp0, hp1, hp2, hp3]
  rfl

/-! ## The closing layer's weights and bias -/

/-- The weight matrix of the closing layer is an argument: no item writes it. -/
theorem keep_w8 : W20 m ρ c (Proc.devRef .tc main_arg8) = a8 := by
  rw [← W21_in1 m ρ c]; exact W21_main_arg8 m ρ c

/-- The bias vector is an argument: no item writes it. -/
theorem keep_b9 : W19 m ρ c (Proc.devRef .tc main_arg9) = a9 :=
  (W20_keep m ρ c main_arg9 (by decide)).symm.trans
    ((W21_keep m ρ c main_arg9 (by decide)).symm.trans (W21_main_arg9 m ρ c))

set_option maxHeartbeats 1000000 in
/-- The closing layer's bias operand is the bias vector as a one-row matrix. -/
theorem v99_at20 : W20 m ρ c (Proc.devRef .tc main_v99)
    = shapeCast S1x128 (W19 m ρ c (Proc.devRef .tc main_arg9)) shapeCasts_S128_S1x128 := by
  unfold W20
  after_results
  rfl

/-- Entry q of the bias row is entry q of the bias vector. -/
theorem bias_row (q : Fin 128) :
    (by exact W20 m ρ c (Proc.devRef .tc main_v99) (ix2 (0 : Fin 1) q) : EReal) = a9 (ix1 q) := by
  refine (congrFun (v99_at20 m ρ c) _).trans ((Glue.row_of_vec _ _ q).trans ?_)
  rw [keep_b9]

/-! ## The two results -/

/-- The kernel program's result is the reference's: entry (r, q) of the closing region's output is the rectifier of
    row r of the side-by-side array times column q of the weights plus entry q of the bias, and so is the reference's
    closing layer at (r, q). -/
theorem out_eq
    (hp0 : W11 m ρ c (Proc.devRef .tc main_v40) = refPool0 a0 a2 a3 a4 a5 a7)
    (hp1 : W14 m ρ c (Proc.devRef .tc main_v59) = refPool1 a0 a1 a2 a3 a4 a5 a6 a7)
    (hp2 : W17 m ρ c (Proc.devRef .tc main_v78) = refPool2 a0 a1 a2 a3 a4 a5 a6 a7)
    (hp3 : W20 m ρ c (Proc.devRef .tc main_v97) = refPool3 a0 a1 a2 a3 a4 a5 a6 a7) :
    W21 m ρ c (Proc.devRef .tc main_v100) = refVal a0 a1 a2 a3 a4 a5 a6 a7 a8 a9 := by
  funext i
  obtain ⟨r, q, rfl⟩ : ∃ (r : Fin 2048) (q : Fin 128), i = ix2 r q := ⟨i 0, i 1, eq_ix2 i⟩
  rw [W21_out, region6_value]
  rw [show refVal a0 a1 a2 a3 a4 a5 a6 a7 a8 a9 (ix2 r q) = _ from
    Glue.ref_final (refCat a0 a1 a2 a3 a4 a5 a6 a7) a8 a9 _ _ _ r q]
  have h98 : ∀ k : Fin 64, (by exact Hand.V20 m ρ c main_v98 (ix2 r k) : EReal) = refCat a0 a1 a2 a3 a4 a5 a6 a7 (ix2 r k) :=
    fun k => congrFun (cat_eq m ρ c hp0 hp1 hp2 hp3) _
  have h8 : ∀ k : Fin 64, (by exact Hand.V20 m ρ c main_arg8 (ix2 k q) : EReal) = a8 (ix2 k q) :=
    fun k => congrFun (keep_w8 m ρ c) _
  have h99 : (by exact Hand.V20 m ρ c main_v99 (ix2 (0 : Fin 1) q) : EReal) = a9 (ix1 q) := bias_row m ρ c q
  rw [h99]
  have hs : (∑ k : Fin 64, (by exact Hand.V20 m ρ c main_v98 (ix2 r k) : EReal) * (by exact Hand.V20 m ρ c main_arg8 (ix2 k q) : EReal))
      = ∑ k : Fin 64, refCat a0 a1 a2 a3 a4 a5 a6 a7 (ix2 r k) * a8 (ix2 k q) :=
    Finset.sum_congr rfl fun k _ => by rw [h98 k, h8 k]
  rw [hs]
  unfold leaky
  rw [Ideal.ofBits_zero_f32]
  rfl

end Cert.KernelIdeal.Bridge

end
-- ==== Proof.BridgeAll.lean ====
/-
  The kernel program's result is the reference's composed term of the program's arguments. Round by round the four
  pooled blocks of the kernel program are the reference's; laid side by side they are therefore one array, and the
  closing layer — a matrix product, a bias row and the leaky rectifier, entry by entry — gives the same result on it.
-/
import proofs.«121911_j27986006901054_1_alg».proof.Proof.BridgeX0
import proofs.«121911_j27986006901054_1_alg».proof.Proof.BridgeProp
import proofs.«121911_j27986006901054_1_alg».proof.Proof.BridgeRed
import proofs.«121911_j27986006901054_1_alg».proof.Proof.BridgePool
import proofs.«121911_j27986006901054_1_alg».proof.Proof.BridgeOut

noncomputable section

namespace Cert.KernelIdeal.Bridge

open Cert.KernelIdeal Cert.KernelIdeal.Gen Cert.KernelIdeal.Hand Cert.ReferenceIdeal.RefRun
open Idealize.ShloMosaic Idealize.ShloMosaic.TcCoe Idealize.SL.Sem Idealize.ShloMosaic.StableHlo

/-- The result buffer after the last region holds the reference's value of the launch contents of the ten arguments. -/
theorem result_eq (m : (ℓ : Loc nD τ sig) → Buf (Elt Ideal) ℓ) (ρ : Dev nD → PrngReg) (c : Dev nD) :
    W21 m ρ c (Proc.devRef .tc main_v100)
      = refVal (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) :=
  out_eq m ρ c (pool0_eq m ρ c) (pool1_eq m ρ c) (pool2_eq m ρ c) (pool3_eq m ρ c)

end Cert.KernelIdeal.Bridge
-- ==== Proof.lean ====
/- The five claims of this certificate, assembled.

   The program under proof computes, for a batch of session graphs, a sigmoid layer on looked-up node embeddings, four
   rounds of products of hidden-graph vectors with node features (the features propagated along the edges between
   rounds, the vectors multiplied by a symmetric coupling matrix), each round's products pooled over the nodes of every
   graph and over the ten vectors of every hidden graph, and a closing affine layer with a leaky rectifier. The kernel
   program does the dense parts in seven TensorCore regions over row blocks of 4096 nodes and sums over the ten vectors
   BEFORE pooling (a product with a 0/1 matrix); the reference pools first and sums afterwards.

   Frames: each of the three programs runs to the end, faults nowhere and leaves its ten argument arrays as they were.
   For the two kernel programs this is their run through all 21 items of their main function, region by region
   (KRun / KIRun: the same text read at the word-level and at the ideal carrier); for the reference its run as a straight
   line of host operations (RefRun). The idealization rewrote nothing, so `preserves` is `True`.

   Algebraic: at the ideal carrier the kernel program's result array is what its last region leaves (KIRun), the
   reference's is the composed term of its operations (RefRun), and the two are one array (Bridge…): the sigmoid layer
   and the products agree entry by entry as sums over 128 channels; the propagated features and the coupling products are
   the same host operations on equal operands; 0·x = 0 and 1·x = x on every extended real turn the product with the 0/1
   matrix into the sum over a hidden graph's ten vectors, and sums over finite sets commute, so pooling before or after
   that sum is the same; the closing layers agree entry by entry. No step needs the inputs to be finite. -/
import proofs.«121911_j27986006901054_1_alg».proof.Defs
import proofs.«121911_j27986006901054_1_alg».proof.Proof.Gen.Kernel
import proofs.«121911_j27986006901054_1_alg».proof.Proof.Gen.KernelIdeal
import proofs.«121911_j27986006901054_1_alg».proof.Proof.Gen.ReferenceIdeal
import proofs.«121911_j27986006901054_1_alg».proof.Proof.Gen.Pre_finite_inputs
import proofs.«121911_j27986006901054_1_alg».proof.Proof.KRun
import proofs.«121911_j27986006901054_1_alg».proof.Proof.KIRun
import proofs.«121911_j27986006901054_1_alg».proof.Proof.RefRun
import proofs.«121911_j27986006901054_1_alg».proof.Proof.BridgeAll
import Idealize.ShloMosaic.Adequacy
import Idealize.ShloMosaic.Init

noncomputable section

namespace Cert.Proof

open Idealize.ShloMosaic Idealize.ShloMosaic.TcCoe Idealize.SL.Sem

/-- The word-level kernel program runs and keeps its arguments: its run with the result dropped. -/
theorem frame_kernel : Cert.frame_Kernel := fun m ρ _ =>
  (θ_run Cert.Kernel.defs _ _).mono (fun _ h c => (h c).2) (Cert.Kernel.Hand.run_main (F := Bits) m ρ)

/-- The idealized kernel program runs and keeps its arguments. -/
theorem frame_kernel_ideal : Cert.frame_KernelIdeal := fun m ρ _ =>
  (θ_run Cert.KernelIdeal.defs _ _).mono (fun _ h c => (h c).2) (Cert.KernelIdeal.Hand.run_main (F := Ideal) m ρ)

/-- The reference runs and keeps its arguments. -/
theorem frame_reference : Cert.frame_ReferenceIdeal := fun m ρ _ =>
  (θ_run Cert.ReferenceIdeal.defs _ _).mono (fun _ h c => (h c).2) (Cert.ReferenceIdeal.RefRun.run (F := Ideal) m ρ)

/-- Both idealized programs, run from memories that agree on the arguments, end with the same result array: the
    kernel program's last region's output, which is the reference's composed term of the arguments. -/
theorem algebraic : Cert.algebraic_KernelIdeal_ReferenceIdeal := by
  intro m ρ m' ρ' _ hagree
  refine ⟨fun c => Cert.KernelIdeal.Hand.W21 m ρ c (Proc.devRef .tc Cert.KernelIdeal.main_v100),
    Cert.KernelIdeal.Hand.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [h0, h1, h2, h3, h4, h5, h6, h7, h8, h9]
  exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
